-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S4096x200x4 : Shape := ⟨3, ![4096, 200, 4]⟩
abbrev S1000000x64 : Shape := ⟨2, ![1000000, 64]⟩
abbrev S_ : Shape := ⟨0, ![]⟩

class Facts : Prop where
  bcast_S_S4096x200x4 : S_.BroadcastsInDim S4096x200x4 (![] : Fin 0 → Fin S4096x200x4.rank)
  reducesTo_S4096x200x4_S_d0_1_2 : S4096x200x4.ReducesTo [0, 1, 2] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S4096x200x4 .f32) (main_arg2 : FVec F S1000000x64 .f32) : IVec S_ 1 :=
  let main_v0 : FVec F S4096x200x4 .f32 := Host.absf main_arg1
  let main_cst : FVec F S_ .f32 := constant S_ .f32 0x7F800000#32
  let main_v1 : FVec F S4096x200x4 .f32 := broadcastInDim S4096x200x4 ![] bcast_S_S4096x200x4 main_cst
  let main_v2 : IVec S4096x200x4 1 := cmpf .olt main_v0 main_v1
  let main_c : IVec S_ 1 := constantI S_ 1 1#1
  let main_v3 : IVec S_ 1 := (fun x v => Host.reduce IntOp.andi x v reducesTo_S4096x200x4_S_d0_1_2 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_c_2 : IVec S_ 32 := constantI S_ 32 0#32
  let main_v9 : IVec S4096x200 32 := broadcastInDim S4096x200 ![] bcast_S_S4096x200 main_c_2
  let main_v10 : IVec S4096x200 1 := cmpi .sge main_arg0 main_v9
  let main_c_3 : IVec S_ 32 := constantI S_ 32 999999#32
  let main_v11 : IVec S4096x200 32 := broadcastInDim S4096x200 ![] bcast_S_S4096x200 main_c_3
  let main_v12 : IVec S4096x200 1 := cmpi .sle main_arg0 main_v11
  let main_v13 : IVec S4096x200 1 := andi main_v10 main_v12
  let main_c_4 : IVec S_ 1 := constantI S_ 1 1#1
  let main_v14 : IVec S_ 1 := (fun x v => Host.reduce IntOp.andi x v reducesTo_S4096x200_S_d0_1 h_S_) main_v13 main_c_4
  let main_v15 : IVec S_ 1 := andi main_v8 main_v14
  main_v15
-- ==== Kernel.lean ====
abbrev S4096x200 : Shape := ⟨2, ![4096, 200]⟩
abbrev S4096x200x4 : Shape := ⟨3, ![4096, 200, 4]⟩
abbrev S1000000x64 : Shape := ⟨2, ![1000000, 64]⟩
abbrev S64x1000000 : Shape := ⟨2, ![64, 1000000]⟩
abbrev S1000000x128 : Shape := ⟨2, ![1000000, 128]⟩
abbrev S64x16384 : Shape := ⟨2, ![64, 16384]⟩
abbrev S16384x128 : Shape := ⟨2, ![16384, 128]⟩
abbrev S16384x64 : Shape := ⟨2, ![16384, 64]⟩
abbrev S819200 : Shape := ⟨1, ![819200]⟩
abbrev S32x200x128 : Shape := ⟨3, ![32, 200, 128]⟩
abbrev S819200x128 : Shape := ⟨2, ![819200, 128]⟩
abbrev S200x128 : Shape := ⟨2, ![200, 128]⟩
abbrev S5x128x128 : Shape := ⟨3, ![5, 128, 128]⟩
abbrev S5 : Shape := ⟨1, ![5]⟩
abbrev S_ : Shape := ⟨0, ![]⟩
abbrev S1x200x128 : Shape := ⟨3, ![1, 200, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S819200x64 : Shape := ⟨2, ![819200, 64]⟩
abbrev S4096x200x64 : Shape := ⟨3, ![4096, 200, 64]⟩

abbrev nBuf : Table → Nat
  | .hbm => 10
  | .local .tc .vmem => 4
  | .local .scVector .vmem => 2
  | _ => 0

abbrev bufTy : (tb : Table) → Fin (nBuf tb) → BufTy
  | .hbm, ⟨0, _⟩ => ⟨S4096x200, .i32⟩
  | .hbm, ⟨1, _⟩ => ⟨S4096x200x4, .f32⟩
  | .hbm, ⟨2, _⟩ => ⟨S1000000x64, .f32⟩
  | .hbm, ⟨3, _⟩ => ⟨S64x1000000, .f32⟩
  | .hbm, ⟨4, _⟩ => ⟨S1000000x128, .f32⟩
  | .hbm, ⟨5, _⟩ => ⟨S819200, .i32⟩
  | .hbm, ⟨6, _⟩ => ⟨S32x200x128, .i32⟩
  | .hbm, ⟨7, _⟩ => ⟨S819200x128, .f32⟩
  | .hbm, ⟨8, _⟩ => ⟨S819200x64, .f32⟩
  | .hbm, ⟨9, _⟩ => ⟨S4096x200x64, .f32⟩
  | .local .tc .vmem, ⟨0, _⟩ => ⟨S64x16384, .f32⟩
  | .local .tc .vmem, ⟨1, _⟩ => ⟨S64x16384, .f32⟩
  | .local .tc .vmem, ⟨2, _⟩ => ⟨S16384x128, .f32⟩
  | .local .tc .vmem, ⟨3, _⟩ => ⟨S16384x128, .f32⟩
  | .local .scVector .vmem, ⟨0, _⟩ => ⟨S200x128, .i32⟩
  | .local .scVector .vmem, ⟨1, _⟩ => ⟨S5x128x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v3_scv : Ref sig .scVector := ⟨.hbm, 6, rfl⟩
abbrev main_v1_scv : Ref sig .scVector := ⟨.hbm, 4, rfl⟩
abbrev main_v4_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_79_r0 : BitVec 32 := 0#32
  let c0_i32_80_r0 : BitVec 32 := 0#32
  ![v1.toNat, 0, 0]
@[reducible] def k1_t1_loop : Scf.Loop 32 :=
  let c0_i32_36 : BitVec 32 := 0#32
  let c40_i32 : BitVec 32 := 40#32
  let v38 : BitVec 32 := Scalar.addi c0_i32_36 c40_i32
  let c1_i32_37 : BitVec 32 := 1#32
  ⟨c0_i32_36, v38, c1_i32_37⟩
def k1_off2 (k1_t1 : Fin k1_t1_loop.trips) (c0_i32_80 : BitVec 32) : Fin 2 → Nat :=
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let v86 : BitVec 32 := Scalar.addi v85 c0_i32_80
  let c0_i32_85 : BitVec 32 := 0#32
  ![v86.toNat, 0]
def k1_off3 (i : grid1.Coords) (k1_t1 : Fin k1_t1_loop.trips) (c0_i32_80 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let v86 : BitVec 32 := Scalar.addi v85 c0_i32_80
  let c128_i32 : BitVec 32 := 128#32
  let v94 : BitVec 32 := Scalar.muli v86 c128_i32
  let v95 : BitVec 32 := Scalar.addi v2 v94
  let c0_i32_92 : BitVec 32 := 0#32
  ![v95.toNat, 0]
def k1_cond1 (k1_t1 : Fin k1_t1_loop.trips) : BitVec 1 :=
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c0_i32_80 : BitVec 32 := 0#32
  let v86 : BitVec 32 := Scalar.addi v85 c0_i32_80
  let c1_i32_96 : BitVec 32 := 1#32
  let v104 : BitVec 32 := Scalar.subi v86 c1_i32_96
  let c0_i32_98 : BitVec 32 := 0#32
  let v106 : BitVec 1 := Scalar.cmpi .sge v104 c0_i32_98
  let c5_i32_97 : BitVec 32 := 5#32
  let v105 : BitVec 32 := Scalar.addi v104 c5_i32_97
  let c200_i32 : BitVec 32 := 200#32
  let v107 : BitVec 1 := Scalar.cmpi .slt v105 c200_i32
  let v108 : BitVec 1 := Scalar.andi v106 v107
  let v109 : BitVec 32 := Scalar.extui v108
  let c0_i32_99 : BitVec 32 := 0#32
  let v110 : BitVec 1 := Scalar.cmpi .ne v109 c0_i32_99
  v110

def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c0_i32_80 : BitVec 32 := 0#32
  let v86 : BitVec 32 := Scalar.addi v85 c0_i32_80
  let c1_i32_96 : BitVec 32 := 1#32
  let v104 : BitVec 32 := Scalar.subi v86 c1_i32_96
  let c128_i32_188 : BitVec 32 := 128#32
  let v211 : BitVec 32 := Scalar.muli v104 c128_i32_188
  let v212 : BitVec 32 := Scalar.addi v2 v211
  let c0_i32_193 : BitVec 32 := 0#32
  ![v212.toNat, 0]
def k1_off5 (k1_t1 : Fin k1_t1_loop.trips) : Fin 2 → Nat :=
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c0_i32_80 : BitVec 32 := 0#32
  let v86 : BitVec 32 := Scalar.addi v85 c0_i32_80
  let c1_i32_96 : BitVec 32 := 1#32
  let v104 : BitVec 32 := Scalar.subi v86 c1_i32_96
  let c5_i32_97 : BitVec 32 := 5#32
  let v105 : BitVec 32 := Scalar.addi v104 c5_i32_97
  let c0_i32_201 : BitVec 32 := 0#32
  ![v105.toNat, 0]
def k1_cond2 (k1_t1 : Fin k1_t1_loop.trips) : BitVec 1 :=
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c1_i32_100 : BitVec 32 := 1#32
  let v111 : BitVec 32 := Scalar.addi v85 c1_i32_100
  let c1_i32_117 : BitVec 32 := 1#32
  let v129 : BitVec 32 := Scalar.subi v111 c1_i32_117
  let c0_i32_119 : BitVec 32 := 0#32
  let v131 : BitVec 1 := Scalar.cmpi .sge v129 c0_i32_119
  let c5_i32_118 : BitVec 32 := 5#32
  let v130 : BitVec 32 := Scalar.addi v129 c5_i32_118
  let c200_i32_120 : BitVec 32 := 200#32
  let v132 : BitVec 1 := Scalar.cmpi .slt v130 c200_i32_120
  let v133 : BitVec 1 := Scalar.andi v131 v132
  let v134 : BitVec 32 := Scalar.extui v133
  let c0_i32_121 : BitVec 32 := 0#32
  let v135 : BitVec 1 := Scalar.cmpi .ne v134 c0_i32_121
  v135

def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c1_i32_100 : BitVec 32 := 1#32
  let v111 : BitVec 32 := Scalar.addi v85 c1_i32_100
  let c1_i32_117 : BitVec 32 := 1#32
  let v129 : BitVec 32 := Scalar.subi v111 c1_i32_117
  let c128_i32_188 : BitVec 32 := 128#32
  let v211 : BitVec 32 := Scalar.muli v129 c128_i32_188
  let v212 : BitVec 32 := Scalar.addi v2 v211
  let c0_i32_193 : BitVec 32 := 0#32
  ![v212.toNat, 0]
def k1_off7 (k1_t1 : Fin k1_t1_loop.trips) : Fin 2 → Nat :=
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c1_i32_100 : BitVec 32 := 1#32
  let v111 : BitVec 32 := Scalar.addi v85 c1_i32_100
  let c1_i32_117 : BitVec 32 := 1#32
  let v129 : BitVec 32 := Scalar.subi v111 c1_i32_117
  let c5_i32_118 : BitVec 32 := 5#32
  let v130 : BitVec 32 := Scalar.addi v129 c5_i32_118
  let c0_i32_201 : BitVec 32 := 0#32
  ![v130.toNat, 0]
def k1_cond3 (k1_t1 : Fin k1_t1_loop.trips) : BitVec 1 :=
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c2_i32_122 : BitVec 32 := 2#32
  let v136 : BitVec 32 := Scalar.addi v85 c2_i32_122
  let c1_i32_139 : BitVec 32 := 1#32
  let v154 : BitVec 32 := Scalar.subi v136 c1_i32_139
  let c0_i32_141 : BitVec 32 := 0#32
  let v156 : BitVec 1 := Scalar.cmpi .sge v154 c0_i32_141
  let c5_i32_140 : BitVec 32 := 5#32
  let v155 : BitVec 32 := Scalar.addi v154 c5_i32_140
  let c200_i32_142 : BitVec 32 := 200#32
  let v157 : BitVec 1 := Scalar.cmpi .slt v155 c200_i32_142
  let v158 : BitVec 1 := Scalar.andi v156 v157
  let v159 : BitVec 32 := Scalar.extui v158
  let c0_i32_143 : BitVec 32 := 0#32
  let v160 : BitVec 1 := Scalar.cmpi .ne v159 c0_i32_143
  v160

def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c2_i32_122 : BitVec 32 := 2#32
  let v136 : BitVec 32 := Scalar.addi v85 c2_i32_122
  let c1_i32_139 : BitVec 32 := 1#32
  let v154 : BitVec 32 := Scalar.subi v136 c1_i32_139
  let c128_i32_188 : BitVec 32 := 128#32
  let v211 : BitVec 32 := Scalar.muli v154 c128_i32_188
  let v212 : BitVec 32 := Scalar.addi v2 v211
  let c0_i32_193 : BitVec 32 := 0#32
  ![v212.toNat, 0]
def k1_off9 (k1_t1 : Fin k1_t1_loop.trips) : Fin 2 → Nat :=
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c2_i32_122 : BitVec 32 := 2#32
  let v136 : BitVec 32 := Scalar.addi v85 c2_i32_122
  let c1_i32_139 : BitVec 32 := 1#32
  let v154 : BitVec 32 := Scalar.subi v136 c1_i32_139
  let c5_i32_140 : BitVec 32 := 5#32
  let v155 : BitVec 32 := Scalar.addi v154 c5_i32_140
  let c0_i32_201 : BitVec 32 := 0#32
  ![v155.toNat, 0]
def k1_cond4 (k1_t1 : Fin k1_t1_loop.trips) : BitVec 1 :=
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c3_i32_144 : BitVec 32 := 3#32
  let v161 : BitVec 32 := Scalar.addi v85 c3_i32_144
  let c1_i32_161 : BitVec 32 := 1#32
  let v179 : BitVec 32 := Scalar.subi v161 c1_i32_161
  let c0_i32_163 : BitVec 32 := 0#32
  let v181 : BitVec 1 := Scalar.cmpi .sge v179 c0_i32_163
  let c5_i32_162 : BitVec 32 := 5#32
  let v180 : BitVec 32 := Scalar.addi v179 c5_i32_162
  let c200_i32_164 : BitVec 32 := 200#32
  let v182 : BitVec 1 := Scalar.cmpi .slt v180 c200_i32_164
  let v183 : BitVec 1 := Scalar.andi v181 v182
  let v184 : BitVec 32 := Scalar.extui v183
  let c0_i32_165 : BitVec 32 := 0#32
  let v185 : BitVec 1 := Scalar.cmpi .ne v184 c0_i32_165
  v185

def k1_off10 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c3_i32_144 : BitVec 32 := 3#32
  let v161 : BitVec 32 := Scalar.addi v85 c3_i32_144
  let c1_i32_161 : BitVec 32 := 1#32
  let v179 : BitVec 32 := Scalar.subi v161 c1_i32_161
  let c128_i32_188 : BitVec 32 := 128#32
  let v211 : BitVec 32 := Scalar.muli v179 c128_i32_188
  let v212 : BitVec 32 := Scalar.addi v2 v211
  let c0_i32_193 : BitVec 32 := 0#32
  ![v212.toNat, 0]
def k1_off11 (k1_t1 : Fin k1_t1_loop.trips) : Fin 2 → Nat :=
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c3_i32_144 : BitVec 32 := 3#32
  let v161 : BitVec 32 := Scalar.addi v85 c3_i32_144
  let c1_i32_161 : BitVec 32 := 1#32
  let v179 : BitVec 32 := Scalar.subi v161 c1_i32_161
  let c5_i32_162 : BitVec 32 := 5#32
  let v180 : BitVec 32 := Scalar.addi v179 c5_i32_162
  let c0_i32_201 : BitVec 32 := 0#32
  ![v180.toNat, 0]
def k1_cond5 (k1_t1 : Fin k1_t1_loop.trips) : BitVec 1 :=
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c4_i32_166 : BitVec 32 := 4#32
  let v186 : BitVec 32 := Scalar.addi v85 c4_i32_166
  let c1_i32_183 : BitVec 32 := 1#32
  let v204 : BitVec 32 := Scalar.subi v186 c1_i32_183
  let c0_i32_185 : BitVec 32 := 0#32
  let v206 : BitVec 1 := Scalar.cmpi .sge v204 c0_i32_185
  let c5_i32_184 : BitVec 32 := 5#32
  let v205 : BitVec 32 := Scalar.addi v204 c5_i32_184
  let c200_i32_186 : BitVec 32 := 200#32
  let v207 : BitVec 1 := Scalar.cmpi .slt v205 c200_i32_186
  let v208 : BitVec 1 := Scalar.andi v206 v207
  let v209 : BitVec 32 := Scalar.extui v208
  let c0_i32_187 : BitVec 32 := 0#32
  let v210 : BitVec 1 := Scalar.cmpi .ne v209 c0_i32_187
  v210

def k1_off12 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c4_i32_166 : BitVec 32 := 4#32
  let v186 : BitVec 32 := Scalar.addi v85 c4_i32_166
  let c1_i32_183 : BitVec 32 := 1#32
  let v204 : BitVec 32 := Scalar.subi v186 c1_i32_183
  let c128_i32_188 : BitVec 32 := 128#32
  let v211 : BitVec 32 := Scalar.muli v204 c128_i32_188
  let v212 : BitVec 32 := Scalar.addi v2 v211
  let c0_i32_193 : BitVec 32 := 0#32
  ![v212.toNat, 0]
def k1_off13 (k1_t1 : Fin k1_t1_loop.trips) : Fin 2 → Nat :=
  let c0_i32_79 : BitVec 32 := 0#32
  let c0_i32_36 : BitVec 32 := 0#32
  let c1_i32_37 : BitVec 32 := 1#32
  let arg9 : BitVec 32 := Scf.iv c0_i32_36 c1_i32_37 k1_t1
  let c5_i32 : BitVec 32 := 5#32
  let v84 : BitVec 32 := Scalar.muli arg9 c5_i32
  let v85 : BitVec 32 := Scalar.addi c0_i32_79 v84
  let c4_i32_166 : BitVec 32 := 4#32
  let v186 : BitVec 32 := Scalar.addi v85 c4_i32_166
  let c1_i32_183 : BitVec 32 := 1#32
  let v204 : BitVec 32 := Scalar.subi v186 c1_i32_183
  let c5_i32_184 : BitVec 32 := 5#32
  let v205 : BitVec 32 := Scalar.addi v204 c5_i32_184
  let c0_i32_201 : BitVec 32 := 0#32
  ![v205.toNat, 0]
def k1_off14 (i : grid1.Coords) (c24960_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v39 : BitVec 32 := Scalar.addi v2 c24960_i32
  let c0_i32_43 : BitVec 32 := 0#32
  ![v39.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x64_S64x1000000_1_0 : S1000000x64.Transposes [1, 0] S64x1000000
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  transposes_S64x16384_p1_0_S16384x64 : S64x16384.Transposes [1, 0] S16384x64
  concatenates_S16384x64_S16384x64_S16384x128_d1 : Shape.Concatenates [S16384x64, S16384x64] S16384x128 1
  inb_S16384x128_S16384x128_0_0 : ∀ a, (![0, 0] : Fin 2 → Nat) a + S16384x128.size a ≤ S16384x128.size a
  h_S16384x128 : 0 < S16384x128.numel
  shapeCasts_S4096x200_S819200 : S4096x200.ShapeCasts S819200
  shapeCasts_S819200_S32x200x128 : S819200.ShapeCasts S32x200x128
  squeezes_S1x200x128_S200x128 : S1x200x128.Squeezes S200x128
  inb_S5x128x128_S1x128x128_0_0_0 : ∀ a, (![0, 0, 0] : Fin 3 → Nat) a + S1x128x128.size a ≤ S5x128x128.size a
  squeezes_S1x128x128_S128x128 : S1x128x128.Squeezes S128x128
  inb_S200x128_S1x128_0_0 : ∀ a, (![0, 0] : Fin 2 → Nat) a + S1x128.size a ≤ S200x128.size a
  squeezes_S1x128_S128 : S1x128.Squeezes S128
  inb_S1000000x128_S1000000x128_0_0 : ∀ a, (![0, 0] : Fin 2 → Nat) a + S1000000x128.size a ≤ S1000000x128.size a
  inb_S5_S1_0 : ∀ a, (![0] : Fin 1 → Nat) a + S1.size a ≤ S5.size a
  squeezes_S1_S_ : S1.Squeezes S_
  gathers_S1000000x128_S128x128 : S1000000x128.Gathers 0 S128x128
  inb_S5x128x128_S1x128x128_1_0_0 : ∀ a, (![1, 0, 0] : Fin 3 → Nat) a + S1x128x128.size a ≤ S5x128x128.size a
  inb_S200x128_S1x128_1_0 : ∀ a, (![1, 0] : Fin 2 → Nat) a + S1x128.size a ≤ S200x128.size a
  inb_S5_S1_1 : ∀ a, (![1] : Fin 1 → Nat) a + S1.size a ≤ S5.size a
  inb_S5x128x128_S1x128x128_2_0_0 : ∀ a, (![2, 0, 0] : Fin 3 → Nat) a + S1x128x128.size a ≤ S5x128x128.size a
  inb_S200x128_S1x128_2_0 : ∀ a, (![2, 0] : Fin 2 → Nat) a + S1x128.size a ≤ S200x128.size a
  inb_S5_S1_2 : ∀ a, (![2] : Fin 1 → Nat) a + S1.size a ≤ S5.size a
  inb_S5x128x128_S1x128x128_3_0_0 : ∀ a, (![3, 0, 0] : Fin 3 → Nat) a + S1x128x128.size a ≤ S5x128x128.size a
  inb_S200x128_S1x128_3_0 : ∀ a, (![3, 0] : Fin 2 → Nat) a + S1x128.size a ≤ S200x128.size a
  inb_S5_S1_3 : ∀ a, (![3] : Fin 1 → Nat) a + S1.size a ≤ S5.size a
  inb_S5x128x128_S1x128x128_4_0_0 : ∀ a, (![4, 0, 0] : Fin 3 → Nat) a + S1x128x128.size a ≤ S5x128x128.size a
  inb_S200x128_S1x128_4_0 : ∀ a, (![4, 0] : Fin 2 → Nat) a + S1x128.size a ≤ S200x128.size a
  inb_S5_S1_4 : ∀ a, (![4] : Fin 1 → Nat) a + S1.size a ≤ S5.size a
  slices_S819200x128_S819200x64_0_0 : S819200x128.Slices ![0, 0] S819200x64
  shapeCasts_S819200x64_S4096x200x64 : S819200x64.ShapeCasts S4096x200x64
  hcc1_scratch2 : 4 + S5.numel ≤ 15
  hcc1_scratch3 : 9 + S5.numel ≤ 15
  hcc1_scoped0 : 14 + S_.numel ≤ 15
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x16384.size a < S64x1000000.size a
  hwx0_0 : ∀ i : grid0.Coords, EltTy.bits .f32 = 32 ∨ (Rect.unit (s := S64x1000000) (fun a => cc0_transform_0 i a * S64x16384.size a) (fun a => (Pipeline.Clip.of (cc0_transform_0 i a) (S64x16384.size a) (S64x1000000.size a)).extent (S64x16384.size a)) fun a => Pipeline.Clip.inb (Pipeline.Clip.ok_of (hstart0_0 i a))).WholeWords (EltTy.packing .f32)
  hwxs0_0 : ∀ i : grid0.Coords, EltTy.bits .f32 = 32 ∨ (Rect.unit (s := S64x16384) (fun _ => 0) (fun a => (Pipeline.Clip.of (cc0_transform_0 i a) (S64x16384.size a) (S64x1000000.size a)).extent (S64x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384x128.size a < S1000000x128.size a
  hwx0_1 : ∀ i : grid0.Coords, EltTy.bits .f32 = 32 ∨ (Rect.unit (s := S1000000x128) (fun a => cc0_transform_1 i a * S16384x128.size a) (fun a => (Pipeline.Clip.of (cc0_transform_1 i a) (S16384x128.size a) (S1000000x128.size a)).extent (S16384x128.size a)) fun a => Pipeline.Clip.inb (Pipeline.Clip.ok_of (hstart0_1 i a))).WholeWords (EltTy.packing .f32)
  hwxs0_1 : ∀ i : grid0.Coords, EltTy.bits .f32 = 32 ∨ (Rect.unit (s := S16384x128) (fun _ => 0) (fun a => (Pipeline.Clip.of (cc0_transform_1 i a) (S16384x128.size a) (S1000000x128.size a)).extent (S16384x128.size a)) fun a => (Nat.zero_add _).trans_le (Pipeline.Clip.extent_le (Pipeline.Clip.ok_of (hstart0_1 i a)))).WholeWords (EltTy.packing .f32)
  hcore1 : grid1.bound 0 ≤ τ.nSC
  hsub1 : grid1.bound 1 ≤ τ.nSub
  k1_off1_inb : ∀ i : grid1.Coords, ∀ a, (k1_off1 i) a + S1x200x128.size a ≤ S32x200x128.size a
  k1_t1_ok : k1_t1_loop.OK
  k1_off2_inb : ∀ k1_t1 : Fin k1_t1_loop.trips, ∀ (r : Fin 5), ∀ a, (k1_off2 k1_t1 (BitVec.ofNat 32 r.val)) a + S1x128.size a ≤ S200x128.size a
  k1_off3_inb : ∀ (i : grid1.Coords) (k1_t1 : Fin k1_t1_loop.trips), ∀ (r : Fin 5), ∀ a, (k1_off3 i k1_t1 (BitVec.ofNat 32 r.val)) a + S128x128.size a ≤ S819200x128.size a
  k1_off4_inb : ∀ (i : grid1.Coords) (k1_t1 : Fin k1_t1_loop.trips), ∀ (k1_h1 : k1_cond1 k1_t1 = 1#1), ∀ a, (k1_off4 i k1_t1) a + S128x128.size a ≤ S819200x128.size a
  k1_off5_inb : ∀ k1_t1 : Fin k1_t1_loop.trips, ∀ (k1_h1 : k1_cond1 k1_t1 = 1#1), ∀ a, (k1_off5 k1_t1) a + S1x128.size a ≤ S200x128.size a
  k1_off6_inb : ∀ (i : grid1.Coords) (k1_t1 : Fin k1_t1_loop.trips), ∀ (k1_h2 : k1_cond2 k1_t1 = 1#1), ∀ a, (k1_off6 i k1_t1) a + S128x128.size a ≤ S819200x128.size a
  k1_off7_inb : ∀ k1_t1 : Fin k1_t1_loop.trips, ∀ (k1_h2 : k1_cond2 k1_t1 = 1#1), ∀ a, (k1_off7 k1_t1) a + S1x128.size a ≤ S200x128.size a
  k1_off8_inb : ∀ (i : grid1.Coords) (k1_t1 : Fin k1_t1_loop.trips), ∀ (k1_h3 : k1_cond3 k1_t1 = 1#1), ∀ a, (k1_off8 i k1_t1) a + S128x128.size a ≤ S819200x128.size a
  k1_off9_inb : ∀ k1_t1 : Fin k1_t1_loop.trips, ∀ (k1_h3 : k1_cond3 k1_t1 = 1#1), ∀ a, (k1_off9 k1_t1) a + S1x128.size a ≤ S200x128.size a
  k1_off10_inb : ∀ (i : grid1.Coords) (k1_t1 : Fin k1_t1_loop.trips), ∀ (k1_h4 : k1_cond4 k1_t1 = 1#1), ∀ a, (k1_off10 i k1_t1) a + S128x128.size a ≤ S819200x128.size a
  k1_off11_inb : ∀ k1_t1 : Fin k1_t1_loop.trips, ∀ (k1_h4 : k1_cond4 k1_t1 = 1#1), ∀ a, (k1_off11 k1_t1) a + S1x128.size a ≤ S200x128.size a
  k1_off12_inb : ∀ (i : grid1.Coords) (k1_t1 : Fin k1_t1_loop.trips), ∀ (k1_h5 : k1_cond5 k1_t1 = 1#1), ∀ a, (k1_off12 i k1_t1) a + S128x128.size a ≤ S819200x128.size a
  k1_off13_inb : ∀ k1_t1 : Fin k1_t1_loop.trips, ∀ (k1_h5 : k1_cond5 k1_t1 = 1#1), ∀ a, (k1_off13 k1_t1) a + S1x128.size a ≤ S200x128.size a
  k1_off14_inb : ∀ i : grid1.Coords, ∀ (r : Fin 5), ∀ a, (k1_off14 i (BitVec.ofNat 32 (24960 + 128 * r.val))) a + S128x128.size a ≤ S819200x128.size a

variable [Facts₀]

abbrev cc1_scratch2 : DmaSems sig S5 := SemArray.consecutive 4 S5 hcc1_scratch2
abbrev cc1_scratch3 : DmaSems sig S5 := SemArray.consecutive 9 S5 hcc1_scratch3
abbrev cc1_scoped0 : DmaSems sig S_ := SemArray.consecutive 14 S_ hcc1_scoped0

abbrev win0_0 : Pipeline.Window sig grid0 :=
  Pipeline.Window.ofSpecClip (Memref.whole main_v0) S64x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S16384x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x200 : Shape := ⟨2, ![4096, 200]⟩
abbrev S4096x200x4 : Shape := ⟨3, ![4096, 200, 4]⟩
abbrev S1000000x64 : Shape := ⟨2, ![1000000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 26
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200x4, .f32⟩
  | .hbm, ⟨2, _⟩ => ⟨S1000000x64, .f32⟩
  | .hbm, ⟨3, _⟩ => ⟨S_, .i32⟩
  | .hbm, ⟨4, _⟩ => ⟨S4096x200, .i32⟩
  | .hbm, ⟨5, _⟩ => ⟨S4096x200, .i1⟩
  | .hbm, ⟨6, _⟩ => ⟨S_, .i32⟩
  | .hbm, ⟨7, _⟩ => ⟨S4096x200, .i32⟩
  | .hbm, ⟨8, _⟩ => ⟨S4096x200, .i32⟩
  | .hbm, ⟨9, _⟩ => ⟨S4096x200, .i32⟩
  | .hbm, ⟨10, _⟩ => ⟨S4096x200x1, .i32⟩
  | .hbm, ⟨11, _⟩ => ⟨S1, .i32⟩
  | .hbm, ⟨12, _⟩ => ⟨S_, .i32⟩
  | .hbm, ⟨13, _⟩ => ⟨S4096x200x1, .i32⟩
  | .hbm, ⟨14, _⟩ => ⟨S4096x200x1, .i1⟩
  | .hbm, ⟨15, _⟩ => ⟨S1x1x1, .i32⟩
  | .hbm, ⟨16, _⟩ => ⟨S4096x200x1, .i32⟩
  | .hbm, ⟨17, _⟩ => ⟨S4096x200x1, .i1⟩
  | .hbm, ⟨18, _⟩ => ⟨S4096x200x1, .i1⟩
  | .hbm, ⟨19, _⟩ => ⟨S_, .i1⟩
  | .hbm, ⟨20, _⟩ => ⟨S4096x200, .i1⟩
  | .hbm, ⟨21, _⟩ => ⟨S4096x200x64, .f32⟩
  | .hbm, ⟨22, _⟩ => ⟨S4096x200x64, .i1⟩
  | .hbm, ⟨23, _⟩ => ⟨S_, .f32⟩
  | .hbm, ⟨24, _⟩ => ⟨S4096x200x64, .f32⟩
  | .hbm, ⟨25, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  gather_S1000000x64_S4096x200x1_S4096x200x64_2_0_n_n_0_2_164_wf : GatherDims.WF S1000000x64 S4096x200x1 S4096x200x64 [2] [0] [] [0] [] 2 ![1, 64]

variable [Facts₀]

def gather_S1000000x64_S4096x200x1_S4096x200x64_2_0_n_n_0_2_164 : GatherDims S1000000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000000x64_S4096x200x1_S4096x200x64_2_0_n_n_0_2_164_wf

class Facts : Prop extends Facts₀ where

variable [Facts]
-- ==== Proof.Spec.lean ====
/-
  The function both programs compute: an embedding lookup. The classes array has shape [4096, 200] and holds row
  numbers of a table of shape [1000000, 64]; the result has shape [4096, 200, 64], and its entry (b, s, j) is entry
  (classes[b, s], j) of the table. The row number is read as a natural number and reduced modulo the number of rows, so
  that the function is total; for a class between 0 and 999999 the reduction changes nothing.
-/
import Idealize.ShloMosaic.PureOps.Ideal
import Idealize.ShloMosaic.Lib.ValueIdx

namespace Cert.Spec

open Idealize.ShloMosaic Idealize.ShloMosaic.ValueIdx

/-- The row of the table that a class word names. -/
def rowOf (w : BitVec 32) : Fin 1000000 := ⟨w.toNat % 1000000, Nat.mod_lt _ (by norm_num)⟩

/-- A class word between 0 and 999999 names the row of its own number. -/
theorem rowOf_val_of_lt (w : BitVec 32) (h : w.toNat < 1000000) : (rowOf w).val = w.toNat :=
  Nat.mod_eq_of_lt h

/-- The lookup: entry (b, s, j) of the result is entry (classes[b, s], j) of the table. -/
def lookup {α : Type} (cls : (⟨2, ![4096, 200]⟩ : Shape).Idx → BitVec 32) (tab : (⟨2, ![1000000, 64]⟩ : Shape).Idx → α) :
    (⟨3, ![4096, 200, 64]⟩ : Shape).Idx → α :=
  fun i => tab (ix2 (rowOf (cls (ix2 (i 0) (i 1)))) (i 2))

end Cert.Spec
-- ==== Proof.Common.lean ====
/-
  What the parts of the kernel's proof share. The program is an embedding lookup in three steps: the table
  [1000000, 64] is transposed on the host and a TensorCore kernel re-lays it, block by block, as a table [1000000, 128]
  whose row r holds the table's row r in columns 0..63 and zeros in columns 64..127; the classes [4096, 200] are
  reshaped to [32, 200, 128]; then 32 vector subcores (2 SparseCores of 16) each copy one [200, 128] slab of classes,
  and for each of its 200 rows of 128 classes gather the 128 named rows of the padded table into a buffer and write
  the buffer to the matching 128 rows of an array [819200, 128]; the host cuts columns 0..63 and reshapes.
  Here: the launch's vocabulary (the SparseCore configuration, the ghost state's algebra), the contents every array
  holds at each stage as functions of the inputs, the pieces of the arrays each subcore is handed (slab w of the
  classes, a 32nd share of the padded table, rows 25600 w .. 25600 w + 25599 of the gathered array) and what the
  handshakes carry.
-/
import proofs.«206789_g36283883716857_cont_8to1_b_1933_18_alg».proof.KernelIdeal
import proofs.«206789_g36283883716857_cont_8to1_b_1933_18_alg».proof.Proof.Gen.KernelIdeal
import proofs.«206789_g36283883716857_cont_8to1_b_1933_18_alg».proof.Proof.Gen.KernelIdeal.Launch
import proofs.«206789_g36283883716857_cont_8to1_b_1933_18_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state's algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans ((Emb.inr : Emb (UP × Counters) UU).trans
    (uEmb (nD := nD) (τ := τ) (sig := sig) (Ix := HIx 1) (Val := Elt F) (Name := ℕ) (U := UU) (Lvl := ℕ)).toEmb)
instance EP_landsIn : (EP (F := F)).LandsIn (upEmb : UEmb _ 𝕄) := by unfold EP; infer_instance

/-! ## Locations -/

abbrev clsLoc (d : Dev nD) : Loc nD τ sig := (SparseCore.T d).loc main_arg0
abbrev bbsLoc (d : Dev nD) : Loc nD τ sig := (SparseCore.T d).loc main_arg1
abbrev embLoc (d : Dev nD) : Loc nD τ sig := (SparseCore.T d).loc main_arg2
abbrev tLoc (d : Dev nD) : Loc nD τ sig := (SparseCore.T d).loc main_v0
abbrev padLoc (d : Dev nD) : Loc nD τ sig := (SparseCore.T d).loc main_v1
abbrev flatLoc (d : Dev nD) : Loc nD τ sig := (SparseCore.T d).loc main_v2
abbrev idxLoc (d : Dev nD) : Loc nD τ sig := (SparseCore.T d).loc main_v3
abbrev gatLoc (d : Dev nD) : Loc nD τ sig := (SparseCore.T d).loc main_v4
abbrev cutLoc (d : Dev nD) : Loc nD τ sig := (SparseCore.T d).loc main_v5
abbrev outLoc (d : Dev nD) : Loc nD τ sig := (SparseCore.T d).loc main_v6

/-! ## The contents of the arrays, stage by stage -/

/-- The padded table of a transposed table: row r holds column r of the transposed table in columns 0..63 and zeros
    in columns 64..127. -/
def padded [FloatOps F] (X : S64x1000000.Idx → F .f32) : S1000000x128.Idx → F .f32 :=
  fun i => if h : (i 1).val < 64 then X (ix2 (⟨(i 1).val, h⟩ : Fin 64) (i 0)) else (Scalar.ofBits .f32 0x00000000#32 : F .f32)

/-- Row n of the gathered array names slab n / 25600, row (n % 25600) / 128, lane n % 128 of the class slabs. -/
def slabIdx (n : Fin 819200) : S32x200x128.Idx :=
  ix3 (⟨n.val / 25600, by omega⟩ : Fin 32) (⟨n.val % 25600 / 128, by omega⟩ : Fin 200) (⟨n.val % 128, by omega⟩ : Fin 128)

/-- The gathered array: row n is the row of the padded table that class n (in slab order) names. -/
def gathered {α : Type} (idx : S32x200x128.Idx → BitVec 32) (tb : S1000000x128.Idx → α) : S819200x128.Idx → α :=
  fun i => tb (ix2 (Cert.Spec.rowOf (idx (slabIdx (i 0)))) (i 1))

/-! ## The pieces each subcore is handed -/

/-- The worker number of vector subcore i of SparseCore c: 2 i + c. -/
def wid (c : Fin 2) (i : Fin 16) : Fin 32 := ⟨2 * i.val + c.val, by omega⟩

local notation "iV" => (Memref.whole Cert.KernelIdeal.main_v3_scv : Memref Cert.KernelIdeal.sig Kind.scVector Space.hbm Cert.KernelIdeal.S32x200x128 EltTy.i32)
local notation "oV" => (Memref.whole Cert.KernelIdeal.main_v4_scv : Memref Cert.KernelIdeal.sig Kind.scVector Space.hbm Cert.KernelIdeal.S819200x128 EltTy.f32)

theorem idiv : 32 ∣ S32x200x128.size 0 := ⟨1, rfl⟩
theorem odiv : 32 ∣ S819200x128.size 0 := ⟨25600, rfl⟩
/-- Slab w of the classes; -/
abbrev islab (w : Fin 32) : Rect S32x200x128 := Rect.part (s := S32x200x128) (a₀ := 0) idiv w
/-- rows 25600 w .. 25600 w + 25599 of the gathered array. -/
abbrev oblk (w : Fin 32) : Rect S819200x128 := Rect.part (s := S819200x128) (a₀ := 0) odiv w
abbrev iSlabSet (w : Fin 32) : Finset S32x200x128.Idx := ((iV).view.slice (islab w)).set
abbrev oBlkSet (w : Fin 32) : Finset S819200x128.Idx := ((oV).view.slice (oblk w)).set

/-- Leaf i of the depth-n halving of share q. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Worker w's share of the padded table: a 32nd. -/
abbrev tq (w : Fin 32) : PosShare TreeShare := leaf 5 fullShare w

/-! ## What the handshakes carry -/

section Pay

variable (C3 : (d : Dev nD) → Buf (Elt F) (idxLoc d)) (Tb : (d : Dev nD) → Buf (Elt F) (padLoc d))

/-- What worker w starts from: its slab of the classes, its share of the padded table, its rows of the gathered
    array at any contents; -/
abbrev goPts (d : Dev nD) (w : Fin 32) : sProp 𝕄 :=
  iprop((idxLoc d ↦[iSlabSet w]{fullShare} C3 d) ∗ (padLoc d ↦{tq w} Tb d) ∗ ∃ f, gatLoc d ↦[oBlkSet w]{fullShare} f)
/-- what it ends with: the same, its rows of the gathered array at the gathered contents. -/
abbrev tdPts (d : Dev nD) (w : Fin 32) : sProp 𝕄 :=
  iprop((idxLoc d ↦[iSlabSet w]{fullShare} C3 d) ∗ (padLoc d ↦{tq w} Tb d)
    ∗ gatLoc d ↦[oBlkSet w]{fullShare} (gathered (C3 d) (Tb d) : Buf (Elt F) (gatLoc d)))

/-- The one call: each SparseCore takes its sixteen workers' pieces and brings them back. -/
def P : (K (F := F)).Pay (nD := nD) (Val := Elt F) (Name := ℕ) (U := UU) where
  st := fun q d c => match q with | 0 => bigSep Finset.univ fun i : Fin 16 => goPts C3 Tb d (wid (Fin.cast nCore_zero c) i)
  dn := fun q d c => match q with | 0 => bigSep Finset.univ fun i : Fin 16 => tdPts C3 Tb d (wid (Fin.cast nCore_zero c) i)
  go := fun q d c i => match q with | 0 => goPts C3 Tb d (wid (Fin.cast nCore_zero c) (Fin.cast nSub_zero i))
  td := fun q d c i => match q with | 0 => tdPts C3 Tb d (wid (Fin.cast nCore_zero c) (Fin.cast nSub_zero i))
  x := fun _ _ => iprop(emp)

instance P_storable : (P (F := F) C3 Tb).IsStorable where
  st q d c := match q with
    | 0 => (inferInstance : BI.Storable (upEmb : UEmb _ 𝕄) (bigSep Finset.univ fun i : Fin 16 => goPts C3 Tb d (wid (Fin.cast nCore_zero c) i)))
  dn q d c := match q with
    | 0 => (inferInstance : BI.Storable (upEmb : UEmb _ 𝕄) (bigSep Finset.univ fun i : Fin 16 => tdPts C3 Tb d (wid (Fin.cast nCore_zero c) i)))
  go q d c i := match q with
    | 0 => (inferInstance : BI.Storable (upEmb : UEmb _ 𝕄) (goPts C3 Tb d (wid (Fin.cast nCore_zero c) (Fin.cast nSub_zero i))))
  td q d c i := match q with
    | 0 => (inferInstance : BI.Storable (upEmb : UEmb _ 𝕄) (tdPts C3 Tb d (wid (Fin.cast nCore_zero c) (Fin.cast nSub_zero i))))

end Pay

end Cert.KernelIdeal.Hand

end
-- ==== Proof.HostOps.lean ====
/-
  The host operations of the kernel's program, each run on the TensorCore from the two arrays it names: the result
  array ends at the operation's function of the operand, the operand is kept. And the contents every array holds, stage
  by stage, as functions of the launch memory: the transposed table, the padded table, the flattened and the slabbed
  classes, the gathered array, its first 64 columns, and the result.
-/
import proofs.«206789_g36283883716857_cont_8to1_b_1933_18_alg».proof.Proof.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-! ## The contents, stage by stage -/

/-- The transposed table; -/
def X0 (d : Dev nD) : Buf (Elt F) (tLoc d) := transpose S64x1000000 [1, 0] (m (embLoc d)) Facts₀.transposes_S1000000x64_S64x1000000_1_0
/-- the padded table; -/
def Tb (d : Dev nD) : Buf (Elt F) (padLoc d) := padded (X0 m d)
/-- the classes in one row; -/
def C2 (d : Dev nD) : Buf (Elt F) (flatLoc d) := shapeCast S819200 (m (clsLoc d)) Facts₀.shapeCasts_S4096x200_S819200
/-- the classes in 32 slabs of 200 rows of 128; -/
def C3 (d : Dev nD) : Buf (Elt F) (idxLoc d) := shapeCast S32x200x128 (C2 m d) Facts₀.shapeCasts_S819200_S32x200x128
/-- the gathered rows of the padded table; -/
def G4 (d : Dev nD) : Buf (Elt F) (gatLoc d) := gathered (C3 m d) (Tb m d)
/-- their first 64 columns; -/
def G5 (d : Dev nD) : Buf (Elt F) (cutLoc d) := extractStridedSlice S819200x64 ![0, 0] (G4 m d) Facts₀.slices_S819200x128_S819200x64_0_0
/-- the result. -/
def G6 (d : Dev nD) : Buf (Elt F) (outLoc d) := shapeCast S4096x200x64 (G5 m d) Facts₀.shapeCasts_S819200x64_S4096x200x64

/-! ## The operations -/

abbrev opT : HloOp τ sig (Elt F) := StableHlo.unary main_arg2 main_v0 ((transpose S64x1000000 [1, 0] · Facts₀.transposes_S1000000x64_S64x1000000_1_0) : (⟨S1000000x64, .f32⟩ : BufTy).Contents (Elt F) → (⟨S64x1000000, .f32⟩ : BufTy).Contents (Elt F))
abbrev opR1 : HloOp τ sig (Elt F) := StableHlo.reshape main_arg0 main_v2 rfl Facts₀.shapeCasts_S4096x200_S819200
abbrev opR2 : HloOp τ sig (Elt F) := StableHlo.reshape main_v2 main_v3 rfl Facts₀.shapeCasts_S819200_S32x200x128
abbrev opSl : HloOp τ sig (Elt F) := StableHlo.unary main_v4 main_v5 ((extractStridedSlice S819200x64 ![0, 0] · Facts₀.slices_S819200x128_S819200x64_0_0) : (⟨S819200x128, .f32⟩ : BufTy).Contents (Elt F) → (⟨S819200x64, .f32⟩ : BufTy).Contents (Elt F))
abbrev opR3 : HloOp τ sig (Elt F) := StableHlo.reshape main_v5 main_v6 rfl Facts₀.shapeCasts_S819200x64_S4096x200x64

abbrev dr (b : Ref sig .tc) : DevRef τ sig := Proc.devRef .tc b

/-- A host operation over two arrays, the first read and the second written, run from the two arrays at any contents:
    the written array ends at the operation's function r of the read one, which is kept. -/
theorem wp_hlo_pair {Λ : Labels} (W0 : Valuation τ sig (Elt F)) (defs : Defs nD τ sig (Elt F) Λ) (𝒱' : Variants) (d : Dev nD) (op : HloOp τ sig (Elt F)) (x y : Ref sig .tc) (hxy : dr x ≠ dr y)
    (hb : op.bufs ⊆ {dr x, dr y}) (hwr : dr x ∉ op.writes) (hf : op.fresh = ∅)
    (r : (dr x).ty.Contents (Elt F) → (dr y).ty.Contents (Elt F)) (hres : ∀ V : Valuation τ sig (Elt F), op.result V (dr y) = r (V (dr x)))
    (cx : (dr x).ty.Contents (Elt F)) (cy : (dr y).ty.Contents (Elt F)) {α : Type}
    {k : ((b : op.writes) → b.1.ty.Contents (Elt F)) → Prog (TpuEff nD τ sig (Elt F) Λ .tc) α} {Q : α → sProp 𝕄} :
    iprop(boundary (SparseCore.T d) ∗ (((d, dr x) : Loc nD τ sig) ↦{fullShare} cx) ∗ (((d, dr y) : Loc nD τ sig) ↦{fullShare} cy)
        ∗ (∀ v, iprop(boundary (SparseCore.T d) ∗ (((d, dr x) : Loc nD τ sig) ↦{fullShare} cx) ∗ (((d, dr y) : Loc nD τ sig) ↦{fullShare} r cx))
            -∗ wp frame (wpE defs 𝒱' (SparseCore.T d) none) Set.univ (k v) Q))
      ⊢ wp frame (wpE defs 𝒱' (SparseCore.T d) none) Set.univ (hlo (p := .tc) rfl op k) Q := by
  let V : Valuation τ sig (Elt F) := Function.update (Function.update W0 (dr y) cy) (dr x) cx
  have hVx : V (dr x) = cx := Function.update_self _ _ _
  have hVy : V (dr y) = cy := (Function.update_of_ne hxy.symm _ _).trans (Function.update_self _ _ _)
  have hheld : ∀ W : Valuation τ sig (Elt F), (held (SparseCore.T d) {dr x, dr y} W : sProp 𝕄)
      = iprop((((d, dr x) : Loc nD τ sig) ↦{fullShare} W (dr x)) ∗ (((d, dr y) : Loc nD τ sig) ↦{fullShare} W (dr y))) := by
    intro W; unfold held
    rw [SparseCore.bigSep_insert' (by simpa using hxy), bigSep_singleton]
  have key := wp_hlo_within (defs := defs) 𝒱' (SparseCore.T d) none Set.univ (hp := rfl) (op := op) (k := k) (S := {dr x, dr y}) hb (V := V) (Q := Q) hf
  rw [hheld V, hheld (op.result V), hVx, hVy, op.result_of_not_mem V hwr, hres, hVx] at key
  iintro ⟨Hb, Hx, Hy, Hk⟩
  iapply (key) $$ [Hb Hx Hy]
  · isplitl [Hb]; · iexact Hb
    isplitl [Hx]; · iexact Hx
    iexact Hy
  iintro ⟨Hb, Hx, Hy⟩
  iapply Hk
  isplitl [Hb]; · iexact Hb
  isplitl [Hx]; · iexact Hx
  iexact Hy

end Cert.KernelIdeal.Hand

end
-- ==== Proof.Split.lean ====
/-
  How the arrays split among the 32 workers and join again: the class slabs and the gathered array's row blocks are
  partitions of their arrays along axis 0 into 32 parts; the padded table, which every worker reads whole, goes out as
  32 shares (the full share halved five times). A SparseCore's operands are its sixteen workers' pieces, so the call's
  split of a SparseCore's operands among its subcores is the identity.
-/
import proofs.«206789_g36283883716857_cont_8to1_b_1933_18_alg».proof.Proof.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S32x200x128 EltTy.i32)
local notation "oV" => (Memref.whole Cert.KernelIdeal.main_v4_scv : Memref Cert.KernelIdeal.sig Kind.scVector Space.hbm Cert.KernelIdeal.S819200x128 EltTy.f32)

/-! ## Shares: the full share halved n times -/

/-- The two halves of the leaves of depth n + 1. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-! ## The slabs and the row blocks partition their arrays -/

theorem iSlabSet_eq (w : Fin 32) : iSlabSet w = (islab w).set := by
  show ((View.whole (main_v3_scv : Ref sig .scVector)).slice (islab w)).set = _
  rw [View.set_slice]; exact Finset.map_refl
theorem oBlkSet_eq (w : Fin 32) : oBlkSet w = (oblk w).set := by
  show ((View.whole (main_v4_scv : Ref sig .scVector)).slice (oblk w)).set = _
  rw [View.set_slice]; exact Finset.map_refl
theorem islabs_disjoint : ∀ i ∈ (Finset.univ : Finset (Fin 32)), ∀ j ∈ (Finset.univ : Finset (Fin 32)), i ≠ j → Disjoint (iSlabSet i) (iSlabSet j) :=
  fun i _ j _ h => by rw [iSlabSet_eq, iSlabSet_eq]; exact Rect.part_disjoint idiv h
theorem oblks_disjoint : ∀ i ∈ (Finset.univ : Finset (Fin 32)), ∀ j ∈ (Finset.univ : Finset (Fin 32)), i ≠ j → Disjoint (oBlkSet i) (oBlkSet j) :=
  fun i _ j _ h => by rw [oBlkSet_eq, oBlkSet_eq]; exact Rect.part_disjoint odiv h
theorem islabs_cover : (Finset.univ : Finset (Fin 32)).biUnion iSlabSet = Finset.univ :=
  (Finset.biUnion_congr rfl fun i _ => iSlabSet_eq i).trans (Rect.biUnion_part idiv)
theorem oblks_cover : (Finset.univ : Finset (Fin 32)).biUnion oBlkSet = Finset.univ :=
  (Finset.biUnion_congr rfl fun i _ => oBlkSet_eq i).trans (Rect.biUnion_part odiv)

/-- The classes' slabs, all 32, are the array. -/
theorem idx_slabs (d : Dev nD) (f : Buf (Elt F) (idxLoc d)) :
    (idxLoc d ↦{fullShare} f : sProp 𝕄) = bigSep Finset.univ fun w : Fin 32 => idxLoc d ↦[iSlabSet w]{fullShare} f := by
  rw [← pointsTo_biUnion Finset.univ (ℓ := idxLoc d) iSlabSet islabs_disjoint, islabs_cover]; try rfl
/-- The gathered array's 32 row blocks are the array. -/
theorem gat_blks (d : Dev nD) (f : Buf (Elt F) (gatLoc d)) :
    (gatLoc d ↦{fullShare} f : sProp 𝕄) = bigSep Finset.univ fun w : Fin 32 => gatLoc d ↦[oBlkSet w]{fullShare} f := by
  rw [← pointsTo_biUnion Finset.univ (ℓ := gatLoc d) oBlkSet oblks_disjoint, oblks_cover]; try rfl
/-- The padded table's 32 shares are the table. -/
theorem pad_shares (d : Dev nD) (f : Buf (Elt F) (padLoc d)) :
    (padLoc d ↦{fullShare} f : sProp 𝕄) = bigSep Finset.univ fun w : Fin 32 => padLoc d ↦{tq w} f :=
  pointsTo_leaves Finset.univ f 5 fullShare

/-! ## Workers by SparseCore and subcore -/

/-- Worker numbers are pairs (SparseCore, subcore). -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_) <;> simp only [wid] <;> omega
  right_inv w := Fin.ext (by simp only [wid]; omega)

/-- A family over the 32 workers is one over SparseCores and, within each, subcores. -/
theorem bigSep_workers (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod (fun p : Fin 2 × Fin 16 => Φ (widEquiv p))]
  rfl

end Cert.KernelIdeal.Hand

end
-- ==== Proof.LaunchElem.lean ====
/-
  The launch of the kernel's program. The launch element of the ghost state: the handshakes' rounds, the TensorCore
  pipeline's rounds (its staging cells' states and duty tokens, funded here and handed to @main), the counters.
  A SparseCore's operands are its sixteen workers' pieces, so the split among the subcores is the identity.
-/
import proofs.«206789_g36283883716857_cont_8to1_b_1933_18_alg».proof.Proof.Split

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]
variable (C3 : (d : Dev nD) → Buf (Elt F) (idxLoc d)) (Tb : (d : Dev nD) → Buf (Elt F) (padLoc d))

/-! ## The split of a SparseCore's operands among its subcores -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P C3 Tb) 0 := by
  intro d c
  show (bigSep Finset.univ fun i : Fin 16 => goPts C3 Tb d (wid (Fin.cast nCore_zero c) i)) ⊢ |={Set.univ}=> iprop(
      (bigSep Finset.univ fun i : Fin ((K (F := F)).nSub 0) => goPts C3 Tb d (wid (Fin.cast nCore_zero c) (Fin.cast nSub_zero i)))
      ∗ ((bigSep Finset.univ fun i : Fin ((K (F := F)).nSub 0) => tdPts C3 Tb d (wid (Fin.cast nCore_zero c) (Fin.cast nSub_zero i)))
          -∗ bigSep Finset.univ fun i : Fin 16 => tdPts C3 Tb d (wid (Fin.cast nCore_zero c) i)))
  rw [bigSep_tasks (F := F) (fun i => goPts C3 Tb d (wid (Fin.cast nCore_zero c) i)),
    bigSep_tasks (F := F) (fun i => tdPts C3 Tb d (wid (Fin.cast nCore_zero c) i))]
  iintro H; imodintro
  isplitl [H]; · iexact H
  iintro H; iexact H

/-! ## The launch element of the ghost state -/

/-- What @main is dealt besides the launch's own: the TensorCore pipeline's staging cells' ghost state and its
    duty tokens. -/
abbrev G0 (d : Dev nD) : sProp 𝕄 := iprop(Pipeline.cellsGhost cfgs (EP (F := F)) 0 d ∗ Pipeline.toksInit cfgs (EP (F := F)) 0 d)

def u₀ : UU := (initOf (K (F := F)).hsCells (K (F := F)).hsToks,
  (initOf (Pipeline.cells (nD := nD) (τ := τ) cfgs cellOf_inj) (Pipeline.launchToks (nD := nD) (τ := τ) cfgs cellOf_inj), 1))

theorem EP_eq : (EP (F := F)) = (Emb.inl : Emb UP (UP × Counters)).trans (embR : Emb (UP × Counters) (MT nD τ sig (HIx 1) (Elt F) ℕ UU ℕ)) := rfl

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G0 (F := F) d)
        ∗ bigSep Finset.univ fun thr : Thread nD τ => bigSep Finset.univ fun q : Fin 1 => (P C3 Tb).x q thr) := by
  unfold u₀
  iintro Hu
  ihave H := (ownU_pair (initOf (K (F := F)).hsCells (K (F := F)).hsToks) _) $$ Hu
  icases H with ⟨HH, HR⟩
  ihave H2 := (own_pair_emb (embR : Emb (UP × Counters) (MT nD τ sig (HIx 1) (Elt F) ℕ UU ℕ)) _ _) $$ HR
  icases H2 with ⟨HP, -⟩
  ihave HP := (Entails.of_eq (congrArg (fun E : Emb UP (MT nD τ sig (HIx 1) (Elt F) ℕ UU ℕ) =>
    (BI.own (E (initOf (Pipeline.cells (nD := nD) (τ := τ) cfgs cellOf_inj) (Pipeline.launchToks (nD := nD) (τ := τ) cfgs cellOf_inj))) : sProp 𝕄)) (EP_eq (F := F)).symm)) $$ HP
  imod (Pipeline.fund_ghost (nD := nD) (τ := τ) cfgs (EP (F := F)) cellOf_inj) $$ HP with ⟨Hg, Htok⟩
  imodintro
  isplitl [HH]; · iexact HH
  isplitl [Hg Htok]
  · rw [bigSep_sep']
    isplitl [Hg]
    · iapply (Entails.of_eq (bigSep_congr fun d _ => (bigSep_univ_of_subsingleton (0 : Fin 1) (Φ := fun p => Pipeline.cellsGhost cfgs (EP (F := F)) p d)))) ; iexact Hg
    · iapply (Entails.of_eq (bigSep_congr fun d _ => (bigSep_univ_of_subsingleton (0 : Fin 1) (Φ := fun p => Pipeline.toksInit cfgs (EP (F := F)) p d)))) ; iexact Htok
  rw [show (bigSep Finset.univ fun thr : Thread nD τ => bigSep Finset.univ fun q : Fin 1 => (P (F := F) C3 Tb).x q thr) = bigSep Finset.univ fun _ => iprop(emp) from
    bigSep_congr fun _ _ => bigSep_univ_of_subsingleton (0 : Fin 1), bigSep_emp']
  iempintro

end Cert.KernelIdeal.Hand

end
-- ==== Proof.Main.lean ====
/-
  @main on the TensorCore: the transpose, the TensorCore kernel's region (the padded table), the two reshapes of the
  classes, the SparseCore call (the classes' slabs, the padded table's shares and the gathered array's row blocks
  handed to the 32 workers and taken back, the gathered array at the gathered contents), the column cut and the last
  reshape. The inputs are kept and the result array ends at the stage-by-stage contents.
-/
import proofs.«206789_g36283883716857_cont_8to1_b_1933_18_alg».proof.Proof.HostOps
import proofs.«206789_g36283883716857_cont_8to1_b_1933_18_alg».proof.Proof.LaunchElem

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The TensorCore kernel's region as one rule: from the transposed table at X and the padded table's array at any
    contents, with what the core owes (nothing at the kernels' own index), the region ends with the padded table of X. -/
def PrepRule : Prop :=
  ∀ (d : Dev nD) (X : Buf (Elt F) (tLoc d)) (O : CellTallies nD τ sig (HIx 1)) (W : Waits sig (HIx 1)) (_ : ∀ g, O g none = 0)
    {α : Type} (k : PUnit → Prog (TpuEff nD τ sig (Elt F) (ΛP (F := F)) .tc) α) (Q : α → sProp 𝕄),
    iprop((iprop(boundary (SparseCore.T d) ∗ (tLoc d ↦{fullShare} X) ∗ (padLoc d ↦{fullShare} (padded X : Buf (Elt F) (padLoc d)))
              ∗ ∃ W', ⌜∀ p ∈ W', p ∈ W ∨ p.2 = none⌝ ∗ owes (SparseCore.T d) O W')
            -∗ wp frame (wpE (D (F := F)) 𝒱 (SparseCore.T d) none) Set.univ (k ⟨⟩) Q)
        ∗ boundary (SparseCore.T d) ∗ (tLoc d ↦{fullShare} X) ∗ (∃ f, padLoc d ↦{fullShare} f) ∗ owes (SparseCore.T d) O W
        ∗ levAts (K (F := F)).L (K (F := F)).lev
        ∗ Pipeline.cellsGhost cfgs (EP (F := F)) 0 d ∗ Pipeline.toksInit cfgs (EP (F := F)) 0 d)
      ⊢ wp frame (wpE (D (F := F)) 𝒱 (SparseCore.T d) none) Set.univ (.op (.customCall (Pipeline.entry 0) ()) k) Q

variable (m : (ℓ : Loc nD τ sig) → Buf (Elt F) ℓ) (ρ : Dev nD → PrngReg)

/-- The TensorCore's arrays, all ten. -/
theorem unscopedBufs_eq (d : Dev nD) (W : (b : Ref sig .tc) → Buf (Elt F) ((d.tc : Thread nD τ).loc b)) :
    (unscopedBufs d W : sProp 𝕄) = iprop((clsLoc d ↦{fullShare} W main_arg0) ∗ (bbsLoc d ↦{fullShare} W main_arg1) ∗ (embLoc d ↦{fullShare} W main_arg2)
      ∗ (tLoc d ↦{fullShare} W main_v0) ∗ (padLoc d ↦{fullShare} W main_v1) ∗ (flatLoc d ↦{fullShare} W main_v2) ∗ (idxLoc d ↦{fullShare} W main_v3)
      ∗ (gatLoc d ↦{fullShare} W main_v4) ∗ (cutLoc d ↦{fullShare} W main_v5) ∗ (outLoc d ↦{fullShare} W main_v6)) := by
  unfold unscopedBufs
  rw [show (Finset.univ.filter fun b : Ref sig .tc => ¬ b.isScoped) = {main_arg0, main_arg1, main_arg2, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- What the call takes for the two SparseCores: every worker's pieces; -/
theorem st0_eq (d : Dev nD) : (bigSep Finset.univ fun c : Fin ((K (F := F)).nCore 0) => (P (C3 m) (Tb m)).st 0 d c) = bigSep Finset.univ fun w : Fin 32 => goPts (C3 m) (Tb m) d w := by
  rw [bigSep_workers]; rfl
/-- and what it hands back. -/
theorem dn0_eq (d : Dev nD) : (bigSep Finset.univ fun c : Fin ((K (F := F)).nCore 0) => (P (C3 m) (Tb m)).dn 0 d c) = bigSep Finset.univ fun w : Fin 32 => tdPts (C3 m) (Tb m) d w := by
  rw [bigSep_workers]; rfl

/-- The three arrays, whole, are every worker's pieces. -/
theorem split_workers (d : Dev nD) (f : Buf (Elt F) (gatLoc d)) :
    iprop((idxLoc d ↦{fullShare} C3 m d) ∗ (padLoc d ↦{fullShare} Tb m d) ∗ (gatLoc d ↦{fullShare} f))
      ⊢ (bigSep Finset.univ fun w : Fin 32 => goPts (C3 m) (Tb m) d w : sProp 𝕄) := by
  rw [idx_slabs, pad_shares, gat_blks, bigSep_sep', bigSep_sep']
  have hg : (bigSep Finset.univ fun w : Fin 32 => (gatLoc d ↦[oBlkSet w]{fullShare} f : sProp 𝕄))
      ⊢ bigSep Finset.univ fun w : Fin 32 => iprop(∃ f, gatLoc d ↦[oBlkSet w]{fullShare} f) :=
    bigSep_mono fun w _ => (show (gatLoc d ↦[oBlkSet w]{fullShare} f : sProp 𝕄) ⊢ iprop(∃ f, gatLoc d ↦[oBlkSet w]{fullShare} f) from by
      iintro H; iexists f; iexact H)
  iintro ⟨Hi, Hp, Hg⟩
  isplitl [Hi]; · iexact Hi
  isplitl [Hp]; · iexact Hp
  iapply hg; iexact Hg
/-- Every worker's pieces, the row blocks at the gathered contents, are the three arrays whole. -/
theorem join_workers (d : Dev nD) :
    (bigSep Finset.univ fun w : Fin 32 => tdPts (C3 m) (Tb m) d w : sProp 𝕄)
      ⊢ iprop((idxLoc d ↦{fullShare} C3 m d) ∗ (padLoc d ↦{fullShare} Tb m d) ∗ (gatLoc d ↦{fullShare} G4 m d)) := by
  rw [idx_slabs, pad_shares, gat_blks, bigSep_sep', bigSep_sep']
  exact BI.Entails.refl _

set_option backward.isDefEq.respectTransparency.types false in
theorem lift_entry : (SparseCore.liftProg (Q := 1) (.op (.customCall (Pipeline.entry (0 : Fin 1)) ()) fun _ => .ret ⟨⟩ : Prog (TpuEff nD τ sig (Elt F) (ΛP (F := F)) .tc) PUnit)
    : Prog (TpuEff nD τ sig (Elt F) (SparseCore.Sig (ΛP (F := F)) 1) .tc) PUnit)
    = Prog.lift (.customCall (SparseCore.inner (Pipeline.entry (0 : Fin 1))) ()) := by
  unfold SparseCore.liftProg
  rw [inlProg_op]
  rfl

set_option maxHeartbeats 400000 in
set_option backward.isDefEq.respectTransparency.types false in
/-- The region's rule in the whole program's table. -/
theorem wp_prep_lifted (hprep : PrepRule (F := F)) (d : Dev nD) (X : Buf (Elt F) (tLoc d)) (O : CellTallies nD τ sig (HIx 1)) (W : Waits sig (HIx 1)) (hO : ∀ g, O g none = 0)
    (Φ : PUnit → sProp 𝕄) :
    iprop((iprop(boundary (SparseCore.T d) ∗ (tLoc d ↦{fullShare} X) ∗ (padLoc d ↦{fullShare} (padded X : Buf (Elt F) (padLoc d)))
              ∗ ∃ W', ⌜∀ p ∈ W', p ∈ W ∨ p.2 = none⌝ ∗ owes (SparseCore.T d) O W')
            -∗ wp frame (wpE (D (F := F)) 𝒱 (SparseCore.T d) none) Set.univ (Prog.ret PUnit.unit) Φ)
        ∗ boundary (SparseCore.T d) ∗ (tLoc d ↦{fullShare} X) ∗ (∃ f, padLoc d ↦{fullShare} f) ∗ owes (SparseCore.T d) O W
        ∗ levAts (K (F := F)).L (K (F := F)).lev
        ∗ Pipeline.cellsGhost cfgs (EP (F := F)) 0 d ∗ Pipeline.toksInit cfgs (EP (F := F)) 0 d)
      ⊢ wp frame (wpE ((K (F := F)).defs (D (F := F))) 𝒱 (SparseCore.T d) none) Set.univ
          (Prog.lift (.customCall (SparseCore.inner (Pipeline.entry (0 : Fin 1))) ())) Φ := by
  have h2 := (K (F := F)).wp_liftProg (nD := nD) (Val := Elt F) (Name := ℕ) (U := UU) (D (F := F)) 𝒱 (SparseCore.T d) Set.univ none (.op (.customCall (Pipeline.entry 0) ()) fun _ => .ret ⟨⟩) Φ
  have h1 := hprep d X O W hO (fun _ => .ret ⟨⟩) Φ
  rw [← lift_entry]
  refine BI.Entails.trans ?_ h2
  exact h1

/-! ## @main -/

/-- What @main leaves the claim: the three inputs at their launch contents, the result at the last stage's. -/
abbrev FIN (d : Dev nD) : sProp 𝕄 :=
  iprop((clsLoc d ↦{fullShare} m (clsLoc d)) ∗ (bbsLoc d ↦{fullShare} m (bbsLoc d)) ∗ (embLoc d ↦{fullShare} m (embLoc d)) ∗ (outLoc d ↦{fullShare} G6 m d))

theorem Otc_none (d : Dev nD) (g : GSem nD τ sig) : (K (F := F)).Otc d 0 g none = 0 := by
  by_contra h
  have := (K (F := F)).lev_of_Otc_pos (d := d) (n := 0) (g := g) (ι := none) (Nat.pos_of_ne_zero h)
  exact absurd this (by show ¬ (8 * 0 + 1 ≤ 0); omega)

/-- The TensorCore's handshake state but for what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) : ((K (F := F)).tcSt EH d n : sProp 𝕄)
    = iprop((∃ W, ⌜(K (F := F)).WBelow (SparseCore.T d) W (8 * n)⌝ ∗ owes (SparseCore.T d) ((K (F := F)).Otc d n) W) ∗ tcRest (F := F) d n) := rfl

set_option maxHeartbeats 1000000 in
/-- @main on device d's TensorCore. -/
theorem hmain (hprep : PrepRule (F := F)) (κ : GSem nD τ sig → ℕ) (d : Dev nD) :
    iprop((K (F := F)).ctx EH (P (C3 m) (Tb m)) κ ∗ (K (F := F)).tcSt EH d 0 ∗ (K (F := F)).tcRes m ρ d ∗ G0 (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hcls, Hbbs, Hemb, Ht, Hpad, Hflat, Hidx, Hgat, Hcut, Hout⟩, -, -⟩, ⟨Hcg, Htk⟩⟩
  -- the transpose
  iapply (wp_hlo_pair (fun b => m (d, b)) ((K (F := F)).defs (D (F := F))) 𝒱 d (opT (F := F)) main_arg2 main_v0 (by decide) (Finset.Subset.refl _) (Finset.notMem_singleton.mpr (by decide)) rfl
      (fun cx => transpose S64x1000000 [1, 0] cx Facts₀.transposes_S1000000x64_S64x1000000_1_0) (fun V => StableHlo.unary_result _ _ _ _ _ V)
      (m (embLoc d)) (m (tLoc d)))
  isplitl [Hb]; · iexact Hb
  isplitl [Hemb]; · iexact Hemb
  isplitl [Ht]; · iexact Ht
  iintro %_ ⟨Hb, Hemb, Ht⟩
  rw [wp_ret]; imodintro
  -- the TensorCore kernel's region
  ihave Hst' := (Entails.of_eq (tcSt_eq (F := F) d 0)) $$ Hst
  icases Hst' with ⟨⟨%W, %hW, HO⟩, Hst2⟩
  ihave Hlev := ((K (F := F)).ctx_levAts (EH := EH) (P := P (C3 m) (Tb m)) κ) $$ Hctx
  iapply (wp_prep_lifted hprep d (X0 m d) ((K (F := F)).Otc d 0) W (Otc_none d) _)
  isplitr [Hb Ht Hpad HO Hlev Hcg Htk]
  swap
  · isplitl [Hb]; · iexact Hb
    isplitl [Ht]; · iexact Ht
    isplitl [Hpad]; · iexists _; iexact Hpad
    isplitl [HO]; · iexact HO
    isplitl [Hlev]; · iexact Hlev
    isplitl [Hcg]; · iexact Hcg
    iexact Htk
  iintro ⟨Hb, Ht, Hpad, %W1, %hW1, HO⟩
  rw [wp_ret]; imodintro
  -- the classes, flattened
  iapply (wp_hlo_pair (fun b => m (d, b)) ((K (F := F)).defs (D (F := F))) 𝒱 d (opR1 (F := F)) main_arg0 main_v2 (by decide) (Finset.Subset.refl _) (Finset.notMem_singleton.mpr (by decide)) rfl
      (fun cx => shapeCast S819200 cx Facts₀.shapeCasts_S4096x200_S819200) (fun V => (StableHlo.reshape_result _ _ _ _ _ _ V).trans rfl)
      (m (clsLoc d)) (m (flatLoc d)))
  isplitl [Hb]; · iexact Hb
  isplitl [Hcls]; · iexact Hcls
  isplitl [Hflat]; · iexact Hflat
  iintro %_ ⟨Hb, Hcls, Hflat⟩
  rw [wp_ret]; imodintro
  -- and in slabs
  iapply (wp_hlo_pair (fun b => m (d, b)) ((K (F := F)).defs (D (F := F))) 𝒱 d (opR2 (F := F)) main_v2 main_v3 (by decide) (Finset.Subset.refl _) (Finset.notMem_singleton.mpr (by decide)) rfl
      (fun cx => shapeCast S32x200x128 cx Facts₀.shapeCasts_S819200_S32x200x128) (fun V => (StableHlo.reshape_result _ _ _ _ _ _ V).trans rfl)
      (C2 m d) (m (idxLoc d)))
  isplitl [Hb]; · iexact Hb
  isplitl [Hflat]; · iexact Hflat
  isplitl [Hidx]; · iexact Hidx
  iintro %_ ⟨Hb, Hflat, Hidx⟩
  rw [wp_ret]; imodintro
  -- the SparseCore call
  iapply ((K (F := F)).wp_run (D (F := F)) 𝒱 (EH := EH) (P := P (C3 m) (Tb m)) κ d 0)
  isplitr; · iexact Hctx
  isplitl [HO Hst2]
  · iapply (Entails.of_eq (tcSt_eq (F := F) d 0).symm)
    isplitl [HO]
    · iexists W1; isplitr
      · ipureintro; intro p hp
        rcases hW1 p hp with h | h
        · exact hW p h
        · obtain ⟨sm, ι⟩ := p; cases h; exact Nat.zero_le _
      · iexact HO
    · iexact Hst2
  isplitl [Hidx Hpad Hgat]
  · rw [st0_eq]
    iapply (split_workers m d (m (gatLoc d)))
    isplitl [Hidx]; · iexact Hidx
    isplitl [Hpad]; · iexact Hpad
    iexact Hgat
  iintro ⟨Hst, Hdn⟩
  ihave Hdn' := (Entails.of_eq (dn0_eq m d)) $$ Hdn
  ihave Hj := (join_workers m d) $$ Hdn'
  icases Hj with ⟨Hidx, Hpad, Hgat⟩
  -- the first 64 columns
  iapply (wp_hlo_pair (fun b => m (d, b)) ((K (F := F)).defs (D (F := F))) 𝒱 d (opSl (F := F)) main_v4 main_v5 (by decide) (Finset.Subset.refl _) (Finset.notMem_singleton.mpr (by decide)) rfl
      (fun cx => extractStridedSlice S819200x64 ![0, 0] cx Facts₀.slices_S819200x128_S819200x64_0_0) (fun V => StableHlo.unary_result _ _ _ _ _ V)
      (G4 m d) (m (cutLoc d)))
  isplitl [Hb]; · iexact Hb
  isplitl [Hgat]; · iexact Hgat
  isplitl [Hcut]; · iexact Hcut
  iintro %_ ⟨Hb, Hgat, Hcut⟩
  rw [wp_ret]; imodintro
  -- the result
  iapply (wp_hlo_pair (fun b => m (d, b)) ((K (F := F)).defs (D (F := F))) 𝒱 d (opR3 (F := F)) main_v5 main_v6 (by decide) (Finset.Subset.refl _) (Finset.notMem_singleton.mpr (by decide)) rfl
      (fun cx => shapeCast S4096x200x64 cx Facts₀.shapeCasts_S819200x64_S4096x200x64) (fun V => (StableHlo.reshape_result _ _ _ _ _ _ V).trans rfl)
      (G5 m d) (m (outLoc d)))
  isplitl [Hb]; · iexact Hb
  isplitl [Hcut]; · iexact Hcut
  isplitl [Hout]; · iexact Hout
  iintro %_ ⟨Hb, Hcut, Hout⟩
  rw [wp_ret]; imodintro; imodintro
  isplitl [Hst]; · iexact Hst
  isplitl [Hcls]; · iexact Hcls
  isplitl [Hbbs]; · iexact Hbbs
  isplitl [Hemb]; · iexact Hemb
  iexact Hout

/-! ## The final memory, and the run -/

/-- What the claim reads off the final memory of device d: the result at the last stage's contents, the inputs kept. -/
def fq (d : Dev nD) (s' : Phys nD τ sig (Elt F)) : Prop :=
  s'.mem.mem (outLoc d) = G6 m d ∧ s'.mem.mem (clsLoc d) = m (clsLoc d) ∧ s'.mem.mem (bbsLoc d) = m (bbsLoc d) ∧ s'.mem.mem (embLoc d) = m (embLoc d)

set_option maxRecDepth 16384 in
theorem hfin (d : Dev nD) (s' : Phys nD τ sig (Elt F)) : iprop(FIN m d ∗ SI s') ⊢ (⌜fq m d s'⌝ : sProp 𝕄) := by
  iintro ⟨⟨Hc, Hb, He, Ho⟩, HSI⟩
  ihave H := (persistent_entails_right (SI_pointsTo_agree (st := s') (ℓ := clsLoc d) (I := Finset.univ) (q := fullShare) (f := m (clsLoc d)))) $$ [HSI Hc]
  · isplitl [HSI] <;> iassumption
  icases H with ⟨%h1, HSI, -⟩
  ihave H := (persistent_entails_right (SI_pointsTo_agree (st := s') (ℓ := bbsLoc d) (I := Finset.univ) (q := fullShare) (f := m (bbsLoc d)))) $$ [HSI Hb]
  · isplitl [HSI] <;> iassumption
  icases H with ⟨%h2, HSI, -⟩
  ihave H := (persistent_entails_right (SI_pointsTo_agree (st := s') (ℓ := embLoc d) (I := Finset.univ) (q := fullShare) (f := m (embLoc d)))) $$ [HSI He]
  · isplitl [HSI] <;> iassumption
  icases H with ⟨%h3, HSI, -⟩
  ihave H := (SI_pointsTo_agree (st := s') (ℓ := outLoc d) (I := Finset.univ) (q := fullShare) (f := G6 m d)) $$ [HSI Ho]
  · isplitl [HSI] <;> iassumption
  icases H with %h4
  ipureintro
  exact ⟨funext fun i => h4 i (Finset.mem_univ i), funext fun i => h1 i (Finset.mem_univ i), funext fun i => h2 i (Finset.mem_univ i), funext fun i => h3 i (Finset.mem_univ i)⟩

/-- The run's post: on every device the result array holds the last stage's contents and the inputs are kept. -/
def QC : PUnit × MemSt nD τ sig (Elt F) → Prop := fun r => ∀ c : Dev nD,
  r.2.mem (outLoc c) = G6 m c ∧ r.2.mem (clsLoc c) = m (clsLoc c) ∧ r.2.mem (bbsLoc c) = m (bbsLoc c) ∧ r.2.mem (embLoc c) = m (embLoc c)

/-- The program's run, from the region's rule and the workers' obligation: every weakly fair execution of the device's
    threads terminates, nothing faulting, with the result at the last stage's contents and the inputs kept. -/
theorem run_main [∀ e, Nonempty (Elt F e)] (hprep : PrepRule (F := F))
    (htile : (K (F := F)).TileObl (D (F := F)) 𝒱 (P (C3 m) (Tb m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (C3 m) (Tb m)) facts v₀
    (fun q hq => match q with | 0 => nomatch hq)
    (fun q _ => match q with | 0 => htile)
    (fun q _ => match q with | 0 => SparseCore.Cfg.VecSplit.of_plain (vecSplit (C3 m) (Tb m)))
    m ρ main (G0 (F := F)) (FIN m) (u₀ (F := F)) (sep_elim_left.trans (hu₀ (C3 m) (Tb m))) (hmain m ρ hprep) (fq m) (hfin m) (QC m) (fun _ h => h)

end Cert.KernelIdeal.Hand

end
-- ==== Proof.PrepDat.lean ====
/-
  The TensorCore kernel of the program: its region as one pipeline of 62 points. At point t the pipeline fetches
  columns 16384 t .. 16384 t + 16383 of the transposed table [64, 1000000] into a staging buffer [64, 16384], the body
  stores into a staging buffer [16384, 128] the transposed block in columns 0..63 and zeros in columns 64..127, and the
  pipeline writes that buffer back to rows 16384 t .. of the padded table [1000000, 128]. 62 · 16384 = 1015808 exceeds
  1000000: the last block of either window overhangs its array by 15808, the fetch lands only the 576 columns inside
  the array and the write-back writes only the 576 rows inside it; what the staging buffers hold past the array's end
  nothing names and nothing reads back.
  Here: the pipeline's tables (none) and its proof data; the index maps and the cuts decided over the grid; what the
  body finds in either staging buffer.
-/
import proofs.«206789_g36283883716857_cont_8to1_b_1933_18_alg».proof.Proof.Common
import proofs.«206789_g36283883716857_cont_8to1_b_1933_18_alg».proof.Proof.Gen.KernelIdeal.Points
import Idealize.ShloMosaic.Lib.Pipeline.Regions
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type}

local notation "𝕄" => MT nD τ sig (HIx 1) (Elt F) ℕ UU ℕ

/-! ## The tables of the one pipeline and its proof data -/

/-- The pipeline prefetches no table: its one admissible contents. -/
abbrev adm : (p : Fin 1) → (pcfgs (F := F) p).Adm := fun p => (cfgs p).toPCfg_adm

/-- The pipelines at those contents: the printed configurations again. -/
abbrev pcs : Fin 1 → Pipeline.Cfg sig Λ₀ := Pipeline.pin (pcfgs (F := F)) adm

section Data

variable [FloatOps F] (X : S64x1000000.Idx → F .f32) (f : S1000000x128.Idx → F .f32) (O : CellTallies nD τ sig (HIx 1))
  (W : Waits sig (HIx 1))

/-- Block t of the transposed table as the fetch reads it: columns 16384 t .. of all 64 rows, those inside the array. -/
def xblk (t : Fin cfg0.N) : (win0_0.xblock (grid0.coords t)).Idx → Elt F .f32 :=
  (win0_0.blk t).view.read (Elt F) X

/-- Block t of the padded table: rows 16384 t .. inside the array, all 128 columns. -/
def pblk (t : Fin cfg0.N) : (win0_1.xblock (grid0.coords t)).Idx → Elt F .f32 :=
  (win0_1.blk t).view.read (Elt F) (padded X)

/-- The proof data: the transposed table at X and the result array at what it held; after the body at point t the
    input's staging buffer holds its block and the result's holds block t of the padded table, each stated on the part
    inside the array only (both windows' last blocks overhang) and filled out with the zero word; no invariant; the
    tallies owed never change and the recorded waits stay within those the region was entered with; full shares. -/
def dat (c : Dev nD) : Dat τ (Elt F) (HIx 1) ℕ UU ℕ cfg0 c where
  A w := match w with
    | ⟨0, _⟩ => X
    | ⟨1, _⟩ => f
  after w t := match w with
    | ⟨0, _⟩ => win0_0.fill (grid0.coords t) (fun _ => Scalar.ofBits .f32 0#32) (xblk X t)
    | ⟨1, _⟩ => win0_1.fill (grid0.coords t) (fun _ => Scalar.ofBits .f32 0#32) (pblk X t)
  Φ _ := iprop(emp)
  q _ := fullShare
  owed _ := O
  recorded _ := ↑W

/-- The same as the one pipeline's data at the tables. -/
def dats (p : Fin 1) (c : Dev nD) : Dat τ (Elt F) (HIx 1) ℕ UU ℕ (pcs (F := F) p) c := dat X f O W c

end Data

/-! ## The index maps and the cuts, decided over the grid -/

/-- Window 0's block at point t is columns 16384 t .. of all 64 rows, window 1's is rows 16384 t .. of all 128 columns;
    each is cut at the array's end on its long axis. -/
theorem idx_facts : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_0.xsize (grid0.coords t) (0 : Fin 2) = 64
    ∧ win0_0.xsize (grid0.coords t) (1 : Fin 2) = min 16384 (1000000 - 16384 * t.val)
    ∧ win0_1.xsize (grid0.coords t) (0 : Fin 2) = min 16384 (1000000 - 16384 * t.val)
    ∧ win0_1.xsize (grid0.coords t) (1 : Fin 2) = 128 :=
  (by decide +kernel : ∀ t : Fin grid0.N, _)

section Before

variable [FloatOps F] (X : S64x1000000.Idx → F .f32) (f : S1000000x128.Idx → F .f32) (O : CellTallies nD τ sig (HIx 1))
  (W : Waits sig (HIx 1))

/-- What the body finds: the input's buffer just fetched — its block on the part inside the array, d elsewhere —, -/
theorem before0 (c : Dev nD) (t : Fin cfg0.N) (d) :
    (dat X f O W c).before (0 : Fin 2) t d = win0_0.fill (grid0.coords t) d (xblk X t) := by
  unfold Dat.before; rw [if_pos (fetch0_0 t)]; rfl

/-- the result's buffer at contents nothing names (the point before wrote it back). -/
theorem before1 (c : Dev nD) (t : Fin cfg0.N) (d) : (dat X f O W c).before (1 : Fin 2) t d = d :=
  (dat X f O W c).before_out_reset (1 : Fin 2) rfl t
    (by by_cases h0 : t.val = 0
        · exact .inl h0
        · exact .inr ⟨h0, flush0_1 _⟩) d

end Before

end Cert.KernelIdeal.Hand

end
-- ==== Proof.PrepBody.lean ====
/-
  The TensorCore kernel's body at a symbolic point of the grid: it loads the whole input staging buffer, stores into the
  whole result staging buffer the loaded block transposed in columns 0..63 and zeros in columns 64..127 (after a load of
  the result buffer nothing reads). On the rows inside the array that stored value is the padded table's block: row r of
  the result block lies inside the array exactly when column r of the input block does, so the words the fetch did not
  land are never among them.
-/
import proofs.«206789_g36283883716857_cont_8to1_b_1933_18_alg».proof.Proof.PrepDat
import proofs.«206789_g36283883716857_cont_8to1_b_1933_18_alg».proof.Proof.Gen.KernelIdeal.Skeleton
import Idealize.ShloMosaic.Lib.ValueLayout
import Idealize.ShloMosaic.Lib.Tactic

set_option maxRecDepth 16384
noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type}

local notation "𝕄" => MT nD τ sig (HIx 1) (Elt F) ℕ UU ℕ

variable [FloatOps F] [∀ e, Nonempty (Elt F e)]

theorem hz : (![0, 0] : Fin 2 → Nat) = fun _ => 0 := funext fun a => by fin_cases a <;> rfl

abbrev rIn : Rect S64x16384 := Rect.unit (s := S64x16384) ![0, 0] S64x16384.size inb_S64x16384_S64x16384_0_0
abbrev rOut : Rect S16384x128 := Rect.unit (s := S16384x128) ![0, 0] S16384x128.size inb_S16384x128_S16384x128_0_0

set_option maxHeartbeats 1000000 in
theorem sound_kernel (c : Dev nD) (E : Set ℕ) (i : grid0.Coords) (arg1 : Memref sig .tc .vmem S64x16384 .f32) (harg1 : arg1.IsWhole)
    (arg2 : Memref sig .tc .vmem S16384x128 .f32) (harg2 : arg2.IsWhole)
    (x0 : Vec F S64x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__prep_body i arg1 harg1 arg2 harg2) K := by
  simp only [cc0__prep_body_eq_skeleton]; unfold cc0__prep_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  rw [View.read_writes_eq_canon _ _ _ (View.cover_of_tiled _ S16384x128.size (by rfl)), View.canon_unit_zero hz]
  exact congrArg k0_pay1 (View.ld_unit_zero (S := S64x16384) hz _ (View.read (Elt F) arg1.view f0))

/-! ## The stored value, read at an index -/

/-- The value the body stores: row r holds column r of the loaded block in columns 0..63 and zeros in columns 64..127. -/
theorem pay_apply (x0 : Vec F S64x16384 .f32) (r : Fin 16384) (cc : Fin 128) :
    k0_pay1 x0 (ix2 r cc) = if h : cc.val < 64 then x0 (ix2 (⟨cc.val, h⟩ : Fin 64) r) else (Scalar.ofBits .f32 0x00000000#32 : F .f32) := by
  show concatenate S16384x128 1 [⟨S16384x64, transpose S16384x64 [1, 0] (shapeCast S64x16384 x0 shapeCasts_S64x16384_S64x16384) transposes_S64x16384_p1_0_S16384x64⟩,
      ⟨S16384x64, broadcast S16384x64 (Scalar.ofBits .f32 0x00000000#32 : F .f32)⟩] concatenates_S16384x64_S16384x64_S16384x128_d1 (ix2 r cc) = _
  split
  · next h =>
    rw [concatenate_pair_apply_left (t := S16384x128) (s₁ := S16384x64) (s₂ := S16384x64) (1 : Fin 2) _ _ _ (ix2 r cc) rfl (ix2 r (⟨cc.val, h⟩ : Fin 64)) (fun b => match b with | ⟨0, _⟩ => rfl | ⟨1, _⟩ => rfl)]
    rw [transpose_ix2_apply, shapeCast_self]
  · next h =>
    rw [concatenate_pair_apply_right (t := S16384x128) (s₁ := S16384x64) (s₂ := S16384x64) (1 : Fin 2) _ _ _ (ix2 r cc) rfl rfl (ix2 r (⟨cc.val - 64, by have := cc.isLt; omega⟩ : Fin 64))
      (fun b hb => match b, hb with | ⟨0, _⟩, _ => rfl | ⟨1, _⟩, hb => absurd rfl hb) (by show cc.val - 64 + 64 = cc.val; omega)]
    rfl

section Body2

variable (X : S64x1000000.Idx → F .f32) (f : S1000000x128.Idx → F .f32) (O : CellTallies nD τ sig (HIx 1))
  (W : Waits sig (HIx 1))

/-- What the body stores, on the rows inside the array, is block t of the padded table — whatever the loaded buffer
    held past the array's end: row r of the block is inside the array exactly when column r of the input block is. -/
theorem pay_cut (t : Fin cfg0.N) (d0 : S64x16384.Idx → F .f32) :
    win0_1.cut (grid0.coords t) (k0_pay1 (win0_0.fill (grid0.coords t) d0 (xblk X t))) = pblk X t := by
  obtain ⟨e00, e01, e10, e11, s00, s01, s10, s11⟩ := idx_facts t
  funext j
  have hr : (j 0).val < win0_1.xsize (grid0.coords t) 0 := (j 0).isLt
  have hc : (j 1).val < win0_1.xsize (grid0.coords t) 1 := (j 1).isLt
  rw [s10] at hr; rw [s11] at hc
  have hr' : (j 0).val < 16384 := by omega
  show k0_pay1 _ (win0_1.xinj (grid0.coords t) j) = padded X ((win0_1.blk t).view.emb j)
  rw [show win0_1.xinj (grid0.coords t) j = ix2 (⟨(j 0).val, hr'⟩ : Fin 16384) (⟨(j 1).val, hc⟩ : Fin 128) from
    funext fun a => match a with | ⟨0, _⟩ => rfl | ⟨1, _⟩ => rfl]
  rw [pay_apply]
  unfold padded
  have e1 : (((win0_1.blk t).view.emb j) 1).val = (j 1).val := by
    show win0_1.index t 1 * 128 + 1 * (j 1).val = _; rw [e11]; omega
  have e0 : (((win0_1.blk t).view.emb j) 0).val = 16384 * t.val + (j 0).val := by
    show win0_1.index t 0 * 16384 + 1 * (j 0).val = _; rw [e10]; omega
  by_cases h : (j 1).val < 64
  · rw [dif_pos h, dif_pos (show (((win0_1.blk t).view.emb j) 1).val < 64 by rw [e1]; exact h)]
    have hm : win0_0.moved (grid0.coords t) (ix2 (⟨(j 1).val, h⟩ : Fin 64) (⟨(j 0).val, hr'⟩ : Fin 16384)) = true :=
      (win0_0.moved_iff _ _).mpr fun a => match a with
        | ⟨0, _⟩ => by show (j 1).val < win0_0.xsize (grid0.coords t) 0; rw [s00]; exact h
        | ⟨1, _⟩ => by show (j 0).val < win0_0.xsize (grid0.coords t) 1; rw [s01]; exact hr
    unfold Window.fill; rw [dif_pos hm]
    show X ((win0_0.blk t).view.emb _) = X _
    refine congrArg X (funext fun a => Fin.ext ?_)
    match a with
    | ⟨0, _⟩ =>
      show win0_0.index t 0 * 64 + 1 * (j 1).val = (((win0_1.blk t).view.emb j) 1).val
      rw [e00, e1]; omega
    | ⟨1, _⟩ =>
      show win0_0.index t 1 * 16384 + 1 * (j 0).val = (((win0_1.blk t).view.emb j) 0).val
      rw [e01, e0]; omega
  · rw [dif_neg h, dif_neg (show ¬ (((win0_1.blk t).view.emb j) 1).val < 64 by rw [e1]; exact h)]

/-- The library's body obligation, at every point: the input's buffer arrives holding its block filled out past the
    array's end with anything, the result's holding anything; the input's leaves as it came and the result's holding
    the stored value, which on the rows inside the array is the padded table's block — all either loose window's
    obligation asks. The invariant is empty and the tallies owed pass through: the body waits for nothing. -/
theorem body_obligation (c : Dev nD) : BodyObligationLoose (dat X f O W c) (defs₀ (F := F)) 𝒱₀ (none : HIx 1) Set.univ := fun t => by
  rw [bigSep_W0, bigSep_W0]
  simp only
  rw [show (dat X f O W c).Φ t.succ = (dat X f O W c).Φ t.castSucc from rfl,
    show (dat X f O W c).owesAt (none : HIx 1) t.succ = (dat X f O W c).owesAt (none : HIx 1) t.castSucc from rfl]
  iintro ⟨HΦ, Ho, ⟨%d0, H0⟩, ⟨%d1, H1⟩⟩
  rw [before0 X f O W c t d0, before1 X f O W c t d1]
  iapply (sound_kernel (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_0.fill (grid0.coords t) d0 (xblk X t)) _)
  isplitl [H0]; · iexact H0
  isplitl [H1]; · iexists d1; iexact H1
  iintro ⟨H0, H1⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (win0_0.fill (grid0.coords t) (fun _ => Scalar.ofBits .f32 0#32) (xblk X t))))
    rw [Window.cut_fill]; try iexact H0
  · iexists k0_pay1 (win0_0.fill (grid0.coords t) d0 (xblk X t))
    change _ ⊢ owns (c : Thread nD τ) (stage0_1 (cfg0.slots t 1)) fullShare
      (win0_1.fill (grid0.coords t) (k0_pay1 (win0_0.fill (grid0.coords t) d0 (xblk X t)))
        (win0_1.cut (grid0.coords t) (win0_1.fill (grid0.coords t) (fun _ => Scalar.ofBits .f32 0#32) (pblk X t))))
    rw [Window.cut_fill, ← pay_cut X t d0, Window.fill_cut]; try iexact H1

end Body2

end Cert.KernelIdeal.Hand

end
-- ==== Proof.PrepValue.lean ====
/-
  From blocks to the array: what point t writes back is block t of the padded table, and the 62 blocks' rows inside the
  array — 16384 t .. 16384 t + 16383 for t < 61, 999424 .. 999999 for t = 61 — are all its rows (row r lies in block
  r / 16384). So after the last write-back the result array holds the padded table, whatever it held before; the
  transposed table is never written.
-/
import proofs.«206789_g36283883716857_cont_8to1_b_1933_18_alg».proof.Proof.PrepDat

noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type}

local notation "𝕄" => MT nD τ sig (HIx 1) (Elt F) ℕ UU ℕ

variable [FloatOps F] (X : S64x1000000.Idx → F .f32) (f : S1000000x128.Idx → F .f32) (O : CellTallies nD τ sig (HIx 1))
  (W : Waits sig (HIx 1))

/-- What point t writes back is block t of the padded table. -/
theorem flushed_eq (c : Dev nD) (t : Fin cfg0.N) :
    (dat X f O W c).flushed (1 : Fin 2) t = ((cfg0.win 1).blk t).view.read (Elt F) (padded X) := by
  show win0_1.cut (grid0.coords t) (win0_1.fill (grid0.coords t) (fun _ => Scalar.ofBits .f32 0#32) (pblk X t)) = _
  rw [Window.cut_fill]; rfl

/-- An index of the array is in point t's block iff each coordinate is in the block's range, cut at the array's end. -/
theorem mem_blk (t : Fin cfg0.N) (i : S1000000x128.Idx) :
    i ∈ ((cfg0.win 1).blk t).view.set ↔ ∀ a : Fin 2, win0_1.index t a * S16384x128.size a ≤ (i a).val
      ∧ (i a).val < win0_1.index t a * S16384x128.size a + win0_1.xsize (grid0.coords t) a := by
  show i ∈ ((View.whole main_v1).slice (win0_1.rect t)).set ↔ _
  rw [View.set_slice_whole, Rect.mem_set_unit]
  exact Iff.rfl

/-- Every index of the array is in some point's block: row r in block r / 16384. -/
theorem cover (i : S1000000x128.Idx) : ∃ t : Fin cfg0.N, (cfg0.win 1).flush t = true ∧ i ∈ ((cfg0.win 1).blk t).view.set := by
  have hi0 : (i 0).val < 1000000 := (i 0).isLt
  have hi1 : (i 1).val < 128 := (i 1).isLt
  have hN : (i 0).val / 16384 < cfg0.N := by rw [show cfg0.N = 62 from N_0]; omega
  obtain ⟨t, ht⟩ : ∃ t : Fin cfg0.N, t.val = (i 0).val / 16384 := ⟨⟨_, hN⟩, rfl⟩
  refine ⟨t, flush0_1 t, ?_⟩
  rw [mem_blk]
  obtain ⟨e00, e01, e10, e11, s00, s01, s10, s11⟩ := idx_facts t
  intro a
  match a with
  | ⟨0, _⟩ =>
    show win0_1.index t 0 * 16384 ≤ (i 0).val ∧ (i 0).val < win0_1.index t 0 * 16384 + win0_1.xsize (grid0.coords t) 0
    rw [e10, s10]; omega
  | ⟨1, _⟩ =>
    show win0_1.index t 1 * 128 ≤ (i 1).val ∧ (i 1).val < win0_1.index t 1 * 128 + win0_1.xsize (grid0.coords t) 1
    rw [e11, s11]; omega

/-- After the last write-back the result array holds the padded table; -/
theorem arrAt_pad (c : Dev nD) : (dat X f O W c).arrAt (1 : Fin 2) cfg0.N = padded X :=
  (dat X f O W c).arrAt_eq_of_cover (1 : Fin 2) (padded X) (fun t _ => flushed_eq X f O W c t) cover

/-- the transposed table, an input, is never written. -/
theorem arrAt_tab (c : Dev nD) (n : Nat) : (dat X f O W c).arrAt (0 : Fin 2) n = X :=
  (dat X f O W c).arrAt_in (0 : Fin 2) rfl n

end Cert.KernelIdeal.Hand

end
-- ==== Proof.Prep.lean ====
/-
  The TensorCore kernel's region as one rule: entered holding the transposed table at X and the result array at any
  contents, owing the SparseCores' start signals, it leaves the transposed table at X, the result array at the padded
  table of X, and the same tallies owed — the pipeline's own waits, at the index no call uses, the only pairs recorded
  besides. The pipeline has no semaphore and no invariant of its own and prefetches no table; every other array of the
  program stays outside.
-/
import proofs.«206789_g36283883716857_cont_8to1_b_1933_18_alg».proof.Proof.PrepBody
import proofs.«206789_g36283883716857_cont_8to1_b_1933_18_alg».proof.Proof.PrepValue

noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type}

local notation "𝕄" => MT nD τ sig (HIx 1) (Elt F) ℕ UU ℕ

variable [FloatOps F] [∀ e, Nonempty (Elt F e)]

/-- A pipeline that prefetches no table holds none. -/
theorem prefHeld_none (c : Dev nD) (q) (V) :
    (Pipeline.prefHeld (pcfgs (F := F) 0).pre c q V : sProp 𝕄) = iprop(emp) := by
  unfold Pipeline.prefHeld; rw [Finset.univ_eq_empty, BI.bigSep_empty]; rfl

section Region

variable (X : S64x1000000.Idx → F .f32) (f : S1000000x128.Idx → F .f32) (O : CellTallies nD τ sig (HIx 1))
  (W : Waits sig (HIx 1)) (hO : ∀ g, O g none = 0)

/-- The arrays of the pipeline, one by one. -/
theorem arrays_eq (c : Dev nD) (G : (w : Fin cfg0.W) → Buf (Elt F) ((cfg0.win w).arr.view.loc (c.tc : Thread nD τ))) :
    ((dat X f O W c).arrays G : sProp 𝕄) = iprop((tLoc c ↦{fullShare} G 0) ∗ (padLoc c ↦{fullShare} G 1)) := by
  refine (Pipeline.arrays_eq (pcs (F := F)) (dats X f O W) 0 c arr_whole0 ((dat X f O W c).share_full fun _ => rfl) G).trans ?_
  rw [bigSep_W0]

/-- The region: no semaphore of the kernel's own, the body obligation, the waits' evidence from the launch's levels (the
    TensorCore owes only at calls' indices, the pipeline waits at none), and the protocol around it. -/
def region : Pipeline.RegionSeg (pcfgs (F := F)) adm (dats X f O W) (none : HIx 1) (defs₀ (F := F)) 𝒱₀
    (K (F := F)).L (K (F := F)).lev (0 : Fin 1) where
  win := winFacts0.to₀
  block_pos := block_pos0
  stage_whole := stage_whole0
  K := PEmpty
  osem := fun k => k.elim
  ho := Pipeline.OwnSemFacts.none _
  hbody := fun c => body_obligation X f O W c
  hwaits := fun c => Pipeline.cellsWaits_intro (pcs (F := F)) (dats X f O W) (none : HIx 1) 0 c fun w s t =>
    (K (F := F)).mayWait_none _ hO
  pre := fun c => iprop((tLoc c ↦{fullShare} X) ∗ (padLoc c ↦{fullShare} f) ∗ owes (SparseCore.T c) O W)
  post := fun c => iprop((tLoc c ↦{fullShare} X) ∗ (padLoc c ↦{fullShare} (padded X : Buf (Elt F) (padLoc c)))
    ∗ ∃ W', ⌜∀ p ∈ W', p ∈ W ∨ p.2 = none⌝ ∗ owes (SparseCore.T c) O W')
  X := fun _ => iprop(emp)
  Y := fun _ => iprop(emp)
  Z := fun _ => iprop(emp)
  hentry := fun c => by
    rw [prefHeld_none]
    show _ ⊢ |={Set.univ}=> iprop((dat X f O W c).arrays ((dat X f O W c).arrAt · 0) ∗ emp ∗ (dat X f O W c).owesAt (none : HIx 1) 0 ∗ emp ∗ emp)
    rw [arrays_eq]
    iintro ⟨⟨HX, Hf, Ho⟩, -, -⟩
    imodintro
    isplitl [HX Hf]
    · isplitl [HX]
      · iexact HX
      · iexact Hf
    isplitr; · iempintro
    isplitl [Ho]
    · iexists W; isplitr; · ipureintro; exact Set.subset_union_left
      iexact Ho
    isplitr <;> iempintro
  hin := fun c => by iintro -; iempintro
  hout := fun c => by
    rw [scopedRest0_eq, Pipeline.ownSems0_none]
    iintro -; isplitr; · iempintro
    isplitr <;> iempintro
  hexit := fun c => by
    show iprop((dat X f O W c).arrays ((dat X f O W c).arrAt · cfg0.N) ∗ (dat X f O W c).owesAt (none : HIx 1) (Fin.last cfg0.N) ∗ emp ∗ emp) ⊢ _
    rw [arrays_eq, arrAt_tab, arrAt_pad]
    iintro ⟨⟨HX, Hp⟩, ⟨%W', %hW', Ho⟩, -, -⟩
    imodintro
    isplitl [HX]; · iexact HX
    isplitl [Hp]; · iexact Hp
    iexists W'; isplitr
    · ipureintro
      exact fun p hp => (hW' (Finset.mem_coe.mpr hp)).elim (fun h => .inl (Finset.mem_coe.mp h)) (fun ⟨w, s, e⟩ => .inr (by rw [e]))
    iexact Ho

end Region

set_option backward.isDefEq.respectTransparency.types false in
/-- THE REGION, AS ONE RULE. From the boundary, the transposed table at X, the result array at any contents, the
    TensorCore owing O with recorded waits W (nothing owed at the index no call uses), the launch's levels and the
    pipeline's ghost state, the kernel's region runs to the boundary, the transposed table at X, the result array at the
    padded table of X, and the TensorCore owing O still, its recorded waits those of W and the pipeline's own. -/
theorem wp_prep (d : Dev nD) (X : Buf (Elt F) (tLoc d))
    (O : CellTallies nD τ sig (HIx 1)) (W : Waits sig (HIx 1)) (hO : ∀ g, O g none = 0)
    {α : Type} (k : PUnit → Prog (TpuEff nD τ sig (Elt F) (ΛP (F := F)) .tc) α) (Q : α → sProp 𝕄) :
    iprop((iprop(boundary (SparseCore.T d) ∗ (tLoc d ↦{fullShare} X) ∗ (padLoc d ↦{fullShare} (padded X : Buf (Elt F) (padLoc d)))
              ∗ ∃ W', ⌜∀ p ∈ W', p ∈ W ∨ p.2 = none⌝ ∗ owes (SparseCore.T d) O W')
            -∗ wp frame (wpE (D (F := F)) 𝒱 (SparseCore.T d) none) Set.univ (k ⟨⟩) Q)
        ∗ boundary (SparseCore.T d) ∗ (tLoc d ↦{fullShare} X) ∗ (∃ f, padLoc d ↦{fullShare} f) ∗ owes (SparseCore.T d) O W
        ∗ levAts (K (F := F)).L (K (F := F)).lev
        ∗ Pipeline.cellsGhost (pcs (F := F)) EP 0 d ∗ Pipeline.toksInit (pcs (F := F)) EP 0 d)
      ⊢ wp frame (wpE (D (F := F)) 𝒱 (SparseCore.T d) none) Set.univ (.op (.customCall (Pipeline.entry 0) ()) k) Q := by
  iintro ⟨Hk, Hb, HX, ⟨%f, Hf⟩, Ho, Hlev, Hg, Ht⟩
  iapply (Pipeline.RegionSeg.wp (pcfgs (F := F)) adm (dats X f O W) (none : HIx 1) cellOf_inj EP (defs₀ (F := F)) 𝒱₀
    (K (F := F)).L (K (F := F)).lev (region X f O W hO) d none (fun _ h => nomatch h) k Q)
  isplitl [Hk]; · iexact Hk
  isplitl [Hb]; · iexact Hb
  isplitl [HX Hf Ho]
  · iapply (show iprop((tLoc d ↦{fullShare} X) ∗ (padLoc d ↦{fullShare} f) ∗ owes (SparseCore.T d) O W) ⊢ (region X f O W hO).pre d from BI.Entails.refl _)
    isplitl [HX]; · iexact HX
    isplitl [Hf]; · iexact Hf
    iexact Ho
  isplitl [Hlev]; · iexact Hlev
  isplitl [Hg]; · iexact Hg
  iexact Ht

end Cert.KernelIdeal.Hand

end
-- ==== Proof.TileViews.lean ====
/-
  The vector subcore's task, part one: the names of the pieces of memory it touches. Worker (c, i) — subcore i of
  SparseCore c — has number 2 i + c; it owns slab 2 i + c of the classes, rows 25600 (2 i + c) .. + 25599 of the
  gathered array, cut into 200 chunks of 128 rows, the 200 rows of its index scratch and the five slots of its stage
  buffer. The printed body spells each of these through offset functions of the place and the trip; here each gets one
  name over the chunk number, the equations between the two spellings, and the closed forms of the five conditions
  of a trip (stage 0's holds from trip 1 on, the others' up to trip 38).
-/
import proofs.«206789_g36283883716857_cont_8to1_b_1933_18_alg».proof.Proof.Common
import proofs.«206789_g36283883716857_cont_8to1_b_1933_18_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S32x200x128 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v4_scv : Memref Cert.KernelIdeal.sig Kind.scVector Space.hbm Cert.KernelIdeal.S819200x128 EltTy.f32)
local notation "xV" => (Memref.whole Cert.KernelIdeal.cc1_scratch0 : Memref Cert.KernelIdeal.sig Kind.scVector Space.vmem Cert.KernelIdeal.S200x128 EltTy.i32)
local notation "bV" => (Memref.whole Cert.KernelIdeal.cc1_scratch1 : Memref Cert.KernelIdeal.sig Kind.scVector Space.vmem Cert.KernelIdeal.S5x128x128 EltTy.f32)

/-! ## The thread -/

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

theorem trips_lt (k : Fin k1_t1_loop.trips) : k.val < 40 := Nat.lt_of_lt_of_le k.isLt k1_t1_abs.2.1

/-! ## The worker's slab of the classes, as the body slices it -/

abbrev islabK (L : grid1.Coords) : Rect S32x200x128 := Rect.unit (s := S32x200x128) (k1_off1 L) S1x200x128.size (k1_off1_inb L)
abbrev iSlabK (L : grid1.Coords) : Memref sig .scVector .hbm S200x128 .i32 := ((iV).slice (islabK L) (fun _ => rfl)).squeeze S200x128 squeezes_S1x200x128_S200x128

/-! ## Chunk c of the worker's rows of the gathered array, and row c of its index scratch -/

/-- The first row of the worker's block of the gathered array. -/
abbrev obase (L : grid1.Coords) : ℕ := 51200 * (L 1).val + 25600 * (L 0).val

theorem oWin_inb (L : grid1.Coords) (c : ℕ) : ∀ a, (![obase L + 128 * (c % 200), 0] : Fin 2 → Nat) a + S128x128.size a ≤ S819200x128.size a := by
  have h0 : (L 0).val < 2 := (L 0).isLt
  have h1 : (L 1).val < 16 := (L 1).isLt
  have hc : c % 200 < 200 := Nat.mod_lt _ (by norm_num)
  intro a; fin_cases a
  · show 51200 * (L 1).val + 25600 * (L 0).val + 128 * (c % 200) + 128 ≤ 819200; omega
  · show 0 + 128 ≤ 128; omega
/-- Rows 128 c .. 128 c + 127 of the worker's block (c taken modulo 200, so that the name is total). -/
def oWin (L : grid1.Coords) (c : ℕ) : Memref sig .scVector .hbm S128x128 .f32 :=
  (oV).slice (Rect.unit (s := S819200x128) ![obase L + 128 * (c % 200), 0] S128x128.size (oWin_inb L c)) (fun _ => rfl)

theorem xRow_inb (c : ℕ) : ∀ a, (![c % 200, 0] : Fin 2 → Nat) a + S1x128.size a ≤ S200x128.size a := by
  have hc : c % 200 < 200 := Nat.mod_lt _ (by norm_num)
  intro a; fin_cases a
  · show c % 200 + 1 ≤ 200; omega
  · show 0 + 128 ≤ 128; omega
/-- Row c of the index scratch, as a [1, 128] window (a gather reads it squeezed to a list of 128 words). -/
def xRowS (c : ℕ) : Memref sig .scVector .vmem S1x128 .i32 :=
  (xV).slice (Rect.unit (s := S200x128) ![c % 200, 0] S1x128.size (xRow_inb c)) (fun _ => rfl)

/-! ## The trip's conditions in closed form -/

theorem k1_cond1_iff : ∀ k : Fin k1_t1_loop.trips, k1_cond1 k = 1#1 ↔ 1 ≤ k.val := by decide +kernel
theorem k1_cond2_iff : ∀ k : Fin k1_t1_loop.trips, k1_cond2 k = 1#1 ↔ k.val ≤ 38 := by decide +kernel
theorem k1_cond3_iff : ∀ k : Fin k1_t1_loop.trips, k1_cond3 k = 1#1 ↔ k.val ≤ 38 := by decide +kernel
theorem k1_cond4_iff : ∀ k : Fin k1_t1_loop.trips, k1_cond4 k = 1#1 ↔ k.val ≤ 38 := by decide +kernel
theorem k1_cond5_iff : ∀ k : Fin k1_t1_loop.trips, k1_cond5 k = 1#1 ↔ k.val ≤ 38 := by decide +kernel

/-- Stage 0's wait names the chunk before the trip's first. -/
theorem k1_off4_eq : ∀ (i : grid1.Coords) (k : Fin k1_t1_loop.trips), k1_cond1 k = 1#1 →
    k1_off4 i k = ![51200 * (i 1).val + 25600 * (i 0).val + 640 * k.val - 128, 0] := by decide +kernel

/-! ## The offsets the body computes name these chunks and rows -/

theorem vec2_congr {a a' : ℕ} (h : a = a') : (![a, 0] : Fin 2 → ℕ) = ![a', 0] := by rw [h]

theorem off3_c (L : grid1.Coords) (k : Fin k1_t1_loop.trips) (r : Fin 5) :
    k1_off3 L k (BitVec.ofNat 32 r.val) = ![obase L + 128 * ((5 * k.val + r.val) % 200), 0] := by
  have hk := trips_lt k; have hr := r.isLt
  rw [k1_off3_eq]; exact vec2_congr (by unfold obase; omega)
theorem off4_c (L : grid1.Coords) (k : Fin k1_t1_loop.trips) (hk1 : 1 ≤ k.val) :
    k1_off4 L k = ![obase L + 128 * ((5 * k.val - 1) % 200), 0] := by
  have hk := trips_lt k
  rw [k1_off4_eq L k ((k1_cond1_iff k).2 hk1)]; exact vec2_congr (by unfold obase; omega)
theorem off6_c (L : grid1.Coords) (k : Fin k1_t1_loop.trips) : k1_off6 L k = ![obase L + 128 * ((5 * k.val + 0) % 200), 0] := by
  have hk := trips_lt k
  rw [k1_off6_eq]; exact vec2_congr (by unfold obase; omega)
theorem off8_c (L : grid1.Coords) (k : Fin k1_t1_loop.trips) : k1_off8 L k = ![obase L + 128 * ((5 * k.val + 1) % 200), 0] := by
  have hk := trips_lt k
  rw [k1_off8_eq]; exact vec2_congr (by unfold obase; omega)
theorem off10_c (L : grid1.Coords) (k : Fin k1_t1_loop.trips) : k1_off10 L k = ![obase L + 128 * ((5 * k.val + 2) % 200), 0] := by
  have hk := trips_lt k
  rw [k1_off10_eq]; exact vec2_congr (by unfold obase; omega)
theorem off12_c (L : grid1.Coords) (k : Fin k1_t1_loop.trips) : k1_off12 L k = ![obase L + 128 * ((5 * k.val + 3) % 200), 0] := by
  have hk := trips_lt k
  rw [k1_off12_eq]; exact vec2_congr (by unfold obase; omega)
theorem off14_c (L : grid1.Coords) (r : Fin 5) : k1_off14 L (BitVec.ofNat 32 (24960 + 128 * r.val)) = ![obase L + 128 * ((195 + r.val) % 200), 0] := by
  have hr := r.isLt
  rw [k1_off14_eq]; exact vec2_congr (by unfold obase; omega)

theorem off2_c (k : Fin k1_t1_loop.trips) (r : Fin 5) : k1_off2 k (BitVec.ofNat 32 r.val) = ![(5 * k.val + r.val) % 200, 0] := by
  have hk := trips_lt k; have hr := r.isLt
  rw [k1_off2_eq]; exact vec2_congr (by omega)
theorem off5_c (k : Fin k1_t1_loop.trips) : k1_off5 k = ![(5 * k.val + 4) % 200, 0] := by
  have hk := trips_lt k
  rw [k1_off5_eq]; exact vec2_congr (by omega)
theorem off7_c (k : Fin k1_t1_loop.trips) (hk38 : k.val ≤ 38) : k1_off7 k = ![(5 * k.val + 5) % 200, 0] := by
  rw [k1_off7_eq]; exact vec2_congr (by omega)
theorem off9_c (k : Fin k1_t1_loop.trips) (hk38 : k.val ≤ 38) : k1_off9 k = ![(5 * k.val + 6) % 200, 0] := by
  rw [k1_off9_eq]; exact vec2_congr (by omega)
theorem off11_c (k : Fin k1_t1_loop.trips) (hk38 : k.val ≤ 38) : k1_off11 k = ![(5 * k.val + 7) % 200, 0] := by
  rw [k1_off11_eq]; exact vec2_congr (by omega)
theorem off13_c (k : Fin k1_t1_loop.trips) (hk38 : k.val ≤ 38) : k1_off13 k = ![(5 * k.val + 8) % 200, 0] := by
  rw [k1_off13_eq]; exact vec2_congr (by omega)

/-! ## The same equations between the windows the body slices and the named ones -/

@[sl_canon] theorem canon_o3_0 (L : grid1.Coords) (k : Fin k1_t1_loop.trips) (h : _) (hs : _) :
    (oV).slice (Rect.unit (s := S819200x128) (k1_off3 L k 0#32) S128x128.size h) hs = oWin L (5 * k.val + 0) :=
  Memref.slice_unit_congr _ (off3_c L k ⟨0, by decide⟩) _ _ _ (fun _ => rfl)
@[sl_canon] theorem canon_o3_1 (L : grid1.Coords) (k : Fin k1_t1_loop.trips) (h : _) (hs : _) :
    (oV).slice (Rect.unit (s := S819200x128) (k1_off3 L k 1#32) S128x128.size h) hs = oWin L (5 * k.val + 1) :=
  Memref.slice_unit_congr _ (off3_c L k ⟨1, by decide⟩) _ _ _ (fun _ => rfl)
@[sl_canon] theorem canon_o3_2 (L : grid1.Coords) (k : Fin k1_t1_loop.trips) (h : _) (hs : _) :
    (oV).slice (Rect.unit (s := S819200x128) (k1_off3 L k 2#32) S128x128.size h) hs = oWin L (5 * k.val + 2) :=
  Memref.slice_unit_congr _ (off3_c L k ⟨2, by decide⟩) _ _ _ (fun _ => rfl)
@[sl_canon] theorem canon_o3_3 (L : grid1.Coords) (k : Fin k1_t1_loop.trips) (h : _) (hs : _) :
    (oV).slice (Rect.unit (s := S819200x128) (k1_off3 L k 3#32) S128x128.size h) hs = oWin L (5 * k.val + 3) :=
  Memref.slice_unit_congr _ (off3_c L k ⟨3, by decide⟩) _ _ _ (fun _ => rfl)
@[sl_canon] theorem canon_o3_4 (L : grid1.Coords) (k : Fin k1_t1_loop.trips) (h : _) (hs : _) :
    (oV).slice (Rect.unit (s := S819200x128) (k1_off3 L k 4#32) S128x128.size h) hs = oWin L (5 * k.val + 4) :=
  Memref.slice_unit_congr _ (off3_c L k ⟨4, by decide⟩) _ _ _ (fun _ => rfl)
@[sl_canon] theorem canon_o4 (L : grid1.Coords) (k : Fin k1_t1_loop.trips) (hk1 : 1 ≤ k.val) (h : _) (hs : _) :
    (oV).slice (Rect.unit (s := S819200x128) (k1_off4 L k) S128x128.size h) hs = oWin L (5 * k.val - 1) :=
  Memref.slice_unit_congr _ (off4_c L k hk1) _ _ _ (fun _ => rfl)
@[sl_canon] theorem canon_o6 (L : grid1.Coords) (k : Fin k1_t1_loop.trips) (h : _) (hs : _) :
    (oV).slice (Rect.unit (s := S819200x128) (k1_off6 L k) S128x128.size h) hs = oWin L (5 * k.val + 0) :=
  Memref.slice_unit_congr _ (off6_c L k) _ _ _ (fun _ => rfl)
@[sl_canon] theorem canon_o8 (L : grid1.Coords) (k : Fin k1_t1_loop.trips) (h : _) (hs : _) :
    (oV).slice (Rect.unit (s := S819200x128) (k1_off8 L k) S128x128.size h) hs = oWin L (5 * k.val + 1) :=
  Memref.slice_unit_congr _ (off8_c L k) _ _ _ (fun _ => rfl)
@[sl_canon] theorem canon_o10 (L : grid1.Coords) (k : Fin k1_t1_loop.trips) (h : _) (hs : _) :
    (oV).slice (Rect.unit (s := S819200x128) (k1_off10 L k) S128x128.size h) hs = oWin L (5 * k.val + 2) :=
  Memref.slice_unit_congr _ (off10_c L k) _ _ _ (fun _ => rfl)
@[sl_canon] theorem canon_o12 (L : grid1.Coords) (k : Fin k1_t1_loop.trips) (h : _) (hs : _) :
    (oV).slice (Rect.unit (s := S819200x128) (k1_off12 L k) S128x128.size h) hs = oWin L (5 * k.val + 3) :=
  Memref.slice_unit_congr _ (off12_c L k) _ _ _ (fun _ => rfl)
@[sl_canon] theorem canon_o14_0 (L : grid1.Coords) (h : _) (hs : _) :
    (oV).slice (Rect.unit (s := S819200x128) (k1_off14 L 24960#32) S128x128.size h) hs = oWin L (195 + 0) :=
  Memref.slice_unit_congr _ (off14_c L ⟨0, by decide⟩) _ _ _ (fun _ => rfl)
@[sl_canon] theorem canon_o14_1 (L : grid1.Coords) (h : _) (hs : _) :
    (oV).slice (Rect.unit (s := S819200x128) (k1_off14 L 25088#32) S128x128.size h) hs = oWin L (195 + 1) :=
  Memref.slice_unit_congr _ (off14_c L ⟨1, by decide⟩) _ _ _ (fun _ => rfl)
@[sl_canon] theorem canon_o14_2 (L : grid1.Coords) (h : _) (hs : _) :
    (oV).slice (Rect.unit (s := S819200x128) (k1_off14 L 25216#32) S128x128.size h) hs = oWin L (195 + 2) :=
  Memref.slice_unit_congr _ (off14_c L ⟨2, by decide⟩) _ _ _ (fun _ => rfl)
@[sl_canon] theorem canon_o14_3 (L : grid1.Coords) (h : _) (hs : _) :
    (oV).slice (Rect.unit (s := S819200x128) (k1_off14 L 25344#32) S128x128.size h) hs = oWin L (195 + 3) :=
  Memref.slice_unit_congr _ (off14_c L ⟨3, by decide⟩) _ _ _ (fun _ => rfl)
@[sl_canon] theorem canon_o14_4 (L : grid1.Coords) (h : _) (hs : _) :
    (oV).slice (Rect.unit (s := S819200x128) (k1_off14 L 25472#32) S128x128.size h) hs = oWin L (195 + 4) :=
  Memref.slice_unit_congr _ (off14_c L ⟨4, by decide⟩) _ _ _ (fun _ => rfl)

@[sl_canon] theorem canon_x2_0 (k : Fin k1_t1_loop.trips) (h : _) (hs : _) :
    (xV).slice (Rect.unit (s := S200x128) (k1_off2 k 0#32) S1x128.size h) hs = xRowS (5 * k.val + 0) :=
  Memref.slice_unit_congr _ (off2_c k ⟨0, by decide⟩) _ _ _ (fun _ => rfl)
@[sl_canon] theorem canon_x2_1 (k : Fin k1_t1_loop.trips) (h : _) (hs : _) :
    (xV).slice (Rect.unit (s := S200x128) (k1_off2 k 1#32) S1x128.size h) hs = xRowS (5 * k.val + 1) :=
  Memref.slice_unit_congr _ (off2_c k ⟨1, by decide⟩) _ _ _ (fun _ => rfl)
@[sl_canon] theorem canon_x2_2 (k : Fin k1_t1_loop.trips) (h : _) (hs : _) :
    (xV).slice (Rect.unit (s := S200x128) (k1_off2 k 2#32) S1x128.size h) hs = xRowS (5 * k.val + 2) :=
  Memref.slice_unit_congr _ (off2_c k ⟨2, by decide⟩) _ _ _ (fun _ => rfl)
@[sl_canon] theorem canon_x2_3 (k : Fin k1_t1_loop.trips) (h : _) (hs : _) :
    (xV).slice (Rect.unit (s := S200x128) (k1_off2 k 3#32) S1x128.size h) hs = xRowS (5 * k.val + 3) :=
  Memref.slice_unit_congr _ (off2_c k ⟨3, by decide⟩) _ _ _ (fun _ => rfl)
@[sl_canon] theorem canon_x2_4 (k : Fin k1_t1_loop.trips) (h : _) (hs : _) :
    (xV).slice (Rect.unit (s := S200x128) (k1_off2 k 4#32) S1x128.size h) hs = xRowS (5 * k.val + 4) :=
  Memref.slice_unit_congr _ (off2_c k ⟨4, by decide⟩) _ _ _ (fun _ => rfl)
@[sl_canon] theorem canon_x5 (k : Fin k1_t1_loop.trips) (h : _) (hs : _) :
    (xV).slice (Rect.unit (s := S200x128) (k1_off5 k) S1x128.size h) hs = xRowS (5 * k.val + 4) :=
  Memref.slice_unit_congr _ (off5_c k) _ _ _ (fun _ => rfl)
@[sl_canon] theorem canon_x7 (k : Fin k1_t1_loop.trips) (hk38 : k.val ≤ 38) (h : _) (hs : _) :
    (xV).slice (Rect.unit (s := S200x128) (k1_off7 k) S1x128.size h) hs = xRowS (5 * k.val + 5) :=
  Memref.slice_unit_congr _ (off7_c k hk38) _ _ _ (fun _ => rfl)
@[sl_canon] theorem canon_x9 (k : Fin k1_t1_loop.trips) (hk38 : k.val ≤ 38) (h : _) (hs : _) :
    (xV).slice (Rect.unit (s := S200x128) (k1_off9 k) S1x128.size h) hs = xRowS (5 * k.val + 6) :=
  Memref.slice_unit_congr _ (off9_c k hk38) _ _ _ (fun _ => rfl)
@[sl_canon] theorem canon_x11 (k : Fin k1_t1_loop.trips) (hk38 : k.val ≤ 38) (h : _) (hs : _) :
    (xV).slice (Rect.unit (s := S200x128) (k1_off11 k) S1x128.size h) hs = xRowS (5 * k.val + 7) :=
  Memref.slice_unit_congr _ (off11_c k hk38) _ _ _ (fun _ => rfl)
@[sl_canon] theorem canon_x13 (k : Fin k1_t1_loop.trips) (hk38 : k.val ≤ 38) (h : _) (hs : _) :
    (xV).slice (Rect.unit (s := S200x128) (k1_off13 k) S1x128.size h) hs = xRowS (5 * k.val + 8) :=
  Memref.slice_unit_congr _ (off13_c k hk38) _ _ _ (fun _ => rfl)
@[sl_canon] theorem canon_xl_0 (h : _) (hs : _) :
    (xV).slice (Rect.unit (s := S200x128) ![0, 0] S1x128.size h) hs = xRowS 0 :=
  Memref.slice_unit_congr _ (vec2_congr (by norm_num)) _ _ _ (fun _ => rfl)
@[sl_canon] theorem canon_xl_1 (h : _) (hs : _) :
    (xV).slice (Rect.unit (s := S200x128) ![1, 0] S1x128.size h) hs = xRowS 1 :=
  Memref.slice_unit_congr _ (vec2_congr (by norm_num)) _ _ _ (fun _ => rfl)
@[sl_canon] theorem canon_xl_2 (h : _) (hs : _) :
    (xV).slice (Rect.unit (s := S200x128) ![2, 0] S1x128.size h) hs = xRowS 2 :=
  Memref.slice_unit_congr _ (vec2_congr (by norm_num)) _ _ _ (fun _ => rfl)
@[sl_canon] theorem canon_xl_3 (h : _) (hs : _) :
    (xV).slice (Rect.unit (s := S200x128) ![3, 0] S1x128.size h) hs = xRowS 3 :=
  Memref.slice_unit_congr _ (vec2_congr (by norm_num)) _ _ _ (fun _ => rfl)
@[sl_canon] theorem canon_xl_4 (h : _) (hs : _) :
    (xV).slice (Rect.unit (s := S200x128) ![4, 0] S1x128.size h) hs = xRowS 4 :=
  Memref.slice_unit_congr _ (vec2_congr (by norm_num)) _ _ _ (fun _ => rfl)

end Cert.KernelIdeal.Hand

end
-- ==== Proof.TileInv.lean ====
/-
  The vector subcore's task, part two: what it holds between two trips of its loop. After the first copy the index
  scratch holds the worker's slab of the classes (XS) and is never written again, so row c of it is a list of 128
  row numbers of the padded table, each below 1000000 under the precondition; the gather of chunk c writes into a
  slot, at (r, j), entry (row named by word r of row c, j) of the padded table (GP c), and the write of chunk c
  copies that slot to rows 128 c .. 128 c + 127 of the worker's block. Before trip k (0 < k < 40) the gathers of
  chunks 5k .. 5k+3 are in flight into slots 0 .. 3 and the write of chunk 5k - 1 out of slot 4; before trip 0 the
  five gathers of chunks 0 .. 4; after trip 39 the five writes of chunks 195 .. 199. The rows of the index scratch and
  the chunks of the block that no transfer holds are kept as families over the chunk number.
-/
import proofs.«206789_g36283883716857_cont_8to1_b_1933_18_alg».proof.Proof.TileViews

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S32x200x128 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v4_scv : Memref Cert.KernelIdeal.sig Kind.scVector Space.hbm Cert.KernelIdeal.S819200x128 EltTy.f32)
local notation "xV" => (Memref.whole Cert.KernelIdeal.cc1_scratch0 : Memref Cert.KernelIdeal.sig Kind.scVector Space.vmem Cert.KernelIdeal.S200x128 EltTy.i32)
local notation "bV" => (Memref.whole Cert.KernelIdeal.cc1_scratch1 : Memref Cert.KernelIdeal.sig Kind.scVector Space.vmem Cert.KernelIdeal.S5x128x128 EltTy.f32)

local notation "tVs" => (Memref.slice (Memref.whole Cert.KernelIdeal.main_v1_scv : Memref Cert.KernelIdeal.sig Kind.scVector Space.hbm Cert.KernelIdeal.S1000000x128 EltTy.f32) (Rect.unit (s := Cert.KernelIdeal.S1000000x128) ![0, 0] Cert.KernelIdeal.S1000000x128.size Cert.KernelIdeal.Gen.inb_S1000000x128_S1000000x128_0_0) (fun _ => rfl))
local notation "slotM0" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![0, 0, 0] Cert.KernelIdeal.S1x128x128.size Cert.KernelIdeal.Gen.inb_S5x128x128_S1x128x128_0_0_0) (fun _ => rfl)) Cert.KernelIdeal.S128x128 Cert.KernelIdeal.Gen.squeezes_S1x128x128_S128x128)
local notation "slotM1" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![1, 0, 0] Cert.KernelIdeal.S1x128x128.size Cert.KernelIdeal.Gen.inb_S5x128x128_S1x128x128_1_0_0) (fun _ => rfl)) Cert.KernelIdeal.S128x128 Cert.KernelIdeal.Gen.squeezes_S1x128x128_S128x128)
local notation "slotM2" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![2, 0, 0] Cert.KernelIdeal.S1x128x128.size Cert.KernelIdeal.Gen.inb_S5x128x128_S1x128x128_2_0_0) (fun _ => rfl)) Cert.KernelIdeal.S128x128 Cert.KernelIdeal.Gen.squeezes_S1x128x128_S128x128)
local notation "slotM3" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![3, 0, 0] Cert.KernelIdeal.S1x128x128.size Cert.KernelIdeal.Gen.inb_S5x128x128_S1x128x128_3_0_0) (fun _ => rfl)) Cert.KernelIdeal.S128x128 Cert.KernelIdeal.Gen.squeezes_S1x128x128_S128x128)
local notation "slotM4" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![4, 0, 0] Cert.KernelIdeal.S1x128x128.size Cert.KernelIdeal.Gen.inb_S5x128x128_S1x128x128_4_0_0) (fun _ => rfl)) Cert.KernelIdeal.S128x128 Cert.KernelIdeal.Gen.squeezes_S1x128x128_S128x128)

local notation:max "xRow(" c ")" => (Memref.squeeze (xRowS c) Cert.KernelIdeal.S128 Cert.KernelIdeal.Gen.squeezes_S1x128_S128)

/-! ## Families over an interval of chunk numbers -/

theorem bigSep_Ico_pop (Φ : ℕ → sProp 𝕄) {a n : ℕ} (h : a < n) :
    bigSep (Finset.Ico a n) Φ = iprop(Φ a ∗ bigSep (Finset.Ico (a + 1) n) Φ) := by
  have e : Finset.Ico a n = insert a (Finset.Ico (a + 1) n) := by
    ext x; simp only [Finset.mem_Ico, Finset.mem_insert]; omega
  rw [e, SparseCore.bigSep_insert' (by simp)]
theorem bigSep_range_push (Φ : ℕ → sProp 𝕄) (a : ℕ) :
    bigSep (Finset.range (a + 1)) Φ = iprop(Φ a ∗ bigSep (Finset.range a) Φ) := by
  rw [Finset.range_add_one, SparseCore.bigSep_insert' Finset.notMem_range_self]
/-- The same with the next number named. -/
theorem bigSep_Ico_pop' (Φ : ℕ → sProp 𝕄) {a n : ℕ} (b : ℕ) (h : a < n) (e : a + 1 = b) :
    bigSep (Finset.Ico a n) Φ = iprop(Φ a ∗ bigSep (Finset.Ico b n) Φ) := e ▸ bigSep_Ico_pop Φ h
theorem bigSep_range_push' (Φ : ℕ → sProp 𝕄) (a : ℕ) {b : ℕ} (e : a + 1 = b) :
    bigSep (Finset.range b) Φ = iprop(Φ a ∗ bigSep (Finset.range a) Φ) := e ▸ bigSep_range_push Φ a

section Inv

variable [FloatOps F] (d : Dev nD) (L : grid1.Coords) (C3 : (d : Dev nD) → Buf (Elt F) (idxLoc d)) (Tb : (d : Dev nD) → Buf (Elt F) (padLoc d))

/-! ## What the index scratch holds, and what a gather and a write carry -/

/-- What the slab's copy lands in the index scratch: the worker's slab of the classes. -/
abbrev PAY : S200x128.Idx → Elt F .i32 := ReadAs.same.apply ((iSlabK L).view.read (Elt F) (C3 d))
omit [FloatOps F] in
theorem PAY_apply (x : S200x128.Idx) : PAY d L C3 x = C3 d ((iSlabK L).view.emb x) :=
  (View.read_apply _ _).trans (cast_eq _ _)

/-- The index scratch after the copy. -/
def XS : Buf (Elt F) ((xV).view.loc (VT d L)) :=
  (xV).view.writes (Elt F) (xV).view.junk [⟨Rect.whole cc1_scratch0.ty.shape, PAY d L C3⟩]

/-- Every word of every row of the index scratch names a row of the padded table. -/
theorem hinR (hpre : ∀ d j, (C3 d j).toNat < 1000000) (c : ℕ) (x : S128.Idx) :
    (View.read (Elt F) (xRow(c)).view (XS d L C3) x).toNat < 1000000 := by
  unfold XS
  have e : View.read (Elt F) (xRow(c)).view ((xV).view.writes (Elt F) (xV).view.junk [⟨Rect.whole cc1_scratch0.ty.shape, PAY d L C3⟩]) x
      = View.read (Elt F) (xV).view ((xV).view.writes (Elt F) (xV).view.junk [⟨Rect.whole cc1_scratch0.ty.shape, PAY d L C3⟩])
          ((Rect.unit (s := S200x128) ![c % 200, 0] S1x128.size (xRow_inb c)).emb ((Shape.reshapeEquiv squeezes_S1x128_S128.numel_eq) x)) := by
    unfold xRowS; rw [View.read_apply, View.read_apply]; rfl
  rw [e, View.read_writes_whole, PAY_apply]
  exact hpre d _

variable (hpre : ∀ d j, (C3 d j).toNat < 1000000)

/-- What the gather of chunk c writes into its slot: at (r, j), entry (row named by word r of row c, j) of the table. -/
def GP (c : ℕ) : S128x128.Idx → Elt F .f32 :=
  SparseCore.gatherPayload gathers_S1000000x128_S128x128 (View.read (Elt F) (tVs).view (Tb d))
    (SparseCore.rows (View.read (Elt F) (xRow(c)).view (XS d L C3)) rfl (hinR d L C3 hpre c))

/-- What the write of chunk c carries out of slot 0, which holds the gather of chunk c over contents s. -/
def WPAY0 (c : ℕ) (s : Buf (Elt F) ((bV).view.loc (VT d L))) : S128x128.Idx → Elt F .f32 :=
  ReadAs.same.apply (View.read (Elt F) (slotM0).view ((slotM0).view.writes (Elt F) s [⟨Rect.whole S128x128, GP d L C3 Tb hpre c⟩]))
/-- What the write of chunk c carries out of slot 1, which holds the gather of chunk c over contents s. -/
def WPAY1 (c : ℕ) (s : Buf (Elt F) ((bV).view.loc (VT d L))) : S128x128.Idx → Elt F .f32 :=
  ReadAs.same.apply (View.read (Elt F) (slotM1).view ((slotM1).view.writes (Elt F) s [⟨Rect.whole S128x128, GP d L C3 Tb hpre c⟩]))
/-- What the write of chunk c carries out of slot 2, which holds the gather of chunk c over contents s. -/
def WPAY2 (c : ℕ) (s : Buf (Elt F) ((bV).view.loc (VT d L))) : S128x128.Idx → Elt F .f32 :=
  ReadAs.same.apply (View.read (Elt F) (slotM2).view ((slotM2).view.writes (Elt F) s [⟨Rect.whole S128x128, GP d L C3 Tb hpre c⟩]))
/-- What the write of chunk c carries out of slot 3, which holds the gather of chunk c over contents s. -/
def WPAY3 (c : ℕ) (s : Buf (Elt F) ((bV).view.loc (VT d L))) : S128x128.Idx → Elt F .f32 :=
  ReadAs.same.apply (View.read (Elt F) (slotM3).view ((slotM3).view.writes (Elt F) s [⟨Rect.whole S128x128, GP d L C3 Tb hpre c⟩]))
/-- What the write of chunk c carries out of slot 4, which holds the gather of chunk c over contents s. -/
def WPAY4 (c : ℕ) (s : Buf (Elt F) ((bV).view.loc (VT d L))) : S128x128.Idx → Elt F .f32 :=
  ReadAs.same.apply (View.read (Elt F) (slotM4).view ((slotM4).view.writes (Elt F) s [⟨Rect.whole S128x128, GP d L C3 Tb hpre c⟩]))

/-! ## The pieces -/

/-- Row c of the index scratch, held. -/
def xRowP (c : ℕ) : sProp 𝕄 := (xRow(c)).view.loc (VT d L) ↦[(xRow(c)).view.set]{fullShare} XS d L C3
/-- Chunk c of the worker's block, not yet written, at contents f0; -/
def oFresh (f0 : Buf (Elt F) (gatLoc d)) (c : ℕ) : sProp 𝕄 := (oWin L c).view.loc (VT d L) ↦[(oWin L c).view.set]{fullShare} f0
/-- written, at the gathered contents. -/
def oDone (c : ℕ) : sProp 𝕄 := (oWin L c).view.loc (VT d L) ↦[(oWin L c).view.set]{fullShare} (gathered (C3 d) (Tb d) : Buf (Elt F) (gatLoc d))
/-- The worker's read token n of the padded table; -/
def tokP (q : PosShare TreeShare) (n : ℕ) : sProp 𝕄 := (tVs).view.loc (VT d L) ↦[(tVs).view.set]{Transfers.shareTokN q n} Tb d
/-- what stays of it beside a gather in flight (no element). -/
def tokR (q : PosShare TreeShare) (n : ℕ) : sProp 𝕄 := (tVs).view.loc (VT d L) ↦[(tVs).view.set \ (tVs).view.set]{Transfers.shareTokN q n} Tb d

/-- The gather of chunk c in flight into slot 0 (over contents s). -/
def FG0 (q : PosShare TreeShare) (c : ℕ) (s : Buf (Elt F) ((bV).view.loc (VT d L))) : sProp 𝕄 :=
  Transfers.Flight countersEmb (VT d L) (SemLoc.dma (⟨4, by decide⟩ : DmaSem sig)) (default : HIx 1) 524288
    iprop((((slotM0).view.loc (VT d L) ↦[(slotM0).view.set]{fullShare} (slotM0).view.writes (Elt F) s [⟨Rect.whole S128x128, GP d L C3 Tb hpre c⟩])
        ∗ ((xRow(c)).view.loc (VT d L) ↦[(xRow(c)).view.set]{fullShare} XS d L C3))
      ∗ ((tVs).view.loc (VT d L) ↦[(tVs).view.set]{Transfers.shareTokN q 4} Tb d))
/-- The write of chunk c in flight out of slot 0 (which holds the gather of chunk c over contents s). -/
def FW0 (f0 : Buf (Elt F) (gatLoc d)) (c : ℕ) (s : Buf (Elt F) ((bV).view.loc (VT d L))) : sProp 𝕄 :=
  Transfers.Flight countersEmb (VT d L) (SemLoc.dma (⟨9, by decide⟩ : DmaSem sig)) (default : HIx 1) 524288
    iprop(((oWin L c).view.loc (VT d L) ↦[(oWin L c).view.set]{fullShare} (oWin L c).view.writes (Elt F) f0 [⟨Rect.whole S128x128, WPAY0 d L C3 Tb hpre c s⟩])
      ∗ ((slotM0).view.loc (VT d L) ↦[(slotM0).view.set]{fullShare} (slotM0).view.writes (Elt F) s [⟨Rect.whole S128x128, GP d L C3 Tb hpre c⟩]))
/-- The gather of chunk c in flight into slot 1 (over contents s). -/
def FG1 (q : PosShare TreeShare) (c : ℕ) (s : Buf (Elt F) ((bV).view.loc (VT d L))) : sProp 𝕄 :=
  Transfers.Flight countersEmb (VT d L) (SemLoc.dma (⟨5, by decide⟩ : DmaSem sig)) (default : HIx 1) 524288
    iprop((((slotM1).view.loc (VT d L) ↦[(slotM1).view.set]{fullShare} (slotM1).view.writes (Elt F) s [⟨Rect.whole S128x128, GP d L C3 Tb hpre c⟩])
        ∗ ((xRow(c)).view.loc (VT d L) ↦[(xRow(c)).view.set]{fullShare} XS d L C3))
      ∗ ((tVs).view.loc (VT d L) ↦[(tVs).view.set]{Transfers.shareTokN q 5} Tb d))
/-- The write of chunk c in flight out of slot 1 (which holds the gather of chunk c over contents s). -/
def FW1 (f0 : Buf (Elt F) (gatLoc d)) (c : ℕ) (s : Buf (Elt F) ((bV).view.loc (VT d L))) : sProp 𝕄 :=
  Transfers.Flight countersEmb (VT d L) (SemLoc.dma (⟨10, by decide⟩ : DmaSem sig)) (default : HIx 1) 524288
    iprop(((oWin L c).view.loc (VT d L) ↦[(oWin L c).view.set]{fullShare} (oWin L c).view.writes (Elt F) f0 [⟨Rect.whole S128x128, WPAY1 d L C3 Tb hpre c s⟩])
      ∗ ((slotM1).view.loc (VT d L) ↦[(slotM1).view.set]{fullShare} (slotM1).view.writes (Elt F) s [⟨Rect.whole S128x128, GP d L C3 Tb hpre c⟩]))
/-- The gather of chunk c in flight into slot 2 (over contents s). -/
def FG2 (q : PosShare TreeShare) (c : ℕ) (s : Buf (Elt F) ((bV).view.loc (VT d L))) : sProp 𝕄 :=
  Transfers.Flight countersEmb (VT d L) (SemLoc.dma (⟨6, by decide⟩ : DmaSem sig)) (default : HIx 1) 524288
    iprop((((slotM2).view.loc (VT d L) ↦[(slotM2).view.set]{fullShare} (slotM2).view.writes (Elt F) s [⟨Rect.whole S128x128, GP d L C3 Tb hpre c⟩])
        ∗ ((xRow(c)).view.loc (VT d L) ↦[(xRow(c)).view.set]{fullShare} XS d L C3))
      ∗ ((tVs).view.loc (VT d L) ↦[(tVs).view.set]{Transfers.shareTokN q 6} Tb d))
/-- The write of chunk c in flight out of slot 2 (which holds the gather of chunk c over contents s). -/
def FW2 (f0 : Buf (Elt F) (gatLoc d)) (c : ℕ) (s : Buf (Elt F) ((bV).view.loc (VT d L))) : sProp 𝕄 :=
  Transfers.Flight countersEmb (VT d L) (SemLoc.dma (⟨11, by decide⟩ : DmaSem sig)) (default : HIx 1) 524288
    iprop(((oWin L c).view.loc (VT d L) ↦[(oWin L c).view.set]{fullShare} (oWin L c).view.writes (Elt F) f0 [⟨Rect.whole S128x128, WPAY2 d L C3 Tb hpre c s⟩])
      ∗ ((slotM2).view.loc (VT d L) ↦[(slotM2).view.set]{fullShare} (slotM2).view.writes (Elt F) s [⟨Rect.whole S128x128, GP d L C3 Tb hpre c⟩]))
/-- The gather of chunk c in flight into slot 3 (over contents s). -/
def FG3 (q : PosShare TreeShare) (c : ℕ) (s : Buf (Elt F) ((bV).view.loc (VT d L))) : sProp 𝕄 :=
  Transfers.Flight countersEmb (VT d L) (SemLoc.dma (⟨7, by decide⟩ : DmaSem sig)) (default : HIx 1) 524288
    iprop((((slotM3).view.loc (VT d L) ↦[(slotM3).view.set]{fullShare} (slotM3).view.writes (Elt F) s [⟨Rect.whole S128x128, GP d L C3 Tb hpre c⟩])
        ∗ ((xRow(c)).view.loc (VT d L) ↦[(xRow(c)).view.set]{fullShare} XS d L C3))
      ∗ ((tVs).view.loc (VT d L) ↦[(tVs).view.set]{Transfers.shareTokN q 7} Tb d))
/-- The write of chunk c in flight out of slot 3 (which holds the gather of chunk c over contents s). -/
def FW3 (f0 : Buf (Elt F) (gatLoc d)) (c : ℕ) (s : Buf (Elt F) ((bV).view.loc (VT d L))) : sProp 𝕄 :=
  Transfers.Flight countersEmb (VT d L) (SemLoc.dma (⟨12, by decide⟩ : DmaSem sig)) (default : HIx 1) 524288
    iprop(((oWin L c).view.loc (VT d L) ↦[(oWin L c).view.set]{fullShare} (oWin L c).view.writes (Elt F) f0 [⟨Rect.whole S128x128, WPAY3 d L C3 Tb hpre c s⟩])
      ∗ ((slotM3).view.loc (VT d L) ↦[(slotM3).view.set]{fullShare} (slotM3).view.writes (Elt F) s [⟨Rect.whole S128x128, GP d L C3 Tb hpre c⟩]))
/-- The gather of chunk c in flight into slot 4 (over contents s). -/
def FG4 (q : PosShare TreeShare) (c : ℕ) (s : Buf (Elt F) ((bV).view.loc (VT d L))) : sProp 𝕄 :=
  Transfers.Flight countersEmb (VT d L) (SemLoc.dma (⟨8, by decide⟩ : DmaSem sig)) (default : HIx 1) 524288
    iprop((((slotM4).view.loc (VT d L) ↦[(slotM4).view.set]{fullShare} (slotM4).view.writes (Elt F) s [⟨Rect.whole S128x128, GP d L C3 Tb hpre c⟩])
        ∗ ((xRow(c)).view.loc (VT d L) ↦[(xRow(c)).view.set]{fullShare} XS d L C3))
      ∗ ((tVs).view.loc (VT d L) ↦[(tVs).view.set]{Transfers.shareTokN q 8} Tb d))
/-- The write of chunk c in flight out of slot 4 (which holds the gather of chunk c over contents s). -/
def FW4 (f0 : Buf (Elt F) (gatLoc d)) (c : ℕ) (s : Buf (Elt F) ((bV).view.loc (VT d L))) : sProp 𝕄 :=
  Transfers.Flight countersEmb (VT d L) (SemLoc.dma (⟨13, by decide⟩ : DmaSem sig)) (default : HIx 1) 524288
    iprop(((oWin L c).view.loc (VT d L) ↦[(oWin L c).view.set]{fullShare} (oWin L c).view.writes (Elt F) f0 [⟨Rect.whole S128x128, WPAY4 d L C3 Tb hpre c s⟩])
      ∗ ((slotM4).view.loc (VT d L) ↦[(slotM4).view.set]{fullShare} (slotM4).view.writes (Elt F) s [⟨Rect.whole S128x128, GP d L C3 Tb hpre c⟩]))

/-! ## Between two trips -/

variable (O : CellTallies nD τ sig (HIx 1)) (W : Waits sig (HIx 1)) (q : PosShare TreeShare) (f0 : Buf (Elt F) (gatLoc d))

/-- Slots 0 .. 3 before a trip: each a gather in flight, its write semaphore free. -/
def invCommon (k : ℕ) (s0 s1 s2 s3 : Buf (Elt F) ((bV).view.loc (VT d L))) : sProp 𝕄 :=
  iprop(FG0 d L C3 Tb hpre q (5 * k + 0) s0 ∗ tokR d L Tb q 4
    ∗ FG1 d L C3 Tb hpre q (5 * k + 1) s1 ∗ tokR d L Tb q 5
    ∗ FG2 d L C3 Tb hpre q (5 * k + 2) s2 ∗ tokR d L Tb q 6
    ∗ FG3 d L C3 Tb hpre q (5 * k + 3) s3 ∗ tokR d L Tb q 7
    ∗ semVal ((VT d L), SemLoc.dma (⟨9, by decide⟩ : DmaSem sig)) 0 ∗ semVal ((VT d L), SemLoc.dma (⟨10, by decide⟩ : DmaSem sig)) 0 ∗ semVal ((VT d L), SemLoc.dma (⟨11, by decide⟩ : DmaSem sig)) 0 ∗ semVal ((VT d L), SemLoc.dma (⟨12, by decide⟩ : DmaSem sig)) 0)
/-- Slot 4 before trip 0: the gather of chunk 4 in flight; -/
def inv4A (k : ℕ) (s4 : Buf (Elt F) ((bV).view.loc (VT d L))) : sProp 𝕄 :=
  iprop(FG4 d L C3 Tb hpre q (5 * k + 4) s4 ∗ tokR d L Tb q 8 ∗ semVal ((VT d L), SemLoc.dma (⟨13, by decide⟩ : DmaSem sig)) 0)
/-- before a later trip: the write of the chunk before the trip's first in flight, the row its next gather reads. -/
def inv4B (k : ℕ) (s4 : Buf (Elt F) ((bV).view.loc (VT d L))) : sProp 𝕄 :=
  iprop(FW4 d L C3 Tb hpre f0 (5 * k - 1) s4 ∗ semVal ((VT d L), SemLoc.dma (⟨8, by decide⟩ : DmaSem sig)) 0 ∗ tokP d L Tb q 8 ∗ xRowP d L C3 (5 * k + 4))
/-- After the last trip k: its five writes in flight. -/
def invC (k : ℕ) (s0 s1 s2 s3 s4 : Buf (Elt F) ((bV).view.loc (VT d L))) : sProp 𝕄 :=
  iprop(bigSep (Finset.range (5 * k)) (oDone d L C3 Tb)
    ∗ FW0 d L C3 Tb hpre f0 (5 * k + 0) s0 ∗ FW1 d L C3 Tb hpre f0 (5 * k + 1) s1 ∗ FW2 d L C3 Tb hpre f0 (5 * k + 2) s2 ∗ FW3 d L C3 Tb hpre f0 (5 * k + 3) s3 ∗ FW4 d L C3 Tb hpre f0 (5 * k + 4) s4
    ∗ semVal ((VT d L), SemLoc.dma (⟨4, by decide⟩ : DmaSem sig)) 0 ∗ semVal ((VT d L), SemLoc.dma (⟨5, by decide⟩ : DmaSem sig)) 0 ∗ semVal ((VT d L), SemLoc.dma (⟨6, by decide⟩ : DmaSem sig)) 0 ∗ semVal ((VT d L), SemLoc.dma (⟨7, by decide⟩ : DmaSem sig)) 0 ∗ semVal ((VT d L), SemLoc.dma (⟨8, by decide⟩ : DmaSem sig)) 0
    ∗ tokP d L Tb q 4 ∗ tokP d L Tb q 5 ∗ tokP d L Tb q 6 ∗ tokP d L Tb q 7 ∗ tokP d L Tb q 8)

/-- What the subcore holds before trip k. -/
def inv (k : ℕ) (_ : Unit) : sProp 𝕄 :=
  iprop(∃ W' : Waits sig (HIx 1), ⌜∀ p ∈ W', p ∈ W ∨ p.2 = none⌝ ∗ owes (VT d L) O W'
    ∗ ∃ s0 s1 s2 s3 s4 : Buf (Elt F) ((bV).view.loc (VT d L)), Transfers.MayWaits (VT d L) (default : HIx 1) O
    ∗ bigSep (Finset.range (5 * k)) (xRowP d L C3) ∗ bigSep (Finset.Ico (5 * k + 5) 200) (xRowP d L C3)
    ∗ bigSep (Finset.Ico (5 * k) 200) (oFresh d L f0)
    ∗ (if k = 40 then invC d L C3 Tb hpre q f0 (k - 1) s0 s1 s2 s3 s4
       else iprop(bigSep (Finset.range (5 * k - 1)) (oDone d L C3 Tb) ∗ invCommon d L C3 Tb hpre q k s0 s1 s2 s3
          ∗ (if k = 0 then inv4A d L C3 Tb hpre q k s4 else inv4B d L C3 Tb hpre q f0 k s4))))

/-- Before trip 0; -/
theorem inv_first (k : ℕ) (h0 : k = 0) (acc : Unit) : inv d L C3 Tb hpre O W q f0 k acc = iprop(∃ W' : Waits sig (HIx 1), ⌜∀ p ∈ W', p ∈ W ∨ p.2 = none⌝ ∗ owes (VT d L) O W'
    ∗ ∃ s0 s1 s2 s3 s4 : Buf (Elt F) ((bV).view.loc (VT d L)), Transfers.MayWaits (VT d L) (default : HIx 1) O
    ∗ bigSep (Finset.range (5 * k)) (xRowP d L C3) ∗ bigSep (Finset.Ico (5 * k + 5) 200) (xRowP d L C3)
    ∗ bigSep (Finset.Ico (5 * k) 200) (oFresh d L f0)
    ∗ bigSep (Finset.range (5 * k - 1)) (oDone d L C3 Tb) ∗ invCommon d L C3 Tb hpre q k s0 s1 s2 s3 ∗ inv4A d L C3 Tb hpre q k s4) := by
  subst h0; unfold inv; rfl
/-- before a later trip; -/
theorem inv_mid (k : ℕ) (h1 : 1 ≤ k) (h39 : k ≤ 39) (acc : Unit) : inv d L C3 Tb hpre O W q f0 k acc = iprop(∃ W' : Waits sig (HIx 1), ⌜∀ p ∈ W', p ∈ W ∨ p.2 = none⌝ ∗ owes (VT d L) O W'
    ∗ ∃ s0 s1 s2 s3 s4 : Buf (Elt F) ((bV).view.loc (VT d L)), Transfers.MayWaits (VT d L) (default : HIx 1) O
    ∗ bigSep (Finset.range (5 * k)) (xRowP d L C3) ∗ bigSep (Finset.Ico (5 * k + 5) 200) (xRowP d L C3)
    ∗ bigSep (Finset.Ico (5 * k) 200) (oFresh d L f0)
    ∗ bigSep (Finset.range (5 * k - 1)) (oDone d L C3 Tb) ∗ invCommon d L C3 Tb hpre q k s0 s1 s2 s3 ∗ inv4B d L C3 Tb hpre q f0 k s4) := by
  unfold inv; simp only [if_neg (show ¬ k = 40 by omega), if_neg (show ¬ k = 0 by omega)]
/-- after the last. -/
theorem inv_last (k : ℕ) (h : k = 40) (acc : Unit) : inv d L C3 Tb hpre O W q f0 k acc = iprop(∃ W' : Waits sig (HIx 1), ⌜∀ p ∈ W', p ∈ W ∨ p.2 = none⌝ ∗ owes (VT d L) O W'
    ∗ ∃ s0 s1 s2 s3 s4 : Buf (Elt F) ((bV).view.loc (VT d L)), Transfers.MayWaits (VT d L) (default : HIx 1) O
    ∗ bigSep (Finset.range (5 * k)) (xRowP d L C3) ∗ bigSep (Finset.Ico (5 * k + 5) 200) (xRowP d L C3)
    ∗ bigSep (Finset.Ico (5 * k) 200) (oFresh d L f0)
    ∗ invC d L C3 Tb hpre q f0 (k - 1) s0 s1 s2 s3 s4) := by
  subst h; unfold inv; rfl

end Inv

end Cert.KernelIdeal.Hand

end
-- ==== Proof.TileSplit.lean ====
/-
  The vector subcore's task, part three: the buffers it is handed whole and the pieces it works on. The index scratch
  is its 200 rows; the stage buffer its five slots; the worker's block of the gathered array its 200 chunks of 128
  rows; the worker's share of the padded table is cut into read tokens, one for each gather semaphore.
-/
import proofs.«206789_g36283883716857_cont_8to1_b_1933_18_alg».proof.Proof.TileInv

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S32x200x128 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v4_scv : Memref Cert.KernelIdeal.sig Kind.scVector Space.hbm Cert.KernelIdeal.S819200x128 EltTy.f32)
local notation "xV" => (Memref.whole Cert.KernelIdeal.cc1_scratch0 : Memref Cert.KernelIdeal.sig Kind.scVector Space.vmem Cert.KernelIdeal.S200x128 EltTy.i32)
local notation "bV" => (Memref.whole Cert.KernelIdeal.cc1_scratch1 : Memref Cert.KernelIdeal.sig Kind.scVector Space.vmem Cert.KernelIdeal.S5x128x128 EltTy.f32)

local notation "tVs" => (Memref.slice (Memref.whole Cert.KernelIdeal.main_v1_scv : Memref Cert.KernelIdeal.sig Kind.scVector Space.hbm Cert.KernelIdeal.S1000000x128 EltTy.f32) (Rect.unit (s := Cert.KernelIdeal.S1000000x128) ![0, 0] Cert.KernelIdeal.S1000000x128.size Cert.KernelIdeal.Gen.inb_S1000000x128_S1000000x128_0_0) (fun _ => rfl))
local notation "slotM0" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![0, 0, 0] Cert.KernelIdeal.S1x128x128.size Cert.KernelIdeal.Gen.inb_S5x128x128_S1x128x128_0_0_0) (fun _ => rfl)) Cert.KernelIdeal.S128x128 Cert.KernelIdeal.Gen.squeezes_S1x128x128_S128x128)
local notation "slotM1" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![1, 0, 0] Cert.KernelIdeal.S1x128x128.size Cert.KernelIdeal.Gen.inb_S5x128x128_S1x128x128_1_0_0) (fun _ => rfl)) Cert.KernelIdeal.S128x128 Cert.KernelIdeal.Gen.squeezes_S1x128x128_S128x128)
local notation "slotM2" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![2, 0, 0] Cert.KernelIdeal.S1x128x128.size Cert.KernelIdeal.Gen.inb_S5x128x128_S1x128x128_2_0_0) (fun _ => rfl)) Cert.KernelIdeal.S128x128 Cert.KernelIdeal.Gen.squeezes_S1x128x128_S128x128)
local notation "slotM3" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![3, 0, 0] Cert.KernelIdeal.S1x128x128.size Cert.KernelIdeal.Gen.inb_S5x128x128_S1x128x128_3_0_0) (fun _ => rfl)) Cert.KernelIdeal.S128x128 Cert.KernelIdeal.Gen.squeezes_S1x128x128_S128x128)
local notation "slotM4" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![4, 0, 0] Cert.KernelIdeal.S1x128x128.size Cert.KernelIdeal.Gen.inb_S5x128x128_S1x128x128_4_0_0) (fun _ => rfl)) Cert.KernelIdeal.S128x128 Cert.KernelIdeal.Gen.squeezes_S1x128x128_S128x128)

local notation:max "xRow(" c ")" => (Memref.squeeze (xRowS c) Cert.KernelIdeal.S128 Cert.KernelIdeal.Gen.squeezes_S1x128_S128)

/-! ## Read tokens -/

/-- A share of a buffer as what stays and the five read tokens numbered 4 to 8 (one per gather semaphore). -/
theorem toks5 {ℓ : Loc nD τ sig} {S : Finset (Idx ℓ)} (f : Buf (Elt F) ℓ) (q : PosShare TreeShare) :
    (ℓ ↦[S]{q} f : sProp 𝕄) ⊣⊢ iprop(((ℓ ↦[S]{Transfers.shareDrop q 9} f) ∗ (ℓ ↦[S]{Transfers.shareTokN q 0} f) ∗ (ℓ ↦[S]{Transfers.shareTokN q 1} f)
        ∗ (ℓ ↦[S]{Transfers.shareTokN q 2} f) ∗ (ℓ ↦[S]{Transfers.shareTokN q 3} f))
      ∗ (ℓ ↦[S]{Transfers.shareTokN q 4} f) ∗ (ℓ ↦[S]{Transfers.shareTokN q 5} f) ∗ (ℓ ↦[S]{Transfers.shareTokN q 6} f)
      ∗ (ℓ ↦[S]{Transfers.shareTokN q 7} f) ∗ (ℓ ↦[S]{Transfers.shareTokN q 8} f)) := by
  have h : (ℓ ↦[S]{q} f : sProp 𝕄) ⊣⊢ iprop((ℓ ↦[S]{Transfers.shareDrop q 9} f) ∗ bigSep (Finset.range 9) fun i => ℓ ↦[S]{Transfers.shareTokN q i} f) :=
    Transfers.pointsTo_toks_range (ℓ := ℓ) (S := S) (f := f) q 9
  rw [show Finset.range 9 = {0, 1, 2, 3, 4, 5, 6, 7, 8} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton] at h
  constructor
  · refine BIBase.Entails.trans h.1 ?_
    iintro ⟨Hd, H0, H1, H2, H3, H4, H5, H6, H7, H8⟩
    isplitl [Hd H0 H1 H2 H3]
    · isplitl [Hd]; · iexact Hd
      isplitl [H0]; · iexact H0
      isplitl [H1]; · iexact H1
      isplitl [H2]; · iexact H2
      iexact H3
    isplitl [H4]; · iexact H4
    isplitl [H5]; · iexact H5
    isplitl [H6]; · iexact H6
    isplitl [H7]; · iexact H7
    iexact H8
  · refine BIBase.Entails.trans ?_ h.2
    iintro ⟨⟨Hd, H0, H1, H2, H3⟩, H4, H5, H6, H7, H8⟩
    isplitl [Hd]; · iexact Hd
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-! ## The index scratch is its 200 rows -/

theorem xRow_set (c : ℕ) : (xRow(c)).view.set = (Rect.unit (s := S200x128) ![c % 200, 0] S1x128.size (xRow_inb c)).set := by
  unfold xRowS
  show (((xV).view.slice (Rect.unit (s := S200x128) ![c % 200, 0] S1x128.size (xRow_inb c))).reshape S128 squeezes_S1x128_S128.numel_eq).set = _
  rw [View.set_reshape]
  show ((View.whole (cc1_scratch0 : Ref sig .scVector)).slice _).set = _
  rw [View.set_slice]; exact Finset.map_refl

theorem xRows_disjoint : ∀ c ∈ Finset.range 200, ∀ c' ∈ Finset.range 200, c ≠ c' → Disjoint (xRow(c)).view.set (xRow(c')).view.set := by
  intro c hc c' hc' hne
  have h1 := Finset.mem_range.mp hc; have h2 := Finset.mem_range.mp hc'
  rw [xRow_set, xRow_set]
  refine Rect.disjoint_of_separated _ _ 0 ?_
  simp only [Rect.off_unit, Rect.size_unit, Rect.stride_unit, Matrix.cons_val_zero]
  show ((1 : ℕ) = 0 ∨ c % 200 + 1 * (1 - 1) < c' % 200) ∨ ((1 : ℕ) = 0 ∨ c' % 200 + 1 * (1 - 1) < c % 200)
  omega

theorem xRows_cover : (Finset.range 200).biUnion (fun c => (xRow(c)).view.set) = (xV).view.set := by
  rw [View.set_whole]
  refine Finset.eq_univ_of_forall fun i => Finset.mem_biUnion.mpr ?_
  have h0 : (i 0).val < 200 := (i 0).isLt
  have h1 : (i 1).val < 128 := (i 1).isLt
  refine ⟨(i 0).val, Finset.mem_range.mpr h0, ?_⟩
  rw [xRow_set, Rect.mem_set_unit]
  intro a; fin_cases a
  · show (i 0).val % 200 ≤ (i 0).val ∧ (i 0).val < (i 0).val % 200 + 1; omega
  · show 0 ≤ (i 1).val ∧ (i 1).val < 0 + 128; omega

theorem xRows_eq (d : Dev nD) (L : grid1.Coords) (f : Buf (Elt F) ((xV).view.loc (VT d L))) :
    ((xV).view.loc (VT d L) ↦[(xV).view.set]{fullShare} f : sProp 𝕄)
      = bigSep (Finset.range 200) fun c => (xRow(c)).view.loc (VT d L) ↦[(xRow(c)).view.set]{fullShare} f := by
  rw [← xRows_cover]
  exact pointsTo_biUnion (Finset.range 200) (ℓ := (xV).view.loc (VT d L)) (fun c => (xRow(c)).view.set) xRows_disjoint

/-! ## The worker's block of the gathered array is its 200 chunks -/

/-- The worker at a place of the grid. -/
abbrev widL (L : grid1.Coords) : Fin 32 := wid ⟨(L 0).val, (L 0).isLt⟩ ⟨(L 1).val, (L 1).isLt⟩

theorem oWin_set (L : grid1.Coords) (c : ℕ) :
    ((oWin L c).view.set : Finset S819200x128.Idx) = (Rect.unit (s := S819200x128) ![obase L + 128 * (c % 200), 0] S128x128.size (oWin_inb L c)).set := by
  unfold oWin
  show ((View.whole (main_v4_scv : Ref sig .scVector)).slice _).set = _
  rw [View.set_slice]; exact Finset.map_refl

theorem oBlkSet_eq (w : Fin 32) : oBlkSet w = (oblk w).set := by
  show ((View.whole (main_v4_scv : Ref sig .scVector)).slice (oblk w)).set = _
  rw [View.set_slice]; exact Finset.map_refl

theorem oblk_mem (w : Fin 32) (i : S819200x128.Idx) :
    i ∈ (oblk w).set ↔ (25600 * w.val ≤ (i 0).val ∧ (i 0).val < 25600 * w.val + 25600) := by
  have h1 : (i 1).val < 128 := (i 1).isLt
  rw [Rect.mem_set_unit]
  constructor
  · intro h
    have h0 := h 0
    simp only [Shape.partIx, Shape.partSize, ↓reduceIte] at h0
    have e : S819200x128.size 0 / 32 = 25600 := by decide
    rw [e] at h0; omega
  · intro h a
    fin_cases a
    · simp only [Shape.partIx, Shape.partSize, ↓reduceIte]
      have e : S819200x128.size 0 / 32 = 25600 := by decide
      show w.val * (S819200x128.size 0 / 32) ≤ (i 0).val ∧ (i 0).val < w.val * (S819200x128.size 0 / 32) + S819200x128.size 0 / 32
      rw [e]; omega
    · show S819200x128.partIx 0 w.val 1 * S819200x128.partSize 0 32 1 ≤ (i 1).val ∧ (i 1).val < S819200x128.partIx 0 w.val 1 * S819200x128.partSize 0 32 1 + S819200x128.partSize 0 32 1
      have e1 : S819200x128.partIx 0 w.val 1 = 0 := by simp [Shape.partIx]
      have e2 : S819200x128.partSize 0 32 1 = 128 := by simp [Shape.partSize]
      rw [e1, e2]; omega

theorem oWins_disjoint (L : grid1.Coords) : ∀ c ∈ Finset.range 200, ∀ c' ∈ Finset.range 200, c ≠ c' → Disjoint (oWin L c).view.set (oWin L c').view.set := by
  intro c hc c' hc' hne
  have h1 := Finset.mem_range.mp hc; have h2 := Finset.mem_range.mp hc'
  rw [oWin_set, oWin_set]
  refine Rect.disjoint_of_separated _ _ 0 ?_
  show ((128 : ℕ) = 0 ∨ obase L + 128 * (c % 200) + 1 * (128 - 1) < obase L + 128 * (c' % 200)) ∨ ((128 : ℕ) = 0 ∨ obase L + 128 * (c' % 200) + 1 * (128 - 1) < obase L + 128 * (c % 200))
  omega

theorem oWins_cover (L : grid1.Coords) : (Finset.range 200).biUnion (fun c => (oWin L c).view.set) = oBlkSet (widL L) := by
  have hL0 : (L 0).val < 2 := (L 0).isLt
  have hL1 : (L 1).val < 16 := (L 1).isLt
  have hw : (widL L).val = 2 * (L 1).val + (L 0).val := rfl
  rw [oBlkSet_eq]
  ext i
  have hi1 : (i 1).val < 128 := (i 1).isLt
  rw [oblk_mem, hw]
  constructor
  · intro h
    obtain ⟨c, hc, hm⟩ := Finset.mem_biUnion.mp h
    have hc' := Finset.mem_range.mp hc
    have hm' : i ∈ (Rect.unit (s := S819200x128) ![obase L + 128 * (c % 200), 0] S128x128.size (oWin_inb L c)).set :=
      (congrArg (fun S : Finset S819200x128.Idx => i ∈ S) (oWin_set L c)).mp hm
    rw [Rect.mem_set_unit] at hm'
    have h0 := hm' 0
    have h0' : obase L + 128 * (c % 200) ≤ (i 0).val ∧ (i 0).val < obase L + 128 * (c % 200) + 128 := h0
    unfold obase at h0'; omega
  · intro h
    refine Finset.mem_biUnion.mpr ⟨((i 0).val - obase L) / 128, Finset.mem_range.mpr (by unfold obase; omega), ?_⟩
    refine (congrArg (fun S : Finset S819200x128.Idx => i ∈ S) (oWin_set L _)).mpr ?_
    rw [Rect.mem_set_unit]
    intro a; fin_cases a
    · show obase L + 128 * (((i 0).val - obase L) / 128 % 200) ≤ (i 0).val ∧ (i 0).val < obase L + 128 * (((i 0).val - obase L) / 128 % 200) + 128
      unfold obase; omega
    · show 0 ≤ (i 1).val ∧ (i 1).val < 0 + 128; omega

theorem oWins_eq (d : Dev nD) (L : grid1.Coords) (f : Buf (Elt F) (gatLoc d)) :
    (gatLoc d ↦[oBlkSet (widL L)]{fullShare} f : sProp 𝕄)
      = bigSep (Finset.range 200) fun c => (oWin L c).view.loc (VT d L) ↦[(oWin L c).view.set]{fullShare} f := by
  rw [← oWins_cover]
  exact pointsTo_biUnion (Finset.range 200) (ℓ := gatLoc d) (fun c => (oWin L c).view.set) (oWins_disjoint L)

/-! ## The stage buffer is its five slots -/

theorem slot_inb (b : ℕ) : ∀ a, (![b % 5, 0, 0] : Fin 3 → Nat) a + S1x128x128.size a ≤ S5x128x128.size a := by
  have hb : b % 5 < 5 := Nat.mod_lt _ (by norm_num)
  intro a; fin_cases a
  · show b % 5 + 1 ≤ 5; omega
  · show 0 + 128 ≤ 128; omega
  · show 0 + 128 ≤ 128; omega
/-- Slot b as a rectangle of the stage buffer. -/
abbrev slotRect (b : ℕ) : Rect S5x128x128 := Rect.unit (s := S5x128x128) ![b % 5, 0, 0] S1x128x128.size (slot_inb b)

theorem slot_set0 : (slotM0).view.set = (slotRect 0).set := by
  show (((bV).view.slice (Rect.unit (s := S5x128x128) ![0, 0, 0] S1x128x128.size inb_S5x128x128_S1x128x128_0_0_0)).reshape S128x128 squeezes_S1x128x128_S128x128.numel_eq).set = _
  rw [View.set_reshape]
  show ((View.whole (cc1_scratch1 : Ref sig .scVector)).slice _).set = _
  rw [View.set_slice]; exact Finset.map_refl
theorem slot_set1 : (slotM1).view.set = (slotRect 1).set := by
  show (((bV).view.slice (Rect.unit (s := S5x128x128) ![1, 0, 0] S1x128x128.size inb_S5x128x128_S1x128x128_1_0_0)).reshape S128x128 squeezes_S1x128x128_S128x128.numel_eq).set = _
  rw [View.set_reshape]
  show ((View.whole (cc1_scratch1 : Ref sig .scVector)).slice _).set = _
  rw [View.set_slice]; exact Finset.map_refl
theorem slot_set2 : (slotM2).view.set = (slotRect 2).set := by
  show (((bV).view.slice (Rect.unit (s := S5x128x128) ![2, 0, 0] S1x128x128.size inb_S5x128x128_S1x128x128_2_0_0)).reshape S128x128 squeezes_S1x128x128_S128x128.numel_eq).set = _
  rw [View.set_reshape]
  show ((View.whole (cc1_scratch1 : Ref sig .scVector)).slice _).set = _
  rw [View.set_slice]; exact Finset.map_refl
theorem slot_set3 : (slotM3).view.set = (slotRect 3).set := by
  show (((bV).view.slice (Rect.unit (s := S5x128x128) ![3, 0, 0] S1x128x128.size inb_S5x128x128_S1x128x128_3_0_0)).reshape S128x128 squeezes_S1x128x128_S128x128.numel_eq).set = _
  rw [View.set_reshape]
  show ((View.whole (cc1_scratch1 : Ref sig .scVector)).slice _).set = _
  rw [View.set_slice]; exact Finset.map_refl
theorem slot_set4 : (slotM4).view.set = (slotRect 4).set := by
  show (((bV).view.slice (Rect.unit (s := S5x128x128) ![4, 0, 0] S1x128x128.size inb_S5x128x128_S1x128x128_4_0_0)).reshape S128x128 squeezes_S1x128x128_S128x128.numel_eq).set = _
  rw [View.set_reshape]
  show ((View.whole (cc1_scratch1 : Ref sig .scVector)).slice _).set = _
  rw [View.set_slice]; exact Finset.map_refl

theorem slots_disjoint : ∀ b ∈ Finset.range 5, ∀ b' ∈ Finset.range 5, b ≠ b' → Disjoint (slotRect b).set (slotRect b').set := by
  intro b hb b' hb' hne
  have h1 := Finset.mem_range.mp hb; have h2 := Finset.mem_range.mp hb'
  refine Rect.disjoint_of_separated _ _ 0 ?_
  show ((1 : ℕ) = 0 ∨ b % 5 + 1 * (1 - 1) < b' % 5) ∨ ((1 : ℕ) = 0 ∨ b' % 5 + 1 * (1 - 1) < b % 5)
  omega

theorem slots_cover : (Finset.range 5).biUnion (fun b => (slotRect b).set) = (bV).view.set := by
  rw [View.set_whole]
  refine Finset.eq_univ_of_forall fun i => Finset.mem_biUnion.mpr ?_
  have h0 : (i 0).val < 5 := (i 0).isLt
  have h1 : (i 1).val < 128 := (i 1).isLt
  have h2 : (i 2).val < 128 := (i 2).isLt
  refine ⟨(i 0).val, Finset.mem_range.mpr h0, ?_⟩
  rw [Rect.mem_set_unit]
  intro a; fin_cases a
  · show (i 0).val % 5 ≤ (i 0).val ∧ (i 0).val < (i 0).val % 5 + 1; omega
  · show 0 ≤ (i 1).val ∧ (i 1).val < 0 + 128; omega
  · show 0 ≤ (i 2).val ∧ (i 2).val < 0 + 128; omega

theorem slots_eq (d : Dev nD) (L : grid1.Coords) (f : Buf (Elt F) ((bV).view.loc (VT d L))) :
    ((bV).view.loc (VT d L) ↦[(bV).view.set]{fullShare} f : sProp 𝕄)
      = iprop(((slotM4).view.loc (VT d L) ↦[(slotM4).view.set]{fullShare} f)
        ∗ ((slotM3).view.loc (VT d L) ↦[(slotM3).view.set]{fullShare} f)
        ∗ ((slotM2).view.loc (VT d L) ↦[(slotM2).view.set]{fullShare} f)
        ∗ ((slotM1).view.loc (VT d L) ↦[(slotM1).view.set]{fullShare} f)
        ∗ ((slotM0).view.loc (VT d L) ↦[(slotM0).view.set]{fullShare} f)) := by
  rw [← slots_cover, pointsTo_biUnion (Finset.range 5) (ℓ := (bV).view.loc (VT d L)) (fun b => (slotRect b).set) slots_disjoint,
    bigSep_range_push, bigSep_range_push, bigSep_range_push, bigSep_range_push, Finset.range_one, bigSep_singleton,
    slot_set0, slot_set1, slot_set2, slot_set3, slot_set4]

end Cert.KernelIdeal.Hand

end
-- ==== Proof.TileValue.lean ====
/-
  The vector subcore's task, part four: the value. What the write of chunk c carries out of its slot — the gather of
  chunk c — is, at row r and column j, entry (row named by class word (worker, c, r), j) of the padded table: the
  gathered array's own entry at row 25600 worker + 128 c + r, column j.
-/
import proofs.«206789_g36283883716857_cont_8to1_b_1933_18_alg».proof.Proof.TileSplit

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S32x200x128 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v4_scv : Memref Cert.KernelIdeal.sig Kind.scVector Space.hbm Cert.KernelIdeal.S819200x128 EltTy.f32)
local notation "xV" => (Memref.whole Cert.KernelIdeal.cc1_scratch0 : Memref Cert.KernelIdeal.sig Kind.scVector Space.vmem Cert.KernelIdeal.S200x128 EltTy.i32)
local notation "bV" => (Memref.whole Cert.KernelIdeal.cc1_scratch1 : Memref Cert.KernelIdeal.sig Kind.scVector Space.vmem Cert.KernelIdeal.S5x128x128 EltTy.f32)

local notation "tVs" => (Memref.slice (Memref.whole Cert.KernelIdeal.main_v1_scv : Memref Cert.KernelIdeal.sig Kind.scVector Space.hbm Cert.KernelIdeal.S1000000x128 EltTy.f32) (Rect.unit (s := Cert.KernelIdeal.S1000000x128) ![0, 0] Cert.KernelIdeal.S1000000x128.size Cert.KernelIdeal.Gen.inb_S1000000x128_S1000000x128_0_0) (fun _ => rfl))
local notation "slotM0" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![0, 0, 0] Cert.KernelIdeal.S1x128x128.size Cert.KernelIdeal.Gen.inb_S5x128x128_S1x128x128_0_0_0) (fun _ => rfl)) Cert.KernelIdeal.S128x128 Cert.KernelIdeal.Gen.squeezes_S1x128x128_S128x128)
local notation "slotM1" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![1, 0, 0] Cert.KernelIdeal.S1x128x128.size Cert.KernelIdeal.Gen.inb_S5x128x128_S1x128x128_1_0_0) (fun _ => rfl)) Cert.KernelIdeal.S128x128 Cert.KernelIdeal.Gen.squeezes_S1x128x128_S128x128)
local notation "slotM2" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![2, 0, 0] Cert.KernelIdeal.S1x128x128.size Cert.KernelIdeal.Gen.inb_S5x128x128_S1x128x128_2_0_0) (fun _ => rfl)) Cert.KernelIdeal.S128x128 Cert.KernelIdeal.Gen.squeezes_S1x128x128_S128x128)
local notation "slotM3" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![3, 0, 0] Cert.KernelIdeal.S1x128x128.size Cert.KernelIdeal.Gen.inb_S5x128x128_S1x128x128_3_0_0) (fun _ => rfl)) Cert.KernelIdeal.S128x128 Cert.KernelIdeal.Gen.squeezes_S1x128x128_S128x128)
local notation "slotM4" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![4, 0, 0] Cert.KernelIdeal.S1x128x128.size Cert.KernelIdeal.Gen.inb_S5x128x128_S1x128x128_4_0_0) (fun _ => rfl)) Cert.KernelIdeal.S128x128 Cert.KernelIdeal.Gen.squeezes_S1x128x128_S128x128)

local notation:max "xRow(" c ")" => (Memref.squeeze (xRowS c) Cert.KernelIdeal.S128 Cert.KernelIdeal.Gen.squeezes_S1x128_S128)

/-- One more wait on one of the subcore's own semaphores keeps the waits admissible. -/
theorem W_ins {W S : Waits sig (HIx 1)} (g : SemLoc sig) (h : ∀ p ∈ S, p ∈ W ∨ p.2 = none) :
    ∀ p ∈ insert (g, (default : HIx 1)) S, p ∈ W ∨ p.2 = none :=
  fun p hp => (Finset.mem_insert.mp hp).elim (fun e => .inr (e ▸ rfl)) (h p)

section Value

variable [FloatOps F] (d : Dev nD) (L : grid1.Coords) (C3 : (d : Dev nD) → Buf (Elt F) (idxLoc d)) (Tb : (d : Dev nD) → Buf (Elt F) (padLoc d))
  (hpre : ∀ d j, (C3 d j).toNat < 1000000) (f0 : Buf (Elt F) (gatLoc d))

/-- The value fact the frame rests on: the gather of chunk c, read at (r, j), is the gathered array's entry at (first row
    of chunk c + r, j). -/
def GPval : Prop := ∀ (c : ℕ) (x : S128x128.Idx), c < 200 →
  GP d L C3 Tb hpre c x = (gathered (C3 d) (Tb d) : Buf (Elt F) (gatLoc d)) ((oWin L c).view.emb x)

theorem chunk_pts0 (hGP : GPval d L C3 Tb hpre) (c : ℕ) (hc : c < 200) (s : Buf (Elt F) ((bV).view.loc (VT d L))) :
    ((oWin L c).view.loc (VT d L) ↦[(oWin L c).view.set]{fullShare}
        (oWin L c).view.writes (Elt F) f0 [⟨Rect.whole S128x128, WPAY0 d L C3 Tb hpre c s⟩] : sProp 𝕄)
      = oDone d L C3 Tb c := by
  unfold oDone
  refine pointsTo_congr fun i hi => ?_
  obtain ⟨x, -, rfl⟩ := Finset.mem_map.mp hi
  have e := congrFun (View.read_writes_whole (oWin L c).view f0 (WPAY0 d L C3 Tb hpre c s)) x
  rw [View.read_apply] at e
  have e2 : WPAY0 d L C3 Tb hpre c s x = GP d L C3 Tb hpre c x := by
    unfold WPAY0
    exact congrFun (View.read_writes_whole (slotM0).view s (GP d L C3 Tb hpre c)) x
  rw [← hGP c x hc, ← e2]
  exact (cast_eq _ _).symm.trans e |>.symm ▸ rfl
theorem chunk_pts1 (hGP : GPval d L C3 Tb hpre) (c : ℕ) (hc : c < 200) (s : Buf (Elt F) ((bV).view.loc (VT d L))) :
    ((oWin L c).view.loc (VT d L) ↦[(oWin L c).view.set]{fullShare}
        (oWin L c).view.writes (Elt F) f0 [⟨Rect.whole S128x128, WPAY1 d L C3 Tb hpre c s⟩] : sProp 𝕄)
      = oDone d L C3 Tb c := by
  unfold oDone
  refine pointsTo_congr fun i hi => ?_
  obtain ⟨x, -, rfl⟩ := Finset.mem_map.mp hi
  have e := congrFun (View.read_writes_whole (oWin L c).view f0 (WPAY1 d L C3 Tb hpre c s)) x
  rw [View.read_apply] at e
  have e2 : WPAY1 d L C3 Tb hpre c s x = GP d L C3 Tb hpre c x := by
    unfold WPAY1
    exact congrFun (View.read_writes_whole (slotM1).view s (GP d L C3 Tb hpre c)) x
  rw [← hGP c x hc, ← e2]
  exact (cast_eq _ _).symm.trans e |>.symm ▸ rfl
theorem chunk_pts2 (hGP : GPval d L C3 Tb hpre) (c : ℕ) (hc : c < 200) (s : Buf (Elt F) ((bV).view.loc (VT d L))) :
    ((oWin L c).view.loc (VT d L) ↦[(oWin L c).view.set]{fullShare}
        (oWin L c).view.writes (Elt F) f0 [⟨Rect.whole S128x128, WPAY2 d L C3 Tb hpre c s⟩] : sProp 𝕄)
      = oDone d L C3 Tb c := by
  unfold oDone
  refine pointsTo_congr fun i hi => ?_
  obtain ⟨x, -, rfl⟩ := Finset.mem_map.mp hi
  have e := congrFun (View.read_writes_whole (oWin L c).view f0 (WPAY2 d L C3 Tb hpre c s)) x
  rw [View.read_apply] at e
  have e2 : WPAY2 d L C3 Tb hpre c s x = GP d L C3 Tb hpre c x := by
    unfold WPAY2
    exact congrFun (View.read_writes_whole (slotM2).view s (GP d L C3 Tb hpre c)) x
  rw [← hGP c x hc, ← e2]
  exact (cast_eq _ _).symm.trans e |>.symm ▸ rfl
theorem chunk_pts3 (hGP : GPval d L C3 Tb hpre) (c : ℕ) (hc : c < 200) (s : Buf (Elt F) ((bV).view.loc (VT d L))) :
    ((oWin L c).view.loc (VT d L) ↦[(oWin L c).view.set]{fullShare}
        (oWin L c).view.writes (Elt F) f0 [⟨Rect.whole S128x128, WPAY3 d L C3 Tb hpre c s⟩] : sProp 𝕄)
      = oDone d L C3 Tb c := by
  unfold oDone
  refine pointsTo_congr fun i hi => ?_
  obtain ⟨x, -, rfl⟩ := Finset.mem_map.mp hi
  have e := congrFun (View.read_writes_whole (oWin L c).view f0 (WPAY3 d L C3 Tb hpre c s)) x
  rw [View.read_apply] at e
  have e2 : WPAY3 d L C3 Tb hpre c s x = GP d L C3 Tb hpre c x := by
    unfold WPAY3
    exact congrFun (View.read_writes_whole (slotM3).view s (GP d L C3 Tb hpre c)) x
  rw [← hGP c x hc, ← e2]
  exact (cast_eq _ _).symm.trans e |>.symm ▸ rfl
theorem chunk_pts4 (hGP : GPval d L C3 Tb hpre) (c : ℕ) (hc : c < 200) (s : Buf (Elt F) ((bV).view.loc (VT d L))) :
    ((oWin L c).view.loc (VT d L) ↦[(oWin L c).view.set]{fullShare}
        (oWin L c).view.writes (Elt F) f0 [⟨Rect.whole S128x128, WPAY4 d L C3 Tb hpre c s⟩] : sProp 𝕄)
      = oDone d L C3 Tb c := by
  unfold oDone
  refine pointsTo_congr fun i hi => ?_
  obtain ⟨x, -, rfl⟩ := Finset.mem_map.mp hi
  have e := congrFun (View.read_writes_whole (oWin L c).view f0 (WPAY4 d L C3 Tb hpre c s)) x
  rw [View.read_apply] at e
  have e2 : WPAY4 d L C3 Tb hpre c s x = GP d L C3 Tb hpre c x := by
    unfold WPAY4
    exact congrFun (View.read_writes_whole (slotM4).view s (GP d L C3 Tb hpre c)) x
  rw [← hGP c x hc, ← e2]
  exact (cast_eq _ _).symm.trans e |>.symm ▸ rfl

end Value

end Cert.KernelIdeal.Hand

end
-- ==== Proof.TileTripFirst.lean ====
/-
  The vector subcore's task, part six (a): the first trip of its loop, from the five gathers the prologue started
  to what the subcore holds before trip 1. No write is in flight yet, so stage 0 only waits for its gather and starts
  its write; stages 1 .. 4 also wait for the previous slot's write and start the next gather into that slot.
-/
import proofs.«206789_g36283883716857_cont_8to1_b_1933_18_alg».proof.Proof.TileValue

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S32x200x128 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v4_scv : Memref Cert.KernelIdeal.sig Kind.scVector Space.hbm Cert.KernelIdeal.S819200x128 EltTy.f32)
local notation "xV" => (Memref.whole Cert.KernelIdeal.cc1_scratch0 : Memref Cert.KernelIdeal.sig Kind.scVector Space.vmem Cert.KernelIdeal.S200x128 EltTy.i32)
local notation "bV" => (Memref.whole Cert.KernelIdeal.cc1_scratch1 : Memref Cert.KernelIdeal.sig Kind.scVector Space.vmem Cert.KernelIdeal.S5x128x128 EltTy.f32)

local notation "tVs" => (Memref.slice (Memref.whole Cert.KernelIdeal.main_v1_scv : Memref Cert.KernelIdeal.sig Kind.scVector Space.hbm Cert.KernelIdeal.S1000000x128 EltTy.f32) (Rect.unit (s := Cert.KernelIdeal.S1000000x128) ![0, 0] Cert.KernelIdeal.S1000000x128.size Cert.KernelIdeal.Gen.inb_S1000000x128_S1000000x128_0_0) (fun _ => rfl))
local notation "slotM0" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![0, 0, 0] Cert.KernelIdeal.S1x128x128.size Cert.KernelIdeal.Gen.inb_S5x128x128_S1x128x128_0_0_0) (fun _ => rfl)) Cert.KernelIdeal.S128x128 Cert.KernelIdeal.Gen.squeezes_S1x128x128_S128x128)
local notation "slotM1" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![1, 0, 0] Cert.KernelIdeal.S1x128x128.size Cert.KernelIdeal.Gen.inb_S5x128x128_S1x128x128_1_0_0) (fun _ => rfl)) Cert.KernelIdeal.S128x128 Cert.KernelIdeal.Gen.squeezes_S1x128x128_S128x128)
local notation "slotM2" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![2, 0, 0] Cert.KernelIdeal.S1x128x128.size Cert.KernelIdeal.Gen.inb_S5x128x128_S1x128x128_2_0_0) (fun _ => rfl)) Cert.KernelIdeal.S128x128 Cert.KernelIdeal.Gen.squeezes_S1x128x128_S128x128)
local notation "slotM3" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![3, 0, 0] Cert.KernelIdeal.S1x128x128.size Cert.KernelIdeal.Gen.inb_S5x128x128_S1x128x128_3_0_0) (fun _ => rfl)) Cert.KernelIdeal.S128x128 Cert.KernelIdeal.Gen.squeezes_S1x128x128_S128x128)
local notation "slotM4" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![4, 0, 0] Cert.KernelIdeal.S1x128x128.size Cert.KernelIdeal.Gen.inb_S5x128x128_S1x128x128_4_0_0) (fun _ => rfl)) Cert.KernelIdeal.S128x128 Cert.KernelIdeal.Gen.squeezes_S1x128x128_S128x128)

local notation:max "xRow(" c ")" => (Memref.squeeze (xRowS c) Cert.KernelIdeal.S128 Cert.KernelIdeal.Gen.squeezes_S1x128_S128)

variable [FloatOps F] (d : Dev nD) (L : grid1.Coords) (C3 : (d : Dev nD) → Buf (Elt F) (idxLoc d)) (Tb : (d : Dev nD) → Buf (Elt F) (padLoc d))
  (hpre : ∀ d j, (C3 d j).toNat < 1000000)
  (O : CellTallies nD τ sig (HIx 1)) (W : Waits sig (HIx 1)) (q : PosShare TreeShare) (f0 : Buf (Elt F) (gatLoc d))

set_option maxHeartbeats 4000000 in
theorem trip_first (hGP : GPval d L C3 Tb hpre) (k : Fin k1_t1_loop.trips) (hk0 : k.val = 0) (v2 : BitVec 32) (acc : Unit) :
    inv d L C3 Tb hpre O W q f0 k.val acc
      ⊢ wp frame (wpE (defs₀ (F := F)) 𝒱₀ (VT d L) none) Set.univ
          (k1_t1_body L iV (Memref.isWhole_whole _) tV (Memref.isWhole_whole _) oV (Memref.isWhole_whole _)
            xV (Memref.isWhole_whole _) bV (Memref.isWhole_whole _) cc1_scratch2 cc1_scratch3 cc1_scoped0 v2 k acc)
          (inv d L C3 Tb hpre O W q f0 (k.val + 1)) := by
  have hc1 : ¬ k1_cond1 k = 1#1 := fun h => by have := (k1_cond1_iff k).1 h; omega
  have hk38 : k.val ≤ 38 := by omega
  have hc2 : k1_cond2 k = 1#1 := (k1_cond2_iff k).2 hk38
  have hc3 : k1_cond3 k = 1#1 := (k1_cond3_iff k).2 hk38
  have hc4 : k1_cond4 k = 1#1 := (k1_cond4_iff k).2 hk38
  have hc5 : k1_cond5 k = 1#1 := (k1_cond5_iff k).2 hk38
  have hin := hinR d L C3 hpre
  rw [inv_first d L C3 Tb hpre O W q f0 k.val hk0 acc]
  rw [bigSep_Ico_pop' (xRowP d L C3) (5 * k.val + 6) (by omega) rfl, bigSep_Ico_pop' (xRowP d L C3) (5 * k.val + 7) (by omega) rfl,
    bigSep_Ico_pop' (xRowP d L C3) (5 * k.val + 8) (by omega) rfl, bigSep_Ico_pop' (xRowP d L C3) (5 * k.val + 9) (by omega) rfl,
    bigSep_Ico_pop' (xRowP d L C3) (5 * k.val + 10) (by omega) rfl]
  rw [bigSep_Ico_pop' (oFresh d L f0) (5 * k.val + 1) (by omega) rfl, bigSep_Ico_pop' (oFresh d L f0) (5 * k.val + 2) (by omega) rfl,
    bigSep_Ico_pop' (oFresh d L f0) (5 * k.val + 3) (by omega) rfl, bigSep_Ico_pop' (oFresh d L f0) (5 * k.val + 4) (by omega) rfl,
    bigSep_Ico_pop' (oFresh d L f0) (5 * k.val + 5) (by omega) rfl]
  unfold invCommon inv4A
  iintro ⟨%W', %hW', Howes, %s0, %s1, %s2, %s3, %s4, #Hmw, HXret, ⟨HX5, HX6, HX7, HX8, HX9, HXun⟩, ⟨HO0, HO1, HO2, HO3, HO4, HOfr⟩, HOdone,
    ⟨HG0, HR4, HG1, HR5, HG2, HR6, HG3, HR7, Hw0, Hw1, Hw2, Hw3⟩, ⟨HG4, HR8, Hw4⟩⟩
  unfold FG0 FG1 FG2 FG3 FG4 tokR xRowP oFresh
  unfold k1_t1_body
  sl_exec
  sl_step
  ihave HOdone' := (Entails.of_eq (show (bigSep (Finset.range (5 * k.val - 1)) (oDone d L C3 Tb) : sProp 𝕄) = bigSep (Finset.range (5 * k.val)) (oDone d L C3 Tb)
    from by rw [show 5 * k.val - 1 = 5 * k.val by omega])) $$ HOdone
  rw [inv_mid d L C3 Tb hpre O W q f0 (k.val + 1) (by omega) (by omega)]
  unfold invCommon inv4B
  rw [show 5 * (k.val + 1) = 5 * k.val + 5 by ring]
  simp only [show 5 * k.val + 5 + 0 = 5 * k.val + 5 from rfl, show 5 * k.val + 5 + 1 = 5 * k.val + 6 from rfl, show 5 * k.val + 5 + 2 = 5 * k.val + 7 from rfl,
    show 5 * k.val + 5 + 3 = 5 * k.val + 8 from rfl, show 5 * k.val + 5 + 4 = 5 * k.val + 9 from rfl, show 5 * k.val + 5 + 5 = 5 * k.val + 10 from rfl,
    show 5 * k.val + 5 - 1 = 5 * k.val + 4 from rfl]
  rw [bigSep_range_push' (xRowP d L C3) (5 * k.val + 4) rfl, bigSep_range_push' (xRowP d L C3) (5 * k.val + 3) rfl,
    bigSep_range_push' (xRowP d L C3) (5 * k.val + 2) rfl, bigSep_range_push' (xRowP d L C3) (5 * k.val + 1) rfl,
    bigSep_range_push' (xRowP d L C3) (5 * k.val) (b := 5 * k.val + 1) rfl]
  rw [bigSep_range_push' (oDone d L C3 Tb) (5 * k.val + 3) rfl, bigSep_range_push' (oDone d L C3 Tb) (5 * k.val + 2) rfl,
    bigSep_range_push' (oDone d L C3 Tb) (5 * k.val + 1) rfl, bigSep_range_push' (oDone d L C3 Tb) (5 * k.val) (b := 5 * k.val + 1) rfl]
  -- the four chunks whose writes were waited hold the gathered contents
  rw [← chunk_pts0 d L C3 Tb hpre f0 hGP (5 * k.val) (by omega) s0,
    ← chunk_pts1 d L C3 Tb hpre f0 hGP (5 * k.val + 1) (by omega) s1, ← chunk_pts2 d L C3 Tb hpre f0 hGP (5 * k.val + 2) (by omega) s2,
    ← chunk_pts3 d L C3 Tb hpre f0 hGP (5 * k.val + 3) (by omega) s3]
  unfold FG0 FG1 FG2 FG3 FW4 tokR tokP xRowP oFresh
  iexists (insert (SemLoc.dma (⟨12, by decide⟩ : DmaSem sig), (default : HIx 1)) (insert (SemLoc.dma (⟨8, by decide⟩ : DmaSem sig), (default : HIx 1)) (insert (SemLoc.dma (⟨11, by decide⟩ : DmaSem sig), (default : HIx 1)) (insert (SemLoc.dma (⟨7, by decide⟩ : DmaSem sig), (default : HIx 1)) (insert (SemLoc.dma (⟨10, by decide⟩ : DmaSem sig), (default : HIx 1)) (insert (SemLoc.dma (⟨6, by decide⟩ : DmaSem sig), (default : HIx 1)) (insert (SemLoc.dma (⟨9, by decide⟩ : DmaSem sig), (default : HIx 1)) (insert (SemLoc.dma (⟨5, by decide⟩ : DmaSem sig), (default : HIx 1)) (insert (SemLoc.dma (⟨4, by decide⟩ : DmaSem sig), (default : HIx 1)) W')))))))))
  isplitr
  · ipureintro
    exact W_ins _ (W_ins _ (W_ins _ (W_ins _ (W_ins _ (W_ins _ (W_ins _ (W_ins _ (W_ins _ (hW')))))))))
  isplitl [Howes]
  · iexact Howes
  iexists ((slotM0).view.writes (Elt F) s0 [⟨Rect.whole S128x128, GP d L C3 Tb hpre (5 * k.val + 0)⟩]),
    ((slotM1).view.writes (Elt F) s1 [⟨Rect.whole S128x128, GP d L C3 Tb hpre (5 * k.val + 1)⟩]),
    ((slotM2).view.writes (Elt F) s2 [⟨Rect.whole S128x128, GP d L C3 Tb hpre (5 * k.val + 2)⟩]),
    ((slotM3).view.writes (Elt F) s3 [⟨Rect.whole S128x128, GP d L C3 Tb hpre (5 * k.val + 3)⟩]), s4
  isplitl [Hmw]; · iexact Hmw
  isplitl [HG4_dst_and HG3_dst_and HG2_dst_and HG1_dst_and HG0_dst_and HXret]
  · isplitl [HG4_dst_and]; · iexact HG4_dst_and
    isplitl [HG3_dst_and]; · iexact HG3_dst_and
    isplitl [HG2_dst_and]; · iexact HG2_dst_and
    isplitl [HG1_dst_and]; · iexact HG1_dst_and
    isplitl [HG0_dst_and]; · iexact HG0_dst_and
    iexact HXret
  isplitl [HXun]; · iexact HXun
  isplitl [HOfr]; · iexact HOfr
  isplitl [HO3 HO2 HO1 HO0 HOdone']
  · isplitl [HO3]; · iexact HO3
    isplitl [HO2]; · iexact HO2
    isplitl [HO1]; · iexact HO1
    isplitl [HO0]; · iexact HO0
    iexact HOdone'
  isplitl [HG0 HR4 HG1 HR5 HG2 HR6 HG3 HR7 Hw0 Hw1 Hw2 Hw3]
  · isplitl [HG0]; · iexact HG0
    isplitl [HR4]; · iexact HR4
    isplitl [HG1]; · iexact HG1
    isplitl [HR5]; · iexact HR5
    isplitl [HG2]; · iexact HG2
    isplitl [HR6]; · iexact HR6
    isplitl [HG3]; · iexact HG3
    isplitl [HR7]; · iexact HR7
    isplitl [Hw0]; · iexact Hw0
    isplitl [Hw1]; · iexact Hw1
    isplitl [Hw2]; · iexact Hw2
    iexact Hw3
  isplitl [Hw4]; · iexact Hw4
  isplitl [HG4]; · iexact HG4
  isplitl [HR8]; · iexact HR8
  iexact HX9

end Cert.KernelIdeal.Hand

end
-- ==== Proof.TileTripMid.lean ====
/-
  The vector subcore's task, part six (b): a middle trip of its loop (1 ≤ k ≤ 38), from what it holds before the trip
  to what it holds before the next. Every stage waits for its slot's gather, starts the slot's write, waits for the
  previous slot's write and starts the next gather into that slot.
-/
import proofs.«206789_g36283883716857_cont_8to1_b_1933_18_alg».proof.Proof.TileValue

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S32x200x128 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v4_scv : Memref Cert.KernelIdeal.sig Kind.scVector Space.hbm Cert.KernelIdeal.S819200x128 EltTy.f32)
local notation "xV" => (Memref.whole Cert.KernelIdeal.cc1_scratch0 : Memref Cert.KernelIdeal.sig Kind.scVector Space.vmem Cert.KernelIdeal.S200x128 EltTy.i32)
local notation "bV" => (Memref.whole Cert.KernelIdeal.cc1_scratch1 : Memref Cert.KernelIdeal.sig Kind.scVector Space.vmem Cert.KernelIdeal.S5x128x128 EltTy.f32)

local notation "tVs" => (Memref.slice (Memref.whole Cert.KernelIdeal.main_v1_scv : Memref Cert.KernelIdeal.sig Kind.scVector Space.hbm Cert.KernelIdeal.S1000000x128 EltTy.f32) (Rect.unit (s := Cert.KernelIdeal.S1000000x128) ![0, 0] Cert.KernelIdeal.S1000000x128.size Cert.KernelIdeal.Gen.inb_S1000000x128_S1000000x128_0_0) (fun _ => rfl))
local notation "slotM0" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![0, 0, 0] Cert.KernelIdeal.S1x128x128.size Cert.KernelIdeal.Gen.inb_S5x128x128_S1x128x128_0_0_0) (fun _ => rfl)) Cert.KernelIdeal.S128x128 Cert.KernelIdeal.Gen.squeezes_S1x128x128_S128x128)
local notation "slotM1" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![1, 0, 0] Cert.KernelIdeal.S1x128x128.size Cert.KernelIdeal.Gen.inb_S5x128x128_S1x128x128_1_0_0) (fun _ => rfl)) Cert.KernelIdeal.S128x128 Cert.KernelIdeal.Gen.squeezes_S1x128x128_S128x128)
local notation "slotM2" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![2, 0, 0] Cert.KernelIdeal.S1x128x128.size Cert.KernelIdeal.Gen.inb_S5x128x128_S1x128x128_2_0_0) (fun _ => rfl)) Cert.KernelIdeal.S128x128 Cert.KernelIdeal.Gen.squeezes_S1x128x128_S128x128)
local notation "slotM3" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![3, 0, 0] Cert.KernelIdeal.S1x128x128.size Cert.KernelIdeal.Gen.inb_S5x128x128_S1x128x128_3_0_0) (fun _ => rfl)) Cert.KernelIdeal.S128x128 Cert.KernelIdeal.Gen.squeezes_S1x128x128_S128x128)
local notation "slotM4" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![4, 0, 0] Cert.KernelIdeal.S1x128x128.size Cert.KernelIdeal.Gen.inb_S5x128x128_S1x128x128_4_0_0) (fun _ => rfl)) Cert.KernelIdeal.S128x128 Cert.KernelIdeal.Gen.squeezes_S1x128x128_S128x128)

local notation:max "xRow(" c ")" => (Memref.squeeze (xRowS c) Cert.KernelIdeal.S128 Cert.KernelIdeal.Gen.squeezes_S1x128_S128)

variable [FloatOps F] (d : Dev nD) (L : grid1.Coords) (C3 : (d : Dev nD) → Buf (Elt F) (idxLoc d)) (Tb : (d : Dev nD) → Buf (Elt F) (padLoc d))
  (hpre : ∀ d j, (C3 d j).toNat < 1000000)
  (O : CellTallies nD τ sig (HIx 1)) (W : Waits sig (HIx 1)) (q : PosShare TreeShare) (f0 : Buf (Elt F) (gatLoc d))

set_option maxHeartbeats 4000000 in
theorem trip_mid (hGP : GPval d L C3 Tb hpre) (k : Fin k1_t1_loop.trips) (hk1 : 1 ≤ k.val) (hk38 : k.val ≤ 38) (v2 : BitVec 32) (acc : Unit) :
    inv d L C3 Tb hpre O W q f0 k.val acc
      ⊢ wp frame (wpE (defs₀ (F := F)) 𝒱₀ (VT d L) none) Set.univ
          (k1_t1_body L iV (Memref.isWhole_whole _) tV (Memref.isWhole_whole _) oV (Memref.isWhole_whole _)
            xV (Memref.isWhole_whole _) bV (Memref.isWhole_whole _) cc1_scratch2 cc1_scratch3 cc1_scoped0 v2 k acc)
          (inv d L C3 Tb hpre O W q f0 (k.val + 1)) := by
  have hc1 : k1_cond1 k = 1#1 := (k1_cond1_iff k).2 hk1
  have hc2 : k1_cond2 k = 1#1 := (k1_cond2_iff k).2 hk38
  have hc3 : k1_cond3 k = 1#1 := (k1_cond3_iff k).2 hk38
  have hc4 : k1_cond4 k = 1#1 := (k1_cond4_iff k).2 hk38
  have hc5 : k1_cond5 k = 1#1 := (k1_cond5_iff k).2 hk38
  have hin := hinR d L C3 hpre
  rw [inv_mid d L C3 Tb hpre O W q f0 k.val hk1 (by omega) acc]
  rw [bigSep_Ico_pop' (xRowP d L C3) (5 * k.val + 6) (by omega) rfl, bigSep_Ico_pop' (xRowP d L C3) (5 * k.val + 7) (by omega) rfl,
    bigSep_Ico_pop' (xRowP d L C3) (5 * k.val + 8) (by omega) rfl, bigSep_Ico_pop' (xRowP d L C3) (5 * k.val + 9) (by omega) rfl,
    bigSep_Ico_pop' (xRowP d L C3) (5 * k.val + 10) (by omega) rfl]
  rw [bigSep_Ico_pop' (oFresh d L f0) (5 * k.val + 1) (by omega) rfl, bigSep_Ico_pop' (oFresh d L f0) (5 * k.val + 2) (by omega) rfl,
    bigSep_Ico_pop' (oFresh d L f0) (5 * k.val + 3) (by omega) rfl, bigSep_Ico_pop' (oFresh d L f0) (5 * k.val + 4) (by omega) rfl,
    bigSep_Ico_pop' (oFresh d L f0) (5 * k.val + 5) (by omega) rfl]
  unfold invCommon inv4B
  iintro ⟨%W', %hW', Howes, %s0, %s1, %s2, %s3, %s4, #Hmw, HXret, ⟨HX5, HX6, HX7, HX8, HX9, HXun⟩, ⟨HO0, HO1, HO2, HO3, HO4, HOfr⟩, HOdone,
    ⟨HG0, HR4, HG1, HR5, HG2, HR6, HG3, HR7, Hw0, Hw1, Hw2, Hw3⟩, ⟨HW4, Hc8, HT8, HX4⟩⟩
  unfold FG0 FG1 FG2 FG3 FW4 tokR tokP xRowP oFresh
  unfold k1_t1_body
  sl_exec
  sl_step
  rw [inv_mid d L C3 Tb hpre O W q f0 (k.val + 1) (by omega) (by omega)]
  unfold invCommon inv4B
  rw [show 5 * (k.val + 1) = 5 * k.val + 5 by ring]
  simp only [show 5 * k.val + 5 + 0 = 5 * k.val + 5 from rfl, show 5 * k.val + 5 + 1 = 5 * k.val + 6 from rfl, show 5 * k.val + 5 + 2 = 5 * k.val + 7 from rfl,
    show 5 * k.val + 5 + 3 = 5 * k.val + 8 from rfl, show 5 * k.val + 5 + 4 = 5 * k.val + 9 from rfl, show 5 * k.val + 5 + 5 = 5 * k.val + 10 from rfl,
    show 5 * k.val + 5 - 1 = 5 * k.val + 4 from rfl]
  rw [bigSep_range_push' (xRowP d L C3) (5 * k.val + 4) rfl, bigSep_range_push' (xRowP d L C3) (5 * k.val + 3) rfl,
    bigSep_range_push' (xRowP d L C3) (5 * k.val + 2) rfl, bigSep_range_push' (xRowP d L C3) (5 * k.val + 1) rfl,
    bigSep_range_push' (xRowP d L C3) (5 * k.val) (b := 5 * k.val + 1) rfl]
  rw [bigSep_range_push' (oDone d L C3 Tb) (5 * k.val + 3) rfl, bigSep_range_push' (oDone d L C3 Tb) (5 * k.val + 2) rfl,
    bigSep_range_push' (oDone d L C3 Tb) (5 * k.val + 1) rfl, bigSep_range_push' (oDone d L C3 Tb) (5 * k.val) (b := 5 * k.val + 1) rfl,
    bigSep_range_push' (oDone d L C3 Tb) (5 * k.val - 1) (b := 5 * k.val) (by omega)]
  -- the five chunks whose writes were waited hold the gathered contents
  rw [← chunk_pts4 d L C3 Tb hpre f0 hGP (5 * k.val - 1) (by omega) s4, ← chunk_pts0 d L C3 Tb hpre f0 hGP (5 * k.val) (by omega) s0,
    ← chunk_pts1 d L C3 Tb hpre f0 hGP (5 * k.val + 1) (by omega) s1, ← chunk_pts2 d L C3 Tb hpre f0 hGP (5 * k.val + 2) (by omega) s2,
    ← chunk_pts3 d L C3 Tb hpre f0 hGP (5 * k.val + 3) (by omega) s3]
  unfold FG0 FG1 FG2 FG3 FW4 tokR tokP xRowP oFresh
  iexists (insert (SemLoc.dma (⟨12, by decide⟩ : DmaSem sig), (default : HIx 1)) (insert (SemLoc.dma (⟨8, by decide⟩ : DmaSem sig), (default : HIx 1)) (insert (SemLoc.dma (⟨11, by decide⟩ : DmaSem sig), (default : HIx 1)) (insert (SemLoc.dma (⟨7, by decide⟩ : DmaSem sig), (default : HIx 1)) (insert (SemLoc.dma (⟨10, by decide⟩ : DmaSem sig), (default : HIx 1)) (insert (SemLoc.dma (⟨6, by decide⟩ : DmaSem sig), (default : HIx 1)) (insert (SemLoc.dma (⟨9, by decide⟩ : DmaSem sig), (default : HIx 1)) (insert (SemLoc.dma (⟨5, by decide⟩ : DmaSem sig), (default : HIx 1)) (insert (SemLoc.dma (⟨13, by decide⟩ : DmaSem sig), (default : HIx 1)) (insert (SemLoc.dma (⟨4, by decide⟩ : DmaSem sig), (default : HIx 1)) W'))))))))))
  isplitr
  · ipureintro
    exact W_ins _ (W_ins _ (W_ins _ (W_ins _ (W_ins _ (W_ins _ (W_ins _ (W_ins _ (W_ins _ (W_ins _ hW')))))))))
  isplitl [Howes]
  · iexact Howes
  iexists ((slotM0).view.writes (Elt F) s0 [⟨Rect.whole S128x128, GP d L C3 Tb hpre (5 * k.val + 0)⟩]),
    ((slotM1).view.writes (Elt F) s1 [⟨Rect.whole S128x128, GP d L C3 Tb hpre (5 * k.val + 1)⟩]),
    ((slotM2).view.writes (Elt F) s2 [⟨Rect.whole S128x128, GP d L C3 Tb hpre (5 * k.val + 2)⟩]),
    ((slotM3).view.writes (Elt F) s3 [⟨Rect.whole S128x128, GP d L C3 Tb hpre (5 * k.val + 3)⟩]),
    ((slotM4).view.writes (Elt F) s4 [⟨Rect.whole S128x128, GP d L C3 Tb hpre (5 * k.val - 1)⟩])
  isplitl [Hmw]; · iexact Hmw
  isplitl [HX4 HG3_dst_and HG2_dst_and HG1_dst_and HG0_dst_and HXret]
  · isplitl [HX4]; · iexact HX4
    isplitl [HG3_dst_and]; · iexact HG3_dst_and
    isplitl [HG2_dst_and]; · iexact HG2_dst_and
    isplitl [HG1_dst_and]; · iexact HG1_dst_and
    isplitl [HG0_dst_and]; · iexact HG0_dst_and
    iexact HXret
  isplitl [HXun]; · iexact HXun
  isplitl [HOfr]; · iexact HOfr
  isplitl [HO3 HO2 HO1 HO0 HW4_dst HOdone]
  · isplitl [HO3]; · iexact HO3
    isplitl [HO2]; · iexact HO2
    isplitl [HO1]; · iexact HO1
    isplitl [HO0]; · iexact HO0
    isplitl [HW4_dst]; · iexact HW4_dst
    iexact HOdone
  isplitl [HG0 HR4 HG1 HR5 HG2 HR6 HG3 HR7 Hw0 Hw1 Hw2 Hw3]
  · isplitl [HG0]; · iexact HG0
    isplitl [HR4]; · iexact HR4
    isplitl [HG1]; · iexact HG1
    isplitl [HR5]; · iexact HR5
    isplitl [HG2]; · iexact HG2
    isplitl [HR6]; · iexact HR6
    isplitl [HG3]; · iexact HG3
    isplitl [HR7]; · iexact HR7
    isplitl [Hw0]; · iexact Hw0
    isplitl [Hw1]; · iexact Hw1
    isplitl [Hw2]; · iexact Hw2
    iexact Hw3
  isplitl [HW4]; · iexact HW4
  isplitl [Hc8]; · iexact Hc8
  isplitl [HT8]; · iexact HT8
  iexact HX9

end Cert.KernelIdeal.Hand

end
-- ==== Proof.TileTripLast.lean ====
/-
  The vector subcore's task, part six (c): the last trip of its loop (k = 39), from what it holds before the trip to
  the five writes in flight the epilogue waits for. Stage 0 still waits for the write before it and starts the last
  gather; stages 1 .. 4 only wait for their gathers and start their writes.
-/
import proofs.«206789_g36283883716857_cont_8to1_b_1933_18_alg».proof.Proof.TileValue

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S32x200x128 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v4_scv : Memref Cert.KernelIdeal.sig Kind.scVector Space.hbm Cert.KernelIdeal.S819200x128 EltTy.f32)
local notation "xV" => (Memref.whole Cert.KernelIdeal.cc1_scratch0 : Memref Cert.KernelIdeal.sig Kind.scVector Space.vmem Cert.KernelIdeal.S200x128 EltTy.i32)
local notation "bV" => (Memref.whole Cert.KernelIdeal.cc1_scratch1 : Memref Cert.KernelIdeal.sig Kind.scVector Space.vmem Cert.KernelIdeal.S5x128x128 EltTy.f32)

local notation "tVs" => (Memref.slice (Memref.whole Cert.KernelIdeal.main_v1_scv : Memref Cert.KernelIdeal.sig Kind.scVector Space.hbm Cert.KernelIdeal.S1000000x128 EltTy.f32) (Rect.unit (s := Cert.KernelIdeal.S1000000x128) ![0, 0] Cert.KernelIdeal.S1000000x128.size Cert.KernelIdeal.Gen.inb_S1000000x128_S1000000x128_0_0) (fun _ => rfl))
local notation "slotM0" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![0, 0, 0] Cert.KernelIdeal.S1x128x128.size Cert.KernelIdeal.Gen.inb_S5x128x128_S1x128x128_0_0_0) (fun _ => rfl)) Cert.KernelIdeal.S128x128 Cert.KernelIdeal.Gen.squeezes_S1x128x128_S128x128)
local notation "slotM1" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![1, 0, 0] Cert.KernelIdeal.S1x128x128.size Cert.KernelIdeal.Gen.inb_S5x128x128_S1x128x128_1_0_0) (fun _ => rfl)) Cert.KernelIdeal.S128x128 Cert.KernelIdeal.Gen.squeezes_S1x128x128_S128x128)
local notation "slotM2" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![2, 0, 0] Cert.KernelIdeal.S1x128x128.size Cert.KernelIdeal.Gen.inb_S5x128x128_S1x128x128_2_0_0) (fun _ => rfl)) Cert.KernelIdeal.S128x128 Cert.KernelIdeal.Gen.squeezes_S1x128x128_S128x128)
local notation "slotM3" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![3, 0, 0] Cert.KernelIdeal.S1x128x128.size Cert.KernelIdeal.Gen.inb_S5x128x128_S1x128x128_3_0_0) (fun _ => rfl)) Cert.KernelIdeal.S128x128 Cert.KernelIdeal.Gen.squeezes_S1x128x128_S128x128)
local notation "slotM4" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![4, 0, 0] Cert.KernelIdeal.S1x128x128.size Cert.KernelIdeal.Gen.inb_S5x128x128_S1x128x128_4_0_0) (fun _ => rfl)) Cert.KernelIdeal.S128x128 Cert.KernelIdeal.Gen.squeezes_S1x128x128_S128x128)

local notation:max "xRow(" c ")" => (Memref.squeeze (xRowS c) Cert.KernelIdeal.S128 Cert.KernelIdeal.Gen.squeezes_S1x128_S128)

variable [FloatOps F] (d : Dev nD) (L : grid1.Coords) (C3 : (d : Dev nD) → Buf (Elt F) (idxLoc d)) (Tb : (d : Dev nD) → Buf (Elt F) (padLoc d))
  (hpre : ∀ d j, (C3 d j).toNat < 1000000)
  (O : CellTallies nD τ sig (HIx 1)) (W : Waits sig (HIx 1)) (q : PosShare TreeShare) (f0 : Buf (Elt F) (gatLoc d))

set_option maxHeartbeats 4000000 in
theorem trip_last (hGP : GPval d L C3 Tb hpre) (k : Fin k1_t1_loop.trips) (hk39 : k.val = 39) (v2 : BitVec 32) (acc : Unit) :
    inv d L C3 Tb hpre O W q f0 k.val acc
      ⊢ wp frame (wpE (defs₀ (F := F)) 𝒱₀ (VT d L) none) Set.univ
          (k1_t1_body L iV (Memref.isWhole_whole _) tV (Memref.isWhole_whole _) oV (Memref.isWhole_whole _)
            xV (Memref.isWhole_whole _) bV (Memref.isWhole_whole _) cc1_scratch2 cc1_scratch3 cc1_scoped0 v2 k acc)
          (inv d L C3 Tb hpre O W q f0 (k.val + 1)) := by
  have hk1 : 1 ≤ k.val := by omega
  have hc1 : k1_cond1 k = 1#1 := (k1_cond1_iff k).2 hk1
  have hc2 : ¬ k1_cond2 k = 1#1 := fun h => by have := (k1_cond2_iff k).1 h; omega
  have hc3 : ¬ k1_cond3 k = 1#1 := fun h => by have := (k1_cond3_iff k).1 h; omega
  have hc4 : ¬ k1_cond4 k = 1#1 := fun h => by have := (k1_cond4_iff k).1 h; omega
  have hc5 : ¬ k1_cond5 k = 1#1 := fun h => by have := (k1_cond5_iff k).1 h; omega
  have hin := hinR d L C3 hpre
  rw [inv_mid d L C3 Tb hpre O W q f0 k.val hk1 (by omega) acc]
  rw [bigSep_Ico_pop' (oFresh d L f0) (5 * k.val + 1) (by omega) rfl, bigSep_Ico_pop' (oFresh d L f0) (5 * k.val + 2) (by omega) rfl,
    bigSep_Ico_pop' (oFresh d L f0) (5 * k.val + 3) (by omega) rfl, bigSep_Ico_pop' (oFresh d L f0) (5 * k.val + 4) (by omega) rfl,
    bigSep_Ico_pop' (oFresh d L f0) (5 * k.val + 5) (by omega) rfl]
  unfold invCommon inv4B
  iintro ⟨%W', %hW', Howes, %s0, %s1, %s2, %s3, %s4, #Hmw, HXret, HXun, ⟨HO0, HO1, HO2, HO3, HO4, HOfr⟩, HOdone,
    ⟨HG0, HR4, HG1, HR5, HG2, HR6, HG3, HR7, Hw0, Hw1, Hw2, Hw3⟩, ⟨HW4, Hc8, HT8, HX4⟩⟩
  unfold FG0 FG1 FG2 FG3 FW4 tokR tokP xRowP oFresh
  unfold k1_t1_body
  sl_exec
  sl_step
  rw [inv_last d L C3 Tb hpre O W q f0 (k.val + 1) (by omega)]
  rw [Nat.add_sub_cancel]
  unfold invC
  rw [show 5 * (k.val + 1) = 5 * k.val + 5 by ring]
  simp only [show 5 * k.val + 5 + 0 = 5 * k.val + 5 from rfl, show 5 * k.val + 5 + 1 = 5 * k.val + 6 from rfl, show 5 * k.val + 5 + 2 = 5 * k.val + 7 from rfl,
    show 5 * k.val + 5 + 3 = 5 * k.val + 8 from rfl, show 5 * k.val + 5 + 4 = 5 * k.val + 9 from rfl, show 5 * k.val + 5 + 5 = 5 * k.val + 10 from rfl,
    show 5 * k.val + 5 - 1 = 5 * k.val + 4 from rfl]
  rw [show Finset.Ico (5 * k.val + 10) 200 = Finset.Ico (5 * k.val + 5) 200 from by
    rw [Finset.Ico_eq_empty (by omega), Finset.Ico_eq_empty (by omega)]]
  rw [bigSep_range_push' (xRowP d L C3) (5 * k.val + 4) rfl, bigSep_range_push' (xRowP d L C3) (5 * k.val + 3) rfl,
    bigSep_range_push' (xRowP d L C3) (5 * k.val + 2) rfl, bigSep_range_push' (xRowP d L C3) (5 * k.val + 1) rfl,
    bigSep_range_push' (xRowP d L C3) (5 * k.val) (b := 5 * k.val + 1) rfl]
  rw [bigSep_range_push' (oDone d L C3 Tb) (5 * k.val - 1) (b := 5 * k.val) (by omega)]
  -- the chunk whose write was waited holds the gathered contents
  rw [← chunk_pts4 d L C3 Tb hpre f0 hGP (5 * k.val - 1) (by omega) s4]
  unfold FW0 FW1 FW2 FW3 FW4 tokP xRowP oFresh
  iexists (insert (SemLoc.dma (⟨8, by decide⟩ : DmaSem sig), (default : HIx 1)) (insert (SemLoc.dma (⟨7, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨13, by decide⟩ : DmaSem sig), (default : HIx 1)) (insert (SemLoc.dma (⟨4, by decide⟩ : DmaSem sig), (default : HIx 1)) W'))))))
  isplitr
  · ipureintro
    exact W_ins _ (W_ins _ (W_ins _ (W_ins _ (W_ins _ (W_ins _ (hW'))))))
  isplitl [Howes]
  · iexact Howes
  iexists s0, s1, s2, s3, ((slotM4).view.writes (Elt F) s4 [⟨Rect.whole S128x128, GP d L C3 Tb hpre (5 * k.val - 1)⟩])
  isplitl [Hmw]; · iexact Hmw
  isplitl [HX4 HG3_dst_and HG2_dst_and HG1_dst_and HG0_dst_and HXret]
  · isplitl [HX4]; · iexact HX4
    isplitl [HG3_dst_and]; · iexact HG3_dst_and
    isplitl [HG2_dst_and]; · iexact HG2_dst_and
    isplitl [HG1_dst_and]; · iexact HG1_dst_and
    isplitl [HG0_dst_and]; · iexact HG0_dst_and
    iexact HXret
  isplitl [HXun]; · iexact HXun
  isplitl [HOfr]; · iexact HOfr
  isplitl [HW4_dst HOdone]
  · isplitl [HW4_dst]; · iexact HW4_dst
    iexact HOdone
  isplitl [Hw0]; · iexact Hw0
  isplitl [Hw1]; · iexact Hw1
  isplitl [Hw2]; · iexact Hw2
  isplitl [Hw3]; · iexact Hw3
  isplitl [HW4]; · iexact HW4
  isplitl [HG0]; · iexact HG0
  isplitl [HG1]; · iexact HG1
  isplitl [HG2]; · iexact HG2
  isplitl [HG3]; · iexact HG3
  isplitl [Hc8]; · iexact Hc8
  isplitl [HR4]; · iexact HR4
  isplitl [HR5]; · iexact HR5
  isplitl [HR6]; · iexact HR6
  isplitl [HR7]; · iexact HR7
  iexact HT8

end Cert.KernelIdeal.Hand

end
-- ==== Proof.TileOwn.lean ====
/-
  The vector subcore's task, part five: what the launch hands the subcore, respelt as the body names it — its slab
  of the classes, its share of the padded table, its eleven DMA semaphores one by one, its two scratch buffers — and
  the five slots of the stage buffer, each at contents of its own, joined back into the buffer.
-/
import proofs.«206789_g36283883716857_cont_8to1_b_1933_18_alg».proof.Proof.TileValue

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S32x200x128 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v4_scv : Memref Cert.KernelIdeal.sig Kind.scVector Space.hbm Cert.KernelIdeal.S819200x128 EltTy.f32)
local notation "xV" => (Memref.whole Cert.KernelIdeal.cc1_scratch0 : Memref Cert.KernelIdeal.sig Kind.scVector Space.vmem Cert.KernelIdeal.S200x128 EltTy.i32)
local notation "bV" => (Memref.whole Cert.KernelIdeal.cc1_scratch1 : Memref Cert.KernelIdeal.sig Kind.scVector Space.vmem Cert.KernelIdeal.S5x128x128 EltTy.f32)

local notation "tVs" => (Memref.slice (Memref.whole Cert.KernelIdeal.main_v1_scv : Memref Cert.KernelIdeal.sig Kind.scVector Space.hbm Cert.KernelIdeal.S1000000x128 EltTy.f32) (Rect.unit (s := Cert.KernelIdeal.S1000000x128) ![0, 0] Cert.KernelIdeal.S1000000x128.size Cert.KernelIdeal.Gen.inb_S1000000x128_S1000000x128_0_0) (fun _ => rfl))
local notation "slotM0" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![0, 0, 0] Cert.KernelIdeal.S1x128x128.size Cert.KernelIdeal.Gen.inb_S5x128x128_S1x128x128_0_0_0) (fun _ => rfl)) Cert.KernelIdeal.S128x128 Cert.KernelIdeal.Gen.squeezes_S1x128x128_S128x128)
local notation "slotM1" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![1, 0, 0] Cert.KernelIdeal.S1x128x128.size Cert.KernelIdeal.Gen.inb_S5x128x128_S1x128x128_1_0_0) (fun _ => rfl)) Cert.KernelIdeal.S128x128 Cert.KernelIdeal.Gen.squeezes_S1x128x128_S128x128)
local notation "slotM2" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![2, 0, 0] Cert.KernelIdeal.S1x128x128.size Cert.KernelIdeal.Gen.inb_S5x128x128_S1x128x128_2_0_0) (fun _ => rfl)) Cert.KernelIdeal.S128x128 Cert.KernelIdeal.Gen.squeezes_S1x128x128_S128x128)
local notation "slotM3" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![3, 0, 0] Cert.KernelIdeal.S1x128x128.size Cert.KernelIdeal.Gen.inb_S5x128x128_S1x128x128_3_0_0) (fun _ => rfl)) Cert.KernelIdeal.S128x128 Cert.KernelIdeal.Gen.squeezes_S1x128x128_S128x128)
local notation "slotM4" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![4, 0, 0] Cert.KernelIdeal.S1x128x128.size Cert.KernelIdeal.Gen.inb_S5x128x128_S1x128x128_4_0_0) (fun _ => rfl)) Cert.KernelIdeal.S128x128 Cert.KernelIdeal.Gen.squeezes_S1x128x128_S128x128)

local notation:max "xRow(" c ")" => (Memref.squeeze (xRowS c) Cert.KernelIdeal.S128 Cert.KernelIdeal.Gen.squeezes_S1x128_S128)

section Own

variable (d : Dev nD) (L : grid1.Coords)

/-! ## The slab of the classes and the table -/

theorem islabK_eq : islabK L = islab (widL L) := by
  unfold islabK islab Rect.part Rect.block
  congr 1 <;> funext a
  · rw [k1_off1_eq]
    match a with
    | 0 => simp [Shape.partIx, Shape.partSize, widL, wid]
    | 1 => simp [Shape.partIx, Shape.partSize]
    | 2 => simp [Shape.partIx, Shape.partSize]
  · match a with
    | 0 => simp [Shape.partSize]
    | 1 => simp [Shape.partSize]
    | 2 => simp [Shape.partSize]

theorem set_iSlabK : (iSlabK L).view.set = iSlabSet (widL L) := by
  show (((iV).view.slice (islabK L)).reshape S200x128 squeezes_S1x200x128_S200x128.numel_eq).set = ((iV).view.slice (islab (widL L))).set
  rw [View.set_reshape]
  exact islabK_eq L ▸ rfl

theorem pts_iSlabK (f : Buf (Elt F) (idxLoc d)) :
    ((iSlabK L).view.loc (VT d L) ↦[(iSlabK L).view.set]{fullShare} f : sProp 𝕄) = idxLoc d ↦[iSlabSet (widL L)]{fullShare} f := by
  rw [set_iSlabK]

theorem tVs_set : (tVs).view.set = Finset.univ := by
  refine Finset.eq_univ_of_forall fun i => ?_
  have h0 : (i 0).val < 1000000 := (i 0).isLt
  have h1 : (i 1).val < 128 := (i 1).isLt
  show i ∈ ((View.whole (main_v1_scv : Ref sig .scVector)).slice _).set
  rw [View.set_slice]
  refine Finset.mem_map.mpr ⟨i, ?_, rfl⟩
  rw [Rect.mem_set_unit]
  intro a; fin_cases a
  · show 0 ≤ (i 0).val ∧ (i 0).val < 0 + 1000000; omega
  · show 0 ≤ (i 1).val ∧ (i 1).val < 0 + 128; omega

theorem pts_tVs (qq : PosShare TreeShare) (f : Buf (Elt F) (padLoc d)) :
    ((tVs).view.loc (VT d L) ↦[(tVs).view.set]{qq} f : sProp 𝕄) = padLoc d ↦{qq} f := by
  rw [tVs_set]

theorem pts_xV (f : Buf (Elt F) ((VT d L).loc cc1_scratch0)) :
    ((xV).view.loc (VT d L) ↦[(xV).view.set]{fullShare} f : sProp 𝕄) = (VT d L).loc cc1_scratch0 ↦{fullShare} f := by
  rw [View.set_whole]
theorem pts_bV (f : Buf (Elt F) ((VT d L).loc cc1_scratch1)) :
    ((bV).view.loc (VT d L) ↦[(bV).view.set]{fullShare} f : sProp 𝕄) = (VT d L).loc cc1_scratch1 ↦{fullShare} f := by
  rw [View.set_whole]

/-! ## The five slots, each at its own contents, are the stage buffer at some contents -/

theorem slots_join (c0 c1 c2 c3 c4 : Buf (Elt F) ((bV).view.loc (VT d L))) :
    (iprop(((slotM0).view.loc (VT d L) ↦[(slotM0).view.set]{fullShare} c0)
        ∗ ((slotM1).view.loc (VT d L) ↦[(slotM1).view.set]{fullShare} c1)
        ∗ ((slotM2).view.loc (VT d L) ↦[(slotM2).view.set]{fullShare} c2)
        ∗ ((slotM3).view.loc (VT d L) ↦[(slotM3).view.set]{fullShare} c3)
        ∗ ((slotM4).view.loc (VT d L) ↦[(slotM4).view.set]{fullShare} c4)) : sProp 𝕄)
      ⊢ iprop(∃ g, (bV).view.loc (VT d L) ↦[(bV).view.set]{fullShare} g) := by
  let fs : ℕ → Buf (Elt F) ((bV).view.loc (VT d L)) := fun b => match b with | 0 => c0 | 1 => c1 | 2 => c2 | 3 => c3 | _ => c4
  iintro ⟨H0, H1, H2, H3, H4⟩
  ihave H := (pointsTo_biUnion_join (ℓ := (bV).view.loc (VT d L)) (q := fullShare) (Val := Elt F) (Finset.range 5)
      (fun b => (slotRect b).set) fs c0 slots_disjoint) $$ [H0 H1 H2 H3 H4]
  · rw [bigSep_range_push, bigSep_range_push, bigSep_range_push, bigSep_range_push, Finset.range_one, bigSep_singleton,
      ← slot_set0, ← slot_set1, ← slot_set2, ← slot_set3, ← slot_set4]
    isplitl [H4]; · iexact H4
    isplitl [H3]; · iexact H3
    isplitl [H2]; · iexact H2
    isplitl [H1]; · iexact H1
    iexact H0
  icases H with ⟨%g, -, Hg⟩
  rw [slots_cover]
  iexists g; iexact Hg

/-! ## The subcore's own semaphores and buffers -/

abbrev csem (k : Nat) (hk : k < 15 := by decide) : DmaSem sig := ⟨k, hk⟩
abbrev dcell (d : Dev nD) (c : Fin τ.nSC) (i : Fin τ.nSub) (k : Fin 11) : GSem nD τ sig := (V d c i, .dma (csem (4 + k.val) (by omega)))
/-- The eleven cells the body names, at zero. -/
abbrev cells0 (d : Dev nD) (L : grid1.Coords) : sProp 𝕄 :=
  iprop(semVal (VT d L, SemLoc.dma (csem 4)) 0 ∗ semVal (VT d L, SemLoc.dma (csem 5)) 0 ∗ semVal (VT d L, SemLoc.dma (csem 6)) 0 ∗ semVal (VT d L, SemLoc.dma (csem 7)) 0 ∗ semVal (VT d L, SemLoc.dma (csem 8)) 0 ∗ semVal (VT d L, SemLoc.dma (csem 9)) 0 ∗ semVal (VT d L, SemLoc.dma (csem 10)) 0 ∗ semVal (VT d L, SemLoc.dma (csem 11)) 0 ∗ semVal (VT d L, SemLoc.dma (csem 12)) 0 ∗ semVal (VT d L, SemLoc.dma (csem 13)) 0 ∗ semVal (VT d L, SemLoc.dma (csem 14)) 0)

theorem dcell_mem (c : Fin τ.nSC) (i : Fin τ.nSub) (k : Fin 11) : dcell d c i k ∈ ownCells (V d c i) :=
  mem_ownCells.mpr ⟨rfl, (show ∀ s : DmaSem sig, (SemLoc.dma s : SemLoc sig).isScoped .scVector = true by decide) _⟩

theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

theorem ownBufs_V :
    (ownBufs (VT d L) : sProp 𝕄)
      = iprop((∃ f, (VT d L).loc cc1_scratch0 ↦{fullShare} f) ∗ (∃ f, (VT d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Own

/-! ## At the loop's two ends -/

theorem trips_eq : k1_t1_loop.trips = 40 := by decide +kernel

section Ends

variable [FloatOps F] (d : Dev nD) (L : grid1.Coords) (C3 : (d : Dev nD) → Buf (Elt F) (idxLoc d)) (Tb : (d : Dev nD) → Buf (Elt F) (padLoc d))

/-- The index scratch after the copy is rows 0 .. 4 and the rest; -/
theorem xRows_start :
    ((xV).view.loc (VT d L) ↦[(xV).view.set]{fullShare} XS d L C3 : sProp 𝕄)
      = iprop(xRowP d L C3 0 ∗ xRowP d L C3 1 ∗ xRowP d L C3 2 ∗ xRowP d L C3 3 ∗ xRowP d L C3 4 ∗ bigSep (Finset.Ico 5 200) (xRowP d L C3)) := by
  rw [xRows_eq, Finset.range_eq_Ico, bigSep_Ico_pop' _ 1 (by omega) rfl, bigSep_Ico_pop' _ 2 (by omega) rfl, bigSep_Ico_pop' _ 3 (by omega) rfl,
    bigSep_Ico_pop' _ 4 (by omega) rfl, bigSep_Ico_pop' _ 5 (by omega) rfl]
  rfl
/-- all its rows are the scratch again. -/
theorem xRows_end :
    (bigSep (Finset.range 200) (xRowP d L C3) : sProp 𝕄) = ((xV).view.loc (VT d L) ↦[(xV).view.set]{fullShare} XS d L C3) :=
  (xRows_eq d L (XS d L C3)).symm
/-- The worker's block of the gathered array is its chunks, not yet written; -/
theorem oWins_start (f0 : Buf (Elt F) (gatLoc d)) :
    (gatLoc d ↦[oBlkSet (widL L)]{fullShare} f0 : sProp 𝕄) = bigSep (Finset.Ico 0 200) (oFresh d L f0) := by
  rw [oWins_eq, Finset.range_eq_Ico]; rfl
/-- all written, they are the block at the gathered contents. -/
theorem oWins_end :
    (bigSep (Finset.range 200) (oDone d L C3 Tb) : sProp 𝕄)
      = (gatLoc d ↦[oBlkSet (widL L)]{fullShare} (gathered (C3 d) (Tb d) : Buf (Elt F) (gatLoc d))) :=
  (oWins_eq d L _).symm

end Ends

end Cert.KernelIdeal.Hand

end
-- ==== Proof.TileGP.lean ====
/-
  The vector subcore's task, part five: the value of a gather. The gather of chunk c writes into its slot, at (r, j),
  entry (row named by word r of row c of the index scratch, j) of the padded table. The index scratch holds the
  subcore's slab of the classes, so word r of its row c is class word (w, c, r), w = 2 i + c' the number of subcore i
  of SparseCore c'; row 25600 w + 128 c + r of the gathered array names exactly that class word (25600 = 200 · 128),
  and a class word below 1000000 names the row of its own number. Hence the slot holds, entry by entry, rows
  25600 w + 128 c .. 25600 w + 128 c + 127 of the gathered array.
-/
import proofs.«206789_g36283883716857_cont_8to1_b_1933_18_alg».proof.Proof.TileValue
import Idealize.ShloMosaic.Lib.ValueLayout

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S32x200x128 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v4_scv : Memref Cert.KernelIdeal.sig Kind.scVector Space.hbm Cert.KernelIdeal.S819200x128 EltTy.f32)
local notation "xV" => (Memref.whole Cert.KernelIdeal.cc1_scratch0 : Memref Cert.KernelIdeal.sig Kind.scVector Space.vmem Cert.KernelIdeal.S200x128 EltTy.i32)
local notation "bV" => (Memref.whole Cert.KernelIdeal.cc1_scratch1 : Memref Cert.KernelIdeal.sig Kind.scVector Space.vmem Cert.KernelIdeal.S5x128x128 EltTy.f32)

local notation "tVs" => (Memref.slice (Memref.whole Cert.KernelIdeal.main_v1_scv : Memref Cert.KernelIdeal.sig Kind.scVector Space.hbm Cert.KernelIdeal.S1000000x128 EltTy.f32) (Rect.unit (s := Cert.KernelIdeal.S1000000x128) ![0, 0] Cert.KernelIdeal.S1000000x128.size Cert.KernelIdeal.Gen.inb_S1000000x128_S1000000x128_0_0) (fun _ => rfl))
local notation "slotM0" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![0, 0, 0] Cert.KernelIdeal.S1x128x128.size Cert.KernelIdeal.Gen.inb_S5x128x128_S1x128x128_0_0_0) (fun _ => rfl)) Cert.KernelIdeal.S128x128 Cert.KernelIdeal.Gen.squeezes_S1x128x128_S128x128)
local notation "slotM1" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![1, 0, 0] Cert.KernelIdeal.S1x128x128.size Cert.KernelIdeal.Gen.inb_S5x128x128_S1x128x128_1_0_0) (fun _ => rfl)) Cert.KernelIdeal.S128x128 Cert.KernelIdeal.Gen.squeezes_S1x128x128_S128x128)
local notation "slotM2" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![2, 0, 0] Cert.KernelIdeal.S1x128x128.size Cert.KernelIdeal.Gen.inb_S5x128x128_S1x128x128_2_0_0) (fun _ => rfl)) Cert.KernelIdeal.S128x128 Cert.KernelIdeal.Gen.squeezes_S1x128x128_S128x128)
local notation "slotM3" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![3, 0, 0] Cert.KernelIdeal.S1x128x128.size Cert.KernelIdeal.Gen.inb_S5x128x128_S1x128x128_3_0_0) (fun _ => rfl)) Cert.KernelIdeal.S128x128 Cert.KernelIdeal.Gen.squeezes_S1x128x128_S128x128)
local notation "slotM4" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![4, 0, 0] Cert.KernelIdeal.S1x128x128.size Cert.KernelIdeal.Gen.inb_S5x128x128_S1x128x128_4_0_0) (fun _ => rfl)) Cert.KernelIdeal.S128x128 Cert.KernelIdeal.Gen.squeezes_S1x128x128_S128x128)

local notation:max "xRow(" c ")" => (Memref.squeeze (xRowS c) Cert.KernelIdeal.S128 Cert.KernelIdeal.Gen.squeezes_S1x128_S128)

section GPV

variable [FloatOps F] (d : Dev nD) (L : grid1.Coords) (C3 : (d : Dev nD) → Buf (Elt F) (idxLoc d)) (Tb : (d : Dev nD) → Buf (Elt F) (padLoc d))
  (hpre : ∀ d j, (C3 d j).toNat < 1000000)

/-- The k-th index of a list of 128 words in row-major order is the index with coordinate k. -/
theorem rowMajor_symm_one (k : Fin 128) : S128.rowMajor.symm (k.cast (rfl : 128 = S128.numel)) = ix1 k := by
  rw [Equiv.symm_apply_eq]
  apply Fin.ext
  rw [Shape.rowMajor_val_one]
  rfl

/-- Word r of row c of the index scratch is class word (2 i + c', c, r) of the classes, (c', i) the subcore's place:
    the scratch holds the subcore's slab, and the slab's index (c, r) sits at (slab number, c, r) of the classes. -/
theorem xs_word (c : ℕ) (r : Fin 128) :
    View.read (Elt F) (xRow(c)).view (XS d L C3) (ix1 r)
      = C3 d (ix3 (⟨2 * (L 1).val + (L 0).val, by have h0 : (L 0).val < 2 := (L 0).isLt; have h1 : (L 1).val < 16 := (L 1).isLt; omega⟩ : Fin 32) (⟨c % 200, Nat.mod_lt _ (by norm_num)⟩ : Fin 200) r) := by
  unfold XS
  have e : View.read (Elt F) (xRow(c)).view ((xV).view.writes (Elt F) (xV).view.junk [⟨Rect.whole cc1_scratch0.ty.shape, PAY d L C3⟩]) (ix1 r)
      = View.read (Elt F) (xV).view ((xV).view.writes (Elt F) (xV).view.junk [⟨Rect.whole cc1_scratch0.ty.shape, PAY d L C3⟩])
          ((Rect.unit (s := S200x128) ![c % 200, 0] S1x128.size (xRow_inb c)).emb ((Shape.reshapeEquiv squeezes_S1x128_S128.numel_eq) (ix1 r))) := by
    unfold xRowS; rw [View.read_apply, View.read_apply]; rfl
  rw [e, View.read_writes_whole, PAY_apply]
  refine congrArg (C3 d) ?_
  have e1 : Shape.reshapeEquiv squeezes_S1x128_S128.numel_eq (ix1 r) = ix2 (⟨0, Nat.one_pos⟩ : Fin 1) r :=
    Shape.reshapeEquiv_eq_of_rowMajor _ (by
      rw [Shape.rowMajor_val_two, Shape.rowMajor_val_one]
      show 0 * 128 + r.val = r.val
      omega)
  have e2 : (Rect.unit (s := S200x128) ![c % 200, 0] S1x128.size (xRow_inb c)).emb (ix2 (⟨0, Nat.one_pos⟩ : Fin 1) r)
      = ix2 (⟨c % 200, Nat.mod_lt _ (by norm_num)⟩ : Fin 200) r := by
    funext a; apply Fin.ext
    match a with
    | ⟨0, _⟩ => show c % 200 + 1 * 0 = c % 200; omega
    | ⟨1, _⟩ => show 0 + 1 * r.val = r.val; omega
  rw [e1, e2]
  show (islabK L).emb (Shape.reshapeEquiv squeezes_S1x200x128_S200x128.numel_eq (ix2 (⟨c % 200, Nat.mod_lt _ (by norm_num)⟩ : Fin 200) r)) = _
  rw [reshapeEquiv_ix2_1ab]
  have hk := k1_off1_eq L
  funext a; apply Fin.ext
  match a with
  | ⟨0, _⟩ => show k1_off1 L 0 + 1 * 0 = 2 * (L 1).val + (L 0).val; rw [hk]; show 2 * (L 1).val + (L 0).val + 1 * 0 = _; omega
  | ⟨1, _⟩ => show k1_off1 L 1 + 1 * (c % 200) = c % 200; rw [hk]; show 0 + 1 * (c % 200) = _; omega
  | ⟨2, _⟩ => show k1_off1 L 2 + 1 * r.val = r.val; rw [hk]; show 0 + 1 * r.val = _; omega

/-- Row 25600 (2 i + c') + 128 c + r of the gathered array names slab 2 i + c', row c, lane r of the class slabs
    (c below 200, r below 128: a division with remainder). -/
theorem slabIdx_of_val (i : S819200x128.Idx) (c : ℕ) (r : Fin 128) (hv : (i 0).val = obase L + 128 * (c % 200) + r.val) :
    slabIdx (i 0) = ix3 (⟨2 * (L 1).val + (L 0).val, by have h0 : (L 0).val < 2 := (L 0).isLt; have h1 : (L 1).val < 16 := (L 1).isLt; omega⟩ : Fin 32) (⟨c % 200, Nat.mod_lt _ (by norm_num)⟩ : Fin 200) r := by
  have h0 : (L 0).val < 2 := (L 0).isLt
  have h1 : (L 1).val < 16 := (L 1).isLt
  have hc : c % 200 < 200 := Nat.mod_lt _ (by norm_num)
  have hr := r.isLt
  unfold slabIdx
  funext a; apply Fin.ext
  match a with
  | ⟨0, _⟩ => show (i 0).val / 25600 = 2 * (L 1).val + (L 0).val; rw [hv]; unfold obase; omega
  | ⟨1, _⟩ => show (i 0).val % 25600 / 128 = c % 200; rw [hv]; unfold obase; omega
  | ⟨2, _⟩ => show (i 0).val % 128 = r.val; rw [hv]; unfold obase; omega

/-- The entry of the padded table a gather reads for entry (r, j) of its destination, given the rows R the list names:
    entry (R r, j). -/
theorem tVs_emb_idx (R : Fin 128 → Fin 1000000) (r j : Fin 128) :
    (tVs).view.emb (gathers_S1000000x128_S128x128.idx R (ix2 r j)) = ix2 (R r) j := by
  funext a; apply Fin.ext
  match a with
  | ⟨0, _⟩ =>
    have e : (gathers_S1000000x128_S128x128.idx R (ix2 r j) gathers_S1000000x128_S128x128.axis).val = (R r).val :=
      congrArg Fin.val (Shape.Gathers.idx_axis gathers_S1000000x128_S128x128 R (ix2 r j))
    show 0 + 1 * (gathers_S1000000x128_S128x128.idx R (ix2 r j) gathers_S1000000x128_S128x128.axis).val = (R r).val
    omega
  | ⟨1, _⟩ =>
    show 0 + 1 * (gathers_S1000000x128_S128x128.idx R (ix2 r j) ⟨1, _⟩).val = j.val
    rw [Shape.Gathers.idx_of_ne gathers_S1000000x128_S128x128 R (ix2 r j) ⟨1, by decide⟩ (by decide)]
    show 0 + 1 * j.val = j.val
    omega

/-- The gather of chunk c, read at (r, j), is entry (row named by class word (2 i + c', c, r), j) of the padded table,
    and class word (2 i + c', c, r) is the one row 25600 (2 i + c') + 128 c + r of the gathered array names: the gathered
    array's own entry at (first row of chunk c + r, j). Every class word is below 1000000, so it names the row of its
    own number. -/
theorem GP_eq : GPval d L C3 Tb hpre := by
  intro c x hc
  obtain ⟨r, j, rfl⟩ : ∃ r j, x = ix2 r j := ⟨x 0, x 1, eq_ix2 x⟩
  unfold GP SparseCore.gatherPayload
  rw [View.read_apply]
  refine (cast_eq _ _).trans ?_
  unfold gathered
  refine congrArg (Tb d) ?_
  have hs := slabIdx_of_val L ((oWin L c).view.emb (ix2 r j)) c r (by
    show obase L + 128 * (c % 200) + 1 * r.val = _; omega)
  refine (tVs_emb_idx _ r j).trans ?_
  refine congrArg₂ ix2 ?_ ?_
  · apply Fin.ext
    show (View.read (Elt F) (xRow(c)).view (XS d L C3) (S128.rowMajor.symm (r.cast (rfl : 128 = S128.numel)))).toNat = (Cert.Spec.rowOf _).val
    rw [rowMajor_symm_one, xs_word, hs, Cert.Spec.rowOf_val_of_lt _ (hpre d _)]
  · apply Fin.ext
    show j.val = 0 + 1 * j.val
    omega

end GPV

end Cert.KernelIdeal.Hand

end
-- ==== Proof.Tile.lean ====
/-
  The vector subcore's task, whole: the first copy and the five first gathers, the loop by what the subcore holds
  between two trips, the five last waits; then the task from what the launch deals the subcore to what it hands
  back, and the launch theorem's obligation for every subcore.
-/
import proofs.«206789_g36283883716857_cont_8to1_b_1933_18_alg».proof.Proof.TileTripFirst
import proofs.«206789_g36283883716857_cont_8to1_b_1933_18_alg».proof.Proof.TileTripMid
import proofs.«206789_g36283883716857_cont_8to1_b_1933_18_alg».proof.Proof.TileTripLast
import proofs.«206789_g36283883716857_cont_8to1_b_1933_18_alg».proof.Proof.TileOwn
import proofs.«206789_g36283883716857_cont_8to1_b_1933_18_alg».proof.Proof.TileGP

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.KernelIdeal.main_v3_scv : Memref Cert.KernelIdeal.sig Kind.scVector Space.hbm Cert.KernelIdeal.S32x200x128 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v4_scv : Memref Cert.KernelIdeal.sig Kind.scVector Space.hbm Cert.KernelIdeal.S819200x128 EltTy.f32)
local notation "xV" => (Memref.whole Cert.KernelIdeal.cc1_scratch0 : Memref Cert.KernelIdeal.sig Kind.scVector Space.vmem Cert.KernelIdeal.S200x128 EltTy.i32)
local notation "bV" => (Memref.whole Cert.KernelIdeal.cc1_scratch1 : Memref Cert.KernelIdeal.sig Kind.scVector Space.vmem Cert.KernelIdeal.S5x128x128 EltTy.f32)

local notation "tVs" => (Memref.slice (Memref.whole Cert.KernelIdeal.main_v1_scv : Memref Cert.KernelIdeal.sig Kind.scVector Space.hbm Cert.KernelIdeal.S1000000x128 EltTy.f32) (Rect.unit (s := Cert.KernelIdeal.S1000000x128) ![0, 0] Cert.KernelIdeal.S1000000x128.size Cert.KernelIdeal.Gen.inb_S1000000x128_S1000000x128_0_0) (fun _ => rfl))
local notation "slotM0" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![0, 0, 0] Cert.KernelIdeal.S1x128x128.size Cert.KernelIdeal.Gen.inb_S5x128x128_S1x128x128_0_0_0) (fun _ => rfl)) Cert.KernelIdeal.S128x128 Cert.KernelIdeal.Gen.squeezes_S1x128x128_S128x128)
local notation "slotM1" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![1, 0, 0] Cert.KernelIdeal.S1x128x128.size Cert.KernelIdeal.Gen.inb_S5x128x128_S1x128x128_1_0_0) (fun _ => rfl)) Cert.KernelIdeal.S128x128 Cert.KernelIdeal.Gen.squeezes_S1x128x128_S128x128)
local notation "slotM2" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![2, 0, 0] Cert.KernelIdeal.S1x128x128.size Cert.KernelIdeal.Gen.inb_S5x128x128_S1x128x128_2_0_0) (fun _ => rfl)) Cert.KernelIdeal.S128x128 Cert.KernelIdeal.Gen.squeezes_S1x128x128_S128x128)
local notation "slotM3" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![3, 0, 0] Cert.KernelIdeal.S1x128x128.size Cert.KernelIdeal.Gen.inb_S5x128x128_S1x128x128_3_0_0) (fun _ => rfl)) Cert.KernelIdeal.S128x128 Cert.KernelIdeal.Gen.squeezes_S1x128x128_S128x128)
local notation "slotM4" => (Memref.squeeze (Memref.slice (Memref.whole Cert.KernelIdeal.cc1_scratch1 : Memref Cert.KernelIdeal.sig Kind.scVector Space.vmem Cert.KernelIdeal.S5x128x128 EltTy.f32) (Rect.unit (s := Cert.KernelIdeal.S5x128x128) ![4, 0, 0] Cert.KernelIdeal.S1x128x128.size Cert.KernelIdeal.Gen.inb_S5x128x128_S1x128x128_4_0_0) (fun _ => rfl)) Cert.KernelIdeal.S128x128 Cert.KernelIdeal.Gen.squeezes_S1x128x128_S128x128)

local notation:max "xRow(" c ")" => (Memref.squeeze (xRowS c) Cert.KernelIdeal.S128 Cert.KernelIdeal.Gen.squeezes_S1x128_S128)

section Body

variable [FloatOps F] (d : Dev nD) (L : grid1.Coords) (C3 : (d : Dev nD) → Buf (Elt F) (idxLoc d)) (Tb : (d : Dev nD) → Buf (Elt F) (padLoc d))
  (hpre : ∀ d j, (C3 d j).toNat < 1000000)

/-- Whatever the index scratch held before, the slab's copy leaves it at XS. -/
theorem XS_base (g : Buf (Elt F) ((xV).view.loc (VT d L))) :
    (xV).view.writes (Elt F) g [⟨Rect.whole cc1_scratch0.ty.shape, PAY d L C3⟩] = XS d L C3 := by
  unfold XS
  funext i
  have e1 := congrFun (View.read_writes_whole (xV).view g (PAY d L C3)) i
  have e2 := congrFun (View.read_writes_whole (xV).view (xV).view.junk (PAY d L C3)) i
  rw [View.read_apply] at e1 e2
  exact ((cast_eq _ _).symm.trans e1).trans ((cast_eq _ _).symm.trans e2).symm

/-- After the last trip: every row of the index scratch back, chunks 0 .. 194 written, the five last writes in flight. -/
theorem inv_exit (O : CellTallies nD τ sig (HIx 1)) (W : Waits sig (HIx 1)) (q : PosShare TreeShare) (f0 : Buf (Elt F) (gatLoc d))
    (k : ℕ) (h : k = 40) (acc : Unit) :
    inv d L C3 Tb hpre O W q f0 k acc
      ⊢ iprop(∃ W' : Waits sig (HIx 1), ⌜∀ p ∈ W', p ∈ W ∨ p.2 = none⌝ ∗ owes (VT d L) O W'
        ∗ ∃ s0 s1 s2 s3 s4 : Buf (Elt F) ((bV).view.loc (VT d L)), Transfers.MayWaits (VT d L) (default : HIx 1) O
        ∗ bigSep (Finset.range 200) (xRowP d L C3) ∗ bigSep (Finset.range 195) (oDone d L C3 Tb)
        ∗ FW0 d L C3 Tb hpre f0 195 s0 ∗ FW1 d L C3 Tb hpre f0 196 s1 ∗ FW2 d L C3 Tb hpre f0 197 s2 ∗ FW3 d L C3 Tb hpre f0 198 s3 ∗ FW4 d L C3 Tb hpre f0 199 s4
        ∗ semVal (VT d L, SemLoc.dma (⟨4, by decide⟩ : DmaSem sig)) 0 ∗ semVal (VT d L, SemLoc.dma (⟨5, by decide⟩ : DmaSem sig)) 0 ∗ semVal (VT d L, SemLoc.dma (⟨6, by decide⟩ : DmaSem sig)) 0 ∗ semVal (VT d L, SemLoc.dma (⟨7, by decide⟩ : DmaSem sig)) 0 ∗ semVal (VT d L, SemLoc.dma (⟨8, by decide⟩ : DmaSem sig)) 0
        ∗ tokP d L Tb q 4 ∗ tokP d L Tb q 5 ∗ tokP d L Tb q 6 ∗ tokP d L Tb q 7 ∗ tokP d L Tb q 8) := by
  subst h
  rw [inv_last d L C3 Tb hpre O W q f0 40 rfl]
  unfold invC
  rw [show Finset.Ico (5 * 40 + 5) 200 = ∅ from Finset.Ico_eq_empty (by omega), show Finset.Ico (5 * 40) 200 = ∅ from Finset.Ico_eq_empty (by omega),
    bigSep_empty, bigSep_empty]
  iintro ⟨%W', %hW', Howes, %s0, %s1, %s2, %s3, %s4, #Hmw, HXret, -, -, HOdone, HW0, HW1, HW2, HW3, HW4, Hg4, Hg5, Hg6, Hg7, Hg8, HT4, HT5, HT6, HT7, HT8⟩
  iexists W'
  isplitr; · ipureintro; exact hW'
  isplitl [Howes]; · iexact Howes
  iexists s0, s1, s2, s3, s4
  isplitl [Hmw]; · iexact Hmw
  isplitl [HXret]; · iexact HXret
  isplitl [HOdone]; · iexact HOdone
  isplitl [HW0]; · iexact HW0
  isplitl [HW1]; · iexact HW1
  isplitl [HW2]; · iexact HW2
  isplitl [HW3]; · iexact HW3
  isplitl [HW4]; · iexact HW4
  isplitl [Hg4]; · iexact Hg4
  isplitl [Hg5]; · iexact Hg5
  isplitl [Hg6]; · iexact Hg6
  isplitl [Hg7]; · iexact Hg7
  isplitl [Hg8]; · iexact Hg8
  isplitl [HT4]; · iexact HT4
  isplitl [HT5]; · iexact HT5
  isplitl [HT6]; · iexact HT6
  isplitl [HT7]; · iexact HT7
  iexact HT8

set_option maxHeartbeats 4000000 in
/-- The task's body run from the pieces the launch dealt it, in the body's spelling. -/
theorem tile_run (hGP : GPval d L C3 Tb hpre) (O : CellTallies nD τ sig (HIx 1)) (W : Waits sig (HIx 1)) (q : PosShare TreeShare)
    (f0 : Buf (Elt F) (gatLoc d)) (g0 : Buf (Elt F) ((xV).view.loc (VT d L))) (c0 c1 c2 c3 c4 : Buf (Elt F) ((bV).view.loc (VT d L))) :
    (iprop(Transfers.MayWaits (VT d L) (default : HIx 1) O
        ∗ ((iSlabK L).view.loc (VT d L) ↦[(iSlabK L).view.set]{fullShare} C3 d)
        ∗ tokP d L Tb q 4 ∗ tokP d L Tb q 5 ∗ tokP d L Tb q 6 ∗ tokP d L Tb q 7 ∗ tokP d L Tb q 8
        ∗ bigSep (Finset.Ico 0 200) (oFresh d L f0)
        ∗ ((xV).view.loc (VT d L) ↦[(xV).view.set]{fullShare} g0)
        ∗ ((slotM0).view.loc (VT d L) ↦[(slotM0).view.set]{fullShare} c0)
        ∗ ((slotM1).view.loc (VT d L) ↦[(slotM1).view.set]{fullShare} c1)
        ∗ ((slotM2).view.loc (VT d L) ↦[(slotM2).view.set]{fullShare} c2)
        ∗ ((slotM3).view.loc (VT d L) ↦[(slotM3).view.set]{fullShare} c3)
        ∗ ((slotM4).view.loc (VT d L) ↦[(slotM4).view.set]{fullShare} c4)
        ∗ cells0 d L
        ∗ owes (VT d L) O W) : sProp 𝕄)
      ⊢ wp frame (wpE (defs₀ (F := F)) 𝒱₀ (VT d L) none) Set.univ
          (cc1__gather_body L iV (Memref.isWhole_whole _) tV (Memref.isWhole_whole _) oV (Memref.isWhole_whole _)
            xV (Memref.isWhole_whole _) bV (Memref.isWhole_whole _) cc1_scratch2 cc1_scratch3 cc1_scoped0)
          fun _ => iprop(((iSlabK L).view.loc (VT d L) ↦[(iSlabK L).view.set]{fullShare} C3 d)
            ∗ tokP d L Tb q 4 ∗ tokP d L Tb q 5 ∗ tokP d L Tb q 6 ∗ tokP d L Tb q 7 ∗ tokP d L Tb q 8
            ∗ bigSep (Finset.range 200) (oDone d L C3 Tb)
            ∗ (∃ g, (xV).view.loc (VT d L) ↦[(xV).view.set]{fullShare} g)
            ∗ (∃ g, (bV).view.loc (VT d L) ↦[(bV).view.set]{fullShare} g)
            ∗ cells0 d L
            ∗ ∃ W', ⌜∀ p ∈ W', p ∈ W ∨ p.2 = none⌝ ∗ owes (VT d L) O W') := by
  unfold tokP
  iintro ⟨#Hmw, HI, HT4, HT5, HT6, HT7, HT8, HOfr, HX, HS0, HS1, HS2, HS3, HS4, ⟨Hc4, Hc5, Hc6, Hc7, Hc8, Hc9, Hc10, Hc11, Hc12, Hc13, Hc14⟩, Howes⟩
  sl_unfold [cc1__gather_body]
  sl_exec
  ihave HX1 := (Entails.of_eq (show (((xV).view.loc (VT d L) ↦[(xV).view.set]{fullShare}
      (xV).view.writes (Elt F) g0 [⟨Rect.whole cc1_scratch0.ty.shape, tile_run.sl.dma0 d L C3⟩]) : sProp 𝕄)
    = ((xV).view.loc (VT d L) ↦[(xV).view.set]{fullShare} XS d L C3)
    from congrArg (fun f => ((xV).view.loc (VT d L) ↦[(xV).view.set]{fullShare} f : sProp 𝕄)) (XS_base d L C3 g0))) $$ HX
  ihave HXs := (Entails.of_eq (xRows_start d L C3)) $$ HX1
  icases HXs with ⟨HX0, HX1', HX2, HX3, HX4, HXun⟩
  unfold xRowP
  have hin := hinR d L C3 hpre
  sl_exec
  sl_for (inv d L C3 Tb hpre O W q f0) $$ [Hmw HOfr Hc9 Hc10 Hc11 Hc12 Hc13 Howes HXun Hc4 HT4 Hc5 HT5 Hc6 HT6 Hc7 HT7 Hc8 HT8]
  case region =>
    intro k acc
    by_cases h0 : k.val = 0
    · exact trip_first d L C3 Tb hpre O W q f0 hGP k h0 _ acc
    by_cases h39 : k.val = 39
    · exact trip_last d L C3 Tb hpre O W q f0 hGP k h39 _ acc
    exact trip_mid d L C3 Tb hpre O W q f0 hGP k (by omega) (by have := trips_lt k; omega) _ acc
  · -- the five gathers the prologue started are what the subcore holds before trip 0
    rw [inv_first d L C3 Tb hpre O W q f0 0 rfl]
    unfold invCommon inv4A FG0 FG1 FG2 FG3 FG4 tokR xRowP
    simp only [Nat.mul_zero, Nat.zero_add, Nat.zero_sub, Finset.range_zero, bigSep_empty]
    iexists (insert (SemLoc.dma (⟨14, by decide⟩ : DmaSem sig), (default : HIx 1)) W)
    isplitr
    · ipureintro
      exact W_ins _ (fun p hp => .inl hp)
    isplitl [Howes]
    · iexact Howes
    iexists c0, c1, c2, c3, c4
    isplitl [Hmw]; · iexact Hmw
    isplitl []; · iempintro
    isplitl [HXun]; · iexact HXun
    isplitl [HOfr]; · iexact HOfr
    isplitl []; · iempintro
    isplitl [Hc4 HT4 Hc5 HT5 Hc6 HT6 Hc7 HT7 Hc9 Hc10 Hc11 Hc12]
    · isplitl [Hc4]; · iexact Hc4
      isplitl [HT4]; · iexact HT4
      isplitl [Hc5]; · iexact Hc5
      isplitl [HT5]; · iexact HT5
      isplitl [Hc6]; · iexact Hc6
      isplitl [HT6]; · iexact HT6
      isplitl [Hc7]; · iexact Hc7
      isplitl [HT7]; · iexact HT7
      isplitl [Hc9]; · iexact Hc9
      isplitl [Hc10]; · iexact Hc10
      isplitl [Hc11]; · iexact Hc11
      iexact Hc12

    isplitl [Hc8]; · iexact Hc8
    isplitl [HT8]; · iexact HT8
    iexact Hc13
  iintro %acc HIv
  ihave HI2 := (inv_exit d L C3 Tb hpre O W q f0 _ trips_eq acc) $$ HIv
  unfold FW0 FW1 FW2 FW3 FW4 tokP
  icases HI2 with ⟨%W', %hW', Howes, %s0, %s1, %s2, %s3, %s4, -, HXret, HOdone, HW0, HW1, HW2, HW3, HW4, Hg4, Hg5, Hg6, Hg7, Hg8, HT4, HT5, HT6, HT7, HT8⟩
  sl_exec
  sl_step
  -- the five last chunks hold the gathered contents: with chunks 0 .. 194 they are the worker's whole block
  rw [bigSep_range_push' (oDone d L C3 Tb) 199 rfl, bigSep_range_push' (oDone d L C3 Tb) 198 rfl, bigSep_range_push' (oDone d L C3 Tb) 197 rfl,
    bigSep_range_push' (oDone d L C3 Tb) 196 rfl, bigSep_range_push' (oDone d L C3 Tb) 195 rfl]
  rw [← chunk_pts4 d L C3 Tb hpre f0 hGP 199 (by omega) s4, ← chunk_pts3 d L C3 Tb hpre f0 hGP 198 (by omega) s3, ← chunk_pts2 d L C3 Tb hpre f0 hGP 197 (by omega) s2,
    ← chunk_pts1 d L C3 Tb hpre f0 hGP 196 (by omega) s1, ← chunk_pts0 d L C3 Tb hpre f0 hGP 195 (by omega) s0]
  ihave HXw := (Entails.of_eq (xRows_end d L C3)) $$ HXret
  ihave HB := (slots_join d L _ _ _ _ _) $$ [HW0_src HW1_src HW2_src HW3_src HW4_src]
  · isplitl [HW0_src]; · iexact HW0_src
    isplitl [HW1_src]; · iexact HW1_src
    isplitl [HW2_src]; · iexact HW2_src
    isplitl [HW3_src]; · iexact HW3_src
    iexact HW4_src

  isplitl [HI]; · iexact HI
  isplitl [HT4]; · iexact HT4
  isplitl [HT5]; · iexact HT5
  isplitl [HT6]; · iexact HT6
  isplitl [HT7]; · iexact HT7
  isplitl [HT8]; · iexact HT8
  isplitl [HW4_dst HW3_dst HW2_dst HW1_dst HW0_dst HOdone]
  · isplitl [HW4_dst]; · iexact HW4_dst
    isplitl [HW3_dst]; · iexact HW3_dst
    isplitl [HW2_dst]; · iexact HW2_dst
    isplitl [HW1_dst]; · iexact HW1_dst
    isplitl [HW0_dst]; · iexact HW0_dst
    iexact HOdone

  isplitl [HXw]; · iexists _; iexact HXw
  isplitl [HB]; · iexact HB
  isplitl [Hg4 Hg5 Hg6 Hg7 Hg8 HW0 HW1 HW2 HW3 HW4 Hc14]
  · isplitl [Hg4]; · iexact Hg4
    isplitl [Hg5]; · iexact Hg5
    isplitl [Hg6]; · iexact Hg6
    isplitl [Hg7]; · iexact Hg7
    isplitl [Hg8]; · iexact Hg8
    isplitl [HW0]; · iexact HW0
    isplitl [HW1]; · iexact HW1
    isplitl [HW2]; · iexact HW2
    isplitl [HW3]; · iexact HW3
    isplitl [HW4]; · iexact HW4
    iexact Hc14

  iexists (insert (SemLoc.dma (⟨13, by decide⟩ : DmaSem sig), (default : HIx 1)) (insert (SemLoc.dma (⟨12, by decide⟩ : DmaSem sig), (default : HIx 1)) (insert (SemLoc.dma (⟨11, by decide⟩ : DmaSem sig), (default : HIx 1)) (insert (SemLoc.dma (⟨10, by decide⟩ : DmaSem sig), (default : HIx 1)) (insert (SemLoc.dma (⟨9, by decide⟩ : DmaSem sig), (default : HIx 1)) W')))))
  isplitr
  · ipureintro
    exact W_ins _ (W_ins _ (W_ins _ (W_ins _ (W_ins _ (hW')))))
  iexact Howes

include hpre in
/-- The task on vector subcore (L 0, L 1) of device d, from what the launch deals it (its slab of the classes, its
    share of the padded table, its rows of the gathered array, its scoped buffers and semaphores) to what it hands
    back: the pieces respelt as the body names them around tile_run. -/
theorem tile_body (O : CellTallies nD τ sig (HIx 1)) (W : Waits sig (HIx 1)) (hO : ∀ g, O g none = 0) :
    iprop(levAts (K (F := F)).L (K (F := F)).lev ∗ emp
        ∗ goPts C3 Tb d (widL L)
        ∗ scopedBufs (VT d L) ∗ scopedSems0 (VT d L) ∗ owes (VT d L) O W)
      ⊢ wp frame (wpE (defs₀ (F := F)) 𝒱₀ (VT d L) none) Set.univ
          (cc1__gather_body L iV (Memref.isWhole_whole _) tV (Memref.isWhole_whole _) oV (Memref.isWhole_whole _)
            xV (Memref.isWhole_whole _) bV (Memref.isWhole_whole _) cc1_scratch2 cc1_scratch3 cc1_scoped0)
          fun _ => iprop(tdPts C3 Tb d (widL L)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L), ownSems0_V, ownBufs_V]
  iintro ⟨#Hlv, -, ⟨Hi, Hx, %f0, Ho⟩, ⟨⟨%g0, HG⟩, ⟨%t0, HT⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hi' := (Entails.of_eq (pts_iSlabK (F := F) d L _).symm) $$ Hi
  ihave Hx' := (Entails.of_eq (pts_tVs (F := F) d L _ _).symm) $$ Hx
  ihave Hx'' := (toks5 _ _).1 $$ Hx'
  icases Hx'' with ⟨Hxr, Hx4, Hx5, Hx6, Hx7, Hx8⟩
  ihave Ho' := (Entails.of_eq (oWins_start d L f0)) $$ Ho
  ihave HG' := (Entails.of_eq (pts_xV (F := F) d L _).symm) $$ HG
  ihave HT' := (Entails.of_eq (pts_bV (F := F) d L _).symm) $$ HT
  ihave HT'' := (Entails.of_eq (slots_eq d L t0)) $$ HT'
  icases HT'' with ⟨HS4, HS3, HS2, HS1, HS0⟩
  iapply (wp_wand_r Idealize.ShloMosaic.frame (wpE (defs₀ (F := F)) 𝒱₀ (VT d L) none) Set.univ)
  isplitl [Hi' Hx4 Hx5 Hx6 Hx7 Hx8 Ho' HG' HS0 HS1 HS2 HS3 HS4 HC HO]
  · iapply (tile_run d L C3 Tb hpre (GP_eq d L C3 Tb hpre) O W (tq (widL L)) f0 g0 t0 t0 t0 t0 t0)
    unfold tokP
    isplitr; · iexact Hmw
    isplitl [Hi']; · iexact Hi'
    isplitl [Hx4]; · iexact Hx4
    isplitl [Hx5]; · iexact Hx5
    isplitl [Hx6]; · iexact Hx6
    isplitl [Hx7]; · iexact Hx7
    isplitl [Hx8]; · iexact Hx8
    isplitl [Ho']; · iexact Ho'
    isplitl [HG']; · iexact HG'
    isplitl [HS0]; · iexact HS0
    isplitl [HS1]; · iexact HS1
    isplitl [HS2]; · iexact HS2
    isplitl [HS3]; · iexact HS3
    isplitl [HS4]; · iexact HS4
    isplitl [HC]; · iexact HC
    iexact HO
  unfold tokP
  iintro %_ ⟨Hi', Hx4, Hx5, Hx6, Hx7, Hx8, Ho', ⟨%g, HG'⟩, ⟨%t, HT'⟩, HC, ⟨%W', %hW', HO⟩⟩
  ihave Hx' := (toks5 _ _).2 $$ [Hxr Hx4 Hx5 Hx6 Hx7 Hx8]
  · isplitl [Hxr]; · iexact Hxr
    isplitl [Hx4]; · iexact Hx4
    isplitl [Hx5]; · iexact Hx5
    isplitl [Hx6]; · iexact Hx6
    isplitl [Hx7]; · iexact Hx7
    iexact Hx8
  isplitl [Hi' Hx' Ho']
  · isplitl [Hi']; · iapply (Entails.of_eq (pts_iSlabK (F := F) d L _)); iexact Hi'
    isplitl [Hx']; · iapply (Entails.of_eq (pts_tVs (F := F) d L _ _)); iexact Hx'
    iapply (Entails.of_eq (oWins_end d L C3 Tb)); iexact Ho'
  isplitl [HG' HT' Hbufs]
  · isplitl [HG']; · iexists _; iapply (Entails.of_eq (pts_xV (F := F) d L _)); iexact HG'
    isplitl [HT']; · iexists _; iapply (Entails.of_eq (pts_bV (F := F) d L _)); iexact HT'
    iexact Hbufs
  isplitl [HC Hsems]
  · isplitl [HC]; · iexact HC
    iexact Hsems
  iexists W'; isplitr
  · ipureintro; intro p hp
    exact (hW' p hp).imp_right Or.inl
  · iexact HO

end Body

/-! ## The obligation -/

section Obl

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_body (coordsV c s)
          iV (Memref.isWhole_whole _) tV (Memref.isWhole_whole _) oV (Memref.isWhole_whole _)
          xV (Memref.isWhole_whole _) bV (Memref.isWhole_whole _) cc1_scratch2 cc1_scratch3 cc1_scoped0) ⟨⟩ c s := rfl

/-- Every vector subcore's task: slab, share and rows in, the rows at the gathered contents out. -/
theorem tileObl (C3 : (d : Dev nD) → Buf (Elt F) (idxLoc d)) (Tb : (d : Dev nD) → Buf (Elt F) (padLoc d))
    (hpre : ∀ d j, (C3 d j).toNat < 1000000) :
    (K (F := F)).TileObl (D (F := F)) 𝒱 (P C3 Tb) v₀ 0 := by
  intro d c i O W hO _ _
  simp only [show (P C3 Tb).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) C3 Tb hpre O W hO

end Obl

end Cert.KernelIdeal.Hand

end
-- ==== Proof.PreRange.lean ====
/-
  The range of the classes, read off the precondition. The precondition is a conjunction (by `and` on one-bit words) of
  three reductions by `and` over whole arrays; its last conjunct says that every class c satisfies 0 ≤ c and c ≤ 999999
  as a signed 32-bit integer. A signed word in that range is its own natural number, which is then below 1000000.
-/
import proofs.«206789_g36283883716857_cont_8to1_b_1933_18_alg».proof.Pre_input_domain
import proofs.«206789_g36283883716857_cont_8to1_b_1933_18_alg».proof.Proof.Gen.Pre_input_domain
import Idealize.ShloMosaic.Lib.ReduceAll
import Idealize.ShloMosaic.Lib.ValueIdx

namespace Cert.PreRange

open Idealize.ShloMosaic Cert.Pre_input_domain

/-- The shape of rank 0 has exactly one index. -/
instance : Subsingleton S_.Idx := ⟨fun a b => funext fun d => d.elim0⟩

/-- A signed 32-bit word between 0 and 999999 has a natural-number value below 1000000. -/
theorem toNat_lt_of_toInt (w : BitVec 32) (h0 : (0#32 : BitVec 32).toInt ≤ w.toInt)
    (h1 : w.toInt ≤ (999999#32 : BitVec 32).toInt) : w.toNat < 1000000 := by
  have e0 : (0#32 : BitVec 32).toInt = 0 := by decide
  have e1 : (999999#32 : BitVec 32).toInt = 999999 := by decide
  rw [e0] at h0
  rw [e1] at h1
  have hw : w.toNat < 2 ^ 32 := w.isLt
  rw [BitVec.toInt_eq_toNat_cond] at h0 h1
  split at h0 <;> omega

/-- Under the precondition every class is a row number of the table. -/
theorem classes_lt {F : FTy → Type} [FloatOps F] (a0 : IVec S4096x200 32) (a1 : FVec F S4096x200x4 .f32)
    (a2 : FVec F S1000000x64 .f32) (h : Cert.Pre_input_domain.fn (F := F) a0 a1 a2 = fun _ => 1#1) :
    ∀ i, (a0 i).toNat < 1000000 := by
  intro i
  have h0 := congrFun h ValueIdx.ix0
  dsimp only [Cert.Pre_input_domain.fn, andi] at h0
  obtain ⟨-, h14⟩ := IntOp.andi_eq_one.1 h0
  have hi := Host.reduce_andi_all _ _ _ _ _ h14 i
  obtain ⟨hge, hle⟩ := IntOp.andi_eq_one.1 hi
  dsimp only [cmpi, broadcastInDim, constantI] at hge hle
  exact toNat_lt_of_toInt (a0 i) (IntOp.cmpi_sge.1 hge) (IntOp.cmpi_sle.1 hle)

end Cert.PreRange
-- ==== Proof.Final.lean ====
/-
  The kernel's run from the precondition: the classes lie between 0 and 999999, so every class word a worker reads
  names a row of the padded table; the region's rule and the workers' obligation then give the program's run, with the
  result array at the stage-by-stage contents and the inputs kept.
-/
import proofs.«206789_g36283883716857_cont_8to1_b_1933_18_alg».proof.Proof.Main
import proofs.«206789_g36283883716857_cont_8to1_b_1933_18_alg».proof.Proof.Prep
import proofs.«206789_g36283883716857_cont_8to1_b_1933_18_alg».proof.Proof.Tile
import proofs.«206789_g36283883716857_cont_8to1_b_1933_18_alg».proof.Proof.PreRange

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-- Every word of the slabbed classes is a word of the classes, so below 1000000 under the precondition. -/
theorem preOK (h : ∀ c : Dev nD, Cert.Pre_input_domain.fn (F := F) (m (clsLoc c)) (m (bbsLoc c)) (m (embLoc c)) = fun _ => 1#1) :
    ∀ d j, (C3 m d j).toNat < 1000000 := by
  intro d j
  unfold C3 C2 shapeCast
  exact Cert.PreRange.classes_lt (F := F) (m (clsLoc d)) (m (bbsLoc d)) (m (embLoc d)) (h d) _

/-- The program's run under the precondition. -/
theorem run [∀ e, Nonempty (Elt F e)]
    (h : ∀ c : Dev nD, Cert.Pre_input_domain.fn (F := F) (m (clsLoc c)) (m (bbsLoc c)) (m (embLoc c)) = fun _ => 1#1) :
    θ_run (Cert.KernelIdeal.defs (F := F)) (Cert.KernelIdeal.threads (F := F)) ⟨m, fun _ => 0, ρ⟩ (QC m) :=
  run_main m ρ (fun d X O W hO _ k Q => wp_prep d X O W hO k Q) (tileObl (C3 m) (Tb m) (preOK m h))

end Cert.KernelIdeal.Hand

end
-- ==== Proof.Bits.Common.lean ====
/-
  What the parts of the kernel's proof share. The program is an embedding lookup in three steps: the table
  [1000000, 64] is transposed on the host and a TensorCore kernel re-lays it, block by block, as a table [1000000, 128]
  whose row r holds the table's row r in columns 0..63 and zeros in columns 64..127; the classes [4096, 200] are
  reshaped to [32, 200, 128]; then 32 vector subcores (2 SparseCores of 16) each copy one [200, 128] slab of classes,
  and for each of its 200 rows of 128 classes gather the 128 named rows of the padded table into a buffer and write
  the buffer to the matching 128 rows of an array [819200, 128]; the host cuts columns 0..63 and reshapes.
  Here: the launch's vocabulary (the SparseCore configuration, the ghost state's algebra), the contents every array
  holds at each stage as functions of the inputs, the pieces of the arrays each subcore is handed (slab w of the
  classes, a 32nd share of the padded table, rows 25600 w .. 25600 w + 25599 of the gathered array) and what the
  handshakes carry.
-/
import proofs.«206789_g36283883716857_cont_8to1_b_1933_18_alg».proof.Kernel
import proofs.«206789_g36283883716857_cont_8to1_b_1933_18_alg».proof.Proof.Gen.Kernel
import proofs.«206789_g36283883716857_cont_8to1_b_1933_18_alg».proof.Proof.Gen.Kernel.Launch
import proofs.«206789_g36283883716857_cont_8to1_b_1933_18_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state's algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans ((Emb.inr : Emb (UP × Counters) UU).trans
    (uEmb (nD := nD) (τ := τ) (sig := sig) (Ix := HIx 1) (Val := Elt F) (Name := ℕ) (U := UU) (Lvl := ℕ)).toEmb)
instance EP_landsIn : (EP (F := F)).LandsIn (upEmb : UEmb _ 𝕄) := by unfold EP; infer_instance

/-! ## Locations -/

abbrev clsLoc (d : Dev nD) : Loc nD τ sig := (SparseCore.T d).loc main_arg0
abbrev bbsLoc (d : Dev nD) : Loc nD τ sig := (SparseCore.T d).loc main_arg1
abbrev embLoc (d : Dev nD) : Loc nD τ sig := (SparseCore.T d).loc main_arg2
abbrev tLoc (d : Dev nD) : Loc nD τ sig := (SparseCore.T d).loc main_v0
abbrev padLoc (d : Dev nD) : Loc nD τ sig := (SparseCore.T d).loc main_v1
abbrev flatLoc (d : Dev nD) : Loc nD τ sig := (SparseCore.T d).loc main_v2
abbrev idxLoc (d : Dev nD) : Loc nD τ sig := (SparseCore.T d).loc main_v3
abbrev gatLoc (d : Dev nD) : Loc nD τ sig := (SparseCore.T d).loc main_v4
abbrev cutLoc (d : Dev nD) : Loc nD τ sig := (SparseCore.T d).loc main_v5
abbrev outLoc (d : Dev nD) : Loc nD τ sig := (SparseCore.T d).loc main_v6

/-! ## The contents of the arrays, stage by stage -/

/-- The padded table of a transposed table: row r holds column r of the transposed table in columns 0..63 and zeros
    in columns 64..127. -/
def padded [FloatOps F] (X : S64x1000000.Idx → F .f32) : S1000000x128.Idx → F .f32 :=
  fun i => if h : (i 1).val < 64 then X (ix2 (⟨(i 1).val, h⟩ : Fin 64) (i 0)) else (Scalar.ofBits .f32 0x00000000#32 : F .f32)

/-- Row n of the gathered array names slab n / 25600, row (n % 25600) / 128, lane n % 128 of the class slabs. -/
def slabIdx (n : Fin 819200) : S32x200x128.Idx :=
  ix3 (⟨n.val / 25600, by omega⟩ : Fin 32) (⟨n.val % 25600 / 128, by omega⟩ : Fin 200) (⟨n.val % 128, by omega⟩ : Fin 128)

/-- The gathered array: row n is the row of the padded table that class n (in slab order) names. -/
def gathered {α : Type} (idx : S32x200x128.Idx → BitVec 32) (tb : S1000000x128.Idx → α) : S819200x128.Idx → α :=
  fun i => tb (ix2 (Cert.Spec.rowOf (idx (slabIdx (i 0)))) (i 1))

/-! ## The pieces each subcore is handed -/

/-- The worker number of vector subcore i of SparseCore c: 2 i + c. -/
def wid (c : Fin 2) (i : Fin 16) : Fin 32 := ⟨2 * i.val + c.val, by omega⟩

local notation "iV" => (Memref.whole Cert.Kernel.main_v3_scv : Memref Cert.Kernel.sig Kind.scVector Space.hbm Cert.Kernel.S32x200x128 EltTy.i32)
local notation "oV" => (Memref.whole Cert.Kernel.main_v4_scv : Memref Cert.Kernel.sig Kind.scVector Space.hbm Cert.Kernel.S819200x128 EltTy.f32)

theorem idiv : 32 ∣ S32x200x128.size 0 := ⟨1, rfl⟩
theorem odiv : 32 ∣ S819200x128.size 0 := ⟨25600, rfl⟩
/-- Slab w of the classes; -/
abbrev islab (w : Fin 32) : Rect S32x200x128 := Rect.part (s := S32x200x128) (a₀ := 0) idiv w
/-- rows 25600 w .. 25600 w + 25599 of the gathered array. -/
abbrev oblk (w : Fin 32) : Rect S819200x128 := Rect.part (s := S819200x128) (a₀ := 0) odiv w
abbrev iSlabSet (w : Fin 32) : Finset S32x200x128.Idx := ((iV).view.slice (islab w)).set
abbrev oBlkSet (w : Fin 32) : Finset S819200x128.Idx := ((oV).view.slice (oblk w)).set

/-- Leaf i of the depth-n halving of share q. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Worker w's share of the padded table: a 32nd. -/
abbrev tq (w : Fin 32) : PosShare TreeShare := leaf 5 fullShare w

/-! ## What the handshakes carry -/

section Pay

variable (C3 : (d : Dev nD) → Buf (Elt F) (idxLoc d)) (Tb : (d : Dev nD) → Buf (Elt F) (padLoc d))

/-- What worker w starts from: its slab of the classes, its share of the padded table, its rows of the gathered
    array at any contents; -/
abbrev goPts (d : Dev nD) (w : Fin 32) : sProp 𝕄 :=
  iprop((idxLoc d ↦[iSlabSet w]{fullShare} C3 d) ∗ (padLoc d ↦{tq w} Tb d) ∗ ∃ f, gatLoc d ↦[oBlkSet w]{fullShare} f)
/-- what it ends with: the same, its rows of the gathered array at the gathered contents. -/
abbrev tdPts (d : Dev nD) (w : Fin 32) : sProp 𝕄 :=
  iprop((idxLoc d ↦[iSlabSet w]{fullShare} C3 d) ∗ (padLoc d ↦{tq w} Tb d)
    ∗ gatLoc d ↦[oBlkSet w]{fullShare} (gathered (C3 d) (Tb d) : Buf (Elt F) (gatLoc d)))

/-- The one call: each SparseCore takes its sixteen workers' pieces and brings them back. -/
def P : (K (F := F)).Pay (nD := nD) (Val := Elt F) (Name := ℕ) (U := UU) where
  st := fun q d c => match q with | 0 => bigSep Finset.univ fun i : Fin 16 => goPts C3 Tb d (wid (Fin.cast nCore_zero c) i)
  dn := fun q d c => match q with | 0 => bigSep Finset.univ fun i : Fin 16 => tdPts C3 Tb d (wid (Fin.cast nCore_zero c) i)
  go := fun q d c i => match q with | 0 => goPts C3 Tb d (wid (Fin.cast nCore_zero c) (Fin.cast nSub_zero i))
  td := fun q d c i => match q with | 0 => tdPts C3 Tb d (wid (Fin.cast nCore_zero c) (Fin.cast nSub_zero i))
  x := fun _ _ => iprop(emp)

instance P_storable : (P (F := F) C3 Tb).IsStorable where
  st q d c := match q with
    | 0 => (inferInstance : BI.Storable (upEmb : UEmb _ 𝕄) (bigSep Finset.univ fun i : Fin 16 => goPts C3 Tb d (wid (Fin.cast nCore_zero c) i)))
  dn q d c := match q with
    | 0 => (inferInstance : BI.Storable (upEmb : UEmb _ 𝕄) (bigSep Finset.univ fun i : Fin 16 => tdPts C3 Tb d (wid (Fin.cast nCore_zero c) i)))
  go q d c i := match q with
    | 0 => (inferInstance : BI.Storable (upEmb : UEmb _ 𝕄) (goPts C3 Tb d (wid (Fin.cast nCore_zero c) (Fin.cast nSub_zero i))))
  td q d c i := match q with
    | 0 => (inferInstance : BI.Storable (upEmb : UEmb _ 𝕄) (tdPts C3 Tb d (wid (Fin.cast nCore_zero c) (Fin.cast nSub_zero i))))

end Pay

end Cert.Kernel.Hand

end
-- ==== Proof.Bits.HostOps.lean ====
/-
  The host operations of the kernel's program, each run on the TensorCore from the two arrays it names: the result
  array ends at the operation's function of the operand, the operand is kept. And the contents every array holds, stage
  by stage, as functions of the launch memory: the transposed table, the padded table, the flattened and the slabbed
  classes, the gathered array, its first 64 columns, and the result.
-/
import proofs.«206789_g36283883716857_cont_8to1_b_1933_18_alg».proof.Proof.Bits.Common

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-! ## The contents, stage by stage -/

/-- The transposed table; -/
def X0 (d : Dev nD) : Buf (Elt F) (tLoc d) := transpose S64x1000000 [1, 0] (m (embLoc d)) Facts₀.transposes_S1000000x64_S64x1000000_1_0
/-- the padded table; -/
def Tb (d : Dev nD) : Buf (Elt F) (padLoc d) := padded (X0 m d)
/-- the classes in one row; -/
def C2 (d : Dev nD) : Buf (Elt F) (flatLoc d) := shapeCast S819200 (m (clsLoc d)) Facts₀.shapeCasts_S4096x200_S819200
/-- the classes in 32 slabs of 200 rows of 128; -/
def C3 (d : Dev nD) : Buf (Elt F) (idxLoc d) := shapeCast S32x200x128 (C2 m d) Facts₀.shapeCasts_S819200_S32x200x128
/-- the gathered rows of the padded table; -/
def G4 (d : Dev nD) : Buf (Elt F) (gatLoc d) := gathered (C3 m d) (Tb m d)
/-- their first 64 columns; -/
def G5 (d : Dev nD) : Buf (Elt F) (cutLoc d) := extractStridedSlice S819200x64 ![0, 0] (G4 m d) Facts₀.slices_S819200x128_S819200x64_0_0
/-- the result. -/
def G6 (d : Dev nD) : Buf (Elt F) (outLoc d) := shapeCast S4096x200x64 (G5 m d) Facts₀.shapeCasts_S819200x64_S4096x200x64

/-! ## The operations -/

abbrev opT : HloOp τ sig (Elt F) := StableHlo.unary main_arg2 main_v0 ((transpose S64x1000000 [1, 0] · Facts₀.transposes_S1000000x64_S64x1000000_1_0) : (⟨S1000000x64, .f32⟩ : BufTy).Contents (Elt F) → (⟨S64x1000000, .f32⟩ : BufTy).Contents (Elt F))
abbrev opR1 : HloOp τ sig (Elt F) := StableHlo.reshape main_arg0 main_v2 rfl Facts₀.shapeCasts_S4096x200_S819200
abbrev opR2 : HloOp τ sig (Elt F) := StableHlo.reshape main_v2 main_v3 rfl Facts₀.shapeCasts_S819200_S32x200x128
abbrev opSl : HloOp τ sig (Elt F) := StableHlo.unary main_v4 main_v5 ((extractStridedSlice S819200x64 ![0, 0] · Facts₀.slices_S819200x128_S819200x64_0_0) : (⟨S819200x128, .f32⟩ : BufTy).Contents (Elt F) → (⟨S819200x64, .f32⟩ : BufTy).Contents (Elt F))
abbrev opR3 : HloOp τ sig (Elt F) := StableHlo.reshape main_v5 main_v6 rfl Facts₀.shapeCasts_S819200x64_S4096x200x64

abbrev dr (b : Ref sig .tc) : DevRef τ sig := Proc.devRef .tc b

/-- A host operation over two arrays, the first read and the second written, run from the two arrays at any contents:
    the written array ends at the operation's function r of the read one, which is kept. -/
theorem wp_hlo_pair {Λ : Labels} (W0 : Valuation τ sig (Elt F)) (defs : Defs nD τ sig (Elt F) Λ) (𝒱' : Variants) (d : Dev nD) (op : HloOp τ sig (Elt F)) (x y : Ref sig .tc) (hxy : dr x ≠ dr y)
    (hb : op.bufs ⊆ {dr x, dr y}) (hwr : dr x ∉ op.writes) (hf : op.fresh = ∅)
    (r : (dr x).ty.Contents (Elt F) → (dr y).ty.Contents (Elt F)) (hres : ∀ V : Valuation τ sig (Elt F), op.result V (dr y) = r (V (dr x)))
    (cx : (dr x).ty.Contents (Elt F)) (cy : (dr y).ty.Contents (Elt F)) {α : Type}
    {k : ((b : op.writes) → b.1.ty.Contents (Elt F)) → Prog (TpuEff nD τ sig (Elt F) Λ .tc) α} {Q : α → sProp 𝕄} :
    iprop(boundary (SparseCore.T d) ∗ (((d, dr x) : Loc nD τ sig) ↦{fullShare} cx) ∗ (((d, dr y) : Loc nD τ sig) ↦{fullShare} cy)
        ∗ (∀ v, iprop(boundary (SparseCore.T d) ∗ (((d, dr x) : Loc nD τ sig) ↦{fullShare} cx) ∗ (((d, dr y) : Loc nD τ sig) ↦{fullShare} r cx))
            -∗ wp frame (wpE defs 𝒱' (SparseCore.T d) none) Set.univ (k v) Q))
      ⊢ wp frame (wpE defs 𝒱' (SparseCore.T d) none) Set.univ (hlo (p := .tc) rfl op k) Q := by
  let V : Valuation τ sig (Elt F) := Function.update (Function.update W0 (dr y) cy) (dr x) cx
  have hVx : V (dr x) = cx := Function.update_self _ _ _
  have hVy : V (dr y) = cy := (Function.update_of_ne hxy.symm _ _).trans (Function.update_self _ _ _)
  have hheld : ∀ W : Valuation τ sig (Elt F), (held (SparseCore.T d) {dr x, dr y} W : sProp 𝕄)
      = iprop((((d, dr x) : Loc nD τ sig) ↦{fullShare} W (dr x)) ∗ (((d, dr y) : Loc nD τ sig) ↦{fullShare} W (dr y))) := by
    intro W; unfold held
    rw [SparseCore.bigSep_insert' (by simpa using hxy), bigSep_singleton]
  have key := wp_hlo_within (defs := defs) 𝒱' (SparseCore.T d) none Set.univ (hp := rfl) (op := op) (k := k) (S := {dr x, dr y}) hb (V := V) (Q := Q) hf
  rw [hheld V, hheld (op.result V), hVx, hVy, op.result_of_not_mem V hwr, hres, hVx] at key
  iintro ⟨Hb, Hx, Hy, Hk⟩
  iapply (key) $$ [Hb Hx Hy]
  · isplitl [Hb]; · iexact Hb
    isplitl [Hx]; · iexact Hx
    iexact Hy
  iintro ⟨Hb, Hx, Hy⟩
  iapply Hk
  isplitl [Hb]; · iexact Hb
  isplitl [Hx]; · iexact Hx
  iexact Hy

end Cert.Kernel.Hand

end
-- ==== Proof.Bits.Split.lean ====
/-
  How the arrays split among the 32 workers and join again: the class slabs and the gathered array's row blocks are
  partitions of their arrays along axis 0 into 32 parts; the padded table, which every worker reads whole, goes out as
  32 shares (the full share halved five times). A SparseCore's operands are its sixteen workers' pieces, so the call's
  split of a SparseCore's operands among its subcores is the identity.
-/
import proofs.«206789_g36283883716857_cont_8to1_b_1933_18_alg».proof.Proof.Bits.Common

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S32x200x128 EltTy.i32)
local notation "oV" => (Memref.whole Cert.Kernel.main_v4_scv : Memref Cert.Kernel.sig Kind.scVector Space.hbm Cert.Kernel.S819200x128 EltTy.f32)

/-! ## Shares: the full share halved n times -/

/-- The two halves of the leaves of depth n + 1. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-! ## The slabs and the row blocks partition their arrays -/

theorem iSlabSet_eq (w : Fin 32) : iSlabSet w = (islab w).set := by
  show ((View.whole (main_v3_scv : Ref sig .scVector)).slice (islab w)).set = _
  rw [View.set_slice]; exact Finset.map_refl
theorem oBlkSet_eq (w : Fin 32) : oBlkSet w = (oblk w).set := by
  show ((View.whole (main_v4_scv : Ref sig .scVector)).slice (oblk w)).set = _
  rw [View.set_slice]; exact Finset.map_refl
theorem islabs_disjoint : ∀ i ∈ (Finset.univ : Finset (Fin 32)), ∀ j ∈ (Finset.univ : Finset (Fin 32)), i ≠ j → Disjoint (iSlabSet i) (iSlabSet j) :=
  fun i _ j _ h => by rw [iSlabSet_eq, iSlabSet_eq]; exact Rect.part_disjoint idiv h
theorem oblks_disjoint : ∀ i ∈ (Finset.univ : Finset (Fin 32)), ∀ j ∈ (Finset.univ : Finset (Fin 32)), i ≠ j → Disjoint (oBlkSet i) (oBlkSet j) :=
  fun i _ j _ h => by rw [oBlkSet_eq, oBlkSet_eq]; exact Rect.part_disjoint odiv h
theorem islabs_cover : (Finset.univ : Finset (Fin 32)).biUnion iSlabSet = Finset.univ :=
  (Finset.biUnion_congr rfl fun i _ => iSlabSet_eq i).trans (Rect.biUnion_part idiv)
theorem oblks_cover : (Finset.univ : Finset (Fin 32)).biUnion oBlkSet = Finset.univ :=
  (Finset.biUnion_congr rfl fun i _ => oBlkSet_eq i).trans (Rect.biUnion_part odiv)

/-- The classes' slabs, all 32, are the array. -/
theorem idx_slabs (d : Dev nD) (f : Buf (Elt F) (idxLoc d)) :
    (idxLoc d ↦{fullShare} f : sProp 𝕄) = bigSep Finset.univ fun w : Fin 32 => idxLoc d ↦[iSlabSet w]{fullShare} f := by
  rw [← pointsTo_biUnion Finset.univ (ℓ := idxLoc d) iSlabSet islabs_disjoint, islabs_cover]; try rfl
/-- The gathered array's 32 row blocks are the array. -/
theorem gat_blks (d : Dev nD) (f : Buf (Elt F) (gatLoc d)) :
    (gatLoc d ↦{fullShare} f : sProp 𝕄) = bigSep Finset.univ fun w : Fin 32 => gatLoc d ↦[oBlkSet w]{fullShare} f := by
  rw [← pointsTo_biUnion Finset.univ (ℓ := gatLoc d) oBlkSet oblks_disjoint, oblks_cover]; try rfl
/-- The padded table's 32 shares are the table. -/
theorem pad_shares (d : Dev nD) (f : Buf (Elt F) (padLoc d)) :
    (padLoc d ↦{fullShare} f : sProp 𝕄) = bigSep Finset.univ fun w : Fin 32 => padLoc d ↦{tq w} f :=
  pointsTo_leaves Finset.univ f 5 fullShare

/-! ## Workers by SparseCore and subcore -/

/-- Worker numbers are pairs (SparseCore, subcore). -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_) <;> simp only [wid] <;> omega
  right_inv w := Fin.ext (by simp only [wid]; omega)

/-- A family over the 32 workers is one over SparseCores and, within each, subcores. -/
theorem bigSep_workers (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod (fun p : Fin 2 × Fin 16 => Φ (widEquiv p))]
  rfl

end Cert.Kernel.Hand

end
-- ==== Proof.Bits.LaunchElem.lean ====
/-
  The launch of the kernel's program. The launch element of the ghost state: the handshakes' rounds, the TensorCore
  pipeline's rounds (its staging cells' states and duty tokens, funded here and handed to @main), the counters.
  A SparseCore's operands are its sixteen workers' pieces, so the split among the subcores is the identity.
-/
import proofs.«206789_g36283883716857_cont_8to1_b_1933_18_alg».proof.Proof.Bits.Split

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]
variable (C3 : (d : Dev nD) → Buf (Elt F) (idxLoc d)) (Tb : (d : Dev nD) → Buf (Elt F) (padLoc d))

/-! ## The split of a SparseCore's operands among its subcores -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P C3 Tb) 0 := by
  intro d c
  show (bigSep Finset.univ fun i : Fin 16 => goPts C3 Tb d (wid (Fin.cast nCore_zero c) i)) ⊢ |={Set.univ}=> iprop(
      (bigSep Finset.univ fun i : Fin ((K (F := F)).nSub 0) => goPts C3 Tb d (wid (Fin.cast nCore_zero c) (Fin.cast nSub_zero i)))
      ∗ ((bigSep Finset.univ fun i : Fin ((K (F := F)).nSub 0) => tdPts C3 Tb d (wid (Fin.cast nCore_zero c) (Fin.cast nSub_zero i)))
          -∗ bigSep Finset.univ fun i : Fin 16 => tdPts C3 Tb d (wid (Fin.cast nCore_zero c) i)))
  rw [bigSep_tasks (F := F) (fun i => goPts C3 Tb d (wid (Fin.cast nCore_zero c) i)),
    bigSep_tasks (F := F) (fun i => tdPts C3 Tb d (wid (Fin.cast nCore_zero c) i))]
  iintro H; imodintro
  isplitl [H]; · iexact H
  iintro H; iexact H

/-! ## The launch element of the ghost state -/

/-- What @main is dealt besides the launch's own: the TensorCore pipeline's staging cells' ghost state and its
    duty tokens. -/
abbrev G0 (d : Dev nD) : sProp 𝕄 := iprop(Pipeline.cellsGhost cfgs (EP (F := F)) 0 d ∗ Pipeline.toksInit cfgs (EP (F := F)) 0 d)

def u₀ : UU := (initOf (K (F := F)).hsCells (K (F := F)).hsToks,
  (initOf (Pipeline.cells (nD := nD) (τ := τ) cfgs cellOf_inj) (Pipeline.launchToks (nD := nD) (τ := τ) cfgs cellOf_inj), 1))

theorem EP_eq : (EP (F := F)) = (Emb.inl : Emb UP (UP × Counters)).trans (embR : Emb (UP × Counters) (MT nD τ sig (HIx 1) (Elt F) ℕ UU ℕ)) := rfl

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G0 (F := F) d)
        ∗ bigSep Finset.univ fun thr : Thread nD τ => bigSep Finset.univ fun q : Fin 1 => (P C3 Tb).x q thr) := by
  unfold u₀
  iintro Hu
  ihave H := (ownU_pair (initOf (K (F := F)).hsCells (K (F := F)).hsToks) _) $$ Hu
  icases H with ⟨HH, HR⟩
  ihave H2 := (own_pair_emb (embR : Emb (UP × Counters) (MT nD τ sig (HIx 1) (Elt F) ℕ UU ℕ)) _ _) $$ HR
  icases H2 with ⟨HP, -⟩
  ihave HP := (Entails.of_eq (congrArg (fun E : Emb UP (MT nD τ sig (HIx 1) (Elt F) ℕ UU ℕ) =>
    (BI.own (E (initOf (Pipeline.cells (nD := nD) (τ := τ) cfgs cellOf_inj) (Pipeline.launchToks (nD := nD) (τ := τ) cfgs cellOf_inj))) : sProp 𝕄)) (EP_eq (F := F)).symm)) $$ HP
  imod (Pipeline.fund_ghost (nD := nD) (τ := τ) cfgs (EP (F := F)) cellOf_inj) $$ HP with ⟨Hg, Htok⟩
  imodintro
  isplitl [HH]; · iexact HH
  isplitl [Hg Htok]
  · rw [bigSep_sep']
    isplitl [Hg]
    · iapply (Entails.of_eq (bigSep_congr fun d _ => (bigSep_univ_of_subsingleton (0 : Fin 1) (Φ := fun p => Pipeline.cellsGhost cfgs (EP (F := F)) p d)))) ; iexact Hg
    · iapply (Entails.of_eq (bigSep_congr fun d _ => (bigSep_univ_of_subsingleton (0 : Fin 1) (Φ := fun p => Pipeline.toksInit cfgs (EP (F := F)) p d)))) ; iexact Htok
  rw [show (bigSep Finset.univ fun thr : Thread nD τ => bigSep Finset.univ fun q : Fin 1 => (P (F := F) C3 Tb).x q thr) = bigSep Finset.univ fun _ => iprop(emp) from
    bigSep_congr fun _ _ => bigSep_univ_of_subsingleton (0 : Fin 1), bigSep_emp']
  iempintro

end Cert.Kernel.Hand

end
-- ==== Proof.Bits.Main.lean ====
/-
  @main on the TensorCore: the transpose, the TensorCore kernel's region (the padded table), the two reshapes of the
  classes, the SparseCore call (the classes' slabs, the padded table's shares and the gathered array's row blocks
  handed to the 32 workers and taken back, the gathered array at the gathered contents), the column cut and the last
  reshape. The inputs are kept and the result array ends at the stage-by-stage contents.
-/
import proofs.«206789_g36283883716857_cont_8to1_b_1933_18_alg».proof.Proof.Bits.HostOps
import proofs.«206789_g36283883716857_cont_8to1_b_1933_18_alg».proof.Proof.Bits.LaunchElem

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The TensorCore kernel's region as one rule: from the transposed table at X and the padded table's array at any
    contents, with what the core owes (nothing at the kernels' own index), the region ends with the padded table of X. -/
def PrepRule : Prop :=
  ∀ (d : Dev nD) (X : Buf (Elt F) (tLoc d)) (O : CellTallies nD τ sig (HIx 1)) (W : Waits sig (HIx 1)) (_ : ∀ g, O g none = 0)
    {α : Type} (k : PUnit → Prog (TpuEff nD τ sig (Elt F) (ΛP (F := F)) .tc) α) (Q : α → sProp 𝕄),
    iprop((iprop(boundary (SparseCore.T d) ∗ (tLoc d ↦{fullShare} X) ∗ (padLoc d ↦{fullShare} (padded X : Buf (Elt F) (padLoc d)))
              ∗ ∃ W', ⌜∀ p ∈ W', p ∈ W ∨ p.2 = none⌝ ∗ owes (SparseCore.T d) O W')
            -∗ wp frame (wpE (D (F := F)) 𝒱 (SparseCore.T d) none) Set.univ (k ⟨⟩) Q)
        ∗ boundary (SparseCore.T d) ∗ (tLoc d ↦{fullShare} X) ∗ (∃ f, padLoc d ↦{fullShare} f) ∗ owes (SparseCore.T d) O W
        ∗ levAts (K (F := F)).L (K (F := F)).lev
        ∗ Pipeline.cellsGhost cfgs (EP (F := F)) 0 d ∗ Pipeline.toksInit cfgs (EP (F := F)) 0 d)
      ⊢ wp frame (wpE (D (F := F)) 𝒱 (SparseCore.T d) none) Set.univ (.op (.customCall (Pipeline.entry 0) ()) k) Q

variable (m : (ℓ : Loc nD τ sig) → Buf (Elt F) ℓ) (ρ : Dev nD → PrngReg)

/-- The TensorCore's arrays, all ten. -/
theorem unscopedBufs_eq (d : Dev nD) (W : (b : Ref sig .tc) → Buf (Elt F) ((d.tc : Thread nD τ).loc b)) :
    (unscopedBufs d W : sProp 𝕄) = iprop((clsLoc d ↦{fullShare} W main_arg0) ∗ (bbsLoc d ↦{fullShare} W main_arg1) ∗ (embLoc d ↦{fullShare} W main_arg2)
      ∗ (tLoc d ↦{fullShare} W main_v0) ∗ (padLoc d ↦{fullShare} W main_v1) ∗ (flatLoc d ↦{fullShare} W main_v2) ∗ (idxLoc d ↦{fullShare} W main_v3)
      ∗ (gatLoc d ↦{fullShare} W main_v4) ∗ (cutLoc d ↦{fullShare} W main_v5) ∗ (outLoc d ↦{fullShare} W main_v6)) := by
  unfold unscopedBufs
  rw [show (Finset.univ.filter fun b : Ref sig .tc => ¬ b.isScoped) = {main_arg0, main_arg1, main_arg2, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- What the call takes for the two SparseCores: every worker's pieces; -/
theorem st0_eq (d : Dev nD) : (bigSep Finset.univ fun c : Fin ((K (F := F)).nCore 0) => (P (C3 m) (Tb m)).st 0 d c) = bigSep Finset.univ fun w : Fin 32 => goPts (C3 m) (Tb m) d w := by
  rw [bigSep_workers]; rfl
/-- and what it hands back. -/
theorem dn0_eq (d : Dev nD) : (bigSep Finset.univ fun c : Fin ((K (F := F)).nCore 0) => (P (C3 m) (Tb m)).dn 0 d c) = bigSep Finset.univ fun w : Fin 32 => tdPts (C3 m) (Tb m) d w := by
  rw [bigSep_workers]; rfl

/-- The three arrays, whole, are every worker's pieces. -/
theorem split_workers (d : Dev nD) (f : Buf (Elt F) (gatLoc d)) :
    iprop((idxLoc d ↦{fullShare} C3 m d) ∗ (padLoc d ↦{fullShare} Tb m d) ∗ (gatLoc d ↦{fullShare} f))
      ⊢ (bigSep Finset.univ fun w : Fin 32 => goPts (C3 m) (Tb m) d w : sProp 𝕄) := by
  rw [idx_slabs, pad_shares, gat_blks, bigSep_sep', bigSep_sep']
  have hg : (bigSep Finset.univ fun w : Fin 32 => (gatLoc d ↦[oBlkSet w]{fullShare} f : sProp 𝕄))
      ⊢ bigSep Finset.univ fun w : Fin 32 => iprop(∃ f, gatLoc d ↦[oBlkSet w]{fullShare} f) :=
    bigSep_mono fun w _ => (show (gatLoc d ↦[oBlkSet w]{fullShare} f : sProp 𝕄) ⊢ iprop(∃ f, gatLoc d ↦[oBlkSet w]{fullShare} f) from by
      iintro H; iexists f; iexact H)
  iintro ⟨Hi, Hp, Hg⟩
  isplitl [Hi]; · iexact Hi
  isplitl [Hp]; · iexact Hp
  iapply hg; iexact Hg
/-- Every worker's pieces, the row blocks at the gathered contents, are the three arrays whole. -/
theorem join_workers (d : Dev nD) :
    (bigSep Finset.univ fun w : Fin 32 => tdPts (C3 m) (Tb m) d w : sProp 𝕄)
      ⊢ iprop((idxLoc d ↦{fullShare} C3 m d) ∗ (padLoc d ↦{fullShare} Tb m d) ∗ (gatLoc d ↦{fullShare} G4 m d)) := by
  rw [idx_slabs, pad_shares, gat_blks, bigSep_sep', bigSep_sep']
  exact BI.Entails.refl _

set_option backward.isDefEq.respectTransparency.types false in
theorem lift_entry : (SparseCore.liftProg (Q := 1) (.op (.customCall (Pipeline.entry (0 : Fin 1)) ()) fun _ => .ret ⟨⟩ : Prog (TpuEff nD τ sig (Elt F) (ΛP (F := F)) .tc) PUnit)
    : Prog (TpuEff nD τ sig (Elt F) (SparseCore.Sig (ΛP (F := F)) 1) .tc) PUnit)
    = Prog.lift (.customCall (SparseCore.inner (Pipeline.entry (0 : Fin 1))) ()) := by
  unfold SparseCore.liftProg
  rw [inlProg_op]
  rfl

set_option maxHeartbeats 400000 in
set_option backward.isDefEq.respectTransparency.types false in
/-- The region's rule in the whole program's table. -/
theorem wp_prep_lifted (hprep : PrepRule (F := F)) (d : Dev nD) (X : Buf (Elt F) (tLoc d)) (O : CellTallies nD τ sig (HIx 1)) (W : Waits sig (HIx 1)) (hO : ∀ g, O g none = 0)
    (Φ : PUnit → sProp 𝕄) :
    iprop((iprop(boundary (SparseCore.T d) ∗ (tLoc d ↦{fullShare} X) ∗ (padLoc d ↦{fullShare} (padded X : Buf (Elt F) (padLoc d)))
              ∗ ∃ W', ⌜∀ p ∈ W', p ∈ W ∨ p.2 = none⌝ ∗ owes (SparseCore.T d) O W')
            -∗ wp frame (wpE (D (F := F)) 𝒱 (SparseCore.T d) none) Set.univ (Prog.ret PUnit.unit) Φ)
        ∗ boundary (SparseCore.T d) ∗ (tLoc d ↦{fullShare} X) ∗ (∃ f, padLoc d ↦{fullShare} f) ∗ owes (SparseCore.T d) O W
        ∗ levAts (K (F := F)).L (K (F := F)).lev
        ∗ Pipeline.cellsGhost cfgs (EP (F := F)) 0 d ∗ Pipeline.toksInit cfgs (EP (F := F)) 0 d)
      ⊢ wp frame (wpE ((K (F := F)).defs (D (F := F))) 𝒱 (SparseCore.T d) none) Set.univ
          (Prog.lift (.customCall (SparseCore.inner (Pipeline.entry (0 : Fin 1))) ())) Φ := by
  have h2 := (K (F := F)).wp_liftProg (nD := nD) (Val := Elt F) (Name := ℕ) (U := UU) (D (F := F)) 𝒱 (SparseCore.T d) Set.univ none (.op (.customCall (Pipeline.entry 0) ()) fun _ => .ret ⟨⟩) Φ
  have h1 := hprep d X O W hO (fun _ => .ret ⟨⟩) Φ
  rw [← lift_entry]
  refine BI.Entails.trans ?_ h2
  exact h1

/-! ## @main -/

/-- What @main leaves the claim: the three inputs at their launch contents, the result at the last stage's. -/
abbrev FIN (d : Dev nD) : sProp 𝕄 :=
  iprop((clsLoc d ↦{fullShare} m (clsLoc d)) ∗ (bbsLoc d ↦{fullShare} m (bbsLoc d)) ∗ (embLoc d ↦{fullShare} m (embLoc d)) ∗ (outLoc d ↦{fullShare} G6 m d))

theorem Otc_none (d : Dev nD) (g : GSem nD τ sig) : (K (F := F)).Otc d 0 g none = 0 := by
  by_contra h
  have := (K (F := F)).lev_of_Otc_pos (d := d) (n := 0) (g := g) (ι := none) (Nat.pos_of_ne_zero h)
  exact absurd this (by show ¬ (8 * 0 + 1 ≤ 0); omega)

/-- The TensorCore's handshake state but for what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) (n : ℕ) : ((K (F := F)).tcSt EH d n : sProp 𝕄)
    = iprop((∃ W, ⌜(K (F := F)).WBelow (SparseCore.T d) W (8 * n)⌝ ∗ owes (SparseCore.T d) ((K (F := F)).Otc d n) W) ∗ tcRest (F := F) d n) := rfl

set_option maxHeartbeats 1000000 in
/-- @main on device d's TensorCore. -/
theorem hmain (hprep : PrepRule (F := F)) (κ : GSem nD τ sig → ℕ) (d : Dev nD) :
    iprop((K (F := F)).ctx EH (P (C3 m) (Tb m)) κ ∗ (K (F := F)).tcSt EH d 0 ∗ (K (F := F)).tcRes m ρ d ∗ G0 (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hcls, Hbbs, Hemb, Ht, Hpad, Hflat, Hidx, Hgat, Hcut, Hout⟩, -, -⟩, ⟨Hcg, Htk⟩⟩
  -- the transpose
  iapply (wp_hlo_pair (fun b => m (d, b)) ((K (F := F)).defs (D (F := F))) 𝒱 d (opT (F := F)) main_arg2 main_v0 (by decide) (Finset.Subset.refl _) (Finset.notMem_singleton.mpr (by decide)) rfl
      (fun cx => transpose S64x1000000 [1, 0] cx Facts₀.transposes_S1000000x64_S64x1000000_1_0) (fun V => StableHlo.unary_result _ _ _ _ _ V)
      (m (embLoc d)) (m (tLoc d)))
  isplitl [Hb]; · iexact Hb
  isplitl [Hemb]; · iexact Hemb
  isplitl [Ht]; · iexact Ht
  iintro %_ ⟨Hb, Hemb, Ht⟩
  rw [wp_ret]; imodintro
  -- the TensorCore kernel's region
  ihave Hst' := (Entails.of_eq (tcSt_eq (F := F) d 0)) $$ Hst
  icases Hst' with ⟨⟨%W, %hW, HO⟩, Hst2⟩
  ihave Hlev := ((K (F := F)).ctx_levAts (EH := EH) (P := P (C3 m) (Tb m)) κ) $$ Hctx
  iapply (wp_prep_lifted hprep d (X0 m d) ((K (F := F)).Otc d 0) W (Otc_none d) _)
  isplitr [Hb Ht Hpad HO Hlev Hcg Htk]
  swap
  · isplitl [Hb]; · iexact Hb
    isplitl [Ht]; · iexact Ht
    isplitl [Hpad]; · iexists _; iexact Hpad
    isplitl [HO]; · iexact HO
    isplitl [Hlev]; · iexact Hlev
    isplitl [Hcg]; · iexact Hcg
    iexact Htk
  iintro ⟨Hb, Ht, Hpad, %W1, %hW1, HO⟩
  rw [wp_ret]; imodintro
  -- the classes, flattened
  iapply (wp_hlo_pair (fun b => m (d, b)) ((K (F := F)).defs (D (F := F))) 𝒱 d (opR1 (F := F)) main_arg0 main_v2 (by decide) (Finset.Subset.refl _) (Finset.notMem_singleton.mpr (by decide)) rfl
      (fun cx => shapeCast S819200 cx Facts₀.shapeCasts_S4096x200_S819200) (fun V => (StableHlo.reshape_result _ _ _ _ _ _ V).trans rfl)
      (m (clsLoc d)) (m (flatLoc d)))
  isplitl [Hb]; · iexact Hb
  isplitl [Hcls]; · iexact Hcls
  isplitl [Hflat]; · iexact Hflat
  iintro %_ ⟨Hb, Hcls, Hflat⟩
  rw [wp_ret]; imodintro
  -- and in slabs
  iapply (wp_hlo_pair (fun b => m (d, b)) ((K (F := F)).defs (D (F := F))) 𝒱 d (opR2 (F := F)) main_v2 main_v3 (by decide) (Finset.Subset.refl _) (Finset.notMem_singleton.mpr (by decide)) rfl
      (fun cx => shapeCast S32x200x128 cx Facts₀.shapeCasts_S819200_S32x200x128) (fun V => (StableHlo.reshape_result _ _ _ _ _ _ V).trans rfl)
      (C2 m d) (m (idxLoc d)))
  isplitl [Hb]; · iexact Hb
  isplitl [Hflat]; · iexact Hflat
  isplitl [Hidx]; · iexact Hidx
  iintro %_ ⟨Hb, Hflat, Hidx⟩
  rw [wp_ret]; imodintro
  -- the SparseCore call
  iapply ((K (F := F)).wp_run (D (F := F)) 𝒱 (EH := EH) (P := P (C3 m) (Tb m)) κ d 0)
  isplitr; · iexact Hctx
  isplitl [HO Hst2]
  · iapply (Entails.of_eq (tcSt_eq (F := F) d 0).symm)
    isplitl [HO]
    · iexists W1; isplitr
      · ipureintro; intro p hp
        rcases hW1 p hp with h | h
        · exact hW p h
        · obtain ⟨sm, ι⟩ := p; cases h; exact Nat.zero_le _
      · iexact HO
    · iexact Hst2
  isplitl [Hidx Hpad Hgat]
  · rw [st0_eq]
    iapply (split_workers m d (m (gatLoc d)))
    isplitl [Hidx]; · iexact Hidx
    isplitl [Hpad]; · iexact Hpad
    iexact Hgat
  iintro ⟨Hst, Hdn⟩
  ihave Hdn' := (Entails.of_eq (dn0_eq m d)) $$ Hdn
  ihave Hj := (join_workers m d) $$ Hdn'
  icases Hj with ⟨Hidx, Hpad, Hgat⟩
  -- the first 64 columns
  iapply (wp_hlo_pair (fun b => m (d, b)) ((K (F := F)).defs (D (F := F))) 𝒱 d (opSl (F := F)) main_v4 main_v5 (by decide) (Finset.Subset.refl _) (Finset.notMem_singleton.mpr (by decide)) rfl
      (fun cx => extractStridedSlice S819200x64 ![0, 0] cx Facts₀.slices_S819200x128_S819200x64_0_0) (fun V => StableHlo.unary_result _ _ _ _ _ V)
      (G4 m d) (m (cutLoc d)))
  isplitl [Hb]; · iexact Hb
  isplitl [Hgat]; · iexact Hgat
  isplitl [Hcut]; · iexact Hcut
  iintro %_ ⟨Hb, Hgat, Hcut⟩
  rw [wp_ret]; imodintro
  -- the result
  iapply (wp_hlo_pair (fun b => m (d, b)) ((K (F := F)).defs (D (F := F))) 𝒱 d (opR3 (F := F)) main_v5 main_v6 (by decide) (Finset.Subset.refl _) (Finset.notMem_singleton.mpr (by decide)) rfl
      (fun cx => shapeCast S4096x200x64 cx Facts₀.shapeCasts_S819200x64_S4096x200x64) (fun V => (StableHlo.reshape_result _ _ _ _ _ _ V).trans rfl)
      (G5 m d) (m (outLoc d)))
  isplitl [Hb]; · iexact Hb
  isplitl [Hcut]; · iexact Hcut
  isplitl [Hout]; · iexact Hout
  iintro %_ ⟨Hb, Hcut, Hout⟩
  rw [wp_ret]; imodintro; imodintro
  isplitl [Hst]; · iexact Hst
  isplitl [Hcls]; · iexact Hcls
  isplitl [Hbbs]; · iexact Hbbs
  isplitl [Hemb]; · iexact Hemb
  iexact Hout

/-! ## The final memory, and the run -/

/-- What the claim reads off the final memory of device d: the result at the last stage's contents, the inputs kept. -/
def fq (d : Dev nD) (s' : Phys nD τ sig (Elt F)) : Prop :=
  s'.mem.mem (outLoc d) = G6 m d ∧ s'.mem.mem (clsLoc d) = m (clsLoc d) ∧ s'.mem.mem (bbsLoc d) = m (bbsLoc d) ∧ s'.mem.mem (embLoc d) = m (embLoc d)

set_option maxRecDepth 16384 in
theorem hfin (d : Dev nD) (s' : Phys nD τ sig (Elt F)) : iprop(FIN m d ∗ SI s') ⊢ (⌜fq m d s'⌝ : sProp 𝕄) := by
  iintro ⟨⟨Hc, Hb, He, Ho⟩, HSI⟩
  ihave H := (persistent_entails_right (SI_pointsTo_agree (st := s') (ℓ := clsLoc d) (I := Finset.univ) (q := fullShare) (f := m (clsLoc d)))) $$ [HSI Hc]
  · isplitl [HSI] <;> iassumption
  icases H with ⟨%h1, HSI, -⟩
  ihave H := (persistent_entails_right (SI_pointsTo_agree (st := s') (ℓ := bbsLoc d) (I := Finset.univ) (q := fullShare) (f := m (bbsLoc d)))) $$ [HSI Hb]
  · isplitl [HSI] <;> iassumption
  icases H with ⟨%h2, HSI, -⟩
  ihave H := (persistent_entails_right (SI_pointsTo_agree (st := s') (ℓ := embLoc d) (I := Finset.univ) (q := fullShare) (f := m (embLoc d)))) $$ [HSI He]
  · isplitl [HSI] <;> iassumption
  icases H with ⟨%h3, HSI, -⟩
  ihave H := (SI_pointsTo_agree (st := s') (ℓ := outLoc d) (I := Finset.univ) (q := fullShare) (f := G6 m d)) $$ [HSI Ho]
  · isplitl [HSI] <;> iassumption
  icases H with %h4
  ipureintro
  exact ⟨funext fun i => h4 i (Finset.mem_univ i), funext fun i => h1 i (Finset.mem_univ i), funext fun i => h2 i (Finset.mem_univ i), funext fun i => h3 i (Finset.mem_univ i)⟩

/-- The run's post: on every device the result array holds the last stage's contents and the inputs are kept. -/
def QC : PUnit × MemSt nD τ sig (Elt F) → Prop := fun r => ∀ c : Dev nD,
  r.2.mem (outLoc c) = G6 m c ∧ r.2.mem (clsLoc c) = m (clsLoc c) ∧ r.2.mem (bbsLoc c) = m (bbsLoc c) ∧ r.2.mem (embLoc c) = m (embLoc c)

/-- The program's run, from the region's rule and the workers' obligation: every weakly fair execution of the device's
    threads terminates, nothing faulting, with the result at the last stage's contents and the inputs kept. -/
theorem run_main [∀ e, Nonempty (Elt F e)] (hprep : PrepRule (F := F))
    (htile : (K (F := F)).TileObl (D (F := F)) 𝒱 (P (C3 m) (Tb m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (C3 m) (Tb m)) facts v₀
    (fun q hq => match q with | 0 => nomatch hq)
    (fun q _ => match q with | 0 => htile)
    (fun q _ => match q with | 0 => SparseCore.Cfg.VecSplit.of_plain (vecSplit (C3 m) (Tb m)))
    m ρ main (G0 (F := F)) (FIN m) (u₀ (F := F)) (sep_elim_left.trans (hu₀ (C3 m) (Tb m))) (hmain m ρ hprep) (fq m) (hfin m) (QC m) (fun _ h => h)

end Cert.Kernel.Hand

end
-- ==== Proof.Bits.PrepDat.lean ====
/-
  The TensorCore kernel of the program: its region as one pipeline of 62 points. At point t the pipeline fetches
  columns 16384 t .. 16384 t + 16383 of the transposed table [64, 1000000] into a staging buffer [64, 16384], the body
  stores into a staging buffer [16384, 128] the transposed block in columns 0..63 and zeros in columns 64..127, and the
  pipeline writes that buffer back to rows 16384 t .. of the padded table [1000000, 128]. 62 · 16384 = 1015808 exceeds
  1000000: the last block of either window overhangs its array by 15808, the fetch lands only the 576 columns inside
  the array and the write-back writes only the 576 rows inside it; what the staging buffers hold past the array's end
  nothing names and nothing reads back.
  Here: the pipeline's tables (none) and its proof data; the index maps and the cuts decided over the grid; what the
  body finds in either staging buffer.
-/
import proofs.«206789_g36283883716857_cont_8to1_b_1933_18_alg».proof.Proof.Bits.Common
import proofs.«206789_g36283883716857_cont_8to1_b_1933_18_alg».proof.Proof.Gen.Kernel.Points
import Idealize.ShloMosaic.Lib.Pipeline.Regions
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type}

local notation "𝕄" => MT nD τ sig (HIx 1) (Elt F) ℕ UU ℕ

/-! ## The tables of the one pipeline and its proof data -/

/-- The pipeline prefetches no table: its one admissible contents. -/
abbrev adm : (p : Fin 1) → (pcfgs (F := F) p).Adm := fun p => (cfgs p).toPCfg_adm

/-- The pipelines at those contents: the printed configurations again. -/
abbrev pcs : Fin 1 → Pipeline.Cfg sig Λ₀ := Pipeline.pin (pcfgs (F := F)) adm

section Data

variable [FloatOps F] (X : S64x1000000.Idx → F .f32) (f : S1000000x128.Idx → F .f32) (O : CellTallies nD τ sig (HIx 1))
  (W : Waits sig (HIx 1))

/-- Block t of the transposed table as the fetch reads it: columns 16384 t .. of all 64 rows, those inside the array. -/
def xblk (t : Fin cfg0.N) : (win0_0.xblock (grid0.coords t)).Idx → Elt F .f32 :=
  (win0_0.blk t).view.read (Elt F) X

/-- Block t of the padded table: rows 16384 t .. inside the array, all 128 columns. -/
def pblk (t : Fin cfg0.N) : (win0_1.xblock (grid0.coords t)).Idx → Elt F .f32 :=
  (win0_1.blk t).view.read (Elt F) (padded X)

/-- The proof data: the transposed table at X and the result array at what it held; after the body at point t the
    input's staging buffer holds its block and the result's holds block t of the padded table, each stated on the part
    inside the array only (both windows' last blocks overhang) and filled out with the zero word; no invariant; the
    tallies owed never change and the recorded waits stay within those the region was entered with; full shares. -/
def dat (c : Dev nD) : Dat τ (Elt F) (HIx 1) ℕ UU ℕ cfg0 c where
  A w := match w with
    | ⟨0, _⟩ => X
    | ⟨1, _⟩ => f
  after w t := match w with
    | ⟨0, _⟩ => win0_0.fill (grid0.coords t) (fun _ => Scalar.ofBits .f32 0#32) (xblk X t)
    | ⟨1, _⟩ => win0_1.fill (grid0.coords t) (fun _ => Scalar.ofBits .f32 0#32) (pblk X t)
  Φ _ := iprop(emp)
  q _ := fullShare
  owed _ := O
  recorded _ := ↑W

/-- The same as the one pipeline's data at the tables. -/
def dats (p : Fin 1) (c : Dev nD) : Dat τ (Elt F) (HIx 1) ℕ UU ℕ (pcs (F := F) p) c := dat X f O W c

end Data

/-! ## The index maps and the cuts, decided over the grid -/

/-- Window 0's block at point t is columns 16384 t .. of all 64 rows, window 1's is rows 16384 t .. of all 128 columns;
    each is cut at the array's end on its long axis. -/
theorem idx_facts : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_0.xsize (grid0.coords t) (0 : Fin 2) = 64
    ∧ win0_0.xsize (grid0.coords t) (1 : Fin 2) = min 16384 (1000000 - 16384 * t.val)
    ∧ win0_1.xsize (grid0.coords t) (0 : Fin 2) = min 16384 (1000000 - 16384 * t.val)
    ∧ win0_1.xsize (grid0.coords t) (1 : Fin 2) = 128 :=
  (by decide +kernel : ∀ t : Fin grid0.N, _)

section Before

variable [FloatOps F] (X : S64x1000000.Idx → F .f32) (f : S1000000x128.Idx → F .f32) (O : CellTallies nD τ sig (HIx 1))
  (W : Waits sig (HIx 1))

/-- What the body finds: the input's buffer just fetched — its block on the part inside the array, d elsewhere —, -/
theorem before0 (c : Dev nD) (t : Fin cfg0.N) (d) :
    (dat X f O W c).before (0 : Fin 2) t d = win0_0.fill (grid0.coords t) d (xblk X t) := by
  unfold Dat.before; rw [if_pos (fetch0_0 t)]; rfl

/-- the result's buffer at contents nothing names (the point before wrote it back). -/
theorem before1 (c : Dev nD) (t : Fin cfg0.N) (d) : (dat X f O W c).before (1 : Fin 2) t d = d :=
  (dat X f O W c).before_out_reset (1 : Fin 2) rfl t
    (by by_cases h0 : t.val = 0
        · exact .inl h0
        · exact .inr ⟨h0, flush0_1 _⟩) d

end Before

end Cert.Kernel.Hand

end
-- ==== Proof.Bits.PrepBody.lean ====
/-
  The TensorCore kernel's body at a symbolic point of the grid: it loads the whole input staging buffer, stores into the
  whole result staging buffer the loaded block transposed in columns 0..63 and zeros in columns 64..127 (after a load of
  the result buffer nothing reads). On the rows inside the array that stored value is the padded table's block: row r of
  the result block lies inside the array exactly when column r of the input block does, so the words the fetch did not
  land are never among them.
-/
import proofs.«206789_g36283883716857_cont_8to1_b_1933_18_alg».proof.Proof.Bits.PrepDat
import proofs.«206789_g36283883716857_cont_8to1_b_1933_18_alg».proof.Proof.Gen.Kernel.Skeleton
import Idealize.ShloMosaic.Lib.ValueLayout
import Idealize.ShloMosaic.Lib.Tactic

set_option maxRecDepth 16384
noncomputable section

namespace Cert.Kernel.Hand

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type}

local notation "𝕄" => MT nD τ sig (HIx 1) (Elt F) ℕ UU ℕ

variable [FloatOps F] [∀ e, Nonempty (Elt F e)]

theorem hz : (![0, 0] : Fin 2 → Nat) = fun _ => 0 := funext fun a => by fin_cases a <;> rfl

abbrev rIn : Rect S64x16384 := Rect.unit (s := S64x16384) ![0, 0] S64x16384.size inb_S64x16384_S64x16384_0_0
abbrev rOut : Rect S16384x128 := Rect.unit (s := S16384x128) ![0, 0] S16384x128.size inb_S16384x128_S16384x128_0_0

set_option maxHeartbeats 1000000 in
theorem sound_kernel (c : Dev nD) (E : Set ℕ) (i : grid0.Coords) (arg1 : Memref sig .tc .vmem S64x16384 .f32) (harg1 : arg1.IsWhole)
    (arg2 : Memref sig .tc .vmem S16384x128 .f32) (harg2 : arg2.IsWhole)
    (x0 : Vec F S64x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__prep_body i arg1 harg1 arg2 harg2) K := by
  simp only [cc0__prep_body_eq_skeleton]; unfold cc0__prep_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  rw [View.read_writes_eq_canon _ _ _ (View.cover_of_tiled _ S16384x128.size (by rfl)), View.canon_unit_zero hz]
  exact congrArg k0_pay1 (View.ld_unit_zero (S := S64x16384) hz _ (View.read (Elt F) arg1.view f0))

/-! ## The stored value, read at an index -/

/-- The value the body stores: row r holds column r of the loaded block in columns 0..63 and zeros in columns 64..127. -/
theorem pay_apply (x0 : Vec F S64x16384 .f32) (r : Fin 16384) (cc : Fin 128) :
    k0_pay1 x0 (ix2 r cc) = if h : cc.val < 64 then x0 (ix2 (⟨cc.val, h⟩ : Fin 64) r) else (Scalar.ofBits .f32 0x00000000#32 : F .f32) := by
  show concatenate S16384x128 1 [⟨S16384x64, transpose S16384x64 [1, 0] (shapeCast S64x16384 x0 shapeCasts_S64x16384_S64x16384) transposes_S64x16384_p1_0_S16384x64⟩,
      ⟨S16384x64, broadcast S16384x64 (Scalar.ofBits .f32 0x00000000#32 : F .f32)⟩] concatenates_S16384x64_S16384x64_S16384x128_d1 (ix2 r cc) = _
  split
  · next h =>
    rw [concatenate_pair_apply_left (t := S16384x128) (s₁ := S16384x64) (s₂ := S16384x64) (1 : Fin 2) _ _ _ (ix2 r cc) rfl (ix2 r (⟨cc.val, h⟩ : Fin 64)) (fun b => match b with | ⟨0, _⟩ => rfl | ⟨1, _⟩ => rfl)]
    rw [transpose_ix2_apply, shapeCast_self]
  · next h =>
    rw [concatenate_pair_apply_right (t := S16384x128) (s₁ := S16384x64) (s₂ := S16384x64) (1 : Fin 2) _ _ _ (ix2 r cc) rfl rfl (ix2 r (⟨cc.val - 64, by have := cc.isLt; omega⟩ : Fin 64))
      (fun b hb => match b, hb with | ⟨0, _⟩, _ => rfl | ⟨1, _⟩, hb => absurd rfl hb) (by show cc.val - 64 + 64 = cc.val; omega)]
    rfl

section Body2

variable (X : S64x1000000.Idx → F .f32) (f : S1000000x128.Idx → F .f32) (O : CellTallies nD τ sig (HIx 1))
  (W : Waits sig (HIx 1))

/-- What the body stores, on the rows inside the array, is block t of the padded table — whatever the loaded buffer
    held past the array's end: row r of the block is inside the array exactly when column r of the input block is. -/
theorem pay_cut (t : Fin cfg0.N) (d0 : S64x16384.Idx → F .f32) :
    win0_1.cut (grid0.coords t) (k0_pay1 (win0_0.fill (grid0.coords t) d0 (xblk X t))) = pblk X t := by
  obtain ⟨e00, e01, e10, e11, s00, s01, s10, s11⟩ := idx_facts t
  funext j
  have hr : (j 0).val < win0_1.xsize (grid0.coords t) 0 := (j 0).isLt
  have hc : (j 1).val < win0_1.xsize (grid0.coords t) 1 := (j 1).isLt
  rw [s10] at hr; rw [s11] at hc
  have hr' : (j 0).val < 16384 := by omega
  show k0_pay1 _ (win0_1.xinj (grid0.coords t) j) = padded X ((win0_1.blk t).view.emb j)
  rw [show win0_1.xinj (grid0.coords t) j = ix2 (⟨(j 0).val, hr'⟩ : Fin 16384) (⟨(j 1).val, hc⟩ : Fin 128) from
    funext fun a => match a with | ⟨0, _⟩ => rfl | ⟨1, _⟩ => rfl]
  rw [pay_apply]
  unfold padded
  have e1 : (((win0_1.blk t).view.emb j) 1).val = (j 1).val := by
    show win0_1.index t 1 * 128 + 1 * (j 1).val = _; rw [e11]; omega
  have e0 : (((win0_1.blk t).view.emb j) 0).val = 16384 * t.val + (j 0).val := by
    show win0_1.index t 0 * 16384 + 1 * (j 0).val = _; rw [e10]; omega
  by_cases h : (j 1).val < 64
  · rw [dif_pos h, dif_pos (show (((win0_1.blk t).view.emb j) 1).val < 64 by rw [e1]; exact h)]
    have hm : win0_0.moved (grid0.coords t) (ix2 (⟨(j 1).val, h⟩ : Fin 64) (⟨(j 0).val, hr'⟩ : Fin 16384)) = true :=
      (win0_0.moved_iff _ _).mpr fun a => match a with
        | ⟨0, _⟩ => by show (j 1).val < win0_0.xsize (grid0.coords t) 0; rw [s00]; exact h
        | ⟨1, _⟩ => by show (j 0).val < win0_0.xsize (grid0.coords t) 1; rw [s01]; exact hr
    unfold Window.fill; rw [dif_pos hm]
    show X ((win0_0.blk t).view.emb _) = X _
    refine congrArg X (funext fun a => Fin.ext ?_)
    match a with
    | ⟨0, _⟩ =>
      show win0_0.index t 0 * 64 + 1 * (j 1).val = (((win0_1.blk t).view.emb j) 1).val
      rw [e00, e1]; omega
    | ⟨1, _⟩ =>
      show win0_0.index t 1 * 16384 + 1 * (j 0).val = (((win0_1.blk t).view.emb j) 0).val
      rw [e01, e0]; omega
  · rw [dif_neg h, dif_neg (show ¬ (((win0_1.blk t).view.emb j) 1).val < 64 by rw [e1]; exact h)]

/-- The library's body obligation, at every point: the input's buffer arrives holding its block filled out past the
    array's end with anything, the result's holding anything; the input's leaves as it came and the result's holding
    the stored value, which on the rows inside the array is the padded table's block — all either loose window's
    obligation asks. The invariant is empty and the tallies owed pass through: the body waits for nothing. -/
theorem body_obligation (c : Dev nD) : BodyObligationLoose (dat X f O W c) (defs₀ (F := F)) 𝒱₀ (none : HIx 1) Set.univ := fun t => by
  rw [bigSep_W0, bigSep_W0]
  simp only
  rw [show (dat X f O W c).Φ t.succ = (dat X f O W c).Φ t.castSucc from rfl,
    show (dat X f O W c).owesAt (none : HIx 1) t.succ = (dat X f O W c).owesAt (none : HIx 1) t.castSucc from rfl]
  iintro ⟨HΦ, Ho, ⟨%d0, H0⟩, ⟨%d1, H1⟩⟩
  rw [before0 X f O W c t d0, before1 X f O W c t d1]
  iapply (sound_kernel (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_0.fill (grid0.coords t) d0 (xblk X t)) _)
  isplitl [H0]; · iexact H0
  isplitl [H1]; · iexists d1; iexact H1
  iintro ⟨H0, H1⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (win0_0.fill (grid0.coords t) (fun _ => Scalar.ofBits .f32 0#32) (xblk X t))))
    rw [Window.cut_fill]; try iexact H0
  · iexists k0_pay1 (win0_0.fill (grid0.coords t) d0 (xblk X t))
    change _ ⊢ owns (c : Thread nD τ) (stage0_1 (cfg0.slots t 1)) fullShare
      (win0_1.fill (grid0.coords t) (k0_pay1 (win0_0.fill (grid0.coords t) d0 (xblk X t)))
        (win0_1.cut (grid0.coords t) (win0_1.fill (grid0.coords t) (fun _ => Scalar.ofBits .f32 0#32) (pblk X t))))
    rw [Window.cut_fill, ← pay_cut X t d0, Window.fill_cut]; try iexact H1

end Body2

end Cert.Kernel.Hand

end
-- ==== Proof.Bits.PrepValue.lean ====
/-
  From blocks to the array: what point t writes back is block t of the padded table, and the 62 blocks' rows inside the
  array — 16384 t .. 16384 t + 16383 for t < 61, 999424 .. 999999 for t = 61 — are all its rows (row r lies in block
  r / 16384). So after the last write-back the result array holds the padded table, whatever it held before; the
  transposed table is never written.
-/
import proofs.«206789_g36283883716857_cont_8to1_b_1933_18_alg».proof.Proof.Bits.PrepDat

noncomputable section

namespace Cert.Kernel.Hand

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type}

local notation "𝕄" => MT nD τ sig (HIx 1) (Elt F) ℕ UU ℕ

variable [FloatOps F] (X : S64x1000000.Idx → F .f32) (f : S1000000x128.Idx → F .f32) (O : CellTallies nD τ sig (HIx 1))
  (W : Waits sig (HIx 1))

/-- What point t writes back is block t of the padded table. -/
theorem flushed_eq (c : Dev nD) (t : Fin cfg0.N) :
    (dat X f O W c).flushed (1 : Fin 2) t = ((cfg0.win 1).blk t).view.read (Elt F) (padded X) := by
  show win0_1.cut (grid0.coords t) (win0_1.fill (grid0.coords t) (fun _ => Scalar.ofBits .f32 0#32) (pblk X t)) = _
  rw [Window.cut_fill]; rfl

/-- An index of the array is in point t's block iff each coordinate is in the block's range, cut at the array's end. -/
theorem mem_blk (t : Fin cfg0.N) (i : S1000000x128.Idx) :
    i ∈ ((cfg0.win 1).blk t).view.set ↔ ∀ a : Fin 2, win0_1.index t a * S16384x128.size a ≤ (i a).val
      ∧ (i a).val < win0_1.index t a * S16384x128.size a + win0_1.xsize (grid0.coords t) a := by
  show i ∈ ((View.whole main_v1).slice (win0_1.rect t)).set ↔ _
  rw [View.set_slice_whole, Rect.mem_set_unit]
  exact Iff.rfl

/-- Every index of the array is in some point's block: row r in block r / 16384. -/
theorem cover (i : S1000000x128.Idx) : ∃ t : Fin cfg0.N, (cfg0.win 1).flush t = true ∧ i ∈ ((cfg0.win 1).blk t).view.set := by
  have hi0 : (i 0).val < 1000000 := (i 0).isLt
  have hi1 : (i 1).val < 128 := (i 1).isLt
  have hN : (i 0).val / 16384 < cfg0.N := by rw [show cfg0.N = 62 from N_0]; omega
  obtain ⟨t, ht⟩ : ∃ t : Fin cfg0.N, t.val = (i 0).val / 16384 := ⟨⟨_, hN⟩, rfl⟩
  refine ⟨t, flush0_1 t, ?_⟩
  rw [mem_blk]
  obtain ⟨e00, e01, e10, e11, s00, s01, s10, s11⟩ := idx_facts t
  intro a
  match a with
  | ⟨0, _⟩ =>
    show win0_1.index t 0 * 16384 ≤ (i 0).val ∧ (i 0).val < win0_1.index t 0 * 16384 + win0_1.xsize (grid0.coords t) 0
    rw [e10, s10]; omega
  | ⟨1, _⟩ =>
    show win0_1.index t 1 * 128 ≤ (i 1).val ∧ (i 1).val < win0_1.index t 1 * 128 + win0_1.xsize (grid0.coords t) 1
    rw [e11, s11]; omega

/-- After the last write-back the result array holds the padded table; -/
theorem arrAt_pad (c : Dev nD) : (dat X f O W c).arrAt (1 : Fin 2) cfg0.N = padded X :=
  (dat X f O W c).arrAt_eq_of_cover (1 : Fin 2) (padded X) (fun t _ => flushed_eq X f O W c t) cover

/-- the transposed table, an input, is never written. -/
theorem arrAt_tab (c : Dev nD) (n : Nat) : (dat X f O W c).arrAt (0 : Fin 2) n = X :=
  (dat X f O W c).arrAt_in (0 : Fin 2) rfl n

end Cert.Kernel.Hand

end
-- ==== Proof.Bits.Prep.lean ====
/-
  The TensorCore kernel's region as one rule: entered holding the transposed table at X and the result array at any
  contents, owing the SparseCores' start signals, it leaves the transposed table at X, the result array at the padded
  table of X, and the same tallies owed — the pipeline's own waits, at the index no call uses, the only pairs recorded
  besides. The pipeline has no semaphore and no invariant of its own and prefetches no table; every other array of the
  program stays outside.
-/
import proofs.«206789_g36283883716857_cont_8to1_b_1933_18_alg».proof.Proof.Bits.PrepBody
import proofs.«206789_g36283883716857_cont_8to1_b_1933_18_alg».proof.Proof.Bits.PrepValue

noncomputable section

namespace Cert.Kernel.Hand

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type}

local notation "𝕄" => MT nD τ sig (HIx 1) (Elt F) ℕ UU ℕ

variable [FloatOps F] [∀ e, Nonempty (Elt F e)]

/-- A pipeline that prefetches no table holds none. -/
theorem prefHeld_none (c : Dev nD) (q) (V) :
    (Pipeline.prefHeld (pcfgs (F := F) 0).pre c q V : sProp 𝕄) = iprop(emp) := by
  unfold Pipeline.prefHeld; rw [Finset.univ_eq_empty, BI.bigSep_empty]; rfl

section Region

variable (X : S64x1000000.Idx → F .f32) (f : S1000000x128.Idx → F .f32) (O : CellTallies nD τ sig (HIx 1))
  (W : Waits sig (HIx 1)) (hO : ∀ g, O g none = 0)

/-- The arrays of the pipeline, one by one. -/
theorem arrays_eq (c : Dev nD) (G : (w : Fin cfg0.W) → Buf (Elt F) ((cfg0.win w).arr.view.loc (c.tc : Thread nD τ))) :
    ((dat X f O W c).arrays G : sProp 𝕄) = iprop((tLoc c ↦{fullShare} G 0) ∗ (padLoc c ↦{fullShare} G 1)) := by
  refine (Pipeline.arrays_eq (pcs (F := F)) (dats X f O W) 0 c arr_whole0 ((dat X f O W c).share_full fun _ => rfl) G).trans ?_
  rw [bigSep_W0]

/-- The region: no semaphore of the kernel's own, the body obligation, the waits' evidence from the launch's levels (the
    TensorCore owes only at calls' indices, the pipeline waits at none), and the protocol around it. -/
def region : Pipeline.RegionSeg (pcfgs (F := F)) adm (dats X f O W) (none : HIx 1) (defs₀ (F := F)) 𝒱₀
    (K (F := F)).L (K (F := F)).lev (0 : Fin 1) where
  win := winFacts0.to₀
  block_pos := block_pos0
  stage_whole := stage_whole0
  K := PEmpty
  osem := fun k => k.elim
  ho := Pipeline.OwnSemFacts.none _
  hbody := fun c => body_obligation X f O W c
  hwaits := fun c => Pipeline.cellsWaits_intro (pcs (F := F)) (dats X f O W) (none : HIx 1) 0 c fun w s t =>
    (K (F := F)).mayWait_none _ hO
  pre := fun c => iprop((tLoc c ↦{fullShare} X) ∗ (padLoc c ↦{fullShare} f) ∗ owes (SparseCore.T c) O W)
  post := fun c => iprop((tLoc c ↦{fullShare} X) ∗ (padLoc c ↦{fullShare} (padded X : Buf (Elt F) (padLoc c)))
    ∗ ∃ W', ⌜∀ p ∈ W', p ∈ W ∨ p.2 = none⌝ ∗ owes (SparseCore.T c) O W')
  X := fun _ => iprop(emp)
  Y := fun _ => iprop(emp)
  Z := fun _ => iprop(emp)
  hentry := fun c => by
    rw [prefHeld_none]
    show _ ⊢ |={Set.univ}=> iprop((dat X f O W c).arrays ((dat X f O W c).arrAt · 0) ∗ emp ∗ (dat X f O W c).owesAt (none : HIx 1) 0 ∗ emp ∗ emp)
    rw [arrays_eq]
    iintro ⟨⟨HX, Hf, Ho⟩, -, -⟩
    imodintro
    isplitl [HX Hf]
    · isplitl [HX]
      · iexact HX
      · iexact Hf
    isplitr; · iempintro
    isplitl [Ho]
    · iexists W; isplitr; · ipureintro; exact Set.subset_union_left
      iexact Ho
    isplitr <;> iempintro
  hin := fun c => by iintro -; iempintro
  hout := fun c => by
    rw [scopedRest0_eq, Pipeline.ownSems0_none]
    iintro -; isplitr; · iempintro
    isplitr <;> iempintro
  hexit := fun c => by
    show iprop((dat X f O W c).arrays ((dat X f O W c).arrAt · cfg0.N) ∗ (dat X f O W c).owesAt (none : HIx 1) (Fin.last cfg0.N) ∗ emp ∗ emp) ⊢ _
    rw [arrays_eq, arrAt_tab, arrAt_pad]
    iintro ⟨⟨HX, Hp⟩, ⟨%W', %hW', Ho⟩, -, -⟩
    imodintro
    isplitl [HX]; · iexact HX
    isplitl [Hp]; · iexact Hp
    iexists W'; isplitr
    · ipureintro
      exact fun p hp => (hW' (Finset.mem_coe.mpr hp)).elim (fun h => .inl (Finset.mem_coe.mp h)) (fun ⟨w, s, e⟩ => .inr (by rw [e]))
    iexact Ho

end Region

set_option backward.isDefEq.respectTransparency.types false in
/-- THE REGION, AS ONE RULE. From the boundary, the transposed table at X, the result array at any contents, the
    TensorCore owing O with recorded waits W (nothing owed at the index no call uses), the launch's levels and the
    pipeline's ghost state, the kernel's region runs to the boundary, the transposed table at X, the result array at the
    padded table of X, and the TensorCore owing O still, its recorded waits those of W and the pipeline's own. -/
theorem wp_prep (d : Dev nD) (X : Buf (Elt F) (tLoc d))
    (O : CellTallies nD τ sig (HIx 1)) (W : Waits sig (HIx 1)) (hO : ∀ g, O g none = 0)
    {α : Type} (k : PUnit → Prog (TpuEff nD τ sig (Elt F) (ΛP (F := F)) .tc) α) (Q : α → sProp 𝕄) :
    iprop((iprop(boundary (SparseCore.T d) ∗ (tLoc d ↦{fullShare} X) ∗ (padLoc d ↦{fullShare} (padded X : Buf (Elt F) (padLoc d)))
              ∗ ∃ W', ⌜∀ p ∈ W', p ∈ W ∨ p.2 = none⌝ ∗ owes (SparseCore.T d) O W')
            -∗ wp frame (wpE (D (F := F)) 𝒱 (SparseCore.T d) none) Set.univ (k ⟨⟩) Q)
        ∗ boundary (SparseCore.T d) ∗ (tLoc d ↦{fullShare} X) ∗ (∃ f, padLoc d ↦{fullShare} f) ∗ owes (SparseCore.T d) O W
        ∗ levAts (K (F := F)).L (K (F := F)).lev
        ∗ Pipeline.cellsGhost (pcs (F := F)) EP 0 d ∗ Pipeline.toksInit (pcs (F := F)) EP 0 d)
      ⊢ wp frame (wpE (D (F := F)) 𝒱 (SparseCore.T d) none) Set.univ (.op (.customCall (Pipeline.entry 0) ()) k) Q := by
  iintro ⟨Hk, Hb, HX, ⟨%f, Hf⟩, Ho, Hlev, Hg, Ht⟩
  iapply (Pipeline.RegionSeg.wp (pcfgs (F := F)) adm (dats X f O W) (none : HIx 1) cellOf_inj EP (defs₀ (F := F)) 𝒱₀
    (K (F := F)).L (K (F := F)).lev (region X f O W hO) d none (fun _ h => nomatch h) k Q)
  isplitl [Hk]; · iexact Hk
  isplitl [Hb]; · iexact Hb
  isplitl [HX Hf Ho]
  · iapply (show iprop((tLoc d ↦{fullShare} X) ∗ (padLoc d ↦{fullShare} f) ∗ owes (SparseCore.T d) O W) ⊢ (region X f O W hO).pre d from BI.Entails.refl _)
    isplitl [HX]; · iexact HX
    isplitl [Hf]; · iexact Hf
    iexact Ho
  isplitl [Hlev]; · iexact Hlev
  isplitl [Hg]; · iexact Hg
  iexact Ht

end Cert.Kernel.Hand

end
-- ==== Proof.Bits.TileViews.lean ====
/-
  The vector subcore's task, part one: the names of the pieces of memory it touches. Worker (c, i) — subcore i of
  SparseCore c — has number 2 i + c; it owns slab 2 i + c of the classes, rows 25600 (2 i + c) .. + 25599 of the
  gathered array, cut into 200 chunks of 128 rows, the 200 rows of its index scratch and the five slots of its stage
  buffer. The printed body spells each of these through offset functions of the place and the trip; here each gets one
  name over the chunk number, the equations between the two spellings, and the closed forms of the five conditions
  of a trip (stage 0's holds from trip 1 on, the others' up to trip 38).
-/
import proofs.«206789_g36283883716857_cont_8to1_b_1933_18_alg».proof.Proof.Bits.Common
import proofs.«206789_g36283883716857_cont_8to1_b_1933_18_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S32x200x128 EltTy.i32)
local notation "tV" => (Memref.whole Cert.Kernel.main_v1_scv : Memref Cert.Kernel.sig Kind.scVector Space.hbm Cert.Kernel.S1000000x128 EltTy.f32)
local notation "oV" => (Memref.whole Cert.Kernel.main_v4_scv : Memref Cert.Kernel.sig Kind.scVector Space.hbm Cert.Kernel.S819200x128 EltTy.f32)
local notation "xV" => (Memref.whole Cert.Kernel.cc1_scratch0 : Memref Cert.Kernel.sig Kind.scVector Space.vmem Cert.Kernel.S200x128 EltTy.i32)
local notation "bV" => (Memref.whole Cert.Kernel.cc1_scratch1 : Memref Cert.Kernel.sig Kind.scVector Space.vmem Cert.Kernel.S5x128x128 EltTy.f32)

/-! ## The thread -/

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

theorem trips_lt (k : Fin k1_t1_loop.trips) : k.val < 40 := Nat.lt_of_lt_of_le k.isLt k1_t1_abs.2.1

/-! ## The worker's slab of the classes, as the body slices it -/

abbrev islabK (L : grid1.Coords) : Rect S32x200x128 := Rect.unit (s := S32x200x128) (k1_off1 L) S1x200x128.size (k1_off1_inb L)
abbrev iSlabK (L : grid1.Coords) : Memref sig .scVector .hbm S200x128 .i32 := ((iV).slice (islabK L) (fun _ => rfl)).squeeze S200x128 squeezes_S1x200x128_S200x128

/-! ## Chunk c of the worker's rows of the gathered array, and row c of its index scratch -/

/-- The first row of the worker's block of the gathered array. -/
abbrev obase (L : grid1.Coords) : ℕ := 51200 * (L 1).val + 25600 * (L 0).val

theorem oWin_inb (L : grid1.Coords) (c : ℕ) : ∀ a, (![obase L + 128 * (c % 200), 0] : Fin 2 → Nat) a + S128x128.size a ≤ S819200x128.size a := by
  have h0 : (L 0).val < 2 := (L 0).isLt
  have h1 : (L 1).val < 16 := (L 1).isLt
  have hc : c % 200 < 200 := Nat.mod_lt _ (by norm_num)
  intro a; fin_cases a
  · show 51200 * (L 1).val + 25600 * (L 0).val + 128 * (c % 200) + 128 ≤ 819200; omega
  · show 0 + 128 ≤ 128; omega
/-- Rows 128 c .. 128 c + 127 of the worker's block (c taken modulo 200, so that the name is total). -/
def oWin (L : grid1.Coords) (c : ℕ) : Memref sig .scVector .hbm S128x128 .f32 :=
  (oV).slice (Rect.unit (s := S819200x128) ![obase L + 128 * (c % 200), 0] S128x128.size (oWin_inb L c)) (fun _ => rfl)

theorem xRow_inb (c : ℕ) : ∀ a, (![c % 200, 0] : Fin 2 → Nat) a + S1x128.size a ≤ S200x128.size a := by
  have hc : c % 200 < 200 := Nat.mod_lt _ (by norm_num)
  intro a; fin_cases a
  · show c % 200 + 1 ≤ 200; omega
  · show 0 + 128 ≤ 128; omega
/-- Row c of the index scratch, as a [1, 128] window (a gather reads it squeezed to a list of 128 words). -/
def xRowS (c : ℕ) : Memref sig .scVector .vmem S1x128 .i32 :=
  (xV).slice (Rect.unit (s := S200x128) ![c % 200, 0] S1x128.size (xRow_inb c)) (fun _ => rfl)

/-! ## The trip's conditions in closed form -/

theorem k1_cond1_iff : ∀ k : Fin k1_t1_loop.trips, k1_cond1 k = 1#1 ↔ 1 ≤ k.val := by decide +kernel
theorem k1_cond2_iff : ∀ k : Fin k1_t1_loop.trips, k1_cond2 k = 1#1 ↔ k.val ≤ 38 := by decide +kernel
theorem k1_cond3_iff : ∀ k : Fin k1_t1_loop.trips, k1_cond3 k = 1#1 ↔ k.val ≤ 38 := by decide +kernel
theorem k1_cond4_iff : ∀ k : Fin k1_t1_loop.trips, k1_cond4 k = 1#1 ↔ k.val ≤ 38 := by decide +kernel
theorem k1_cond5_iff : ∀ k : Fin k1_t1_loop.trips, k1_cond5 k = 1#1 ↔ k.val ≤ 38 := by decide +kernel

/-- Stage 0's wait names the chunk before the trip's first. -/
theorem k1_off4_eq : ∀ (i : grid1.Coords) (k : Fin k1_t1_loop.trips), k1_cond1 k = 1#1 →
    k1_off4 i k = ![51200 * (i 1).val + 25600 * (i 0).val + 640 * k.val - 128, 0] := by decide +kernel

/-! ## The offsets the body computes name these chunks and rows -/

theorem vec2_congr {a a' : ℕ} (h : a = a') : (![a, 0] : Fin 2 → ℕ) = ![a', 0] := by rw [h]

theorem off3_c (L : grid1.Coords) (k : Fin k1_t1_loop.trips) (r : Fin 5) :
    k1_off3 L k (BitVec.ofNat 32 r.val) = ![obase L + 128 * ((5 * k.val + r.val) % 200), 0] := by
  have hk := trips_lt k; have hr := r.isLt
  rw [k1_off3_eq]; exact vec2_congr (by unfold obase; omega)
theorem off4_c (L : grid1.Coords) (k : Fin k1_t1_loop.trips) (hk1 : 1 ≤ k.val) :
    k1_off4 L k = ![obase L + 128 * ((5 * k.val - 1) % 200), 0] := by
  have hk := trips_lt k
  rw [k1_off4_eq L k ((k1_cond1_iff k).2 hk1)]; exact vec2_congr (by unfold obase; omega)
theorem off6_c (L : grid1.Coords) (k : Fin k1_t1_loop.trips) : k1_off6 L k = ![obase L + 128 * ((5 * k.val + 0) % 200), 0] := by
  have hk := trips_lt k
  rw [k1_off6_eq]; exact vec2_congr (by unfold obase; omega)
theorem off8_c (L : grid1.Coords) (k : Fin k1_t1_loop.trips) : k1_off8 L k = ![obase L + 128 * ((5 * k.val + 1) % 200), 0] := by
  have hk := trips_lt k
  rw [k1_off8_eq]; exact vec2_congr (by unfold obase; omega)
theorem off10_c (L : grid1.Coords) (k : Fin k1_t1_loop.trips) : k1_off10 L k = ![obase L + 128 * ((5 * k.val + 2) % 200), 0] := by
  have hk := trips_lt k
  rw [k1_off10_eq]; exact vec2_congr (by unfold obase; omega)
theorem off12_c (L : grid1.Coords) (k : Fin k1_t1_loop.trips) : k1_off12 L k = ![obase L + 128 * ((5 * k.val + 3) % 200), 0] := by
  have hk := trips_lt k
  rw [k1_off12_eq]; exact vec2_congr (by unfold obase; omega)
theorem off14_c (L : grid1.Coords) (r : Fin 5) : k1_off14 L (BitVec.ofNat 32 (24960 + 128 * r.val)) = ![obase L + 128 * ((195 + r.val) % 200), 0] := by
  have hr := r.isLt
  rw [k1_off14_eq]; exact vec2_congr (by unfold obase; omega)

theorem off2_c (k : Fin k1_t1_loop.trips) (r : Fin 5) : k1_off2 k (BitVec.ofNat 32 r.val) = ![(5 * k.val + r.val) % 200, 0] := by
  have hk := trips_lt k; have hr := r.isLt
  rw [k1_off2_eq]; exact vec2_congr (by omega)
theorem off5_c (k : Fin k1_t1_loop.trips) : k1_off5 k = ![(5 * k.val + 4) % 200, 0] := by
  have hk := trips_lt k
  rw [k1_off5_eq]; exact vec2_congr (by omega)
theorem off7_c (k : Fin k1_t1_loop.trips) (hk38 : k.val ≤ 38) : k1_off7 k = ![(5 * k.val + 5) % 200, 0] := by
  rw [k1_off7_eq]; exact vec2_congr (by omega)
theorem off9_c (k : Fin k1_t1_loop.trips) (hk38 : k.val ≤ 38) : k1_off9 k = ![(5 * k.val + 6) % 200, 0] := by
  rw [k1_off9_eq]; exact vec2_congr (by omega)
theorem off11_c (k : Fin k1_t1_loop.trips) (hk38 : k.val ≤ 38) : k1_off11 k = ![(5 * k.val + 7) % 200, 0] := by
  rw [k1_off11_eq]; exact vec2_congr (by omega)
theorem off13_c (k : Fin k1_t1_loop.trips) (hk38 : k.val ≤ 38) : k1_off13 k = ![(5 * k.val + 8) % 200, 0] := by
  rw [k1_off13_eq]; exact vec2_congr (by omega)

/-! ## The same equations between the windows the body slices and the named ones -/

@[sl_canon] theorem canon_o3_0 (L : grid1.Coords) (k : Fin k1_t1_loop.trips) (h : _) (hs : _) :
    (oV).slice (Rect.unit (s := S819200x128) (k1_off3 L k 0#32) S128x128.size h) hs = oWin L (5 * k.val + 0) :=
  Memref.slice_unit_congr _ (off3_c L k ⟨0, by decide⟩) _ _ _ (fun _ => rfl)
@[sl_canon] theorem canon_o3_1 (L : grid1.Coords) (k : Fin k1_t1_loop.trips) (h : _) (hs : _) :
    (oV).slice (Rect.unit (s := S819200x128) (k1_off3 L k 1#32) S128x128.size h) hs = oWin L (5 * k.val + 1) :=
  Memref.slice_unit_congr _ (off3_c L k ⟨1, by decide⟩) _ _ _ (fun _ => rfl)
@[sl_canon] theorem canon_o3_2 (L : grid1.Coords) (k : Fin k1_t1_loop.trips) (h : _) (hs : _) :
    (oV).slice (Rect.unit (s := S819200x128) (k1_off3 L k 2#32) S128x128.size h) hs = oWin L (5 * k.val + 2) :=
  Memref.slice_unit_congr _ (off3_c L k ⟨2, by decide⟩) _ _ _ (fun _ => rfl)
@[sl_canon] theorem canon_o3_3 (L : grid1.Coords) (k : Fin k1_t1_loop.trips) (h : _) (hs : _) :
    (oV).slice (Rect.unit (s := S819200x128) (k1_off3 L k 3#32) S128x128.size h) hs = oWin L (5 * k.val + 3) :=
  Memref.slice_unit_congr _ (off3_c L k ⟨3, by decide⟩) _ _ _ (fun _ => rfl)
@[sl_canon] theorem canon_o3_4 (L : grid1.Coords) (k : Fin k1_t1_loop.trips) (h : _) (hs : _) :
    (oV).slice (Rect.unit (s := S819200x128) (k1_off3 L k 4#32) S128x128.size h) hs = oWin L (5 * k.val + 4) :=
  Memref.slice_unit_congr _ (off3_c L k ⟨4, by decide⟩) _ _ _ (fun _ => rfl)
@[sl_canon] theorem canon_o4 (L : grid1.Coords) (k : Fin k1_t1_loop.trips) (hk1 : 1 ≤ k.val) (h : _) (hs : _) :
    (oV).slice (Rect.unit (s := S819200x128) (k1_off4 L k) S128x128.size h) hs = oWin L (5 * k.val - 1) :=
  Memref.slice_unit_congr _ (off4_c L k hk1) _ _ _ (fun _ => rfl)
@[sl_canon] theorem canon_o6 (L : grid1.Coords) (k : Fin k1_t1_loop.trips) (h : _) (hs : _) :
    (oV).slice (Rect.unit (s := S819200x128) (k1_off6 L k) S128x128.size h) hs = oWin L (5 * k.val + 0) :=
  Memref.slice_unit_congr _ (off6_c L k) _ _ _ (fun _ => rfl)
@[sl_canon] theorem canon_o8 (L : grid1.Coords) (k : Fin k1_t1_loop.trips) (h : _) (hs : _) :
    (oV).slice (Rect.unit (s := S819200x128) (k1_off8 L k) S128x128.size h) hs = oWin L (5 * k.val + 1) :=
  Memref.slice_unit_congr _ (off8_c L k) _ _ _ (fun _ => rfl)
@[sl_canon] theorem canon_o10 (L : grid1.Coords) (k : Fin k1_t1_loop.trips) (h : _) (hs : _) :
    (oV).slice (Rect.unit (s := S819200x128) (k1_off10 L k) S128x128.size h) hs = oWin L (5 * k.val + 2) :=
  Memref.slice_unit_congr _ (off10_c L k) _ _ _ (fun _ => rfl)
@[sl_canon] theorem canon_o12 (L : grid1.Coords) (k : Fin k1_t1_loop.trips) (h : _) (hs : _) :
    (oV).slice (Rect.unit (s := S819200x128) (k1_off12 L k) S128x128.size h) hs = oWin L (5 * k.val + 3) :=
  Memref.slice_unit_congr _ (off12_c L k) _ _ _ (fun _ => rfl)
@[sl_canon] theorem canon_o14_0 (L : grid1.Coords) (h : _) (hs : _) :
    (oV).slice (Rect.unit (s := S819200x128) (k1_off14 L 24960#32) S128x128.size h) hs = oWin L (195 + 0) :=
  Memref.slice_unit_congr _ (off14_c L ⟨0, by decide⟩) _ _ _ (fun _ => rfl)
@[sl_canon] theorem canon_o14_1 (L : grid1.Coords) (h : _) (hs : _) :
    (oV).slice (Rect.unit (s := S819200x128) (k1_off14 L 25088#32) S128x128.size h) hs = oWin L (195 + 1) :=
  Memref.slice_unit_congr _ (off14_c L ⟨1, by decide⟩) _ _ _ (fun _ => rfl)
@[sl_canon] theorem canon_o14_2 (L : grid1.Coords) (h : _) (hs : _) :
    (oV).slice (Rect.unit (s := S819200x128) (k1_off14 L 25216#32) S128x128.size h) hs = oWin L (195 + 2) :=
  Memref.slice_unit_congr _ (off14_c L ⟨2, by decide⟩) _ _ _ (fun _ => rfl)
@[sl_canon] theorem canon_o14_3 (L : grid1.Coords) (h : _) (hs : _) :
    (oV).slice (Rect.unit (s := S819200x128) (k1_off14 L 25344#32) S128x128.size h) hs = oWin L (195 + 3) :=
  Memref.slice_unit_congr _ (off14_c L ⟨3, by decide⟩) _ _ _ (fun _ => rfl)
@[sl_canon] theorem canon_o14_4 (L : grid1.Coords) (h : _) (hs : _) :
    (oV).slice (Rect.unit (s := S819200x128) (k1_off14 L 25472#32) S128x128.size h) hs = oWin L (195 + 4) :=
  Memref.slice_unit_congr _ (off14_c L ⟨4, by decide⟩) _ _ _ (fun _ => rfl)

@[sl_canon] theorem canon_x2_0 (k : Fin k1_t1_loop.trips) (h : _) (hs : _) :
    (xV).slice (Rect.unit (s := S200x128) (k1_off2 k 0#32) S1x128.size h) hs = xRowS (5 * k.val + 0) :=
  Memref.slice_unit_congr _ (off2_c k ⟨0, by decide⟩) _ _ _ (fun _ => rfl)
@[sl_canon] theorem canon_x2_1 (k : Fin k1_t1_loop.trips) (h : _) (hs : _) :
    (xV).slice (Rect.unit (s := S200x128) (k1_off2 k 1#32) S1x128.size h) hs = xRowS (5 * k.val + 1) :=
  Memref.slice_unit_congr _ (off2_c k ⟨1, by decide⟩) _ _ _ (fun _ => rfl)
@[sl_canon] theorem canon_x2_2 (k : Fin k1_t1_loop.trips) (h : _) (hs : _) :
    (xV).slice (Rect.unit (s := S200x128) (k1_off2 k 2#32) S1x128.size h) hs = xRowS (5 * k.val + 2) :=
  Memref.slice_unit_congr _ (off2_c k ⟨2, by decide⟩) _ _ _ (fun _ => rfl)
@[sl_canon] theorem canon_x2_3 (k : Fin k1_t1_loop.trips) (h : _) (hs : _) :
    (xV).slice (Rect.unit (s := S200x128) (k1_off2 k 3#32) S1x128.size h) hs = xRowS (5 * k.val + 3) :=
  Memref.slice_unit_congr _ (off2_c k ⟨3, by decide⟩) _ _ _ (fun _ => rfl)
@[sl_canon] theorem canon_x2_4 (k : Fin k1_t1_loop.trips) (h : _) (hs : _) :
    (xV).slice (Rect.unit (s := S200x128) (k1_off2 k 4#32) S1x128.size h) hs = xRowS (5 * k.val + 4) :=
  Memref.slice_unit_congr _ (off2_c k ⟨4, by decide⟩) _ _ _ (fun _ => rfl)
@[sl_canon] theorem canon_x5 (k : Fin k1_t1_loop.trips) (h : _) (hs : _) :
    (xV).slice (Rect.unit (s := S200x128) (k1_off5 k) S1x128.size h) hs = xRowS (5 * k.val + 4) :=
  Memref.slice_unit_congr _ (off5_c k) _ _ _ (fun _ => rfl)
@[sl_canon] theorem canon_x7 (k : Fin k1_t1_loop.trips) (hk38 : k.val ≤ 38) (h : _) (hs : _) :
    (xV).slice (Rect.unit (s := S200x128) (k1_off7 k) S1x128.size h) hs = xRowS (5 * k.val + 5) :=
  Memref.slice_unit_congr _ (off7_c k hk38) _ _ _ (fun _ => rfl)
@[sl_canon] theorem canon_x9 (k : Fin k1_t1_loop.trips) (hk38 : k.val ≤ 38) (h : _) (hs : _) :
    (xV).slice (Rect.unit (s := S200x128) (k1_off9 k) S1x128.size h) hs = xRowS (5 * k.val + 6) :=
  Memref.slice_unit_congr _ (off9_c k hk38) _ _ _ (fun _ => rfl)
@[sl_canon] theorem canon_x11 (k : Fin k1_t1_loop.trips) (hk38 : k.val ≤ 38) (h : _) (hs : _) :
    (xV).slice (Rect.unit (s := S200x128) (k1_off11 k) S1x128.size h) hs = xRowS (5 * k.val + 7) :=
  Memref.slice_unit_congr _ (off11_c k hk38) _ _ _ (fun _ => rfl)
@[sl_canon] theorem canon_x13 (k : Fin k1_t1_loop.trips) (hk38 : k.val ≤ 38) (h : _) (hs : _) :
    (xV).slice (Rect.unit (s := S200x128) (k1_off13 k) S1x128.size h) hs = xRowS (5 * k.val + 8) :=
  Memref.slice_unit_congr _ (off13_c k hk38) _ _ _ (fun _ => rfl)
@[sl_canon] theorem canon_xl_0 (h : _) (hs : _) :
    (xV).slice (Rect.unit (s := S200x128) ![0, 0] S1x128.size h) hs = xRowS 0 :=
  Memref.slice_unit_congr _ (vec2_congr (by norm_num)) _ _ _ (fun _ => rfl)
@[sl_canon] theorem canon_xl_1 (h : _) (hs : _) :
    (xV).slice (Rect.unit (s := S200x128) ![1, 0] S1x128.size h) hs = xRowS 1 :=
  Memref.slice_unit_congr _ (vec2_congr (by norm_num)) _ _ _ (fun _ => rfl)
@[sl_canon] theorem canon_xl_2 (h : _) (hs : _) :
    (xV).slice (Rect.unit (s := S200x128) ![2, 0] S1x128.size h) hs = xRowS 2 :=
  Memref.slice_unit_congr _ (vec2_congr (by norm_num)) _ _ _ (fun _ => rfl)
@[sl_canon] theorem canon_xl_3 (h : _) (hs : _) :
    (xV).slice (Rect.unit (s := S200x128) ![3, 0] S1x128.size h) hs = xRowS 3 :=
  Memref.slice_unit_congr _ (vec2_congr (by norm_num)) _ _ _ (fun _ => rfl)
@[sl_canon] theorem canon_xl_4 (h : _) (hs : _) :
    (xV).slice (Rect.unit (s := S200x128) ![4, 0] S1x128.size h) hs = xRowS 4 :=
  Memref.slice_unit_congr _ (vec2_congr (by norm_num)) _ _ _ (fun _ => rfl)

end Cert.Kernel.Hand

end
-- ==== Proof.Bits.TileInv.lean ====
/-
  The vector subcore's task, part two: what it holds between two trips of its loop. After the first copy the index
  scratch holds the worker's slab of the classes (XS) and is never written again, so row c of it is a list of 128
  row numbers of the padded table, each below 1000000 under the precondition; the gather of chunk c writes into a
  slot, at (r, j), entry (row named by word r of row c, j) of the padded table (GP c), and the write of chunk c
  copies that slot to rows 128 c .. 128 c + 127 of the worker's block. Before trip k (0 < k < 40) the gathers of
  chunks 5k .. 5k+3 are in flight into slots 0 .. 3 and the write of chunk 5k - 1 out of slot 4; before trip 0 the
  five gathers of chunks 0 .. 4; after trip 39 the five writes of chunks 195 .. 199. The rows of the index scratch and
  the chunks of the block that no transfer holds are kept as families over the chunk number.
-/
import proofs.«206789_g36283883716857_cont_8to1_b_1933_18_alg».proof.Proof.Bits.TileViews

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S32x200x128 EltTy.i32)
local notation "tV" => (Memref.whole Cert.Kernel.main_v1_scv : Memref Cert.Kernel.sig Kind.scVector Space.hbm Cert.Kernel.S1000000x128 EltTy.f32)
local notation "oV" => (Memref.whole Cert.Kernel.main_v4_scv : Memref Cert.Kernel.sig Kind.scVector Space.hbm Cert.Kernel.S819200x128 EltTy.f32)
local notation "xV" => (Memref.whole Cert.Kernel.cc1_scratch0 : Memref Cert.Kernel.sig Kind.scVector Space.vmem Cert.Kernel.S200x128 EltTy.i32)
local notation "bV" => (Memref.whole Cert.Kernel.cc1_scratch1 : Memref Cert.Kernel.sig Kind.scVector Space.vmem Cert.Kernel.S5x128x128 EltTy.f32)

local notation "tVs" => (Memref.slice (Memref.whole Cert.Kernel.main_v1_scv : Memref Cert.Kernel.sig Kind.scVector Space.hbm Cert.Kernel.S1000000x128 EltTy.f32) (Rect.unit (s := Cert.Kernel.S1000000x128) ![0, 0] Cert.Kernel.S1000000x128.size Cert.Kernel.Gen.inb_S1000000x128_S1000000x128_0_0) (fun _ => rfl))
local notation "slotM0" => (Memref.squeeze (Memref.slice (Memref.whole Cert.Kernel.cc1_scratch1 : Memref Cert.Kernel.sig Kind.scVector Space.vmem Cert.Kernel.S5x128x128 EltTy.f32) (Rect.unit (s := Cert.Kernel.S5x128x128) ![0, 0, 0] Cert.Kernel.S1x128x128.size Cert.Kernel.Gen.inb_S5x128x128_S1x128x128_0_0_0) (fun _ => rfl)) Cert.Kernel.S128x128 Cert.Kernel.Gen.squeezes_S1x128x128_S128x128)
local notation "slotM1" => (Memref.squeeze (Memref.slice (Memref.whole Cert.Kernel.cc1_scratch1 : Memref Cert.Kernel.sig Kind.scVector Space.vmem Cert.Kernel.S5x128x128 EltTy.f32) (Rect.unit (s := Cert.Kernel.S5x128x128) ![1, 0, 0] Cert.Kernel.S1x128x128.size Cert.Kernel.Gen.inb_S5x128x128_S1x128x128_1_0_0) (fun _ => rfl)) Cert.Kernel.S128x128 Cert.Kernel.Gen.squeezes_S1x128x128_S128x128)
local notation "slotM2" => (Memref.squeeze (Memref.slice (Memref.whole Cert.Kernel.cc1_scratch1 : Memref Cert.Kernel.sig Kind.scVector Space.vmem Cert.Kernel.S5x128x128 EltTy.f32) (Rect.unit (s := Cert.Kernel.S5x128x128) ![2, 0, 0] Cert.Kernel.S1x128x128.size Cert.Kernel.Gen.inb_S5x128x128_S1x128x128_2_0_0) (fun _ => rfl)) Cert.Kernel.S128x128 Cert.Kernel.Gen.squeezes_S1x128x128_S128x128)
local notation "slotM3" => (Memref.squeeze (Memref.slice (Memref.whole Cert.Kernel.cc1_scratch1 : Memref Cert.Kernel.sig Kind.scVector Space.vmem Cert.Kernel.S5x128x128 EltTy.f32) (Rect.unit (s := Cert.Kernel.S5x128x128) ![3, 0, 0] Cert.Kernel.S1x128x128.size Cert.Kernel.Gen.inb_S5x128x128_S1x128x128_3_0_0) (fun _ => rfl)) Cert.Kernel.S128x128 Cert.Kernel.Gen.squeezes_S1x128x128_S128x128)
local notation "slotM4" => (Memref.squeeze (Memref.slice (Memref.whole Cert.Kernel.cc1_scratch1 : Memref Cert.Kernel.sig Kind.scVector Space.vmem Cert.Kernel.S5x128x128 EltTy.f32) (Rect.unit (s := Cert.Kernel.S5x128x128) ![4, 0, 0] Cert.Kernel.S1x128x128.size Cert.Kernel.Gen.inb_S5x128x128_S1x128x128_4_0_0) (fun _ => rfl)) Cert.Kernel.S128x128 Cert.Kernel.Gen.squeezes_S1x128x128_S128x128)

local notation:max "xRow(" c ")" => (Memref.squeeze (xRowS c) Cert.Kernel.S128 Cert.Kernel.Gen.squeezes_S1x128_S128)

/-! ## Families over an interval of chunk numbers -/

theorem bigSep_Ico_pop (Φ : ℕ → sProp 𝕄) {a n : ℕ} (h : a < n) :
    bigSep (Finset.Ico a n) Φ = iprop(Φ a ∗ bigSep (Finset.Ico (a + 1) n) Φ) := by
  have e : Finset.Ico a n = insert a (Finset.Ico (a + 1) n) := by
    ext x; simp only [Finset.mem_Ico, Finset.mem_insert]; omega
  rw [e, SparseCore.bigSep_insert' (by simp)]
theorem bigSep_range_push (Φ : ℕ → sProp 𝕄) (a : ℕ) :
    bigSep (Finset.range (a + 1)) Φ = iprop(Φ a ∗ bigSep (Finset.range a) Φ) := by
  rw [Finset.range_add_one, SparseCore.bigSep_insert' Finset.notMem_range_self]
/-- The same with the next number named. -/
theorem bigSep_Ico_pop' (Φ : ℕ → sProp 𝕄) {a n : ℕ} (b : ℕ) (h : a < n) (e : a + 1 = b) :
    bigSep (Finset.Ico a n) Φ = iprop(Φ a ∗ bigSep (Finset.Ico b n) Φ) := e ▸ bigSep_Ico_pop Φ h
theorem bigSep_range_push' (Φ : ℕ → sProp 𝕄) (a : ℕ) {b : ℕ} (e : a + 1 = b) :
    bigSep (Finset.range b) Φ = iprop(Φ a ∗ bigSep (Finset.range a) Φ) := e ▸ bigSep_range_push Φ a

section Inv

variable [FloatOps F] (d : Dev nD) (L : grid1.Coords) (C3 : (d : Dev nD) → Buf (Elt F) (idxLoc d)) (Tb : (d : Dev nD) → Buf (Elt F) (padLoc d))

/-! ## What the index scratch holds, and what a gather and a write carry -/

/-- What the slab's copy lands in the index scratch: the worker's slab of the classes. -/
abbrev PAY : S200x128.Idx → Elt F .i32 := ReadAs.same.apply ((iSlabK L).view.read (Elt F) (C3 d))
omit [FloatOps F] in
theorem PAY_apply (x : S200x128.Idx) : PAY d L C3 x = C3 d ((iSlabK L).view.emb x) :=
  (View.read_apply _ _).trans (cast_eq _ _)

/-- The index scratch after the copy. -/
def XS : Buf (Elt F) ((xV).view.loc (VT d L)) :=
  (xV).view.writes (Elt F) (xV).view.junk [⟨Rect.whole cc1_scratch0.ty.shape, PAY d L C3⟩]

/-- Every word of every row of the index scratch names a row of the padded table. -/
theorem hinR (hpre : ∀ d j, (C3 d j).toNat < 1000000) (c : ℕ) (x : S128.Idx) :
    (View.read (Elt F) (xRow(c)).view (XS d L C3) x).toNat < 1000000 := by
  unfold XS
  have e : View.read (Elt F) (xRow(c)).view ((xV).view.writes (Elt F) (xV).view.junk [⟨Rect.whole cc1_scratch0.ty.shape, PAY d L C3⟩]) x
      = View.read (Elt F) (xV).view ((xV).view.writes (Elt F) (xV).view.junk [⟨Rect.whole cc1_scratch0.ty.shape, PAY d L C3⟩])
          ((Rect.unit (s := S200x128) ![c % 200, 0] S1x128.size (xRow_inb c)).emb ((Shape.reshapeEquiv squeezes_S1x128_S128.numel_eq) x)) := by
    unfold xRowS; rw [View.read_apply, View.read_apply]; rfl
  rw [e, View.read_writes_whole, PAY_apply]
  exact hpre d _

variable (hpre : ∀ d j, (C3 d j).toNat < 1000000)

/-- What the gather of chunk c writes into its slot: at (r, j), entry (row named by word r of row c, j) of the table. -/
def GP (c : ℕ) : S128x128.Idx → Elt F .f32 :=
  SparseCore.gatherPayload gathers_S1000000x128_S128x128 (View.read (Elt F) (tVs).view (Tb d))
    (SparseCore.rows (View.read (Elt F) (xRow(c)).view (XS d L C3)) rfl (hinR d L C3 hpre c))

/-- What the write of chunk c carries out of slot 0, which holds the gather of chunk c over contents s. -/
def WPAY0 (c : ℕ) (s : Buf (Elt F) ((bV).view.loc (VT d L))) : S128x128.Idx → Elt F .f32 :=
  ReadAs.same.apply (View.read (Elt F) (slotM0).view ((slotM0).view.writes (Elt F) s [⟨Rect.whole S128x128, GP d L C3 Tb hpre c⟩]))
/-- What the write of chunk c carries out of slot 1, which holds the gather of chunk c over contents s. -/
def WPAY1 (c : ℕ) (s : Buf (Elt F) ((bV).view.loc (VT d L))) : S128x128.Idx → Elt F .f32 :=
  ReadAs.same.apply (View.read (Elt F) (slotM1).view ((slotM1).view.writes (Elt F) s [⟨Rect.whole S128x128, GP d L C3 Tb hpre c⟩]))
/-- What the write of chunk c carries out of slot 2, which holds the gather of chunk c over contents s. -/
def WPAY2 (c : ℕ) (s : Buf (Elt F) ((bV).view.loc (VT d L))) : S128x128.Idx → Elt F .f32 :=
  ReadAs.same.apply (View.read (Elt F) (slotM2).view ((slotM2).view.writes (Elt F) s [⟨Rect.whole S128x128, GP d L C3 Tb hpre c⟩]))
/-- What the write of chunk c carries out of slot 3, which holds the gather of chunk c over contents s. -/
def WPAY3 (c : ℕ) (s : Buf (Elt F) ((bV).view.loc (VT d L))) : S128x128.Idx → Elt F .f32 :=
  ReadAs.same.apply (View.read (Elt F) (slotM3).view ((slotM3).view.writes (Elt F) s [⟨Rect.whole S128x128, GP d L C3 Tb hpre c⟩]))
/-- What the write of chunk c carries out of slot 4, which holds the gather of chunk c over contents s. -/
def WPAY4 (c : ℕ) (s : Buf (Elt F) ((bV).view.loc (VT d L))) : S128x128.Idx → Elt F .f32 :=
  ReadAs.same.apply (View.read (Elt F) (slotM4).view ((slotM4).view.writes (Elt F) s [⟨Rect.whole S128x128, GP d L C3 Tb hpre c⟩]))

/-! ## The pieces -/

/-- Row c of the index scratch, held. -/
def xRowP (c : ℕ) : sProp 𝕄 := (xRow(c)).view.loc (VT d L) ↦[(xRow(c)).view.set]{fullShare} XS d L C3
/-- Chunk c of the worker's block, not yet written, at contents f0; -/
def oFresh (f0 : Buf (Elt F) (gatLoc d)) (c : ℕ) : sProp 𝕄 := (oWin L c).view.loc (VT d L) ↦[(oWin L c).view.set]{fullShare} f0
/-- written, at the gathered contents. -/
def oDone (c : ℕ) : sProp 𝕄 := (oWin L c).view.loc (VT d L) ↦[(oWin L c).view.set]{fullShare} (gathered (C3 d) (Tb d) : Buf (Elt F) (gatLoc d))
/-- The worker's read token n of the padded table; -/
def tokP (q : PosShare TreeShare) (n : ℕ) : sProp 𝕄 := (tVs).view.loc (VT d L) ↦[(tVs).view.set]{Transfers.shareTokN q n} Tb d
/-- what stays of it beside a gather in flight (no element). -/
def tokR (q : PosShare TreeShare) (n : ℕ) : sProp 𝕄 := (tVs).view.loc (VT d L) ↦[(tVs).view.set \ (tVs).view.set]{Transfers.shareTokN q n} Tb d

/-- The gather of chunk c in flight into slot 0 (over contents s). -/
def FG0 (q : PosShare TreeShare) (c : ℕ) (s : Buf (Elt F) ((bV).view.loc (VT d L))) : sProp 𝕄 :=
  Transfers.Flight countersEmb (VT d L) (SemLoc.dma (⟨4, by decide⟩ : DmaSem sig)) (default : HIx 1) 524288
    iprop((((slotM0).view.loc (VT d L) ↦[(slotM0).view.set]{fullShare} (slotM0).view.writes (Elt F) s [⟨Rect.whole S128x128, GP d L C3 Tb hpre c⟩])
        ∗ ((xRow(c)).view.loc (VT d L) ↦[(xRow(c)).view.set]{fullShare} XS d L C3))
      ∗ ((tVs).view.loc (VT d L) ↦[(tVs).view.set]{Transfers.shareTokN q 4} Tb d))
/-- The write of chunk c in flight out of slot 0 (which holds the gather of chunk c over contents s). -/
def FW0 (f0 : Buf (Elt F) (gatLoc d)) (c : ℕ) (s : Buf (Elt F) ((bV).view.loc (VT d L))) : sProp 𝕄 :=
  Transfers.Flight countersEmb (VT d L) (SemLoc.dma (⟨9, by decide⟩ : DmaSem sig)) (default : HIx 1) 524288
    iprop(((oWin L c).view.loc (VT d L) ↦[(oWin L c).view.set]{fullShare} (oWin L c).view.writes (Elt F) f0 [⟨Rect.whole S128x128, WPAY0 d L C3 Tb hpre c s⟩])
      ∗ ((slotM0).view.loc (VT d L) ↦[(slotM0).view.set]{fullShare} (slotM0).view.writes (Elt F) s [⟨Rect.whole S128x128, GP d L C3 Tb hpre c⟩]))
/-- The gather of chunk c in flight into slot 1 (over contents s). -/
def FG1 (q : PosShare TreeShare) (c : ℕ) (s : Buf (Elt F) ((bV).view.loc (VT d L))) : sProp 𝕄 :=
  Transfers.Flight countersEmb (VT d L) (SemLoc.dma (⟨5, by decide⟩ : DmaSem sig)) (default : HIx 1) 524288
    iprop((((slotM1).view.loc (VT d L) ↦[(slotM1).view.set]{fullShare} (slotM1).view.writes (Elt F) s [⟨Rect.whole S128x128, GP d L C3 Tb hpre c⟩])
        ∗ ((xRow(c)).view.loc (VT d L) ↦[(xRow(c)).view.set]{fullShare} XS d L C3))
      ∗ ((tVs).view.loc (VT d L) ↦[(tVs).view.set]{Transfers.shareTokN q 5} Tb d))
/-- The write of chunk c in flight out of slot 1 (which holds the gather of chunk c over contents s). -/
def FW1 (f0 : Buf (Elt F) (gatLoc d)) (c : ℕ) (s : Buf (Elt F) ((bV).view.loc (VT d L))) : sProp 𝕄 :=
  Transfers.Flight countersEmb (VT d L) (SemLoc.dma (⟨10, by decide⟩ : DmaSem sig)) (default : HIx 1) 524288
    iprop(((oWin L c).view.loc (VT d L) ↦[(oWin L c).view.set]{fullShare} (oWin L c).view.writes (Elt F) f0 [⟨Rect.whole S128x128, WPAY1 d L C3 Tb hpre c s⟩])
      ∗ ((slotM1).view.loc (VT d L) ↦[(slotM1).view.set]{fullShare} (slotM1).view.writes (Elt F) s [⟨Rect.whole S128x128, GP d L C3 Tb hpre c⟩]))
/-- The gather of chunk c in flight into slot 2 (over contents s). -/
def FG2 (q : PosShare TreeShare) (c : ℕ) (s : Buf (Elt F) ((bV).view.loc (VT d L))) : sProp 𝕄 :=
  Transfers.Flight countersEmb (VT d L) (SemLoc.dma (⟨6, by decide⟩ : DmaSem sig)) (default : HIx 1) 524288
    iprop((((slotM2).view.loc (VT d L) ↦[(slotM2).view.set]{fullShare} (slotM2).view.writes (Elt F) s [⟨Rect.whole S128x128, GP d L C3 Tb hpre c⟩])
        ∗ ((xRow(c)).view.loc (VT d L) ↦[(xRow(c)).view.set]{fullShare} XS d L C3))
      ∗ ((tVs).view.loc (VT d L) ↦[(tVs).view.set]{Transfers.shareTokN q 6} Tb d))
/-- The write of chunk c in flight out of slot 2 (which holds the gather of chunk c over contents s). -/
def FW2 (f0 : Buf (Elt F) (gatLoc d)) (c : ℕ) (s : Buf (Elt F) ((bV).view.loc (VT d L))) : sProp 𝕄 :=
  Transfers.Flight countersEmb (VT d L) (SemLoc.dma (⟨11, by decide⟩ : DmaSem sig)) (default : HIx 1) 524288
    iprop(((oWin L c).view.loc (VT d L) ↦[(oWin L c).view.set]{fullShare} (oWin L c).view.writes (Elt F) f0 [⟨Rect.whole S128x128, WPAY2 d L C3 Tb hpre c s⟩])
      ∗ ((slotM2).view.loc (VT d L) ↦[(slotM2).view.set]{fullShare} (slotM2).view.writes (Elt F) s [⟨Rect.whole S128x128, GP d L C3 Tb hpre c⟩]))
/-- The gather of chunk c in flight into slot 3 (over contents s). -/
def FG3 (q : PosShare TreeShare) (c : ℕ) (s : Buf (Elt F) ((bV).view.loc (VT d L))) : sProp 𝕄 :=
  Transfers.Flight countersEmb (VT d L) (SemLoc.dma (⟨7, by decide⟩ : DmaSem sig)) (default : HIx 1) 524288
    iprop((((slotM3).view.loc (VT d L) ↦[(slotM3).view.set]{fullShare} (slotM3).view.writes (Elt F) s [⟨Rect.whole S128x128, GP d L C3 Tb hpre c⟩])
        ∗ ((xRow(c)).view.loc (VT d L) ↦[(xRow(c)).view.set]{fullShare} XS d L C3))
      ∗ ((tVs).view.loc (VT d L) ↦[(tVs).view.set]{Transfers.shareTokN q 7} Tb d))
/-- The write of chunk c in flight out of slot 3 (which holds the gather of chunk c over contents s). -/
def FW3 (f0 : Buf (Elt F) (gatLoc d)) (c : ℕ) (s : Buf (Elt F) ((bV).view.loc (VT d L))) : sProp 𝕄 :=
  Transfers.Flight countersEmb (VT d L) (SemLoc.dma (⟨12, by decide⟩ : DmaSem sig)) (default : HIx 1) 524288
    iprop(((oWin L c).view.loc (VT d L) ↦[(oWin L c).view.set]{fullShare} (oWin L c).view.writes (Elt F) f0 [⟨Rect.whole S128x128, WPAY3 d L C3 Tb hpre c s⟩])
      ∗ ((slotM3).view.loc (VT d L) ↦[(slotM3).view.set]{fullShare} (slotM3).view.writes (Elt F) s [⟨Rect.whole S128x128, GP d L C3 Tb hpre c⟩]))
/-- The gather of chunk c in flight into slot 4 (over contents s). -/
def FG4 (q : PosShare TreeShare) (c : ℕ) (s : Buf (Elt F) ((bV).view.loc (VT d L))) : sProp 𝕄 :=
  Transfers.Flight countersEmb (VT d L) (SemLoc.dma (⟨8, by decide⟩ : DmaSem sig)) (default : HIx 1) 524288
    iprop((((slotM4).view.loc (VT d L) ↦[(slotM4).view.set]{fullShare} (slotM4).view.writes (Elt F) s [⟨Rect.whole S128x128, GP d L C3 Tb hpre c⟩])
        ∗ ((xRow(c)).view.loc (VT d L) ↦[(xRow(c)).view.set]{fullShare} XS d L C3))
      ∗ ((tVs).view.loc (VT d L) ↦[(tVs).view.set]{Transfers.shareTokN q 8} Tb d))
/-- The write of chunk c in flight out of slot 4 (which holds the gather of chunk c over contents s). -/
def FW4 (f0 : Buf (Elt F) (gatLoc d)) (c : ℕ) (s : Buf (Elt F) ((bV).view.loc (VT d L))) : sProp 𝕄 :=
  Transfers.Flight countersEmb (VT d L) (SemLoc.dma (⟨13, by decide⟩ : DmaSem sig)) (default : HIx 1) 524288
    iprop(((oWin L c).view.loc (VT d L) ↦[(oWin L c).view.set]{fullShare} (oWin L c).view.writes (Elt F) f0 [⟨Rect.whole S128x128, WPAY4 d L C3 Tb hpre c s⟩])
      ∗ ((slotM4).view.loc (VT d L) ↦[(slotM4).view.set]{fullShare} (slotM4).view.writes (Elt F) s [⟨Rect.whole S128x128, GP d L C3 Tb hpre c⟩]))

/-! ## Between two trips -/

variable (O : CellTallies nD τ sig (HIx 1)) (W : Waits sig (HIx 1)) (q : PosShare TreeShare) (f0 : Buf (Elt F) (gatLoc d))

/-- Slots 0 .. 3 before a trip: each a gather in flight, its write semaphore free. -/
def invCommon (k : ℕ) (s0 s1 s2 s3 : Buf (Elt F) ((bV).view.loc (VT d L))) : sProp 𝕄 :=
  iprop(FG0 d L C3 Tb hpre q (5 * k + 0) s0 ∗ tokR d L Tb q 4
    ∗ FG1 d L C3 Tb hpre q (5 * k + 1) s1 ∗ tokR d L Tb q 5
    ∗ FG2 d L C3 Tb hpre q (5 * k + 2) s2 ∗ tokR d L Tb q 6
    ∗ FG3 d L C3 Tb hpre q (5 * k + 3) s3 ∗ tokR d L Tb q 7
    ∗ semVal ((VT d L), SemLoc.dma (⟨9, by decide⟩ : DmaSem sig)) 0 ∗ semVal ((VT d L), SemLoc.dma (⟨10, by decide⟩ : DmaSem sig)) 0 ∗ semVal ((VT d L), SemLoc.dma (⟨11, by decide⟩ : DmaSem sig)) 0 ∗ semVal ((VT d L), SemLoc.dma (⟨12, by decide⟩ : DmaSem sig)) 0)
/-- Slot 4 before trip 0: the gather of chunk 4 in flight; -/
def inv4A (k : ℕ) (s4 : Buf (Elt F) ((bV).view.loc (VT d L))) : sProp 𝕄 :=
  iprop(FG4 d L C3 Tb hpre q (5 * k + 4) s4 ∗ tokR d L Tb q 8 ∗ semVal ((VT d L), SemLoc.dma (⟨13, by decide⟩ : DmaSem sig)) 0)
/-- before a later trip: the write of the chunk before the trip's first in flight, the row its next gather reads. -/
def inv4B (k : ℕ) (s4 : Buf (Elt F) ((bV).view.loc (VT d L))) : sProp 𝕄 :=
  iprop(FW4 d L C3 Tb hpre f0 (5 * k - 1) s4 ∗ semVal ((VT d L), SemLoc.dma (⟨8, by decide⟩ : DmaSem sig)) 0 ∗ tokP d L Tb q 8 ∗ xRowP d L C3 (5 * k + 4))
/-- After the last trip k: its five writes in flight. -/
def invC (k : ℕ) (s0 s1 s2 s3 s4 : Buf (Elt F) ((bV).view.loc (VT d L))) : sProp 𝕄 :=
  iprop(bigSep (Finset.range (5 * k)) (oDone d L C3 Tb)
    ∗ FW0 d L C3 Tb hpre f0 (5 * k + 0) s0 ∗ FW1 d L C3 Tb hpre f0 (5 * k + 1) s1 ∗ FW2 d L C3 Tb hpre f0 (5 * k + 2) s2 ∗ FW3 d L C3 Tb hpre f0 (5 * k + 3) s3 ∗ FW4 d L C3 Tb hpre f0 (5 * k + 4) s4
    ∗ semVal ((VT d L), SemLoc.dma (⟨4, by decide⟩ : DmaSem sig)) 0 ∗ semVal ((VT d L), SemLoc.dma (⟨5, by decide⟩ : DmaSem sig)) 0 ∗ semVal ((VT d L), SemLoc.dma (⟨6, by decide⟩ : DmaSem sig)) 0 ∗ semVal ((VT d L), SemLoc.dma (⟨7, by decide⟩ : DmaSem sig)) 0 ∗ semVal ((VT d L), SemLoc.dma (⟨8, by decide⟩ : DmaSem sig)) 0
    ∗ tokP d L Tb q 4 ∗ tokP d L Tb q 5 ∗ tokP d L Tb q 6 ∗ tokP d L Tb q 7 ∗ tokP d L Tb q 8)

/-- What the subcore holds before trip k. -/
def inv (k : ℕ) (_ : Unit) : sProp 𝕄 :=
  iprop(∃ W' : Waits sig (HIx 1), ⌜∀ p ∈ W', p ∈ W ∨ p.2 = none⌝ ∗ owes (VT d L) O W'
    ∗ ∃ s0 s1 s2 s3 s4 : Buf (Elt F) ((bV).view.loc (VT d L)), Transfers.MayWaits (VT d L) (default : HIx 1) O
    ∗ bigSep (Finset.range (5 * k)) (xRowP d L C3) ∗ bigSep (Finset.Ico (5 * k + 5) 200) (xRowP d L C3)
    ∗ bigSep (Finset.Ico (5 * k) 200) (oFresh d L f0)
    ∗ (if k = 40 then invC d L C3 Tb hpre q f0 (k - 1) s0 s1 s2 s3 s4
       else iprop(bigSep (Finset.range (5 * k - 1)) (oDone d L C3 Tb) ∗ invCommon d L C3 Tb hpre q k s0 s1 s2 s3
          ∗ (if k = 0 then inv4A d L C3 Tb hpre q k s4 else inv4B d L C3 Tb hpre q f0 k s4))))

/-- Before trip 0; -/
theorem inv_first (k : ℕ) (h0 : k = 0) (acc : Unit) : inv d L C3 Tb hpre O W q f0 k acc = iprop(∃ W' : Waits sig (HIx 1), ⌜∀ p ∈ W', p ∈ W ∨ p.2 = none⌝ ∗ owes (VT d L) O W'
    ∗ ∃ s0 s1 s2 s3 s4 : Buf (Elt F) ((bV).view.loc (VT d L)), Transfers.MayWaits (VT d L) (default : HIx 1) O
    ∗ bigSep (Finset.range (5 * k)) (xRowP d L C3) ∗ bigSep (Finset.Ico (5 * k + 5) 200) (xRowP d L C3)
    ∗ bigSep (Finset.Ico (5 * k) 200) (oFresh d L f0)
    ∗ bigSep (Finset.range (5 * k - 1)) (oDone d L C3 Tb) ∗ invCommon d L C3 Tb hpre q k s0 s1 s2 s3 ∗ inv4A d L C3 Tb hpre q k s4) := by
  subst h0; unfold inv; rfl
/-- before a later trip; -/
theorem inv_mid (k : ℕ) (h1 : 1 ≤ k) (h39 : k ≤ 39) (acc : Unit) : inv d L C3 Tb hpre O W q f0 k acc = iprop(∃ W' : Waits sig (HIx 1), ⌜∀ p ∈ W', p ∈ W ∨ p.2 = none⌝ ∗ owes (VT d L) O W'
    ∗ ∃ s0 s1 s2 s3 s4 : Buf (Elt F) ((bV).view.loc (VT d L)), Transfers.MayWaits (VT d L) (default : HIx 1) O
    ∗ bigSep (Finset.range (5 * k)) (xRowP d L C3) ∗ bigSep (Finset.Ico (5 * k + 5) 200) (xRowP d L C3)
    ∗ bigSep (Finset.Ico (5 * k) 200) (oFresh d L f0)
    ∗ bigSep (Finset.range (5 * k - 1)) (oDone d L C3 Tb) ∗ invCommon d L C3 Tb hpre q k s0 s1 s2 s3 ∗ inv4B d L C3 Tb hpre q f0 k s4) := by
  unfold inv; simp only [if_neg (show ¬ k = 40 by omega), if_neg (show ¬ k = 0 by omega)]
/-- after the last. -/
theorem inv_last (k : ℕ) (h : k = 40) (acc : Unit) : inv d L C3 Tb hpre O W q f0 k acc = iprop(∃ W' : Waits sig (HIx 1), ⌜∀ p ∈ W', p ∈ W ∨ p.2 = none⌝ ∗ owes (VT d L) O W'
    ∗ ∃ s0 s1 s2 s3 s4 : Buf (Elt F) ((bV).view.loc (VT d L)), Transfers.MayWaits (VT d L) (default : HIx 1) O
    ∗ bigSep (Finset.range (5 * k)) (xRowP d L C3) ∗ bigSep (Finset.Ico (5 * k + 5) 200) (xRowP d L C3)
    ∗ bigSep (Finset.Ico (5 * k) 200) (oFresh d L f0)
    ∗ invC d L C3 Tb hpre q f0 (k - 1) s0 s1 s2 s3 s4) := by
  subst h; unfold inv; rfl

end Inv

end Cert.Kernel.Hand

end
-- ==== Proof.Bits.TileSplit.lean ====
/-
  The vector subcore's task, part three: the buffers it is handed whole and the pieces it works on. The index scratch
  is its 200 rows; the stage buffer its five slots; the worker's block of the gathered array its 200 chunks of 128
  rows; the worker's share of the padded table is cut into read tokens, one for each gather semaphore.
-/
import proofs.«206789_g36283883716857_cont_8to1_b_1933_18_alg».proof.Proof.Bits.TileInv

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S32x200x128 EltTy.i32)
local notation "tV" => (Memref.whole Cert.Kernel.main_v1_scv : Memref Cert.Kernel.sig Kind.scVector Space.hbm Cert.Kernel.S1000000x128 EltTy.f32)
local notation "oV" => (Memref.whole Cert.Kernel.main_v4_scv : Memref Cert.Kernel.sig Kind.scVector Space.hbm Cert.Kernel.S819200x128 EltTy.f32)
local notation "xV" => (Memref.whole Cert.Kernel.cc1_scratch0 : Memref Cert.Kernel.sig Kind.scVector Space.vmem Cert.Kernel.S200x128 EltTy.i32)
local notation "bV" => (Memref.whole Cert.Kernel.cc1_scratch1 : Memref Cert.Kernel.sig Kind.scVector Space.vmem Cert.Kernel.S5x128x128 EltTy.f32)

local notation "tVs" => (Memref.slice (Memref.whole Cert.Kernel.main_v1_scv : Memref Cert.Kernel.sig Kind.scVector Space.hbm Cert.Kernel.S1000000x128 EltTy.f32) (Rect.unit (s := Cert.Kernel.S1000000x128) ![0, 0] Cert.Kernel.S1000000x128.size Cert.Kernel.Gen.inb_S1000000x128_S1000000x128_0_0) (fun _ => rfl))
local notation "slotM0" => (Memref.squeeze (Memref.slice (Memref.whole Cert.Kernel.cc1_scratch1 : Memref Cert.Kernel.sig Kind.scVector Space.vmem Cert.Kernel.S5x128x128 EltTy.f32) (Rect.unit (s := Cert.Kernel.S5x128x128) ![0, 0, 0] Cert.Kernel.S1x128x128.size Cert.Kernel.Gen.inb_S5x128x128_S1x128x128_0_0_0) (fun _ => rfl)) Cert.Kernel.S128x128 Cert.Kernel.Gen.squeezes_S1x128x128_S128x128)
local notation "slotM1" => (Memref.squeeze (Memref.slice (Memref.whole Cert.Kernel.cc1_scratch1 : Memref Cert.Kernel.sig Kind.scVector Space.vmem Cert.Kernel.S5x128x128 EltTy.f32) (Rect.unit (s := Cert.Kernel.S5x128x128) ![1, 0, 0] Cert.Kernel.S1x128x128.size Cert.Kernel.Gen.inb_S5x128x128_S1x128x128_1_0_0) (fun _ => rfl)) Cert.Kernel.S128x128 Cert.Kernel.Gen.squeezes_S1x128x128_S128x128)
local notation "slotM2" => (Memref.squeeze (Memref.slice (Memref.whole Cert.Kernel.cc1_scratch1 : Memref Cert.Kernel.sig Kind.scVector Space.vmem Cert.Kernel.S5x128x128 EltTy.f32) (Rect.unit (s := Cert.Kernel.S5x128x128) ![2, 0, 0] Cert.Kernel.S1x128x128.size Cert.Kernel.Gen.inb_S5x128x128_S1x128x128_2_0_0) (fun _ => rfl)) Cert.Kernel.S128x128 Cert.Kernel.Gen.squeezes_S1x128x128_S128x128)
local notation "slotM3" => (Memref.squeeze (Memref.slice (Memref.whole Cert.Kernel.cc1_scratch1 : Memref Cert.Kernel.sig Kind.scVector Space.vmem Cert.Kernel.S5x128x128 EltTy.f32) (Rect.unit (s := Cert.Kernel.S5x128x128) ![3, 0, 0] Cert.Kernel.S1x128x128.size Cert.Kernel.Gen.inb_S5x128x128_S1x128x128_3_0_0) (fun _ => rfl)) Cert.Kernel.S128x128 Cert.Kernel.Gen.squeezes_S1x128x128_S128x128)
local notation "slotM4" => (Memref.squeeze (Memref.slice (Memref.whole Cert.Kernel.cc1_scratch1 : Memref Cert.Kernel.sig Kind.scVector Space.vmem Cert.Kernel.S5x128x128 EltTy.f32) (Rect.unit (s := Cert.Kernel.S5x128x128) ![4, 0, 0] Cert.Kernel.S1x128x128.size Cert.Kernel.Gen.inb_S5x128x128_S1x128x128_4_0_0) (fun _ => rfl)) Cert.Kernel.S128x128 Cert.Kernel.Gen.squeezes_S1x128x128_S128x128)

local notation:max "xRow(" c ")" => (Memref.squeeze (xRowS c) Cert.Kernel.S128 Cert.Kernel.Gen.squeezes_S1x128_S128)

/-! ## Read tokens -/

/-- A share of a buffer as what stays and the five read tokens numbered 4 to 8 (one per gather semaphore). -/
theorem toks5 {ℓ : Loc nD τ sig} {S : Finset (Idx ℓ)} (f : Buf (Elt F) ℓ) (q : PosShare TreeShare) :
    (ℓ ↦[S]{q} f : sProp 𝕄) ⊣⊢ iprop(((ℓ ↦[S]{Transfers.shareDrop q 9} f) ∗ (ℓ ↦[S]{Transfers.shareTokN q 0} f) ∗ (ℓ ↦[S]{Transfers.shareTokN q 1} f)
        ∗ (ℓ ↦[S]{Transfers.shareTokN q 2} f) ∗ (ℓ ↦[S]{Transfers.shareTokN q 3} f))
      ∗ (ℓ ↦[S]{Transfers.shareTokN q 4} f) ∗ (ℓ ↦[S]{Transfers.shareTokN q 5} f) ∗ (ℓ ↦[S]{Transfers.shareTokN q 6} f)
      ∗ (ℓ ↦[S]{Transfers.shareTokN q 7} f) ∗ (ℓ ↦[S]{Transfers.shareTokN q 8} f)) := by
  have h : (ℓ ↦[S]{q} f : sProp 𝕄) ⊣⊢ iprop((ℓ ↦[S]{Transfers.shareDrop q 9} f) ∗ bigSep (Finset.range 9) fun i => ℓ ↦[S]{Transfers.shareTokN q i} f) :=
    Transfers.pointsTo_toks_range (ℓ := ℓ) (S := S) (f := f) q 9
  rw [show Finset.range 9 = {0, 1, 2, 3, 4, 5, 6, 7, 8} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton] at h
  constructor
  · refine BIBase.Entails.trans h.1 ?_
    iintro ⟨Hd, H0, H1, H2, H3, H4, H5, H6, H7, H8⟩
    isplitl [Hd H0 H1 H2 H3]
    · isplitl [Hd]; · iexact Hd
      isplitl [H0]; · iexact H0
      isplitl [H1]; · iexact H1
      isplitl [H2]; · iexact H2
      iexact H3
    isplitl [H4]; · iexact H4
    isplitl [H5]; · iexact H5
    isplitl [H6]; · iexact H6
    isplitl [H7]; · iexact H7
    iexact H8
  · refine BIBase.Entails.trans ?_ h.2
    iintro ⟨⟨Hd, H0, H1, H2, H3⟩, H4, H5, H6, H7, H8⟩
    isplitl [Hd]; · iexact Hd
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-! ## The index scratch is its 200 rows -/

theorem xRow_set (c : ℕ) : (xRow(c)).view.set = (Rect.unit (s := S200x128) ![c % 200, 0] S1x128.size (xRow_inb c)).set := by
  unfold xRowS
  show (((xV).view.slice (Rect.unit (s := S200x128) ![c % 200, 0] S1x128.size (xRow_inb c))).reshape S128 squeezes_S1x128_S128.numel_eq).set = _
  rw [View.set_reshape]
  show ((View.whole (cc1_scratch0 : Ref sig .scVector)).slice _).set = _
  rw [View.set_slice]; exact Finset.map_refl

theorem xRows_disjoint : ∀ c ∈ Finset.range 200, ∀ c' ∈ Finset.range 200, c ≠ c' → Disjoint (xRow(c)).view.set (xRow(c')).view.set := by
  intro c hc c' hc' hne
  have h1 := Finset.mem_range.mp hc; have h2 := Finset.mem_range.mp hc'
  rw [xRow_set, xRow_set]
  refine Rect.disjoint_of_separated _ _ 0 ?_
  simp only [Rect.off_unit, Rect.size_unit, Rect.stride_unit, Matrix.cons_val_zero]
  show ((1 : ℕ) = 0 ∨ c % 200 + 1 * (1 - 1) < c' % 200) ∨ ((1 : ℕ) = 0 ∨ c' % 200 + 1 * (1 - 1) < c % 200)
  omega

theorem xRows_cover : (Finset.range 200).biUnion (fun c => (xRow(c)).view.set) = (xV).view.set := by
  rw [View.set_whole]
  refine Finset.eq_univ_of_forall fun i => Finset.mem_biUnion.mpr ?_
  have h0 : (i 0).val < 200 := (i 0).isLt
  have h1 : (i 1).val < 128 := (i 1).isLt
  refine ⟨(i 0).val, Finset.mem_range.mpr h0, ?_⟩
  rw [xRow_set, Rect.mem_set_unit]
  intro a; fin_cases a
  · show (i 0).val % 200 ≤ (i 0).val ∧ (i 0).val < (i 0).val % 200 + 1; omega
  · show 0 ≤ (i 1).val ∧ (i 1).val < 0 + 128; omega

theorem xRows_eq (d : Dev nD) (L : grid1.Coords) (f : Buf (Elt F) ((xV).view.loc (VT d L))) :
    ((xV).view.loc (VT d L) ↦[(xV).view.set]{fullShare} f : sProp 𝕄)
      = bigSep (Finset.range 200) fun c => (xRow(c)).view.loc (VT d L) ↦[(xRow(c)).view.set]{fullShare} f := by
  rw [← xRows_cover]
  exact pointsTo_biUnion (Finset.range 200) (ℓ := (xV).view.loc (VT d L)) (fun c => (xRow(c)).view.set) xRows_disjoint

/-! ## The worker's block of the gathered array is its 200 chunks -/

/-- The worker at a place of the grid. -/
abbrev widL (L : grid1.Coords) : Fin 32 := wid ⟨(L 0).val, (L 0).isLt⟩ ⟨(L 1).val, (L 1).isLt⟩

theorem oWin_set (L : grid1.Coords) (c : ℕ) :
    ((oWin L c).view.set : Finset S819200x128.Idx) = (Rect.unit (s := S819200x128) ![obase L + 128 * (c % 200), 0] S128x128.size (oWin_inb L c)).set := by
  unfold oWin
  show ((View.whole (main_v4_scv : Ref sig .scVector)).slice _).set = _
  rw [View.set_slice]; exact Finset.map_refl

theorem oBlkSet_eq (w : Fin 32) : oBlkSet w = (oblk w).set := by
  show ((View.whole (main_v4_scv : Ref sig .scVector)).slice (oblk w)).set = _
  rw [View.set_slice]; exact Finset.map_refl

theorem oblk_mem (w : Fin 32) (i : S819200x128.Idx) :
    i ∈ (oblk w).set ↔ (25600 * w.val ≤ (i 0).val ∧ (i 0).val < 25600 * w.val + 25600) := by
  have h1 : (i 1).val < 128 := (i 1).isLt
  rw [Rect.mem_set_unit]
  constructor
  · intro h
    have h0 := h 0
    simp only [Shape.partIx, Shape.partSize, ↓reduceIte] at h0
    have e : S819200x128.size 0 / 32 = 25600 := by decide
    rw [e] at h0; omega
  · intro h a
    fin_cases a
    · simp only [Shape.partIx, Shape.partSize, ↓reduceIte]
      have e : S819200x128.size 0 / 32 = 25600 := by decide
      show w.val * (S819200x128.size 0 / 32) ≤ (i 0).val ∧ (i 0).val < w.val * (S819200x128.size 0 / 32) + S819200x128.size 0 / 32
      rw [e]; omega
    · show S819200x128.partIx 0 w.val 1 * S819200x128.partSize 0 32 1 ≤ (i 1).val ∧ (i 1).val < S819200x128.partIx 0 w.val 1 * S819200x128.partSize 0 32 1 + S819200x128.partSize 0 32 1
      have e1 : S819200x128.partIx 0 w.val 1 = 0 := by simp [Shape.partIx]
      have e2 : S819200x128.partSize 0 32 1 = 128 := by simp [Shape.partSize]
      rw [e1, e2]; omega

theorem oWins_disjoint (L : grid1.Coords) : ∀ c ∈ Finset.range 200, ∀ c' ∈ Finset.range 200, c ≠ c' → Disjoint (oWin L c).view.set (oWin L c').view.set := by
  intro c hc c' hc' hne
  have h1 := Finset.mem_range.mp hc; have h2 := Finset.mem_range.mp hc'
  rw [oWin_set, oWin_set]
  refine Rect.disjoint_of_separated _ _ 0 ?_
  show ((128 : ℕ) = 0 ∨ obase L + 128 * (c % 200) + 1 * (128 - 1) < obase L + 128 * (c' % 200)) ∨ ((128 : ℕ) = 0 ∨ obase L + 128 * (c' % 200) + 1 * (128 - 1) < obase L + 128 * (c % 200))
  omega

theorem oWins_cover (L : grid1.Coords) : (Finset.range 200).biUnion (fun c => (oWin L c).view.set) = oBlkSet (widL L) := by
  have hL0 : (L 0).val < 2 := (L 0).isLt
  have hL1 : (L 1).val < 16 := (L 1).isLt
  have hw : (widL L).val = 2 * (L 1).val + (L 0).val := rfl
  rw [oBlkSet_eq]
  ext i
  have hi1 : (i 1).val < 128 := (i 1).isLt
  rw [oblk_mem, hw]
  constructor
  · intro h
    obtain ⟨c, hc, hm⟩ := Finset.mem_biUnion.mp h
    have hc' := Finset.mem_range.mp hc
    have hm' : i ∈ (Rect.unit (s := S819200x128) ![obase L + 128 * (c % 200), 0] S128x128.size (oWin_inb L c)).set :=
      (congrArg (fun S : Finset S819200x128.Idx => i ∈ S) (oWin_set L c)).mp hm
    rw [Rect.mem_set_unit] at hm'
    have h0 := hm' 0
    have h0' : obase L + 128 * (c % 200) ≤ (i 0).val ∧ (i 0).val < obase L + 128 * (c % 200) + 128 := h0
    unfold obase at h0'; omega
  · intro h
    refine Finset.mem_biUnion.mpr ⟨((i 0).val - obase L) / 128, Finset.mem_range.mpr (by unfold obase; omega), ?_⟩
    refine (congrArg (fun S : Finset S819200x128.Idx => i ∈ S) (oWin_set L _)).mpr ?_
    rw [Rect.mem_set_unit]
    intro a; fin_cases a
    · show obase L + 128 * (((i 0).val - obase L) / 128 % 200) ≤ (i 0).val ∧ (i 0).val < obase L + 128 * (((i 0).val - obase L) / 128 % 200) + 128
      unfold obase; omega
    · show 0 ≤ (i 1).val ∧ (i 1).val < 0 + 128; omega

theorem oWins_eq (d : Dev nD) (L : grid1.Coords) (f : Buf (Elt F) (gatLoc d)) :
    (gatLoc d ↦[oBlkSet (widL L)]{fullShare} f : sProp 𝕄)
      = bigSep (Finset.range 200) fun c => (oWin L c).view.loc (VT d L) ↦[(oWin L c).view.set]{fullShare} f := by
  rw [← oWins_cover]
  exact pointsTo_biUnion (Finset.range 200) (ℓ := gatLoc d) (fun c => (oWin L c).view.set) (oWins_disjoint L)

/-! ## The stage buffer is its five slots -/

theorem slot_inb (b : ℕ) : ∀ a, (![b % 5, 0, 0] : Fin 3 → Nat) a + S1x128x128.size a ≤ S5x128x128.size a := by
  have hb : b % 5 < 5 := Nat.mod_lt _ (by norm_num)
  intro a; fin_cases a
  · show b % 5 + 1 ≤ 5; omega
  · show 0 + 128 ≤ 128; omega
  · show 0 + 128 ≤ 128; omega
/-- Slot b as a rectangle of the stage buffer. -/
abbrev slotRect (b : ℕ) : Rect S5x128x128 := Rect.unit (s := S5x128x128) ![b % 5, 0, 0] S1x128x128.size (slot_inb b)

theorem slot_set0 : (slotM0).view.set = (slotRect 0).set := by
  show (((bV).view.slice (Rect.unit (s := S5x128x128) ![0, 0, 0] S1x128x128.size inb_S5x128x128_S1x128x128_0_0_0)).reshape S128x128 squeezes_S1x128x128_S128x128.numel_eq).set = _
  rw [View.set_reshape]
  show ((View.whole (cc1_scratch1 : Ref sig .scVector)).slice _).set = _
  rw [View.set_slice]; exact Finset.map_refl
theorem slot_set1 : (slotM1).view.set = (slotRect 1).set := by
  show (((bV).view.slice (Rect.unit (s := S5x128x128) ![1, 0, 0] S1x128x128.size inb_S5x128x128_S1x128x128_1_0_0)).reshape S128x128 squeezes_S1x128x128_S128x128.numel_eq).set = _
  rw [View.set_reshape]
  show ((View.whole (cc1_scratch1 : Ref sig .scVector)).slice _).set = _
  rw [View.set_slice]; exact Finset.map_refl
theorem slot_set2 : (slotM2).view.set = (slotRect 2).set := by
  show (((bV).view.slice (Rect.unit (s := S5x128x128) ![2, 0, 0] S1x128x128.size inb_S5x128x128_S1x128x128_2_0_0)).reshape S128x128 squeezes_S1x128x128_S128x128.numel_eq).set = _
  rw [View.set_reshape]
  show ((View.whole (cc1_scratch1 : Ref sig .scVector)).slice _).set = _
  rw [View.set_slice]; exact Finset.map_refl
theorem slot_set3 : (slotM3).view.set = (slotRect 3).set := by
  show (((bV).view.slice (Rect.unit (s := S5x128x128) ![3, 0, 0] S1x128x128.size inb_S5x128x128_S1x128x128_3_0_0)).reshape S128x128 squeezes_S1x128x128_S128x128.numel_eq).set = _
  rw [View.set_reshape]
  show ((View.whole (cc1_scratch1 : Ref sig .scVector)).slice _).set = _
  rw [View.set_slice]; exact Finset.map_refl
theorem slot_set4 : (slotM4).view.set = (slotRect 4).set := by
  show (((bV).view.slice (Rect.unit (s := S5x128x128) ![4, 0, 0] S1x128x128.size inb_S5x128x128_S1x128x128_4_0_0)).reshape S128x128 squeezes_S1x128x128_S128x128.numel_eq).set = _
  rw [View.set_reshape]
  show ((View.whole (cc1_scratch1 : Ref sig .scVector)).slice _).set = _
  rw [View.set_slice]; exact Finset.map_refl

theorem slots_disjoint : ∀ b ∈ Finset.range 5, ∀ b' ∈ Finset.range 5, b ≠ b' → Disjoint (slotRect b).set (slotRect b').set := by
  intro b hb b' hb' hne
  have h1 := Finset.mem_range.mp hb; have h2 := Finset.mem_range.mp hb'
  refine Rect.disjoint_of_separated _ _ 0 ?_
  show ((1 : ℕ) = 0 ∨ b % 5 + 1 * (1 - 1) < b' % 5) ∨ ((1 : ℕ) = 0 ∨ b' % 5 + 1 * (1 - 1) < b % 5)
  omega

theorem slots_cover : (Finset.range 5).biUnion (fun b => (slotRect b).set) = (bV).view.set := by
  rw [View.set_whole]
  refine Finset.eq_univ_of_forall fun i => Finset.mem_biUnion.mpr ?_
  have h0 : (i 0).val < 5 := (i 0).isLt
  have h1 : (i 1).val < 128 := (i 1).isLt
  have h2 : (i 2).val < 128 := (i 2).isLt
  refine ⟨(i 0).val, Finset.mem_range.mpr h0, ?_⟩
  rw [Rect.mem_set_unit]
  intro a; fin_cases a
  · show (i 0).val % 5 ≤ (i 0).val ∧ (i 0).val < (i 0).val % 5 + 1; omega
  · show 0 ≤ (i 1).val ∧ (i 1).val < 0 + 128; omega
  · show 0 ≤ (i 2).val ∧ (i 2).val < 0 + 128; omega

theorem slots_eq (d : Dev nD) (L : grid1.Coords) (f : Buf (Elt F) ((bV).view.loc (VT d L))) :
    ((bV).view.loc (VT d L) ↦[(bV).view.set]{fullShare} f : sProp 𝕄)
      = iprop(((slotM4).view.loc (VT d L) ↦[(slotM4).view.set]{fullShare} f)
        ∗ ((slotM3).view.loc (VT d L) ↦[(slotM3).view.set]{fullShare} f)
        ∗ ((slotM2).view.loc (VT d L) ↦[(slotM2).view.set]{fullShare} f)
        ∗ ((slotM1).view.loc (VT d L) ↦[(slotM1).view.set]{fullShare} f)
        ∗ ((slotM0).view.loc (VT d L) ↦[(slotM0).view.set]{fullShare} f)) := by
  rw [← slots_cover, pointsTo_biUnion (Finset.range 5) (ℓ := (bV).view.loc (VT d L)) (fun b => (slotRect b).set) slots_disjoint,
    bigSep_range_push, bigSep_range_push, bigSep_range_push, bigSep_range_push, Finset.range_one, bigSep_singleton,
    slot_set0, slot_set1, slot_set2, slot_set3, slot_set4]

end Cert.Kernel.Hand

end
-- ==== Proof.Bits.TileValue.lean ====
/-
  The vector subcore's task, part four: the value. What the write of chunk c carries out of its slot — the gather of
  chunk c — is, at row r and column j, entry (row named by class word (worker, c, r), j) of the padded table: the
  gathered array's own entry at row 25600 worker + 128 c + r, column j.
-/
import proofs.«206789_g36283883716857_cont_8to1_b_1933_18_alg».proof.Proof.Bits.TileSplit

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S32x200x128 EltTy.i32)
local notation "tV" => (Memref.whole Cert.Kernel.main_v1_scv : Memref Cert.Kernel.sig Kind.scVector Space.hbm Cert.Kernel.S1000000x128 EltTy.f32)
local notation "oV" => (Memref.whole Cert.Kernel.main_v4_scv : Memref Cert.Kernel.sig Kind.scVector Space.hbm Cert.Kernel.S819200x128 EltTy.f32)
local notation "xV" => (Memref.whole Cert.Kernel.cc1_scratch0 : Memref Cert.Kernel.sig Kind.scVector Space.vmem Cert.Kernel.S200x128 EltTy.i32)
local notation "bV" => (Memref.whole Cert.Kernel.cc1_scratch1 : Memref Cert.Kernel.sig Kind.scVector Space.vmem Cert.Kernel.S5x128x128 EltTy.f32)

local notation "tVs" => (Memref.slice (Memref.whole Cert.Kernel.main_v1_scv : Memref Cert.Kernel.sig Kind.scVector Space.hbm Cert.Kernel.S1000000x128 EltTy.f32) (Rect.unit (s := Cert.Kernel.S1000000x128) ![0, 0] Cert.Kernel.S1000000x128.size Cert.Kernel.Gen.inb_S1000000x128_S1000000x128_0_0) (fun _ => rfl))
local notation "slotM0" => (Memref.squeeze (Memref.slice (Memref.whole Cert.Kernel.cc1_scratch1 : Memref Cert.Kernel.sig Kind.scVector Space.vmem Cert.Kernel.S5x128x128 EltTy.f32) (Rect.unit (s := Cert.Kernel.S5x128x128) ![0, 0, 0] Cert.Kernel.S1x128x128.size Cert.Kernel.Gen.inb_S5x128x128_S1x128x128_0_0_0) (fun _ => rfl)) Cert.Kernel.S128x128 Cert.Kernel.Gen.squeezes_S1x128x128_S128x128)
local notation "slotM1" => (Memref.squeeze (Memref.slice (Memref.whole Cert.Kernel.cc1_scratch1 : Memref Cert.Kernel.sig Kind.scVector Space.vmem Cert.Kernel.S5x128x128 EltTy.f32) (Rect.unit (s := Cert.Kernel.S5x128x128) ![1, 0, 0] Cert.Kernel.S1x128x128.size Cert.Kernel.Gen.inb_S5x128x128_S1x128x128_1_0_0) (fun _ => rfl)) Cert.Kernel.S128x128 Cert.Kernel.Gen.squeezes_S1x128x128_S128x128)
local notation "slotM2" => (Memref.squeeze (Memref.slice (Memref.whole Cert.Kernel.cc1_scratch1 : Memref Cert.Kernel.sig Kind.scVector Space.vmem Cert.Kernel.S5x128x128 EltTy.f32) (Rect.unit (s := Cert.Kernel.S5x128x128) ![2, 0, 0] Cert.Kernel.S1x128x128.size Cert.Kernel.Gen.inb_S5x128x128_S1x128x128_2_0_0) (fun _ => rfl)) Cert.Kernel.S128x128 Cert.Kernel.Gen.squeezes_S1x128x128_S128x128)
local notation "slotM3" => (Memref.squeeze (Memref.slice (Memref.whole Cert.Kernel.cc1_scratch1 : Memref Cert.Kernel.sig Kind.scVector Space.vmem Cert.Kernel.S5x128x128 EltTy.f32) (Rect.unit (s := Cert.Kernel.S5x128x128) ![3, 0, 0] Cert.Kernel.S1x128x128.size Cert.Kernel.Gen.inb_S5x128x128_S1x128x128_3_0_0) (fun _ => rfl)) Cert.Kernel.S128x128 Cert.Kernel.Gen.squeezes_S1x128x128_S128x128)
local notation "slotM4" => (Memref.squeeze (Memref.slice (Memref.whole Cert.Kernel.cc1_scratch1 : Memref Cert.Kernel.sig Kind.scVector Space.vmem Cert.Kernel.S5x128x128 EltTy.f32) (Rect.unit (s := Cert.Kernel.S5x128x128) ![4, 0, 0] Cert.Kernel.S1x128x128.size Cert.Kernel.Gen.inb_S5x128x128_S1x128x128_4_0_0) (fun _ => rfl)) Cert.Kernel.S128x128 Cert.Kernel.Gen.squeezes_S1x128x128_S128x128)

local notation:max "xRow(" c ")" => (Memref.squeeze (xRowS c) Cert.Kernel.S128 Cert.Kernel.Gen.squeezes_S1x128_S128)

/-- One more wait on one of the subcore's own semaphores keeps the waits admissible. -/
theorem W_ins {W S : Waits sig (HIx 1)} (g : SemLoc sig) (h : ∀ p ∈ S, p ∈ W ∨ p.2 = none) :
    ∀ p ∈ insert (g, (default : HIx 1)) S, p ∈ W ∨ p.2 = none :=
  fun p hp => (Finset.mem_insert.mp hp).elim (fun e => .inr (e ▸ rfl)) (h p)

section Value

variable [FloatOps F] (d : Dev nD) (L : grid1.Coords) (C3 : (d : Dev nD) → Buf (Elt F) (idxLoc d)) (Tb : (d : Dev nD) → Buf (Elt F) (padLoc d))
  (hpre : ∀ d j, (C3 d j).toNat < 1000000) (f0 : Buf (Elt F) (gatLoc d))

/-- The value fact the frame rests on: the gather of chunk c, read at (r, j), is the gathered array's entry at (first row
    of chunk c + r, j). -/
def GPval : Prop := ∀ (c : ℕ) (x : S128x128.Idx), c < 200 →
  GP d L C3 Tb hpre c x = (gathered (C3 d) (Tb d) : Buf (Elt F) (gatLoc d)) ((oWin L c).view.emb x)

theorem chunk_pts0 (hGP : GPval d L C3 Tb hpre) (c : ℕ) (hc : c < 200) (s : Buf (Elt F) ((bV).view.loc (VT d L))) :
    ((oWin L c).view.loc (VT d L) ↦[(oWin L c).view.set]{fullShare}
        (oWin L c).view.writes (Elt F) f0 [⟨Rect.whole S128x128, WPAY0 d L C3 Tb hpre c s⟩] : sProp 𝕄)
      = oDone d L C3 Tb c := by
  unfold oDone
  refine pointsTo_congr fun i hi => ?_
  obtain ⟨x, -, rfl⟩ := Finset.mem_map.mp hi
  have e := congrFun (View.read_writes_whole (oWin L c).view f0 (WPAY0 d L C3 Tb hpre c s)) x
  rw [View.read_apply] at e
  have e2 : WPAY0 d L C3 Tb hpre c s x = GP d L C3 Tb hpre c x := by
    unfold WPAY0
    exact congrFun (View.read_writes_whole (slotM0).view s (GP d L C3 Tb hpre c)) x
  rw [← hGP c x hc, ← e2]
  exact (cast_eq _ _).symm.trans e |>.symm ▸ rfl
theorem chunk_pts1 (hGP : GPval d L C3 Tb hpre) (c : ℕ) (hc : c < 200) (s : Buf (Elt F) ((bV).view.loc (VT d L))) :
    ((oWin L c).view.loc (VT d L) ↦[(oWin L c).view.set]{fullShare}
        (oWin L c).view.writes (Elt F) f0 [⟨Rect.whole S128x128, WPAY1 d L C3 Tb hpre c s⟩] : sProp 𝕄)
      = oDone d L C3 Tb c := by
  unfold oDone
  refine pointsTo_congr fun i hi => ?_
  obtain ⟨x, -, rfl⟩ := Finset.mem_map.mp hi
  have e := congrFun (View.read_writes_whole (oWin L c).view f0 (WPAY1 d L C3 Tb hpre c s)) x
  rw [View.read_apply] at e
  have e2 : WPAY1 d L C3 Tb hpre c s x = GP d L C3 Tb hpre c x := by
    unfold WPAY1
    exact congrFun (View.read_writes_whole (slotM1).view s (GP d L C3 Tb hpre c)) x
  rw [← hGP c x hc, ← e2]
  exact (cast_eq _ _).symm.trans e |>.symm ▸ rfl
theorem chunk_pts2 (hGP : GPval d L C3 Tb hpre) (c : ℕ) (hc : c < 200) (s : Buf (Elt F) ((bV).view.loc (VT d L))) :
    ((oWin L c).view.loc (VT d L) ↦[(oWin L c).view.set]{fullShare}
        (oWin L c).view.writes (Elt F) f0 [⟨Rect.whole S128x128, WPAY2 d L C3 Tb hpre c s⟩] : sProp 𝕄)
      = oDone d L C3 Tb c := by
  unfold oDone
  refine pointsTo_congr fun i hi => ?_
  obtain ⟨x, -, rfl⟩ := Finset.mem_map.mp hi
  have e := congrFun (View.read_writes_whole (oWin L c).view f0 (WPAY2 d L C3 Tb hpre c s)) x
  rw [View.read_apply] at e
  have e2 : WPAY2 d L C3 Tb hpre c s x = GP d L C3 Tb hpre c x := by
    unfold WPAY2
    exact congrFun (View.read_writes_whole (slotM2).view s (GP d L C3 Tb hpre c)) x
  rw [← hGP c x hc, ← e2]
  exact (cast_eq _ _).symm.trans e |>.symm ▸ rfl
theorem chunk_pts3 (hGP : GPval d L C3 Tb hpre) (c : ℕ) (hc : c < 200) (s : Buf (Elt F) ((bV).view.loc (VT d L))) :
    ((oWin L c).view.loc (VT d L) ↦[(oWin L c).view.set]{fullShare}
        (oWin L c).view.writes (Elt F) f0 [⟨Rect.whole S128x128, WPAY3 d L C3 Tb hpre c s⟩] : sProp 𝕄)
      = oDone d L C3 Tb c := by
  unfold oDone
  refine pointsTo_congr fun i hi => ?_
  obtain ⟨x, -, rfl⟩ := Finset.mem_map.mp hi
  have e := congrFun (View.read_writes_whole (oWin L c).view f0 (WPAY3 d L C3 Tb hpre c s)) x
  rw [View.read_apply] at e
  have e2 : WPAY3 d L C3 Tb hpre c s x = GP d L C3 Tb hpre c x := by
    unfold WPAY3
    exact congrFun (View.read_writes_whole (slotM3).view s (GP d L C3 Tb hpre c)) x
  rw [← hGP c x hc, ← e2]
  exact (cast_eq _ _).symm.trans e |>.symm ▸ rfl
theorem chunk_pts4 (hGP : GPval d L C3 Tb hpre) (c : ℕ) (hc : c < 200) (s : Buf (Elt F) ((bV).view.loc (VT d L))) :
    ((oWin L c).view.loc (VT d L) ↦[(oWin L c).view.set]{fullShare}
        (oWin L c).view.writes (Elt F) f0 [⟨Rect.whole S128x128, WPAY4 d L C3 Tb hpre c s⟩] : sProp 𝕄)
      = oDone d L C3 Tb c := by
  unfold oDone
  refine pointsTo_congr fun i hi => ?_
  obtain ⟨x, -, rfl⟩ := Finset.mem_map.mp hi
  have e := congrFun (View.read_writes_whole (oWin L c).view f0 (WPAY4 d L C3 Tb hpre c s)) x
  rw [View.read_apply] at e
  have e2 : WPAY4 d L C3 Tb hpre c s x = GP d L C3 Tb hpre c x := by
    unfold WPAY4
    exact congrFun (View.read_writes_whole (slotM4).view s (GP d L C3 Tb hpre c)) x
  rw [← hGP c x hc, ← e2]
  exact (cast_eq _ _).symm.trans e |>.symm ▸ rfl

end Value

end Cert.Kernel.Hand

end
-- ==== Proof.Bits.TileTripFirst.lean ====
/-
  The vector subcore's task, part six (a): the first trip of its loop, from the five gathers the prologue started
  to what the subcore holds before trip 1. No write is in flight yet, so stage 0 only waits for its gather and starts
  its write; stages 1 .. 4 also wait for the previous slot's write and start the next gather into that slot.
-/
import proofs.«206789_g36283883716857_cont_8to1_b_1933_18_alg».proof.Proof.Bits.TileValue

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S32x200x128 EltTy.i32)
local notation "tV" => (Memref.whole Cert.Kernel.main_v1_scv : Memref Cert.Kernel.sig Kind.scVector Space.hbm Cert.Kernel.S1000000x128 EltTy.f32)
local notation "oV" => (Memref.whole Cert.Kernel.main_v4_scv : Memref Cert.Kernel.sig Kind.scVector Space.hbm Cert.Kernel.S819200x128 EltTy.f32)
local notation "xV" => (Memref.whole Cert.Kernel.cc1_scratch0 : Memref Cert.Kernel.sig Kind.scVector Space.vmem Cert.Kernel.S200x128 EltTy.i32)
local notation "bV" => (Memref.whole Cert.Kernel.cc1_scratch1 : Memref Cert.Kernel.sig Kind.scVector Space.vmem Cert.Kernel.S5x128x128 EltTy.f32)

local notation "tVs" => (Memref.slice (Memref.whole Cert.Kernel.main_v1_scv : Memref Cert.Kernel.sig Kind.scVector Space.hbm Cert.Kernel.S1000000x128 EltTy.f32) (Rect.unit (s := Cert.Kernel.S1000000x128) ![0, 0] Cert.Kernel.S1000000x128.size Cert.Kernel.Gen.inb_S1000000x128_S1000000x128_0_0) (fun _ => rfl))
local notation "slotM0" => (Memref.squeeze (Memref.slice (Memref.whole Cert.Kernel.cc1_scratch1 : Memref Cert.Kernel.sig Kind.scVector Space.vmem Cert.Kernel.S5x128x128 EltTy.f32) (Rect.unit (s := Cert.Kernel.S5x128x128) ![0, 0, 0] Cert.Kernel.S1x128x128.size Cert.Kernel.Gen.inb_S5x128x128_S1x128x128_0_0_0) (fun _ => rfl)) Cert.Kernel.S128x128 Cert.Kernel.Gen.squeezes_S1x128x128_S128x128)
local notation "slotM1" => (Memref.squeeze (Memref.slice (Memref.whole Cert.Kernel.cc1_scratch1 : Memref Cert.Kernel.sig Kind.scVector Space.vmem Cert.Kernel.S5x128x128 EltTy.f32) (Rect.unit (s := Cert.Kernel.S5x128x128) ![1, 0, 0] Cert.Kernel.S1x128x128.size Cert.Kernel.Gen.inb_S5x128x128_S1x128x128_1_0_0) (fun _ => rfl)) Cert.Kernel.S128x128 Cert.Kernel.Gen.squeezes_S1x128x128_S128x128)
local notation "slotM2" => (Memref.squeeze (Memref.slice (Memref.whole Cert.Kernel.cc1_scratch1 : Memref Cert.Kernel.sig Kind.scVector Space.vmem Cert.Kernel.S5x128x128 EltTy.f32) (Rect.unit (s := Cert.Kernel.S5x128x128) ![2, 0, 0] Cert.Kernel.S1x128x128.size Cert.Kernel.Gen.inb_S5x128x128_S1x128x128_2_0_0) (fun _ => rfl)) Cert.Kernel.S128x128 Cert.Kernel.Gen.squeezes_S1x128x128_S128x128)
local notation "slotM3" => (Memref.squeeze (Memref.slice (Memref.whole Cert.Kernel.cc1_scratch1 : Memref Cert.Kernel.sig Kind.scVector Space.vmem Cert.Kernel.S5x128x128 EltTy.f32) (Rect.unit (s := Cert.Kernel.S5x128x128) ![3, 0, 0] Cert.Kernel.S1x128x128.size Cert.Kernel.Gen.inb_S5x128x128_S1x128x128_3_0_0) (fun _ => rfl)) Cert.Kernel.S128x128 Cert.Kernel.Gen.squeezes_S1x128x128_S128x128)
local notation "slotM4" => (Memref.squeeze (Memref.slice (Memref.whole Cert.Kernel.cc1_scratch1 : Memref Cert.Kernel.sig Kind.scVector Space.vmem Cert.Kernel.S5x128x128 EltTy.f32) (Rect.unit (s := Cert.Kernel.S5x128x128) ![4, 0, 0] Cert.Kernel.S1x128x128.size Cert.Kernel.Gen.inb_S5x128x128_S1x128x128_4_0_0) (fun _ => rfl)) Cert.Kernel.S128x128 Cert.Kernel.Gen.squeezes_S1x128x128_S128x128)

local notation:max "xRow(" c ")" => (Memref.squeeze (xRowS c) Cert.Kernel.S128 Cert.Kernel.Gen.squeezes_S1x128_S128)

variable [FloatOps F] (d : Dev nD) (L : grid1.Coords) (C3 : (d : Dev nD) → Buf (Elt F) (idxLoc d)) (Tb : (d : Dev nD) → Buf (Elt F) (padLoc d))
  (hpre : ∀ d j, (C3 d j).toNat < 1000000)
  (O : CellTallies nD τ sig (HIx 1)) (W : Waits sig (HIx 1)) (q : PosShare TreeShare) (f0 : Buf (Elt F) (gatLoc d))

set_option maxHeartbeats 4000000 in
theorem trip_first (hGP : GPval d L C3 Tb hpre) (k : Fin k1_t1_loop.trips) (hk0 : k.val = 0) (v2 : BitVec 32) (acc : Unit) :
    inv d L C3 Tb hpre O W q f0 k.val acc
      ⊢ wp frame (wpE (defs₀ (F := F)) 𝒱₀ (VT d L) none) Set.univ
          (k1_t1_body L iV (Memref.isWhole_whole _) tV (Memref.isWhole_whole _) oV (Memref.isWhole_whole _)
            xV (Memref.isWhole_whole _) bV (Memref.isWhole_whole _) cc1_scratch2 cc1_scratch3 cc1_scoped0 v2 k acc)
          (inv d L C3 Tb hpre O W q f0 (k.val + 1)) := by
  have hc1 : ¬ k1_cond1 k = 1#1 := fun h => by have := (k1_cond1_iff k).1 h; omega
  have hk38 : k.val ≤ 38 := by omega
  have hc2 : k1_cond2 k = 1#1 := (k1_cond2_iff k).2 hk38
  have hc3 : k1_cond3 k = 1#1 := (k1_cond3_iff k).2 hk38
  have hc4 : k1_cond4 k = 1#1 := (k1_cond4_iff k).2 hk38
  have hc5 : k1_cond5 k = 1#1 := (k1_cond5_iff k).2 hk38
  have hin := hinR d L C3 hpre
  rw [inv_first d L C3 Tb hpre O W q f0 k.val hk0 acc]
  rw [bigSep_Ico_pop' (xRowP d L C3) (5 * k.val + 6) (by omega) rfl, bigSep_Ico_pop' (xRowP d L C3) (5 * k.val + 7) (by omega) rfl,
    bigSep_Ico_pop' (xRowP d L C3) (5 * k.val + 8) (by omega) rfl, bigSep_Ico_pop' (xRowP d L C3) (5 * k.val + 9) (by omega) rfl,
    bigSep_Ico_pop' (xRowP d L C3) (5 * k.val + 10) (by omega) rfl]
  rw [bigSep_Ico_pop' (oFresh d L f0) (5 * k.val + 1) (by omega) rfl, bigSep_Ico_pop' (oFresh d L f0) (5 * k.val + 2) (by omega) rfl,
    bigSep_Ico_pop' (oFresh d L f0) (5 * k.val + 3) (by omega) rfl, bigSep_Ico_pop' (oFresh d L f0) (5 * k.val + 4) (by omega) rfl,
    bigSep_Ico_pop' (oFresh d L f0) (5 * k.val + 5) (by omega) rfl]
  unfold invCommon inv4A
  iintro ⟨%W', %hW', Howes, %s0, %s1, %s2, %s3, %s4, #Hmw, HXret, ⟨HX5, HX6, HX7, HX8, HX9, HXun⟩, ⟨HO0, HO1, HO2, HO3, HO4, HOfr⟩, HOdone,
    ⟨HG0, HR4, HG1, HR5, HG2, HR6, HG3, HR7, Hw0, Hw1, Hw2, Hw3⟩, ⟨HG4, HR8, Hw4⟩⟩
  unfold FG0 FG1 FG2 FG3 FG4 tokR xRowP oFresh
  unfold k1_t1_body
  sl_exec
  sl_step
  ihave HOdone' := (Entails.of_eq (show (bigSep (Finset.range (5 * k.val - 1)) (oDone d L C3 Tb) : sProp 𝕄) = bigSep (Finset.range (5 * k.val)) (oDone d L C3 Tb)
    from by rw [show 5 * k.val - 1 = 5 * k.val by omega])) $$ HOdone
  rw [inv_mid d L C3 Tb hpre O W q f0 (k.val + 1) (by omega) (by omega)]
  unfold invCommon inv4B
  rw [show 5 * (k.val + 1) = 5 * k.val + 5 by ring]
  simp only [show 5 * k.val + 5 + 0 = 5 * k.val + 5 from rfl, show 5 * k.val + 5 + 1 = 5 * k.val + 6 from rfl, show 5 * k.val + 5 + 2 = 5 * k.val + 7 from rfl,
    show 5 * k.val + 5 + 3 = 5 * k.val + 8 from rfl, show 5 * k.val + 5 + 4 = 5 * k.val + 9 from rfl, show 5 * k.val + 5 + 5 = 5 * k.val + 10 from rfl,
    show 5 * k.val + 5 - 1 = 5 * k.val + 4 from rfl]
  rw [bigSep_range_push' (xRowP d L C3) (5 * k.val + 4) rfl, bigSep_range_push' (xRowP d L C3) (5 * k.val + 3) rfl,
    bigSep_range_push' (xRowP d L C3) (5 * k.val + 2) rfl, bigSep_range_push' (xRowP d L C3) (5 * k.val + 1) rfl,
    bigSep_range_push' (xRowP d L C3) (5 * k.val) (b := 5 * k.val + 1) rfl]
  rw [bigSep_range_push' (oDone d L C3 Tb) (5 * k.val + 3) rfl, bigSep_range_push' (oDone d L C3 Tb) (5 * k.val + 2) rfl,
    bigSep_range_push' (oDone d L C3 Tb) (5 * k.val + 1) rfl, bigSep_range_push' (oDone d L C3 Tb) (5 * k.val) (b := 5 * k.val + 1) rfl]
  -- the four chunks whose writes were waited hold the gathered contents
  rw [← chunk_pts0 d L C3 Tb hpre f0 hGP (5 * k.val) (by omega) s0,
    ← chunk_pts1 d L C3 Tb hpre f0 hGP (5 * k.val + 1) (by omega) s1, ← chunk_pts2 d L C3 Tb hpre f0 hGP (5 * k.val + 2) (by omega) s2,
    ← chunk_pts3 d L C3 Tb hpre f0 hGP (5 * k.val + 3) (by omega) s3]
  unfold FG0 FG1 FG2 FG3 FW4 tokR tokP xRowP oFresh
  iexists (insert (SemLoc.dma (⟨12, by decide⟩ : DmaSem sig), (default : HIx 1)) (insert (SemLoc.dma (⟨8, by decide⟩ : DmaSem sig), (default : HIx 1)) (insert (SemLoc.dma (⟨11, by decide⟩ : DmaSem sig), (default : HIx 1)) (insert (SemLoc.dma (⟨7, by decide⟩ : DmaSem sig), (default : HIx 1)) (insert (SemLoc.dma (⟨10, by decide⟩ : DmaSem sig), (default : HIx 1)) (insert (SemLoc.dma (⟨6, by decide⟩ : DmaSem sig), (default : HIx 1)) (insert (SemLoc.dma (⟨9, by decide⟩ : DmaSem sig), (default : HIx 1)) (insert (SemLoc.dma (⟨5, by decide⟩ : DmaSem sig), (default : HIx 1)) (insert (SemLoc.dma (⟨4, by decide⟩ : DmaSem sig), (default : HIx 1)) W')))))))))
  isplitr
  · ipureintro
    exact W_ins _ (W_ins _ (W_ins _ (W_ins _ (W_ins _ (W_ins _ (W_ins _ (W_ins _ (W_ins _ (hW')))))))))
  isplitl [Howes]
  · iexact Howes
  iexists ((slotM0).view.writes (Elt F) s0 [⟨Rect.whole S128x128, GP d L C3 Tb hpre (5 * k.val + 0)⟩]),
    ((slotM1).view.writes (Elt F) s1 [⟨Rect.whole S128x128, GP d L C3 Tb hpre (5 * k.val + 1)⟩]),
    ((slotM2).view.writes (Elt F) s2 [⟨Rect.whole S128x128, GP d L C3 Tb hpre (5 * k.val + 2)⟩]),
    ((slotM3).view.writes (Elt F) s3 [⟨Rect.whole S128x128, GP d L C3 Tb hpre (5 * k.val + 3)⟩]), s4
  isplitl [Hmw]; · iexact Hmw
  isplitl [HG4_dst_and HG3_dst_and HG2_dst_and HG1_dst_and HG0_dst_and HXret]
  · isplitl [HG4_dst_and]; · iexact HG4_dst_and
    isplitl [HG3_dst_and]; · iexact HG3_dst_and
    isplitl [HG2_dst_and]; · iexact HG2_dst_and
    isplitl [HG1_dst_and]; · iexact HG1_dst_and
    isplitl [HG0_dst_and]; · iexact HG0_dst_and
    iexact HXret
  isplitl [HXun]; · iexact HXun
  isplitl [HOfr]; · iexact HOfr
  isplitl [HO3 HO2 HO1 HO0 HOdone']
  · isplitl [HO3]; · iexact HO3
    isplitl [HO2]; · iexact HO2
    isplitl [HO1]; · iexact HO1
    isplitl [HO0]; · iexact HO0
    iexact HOdone'
  isplitl [HG0 HR4 HG1 HR5 HG2 HR6 HG3 HR7 Hw0 Hw1 Hw2 Hw3]
  · isplitl [HG0]; · iexact HG0
    isplitl [HR4]; · iexact HR4
    isplitl [HG1]; · iexact HG1
    isplitl [HR5]; · iexact HR5
    isplitl [HG2]; · iexact HG2
    isplitl [HR6]; · iexact HR6
    isplitl [HG3]; · iexact HG3
    isplitl [HR7]; · iexact HR7
    isplitl [Hw0]; · iexact Hw0
    isplitl [Hw1]; · iexact Hw1
    isplitl [Hw2]; · iexact Hw2
    iexact Hw3
  isplitl [Hw4]; · iexact Hw4
  isplitl [HG4]; · iexact HG4
  isplitl [HR8]; · iexact HR8
  iexact HX9

end Cert.Kernel.Hand

end
-- ==== Proof.Bits.TileTripMid.lean ====
/-
  The vector subcore's task, part six (b): a middle trip of its loop (1 ≤ k ≤ 38), from what it holds before the trip
  to what it holds before the next. Every stage waits for its slot's gather, starts the slot's write, waits for the
  previous slot's write and starts the next gather into that slot.
-/
import proofs.«206789_g36283883716857_cont_8to1_b_1933_18_alg».proof.Proof.Bits.TileValue

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S32x200x128 EltTy.i32)
local notation "tV" => (Memref.whole Cert.Kernel.main_v1_scv : Memref Cert.Kernel.sig Kind.scVector Space.hbm Cert.Kernel.S1000000x128 EltTy.f32)
local notation "oV" => (Memref.whole Cert.Kernel.main_v4_scv : Memref Cert.Kernel.sig Kind.scVector Space.hbm Cert.Kernel.S819200x128 EltTy.f32)
local notation "xV" => (Memref.whole Cert.Kernel.cc1_scratch0 : Memref Cert.Kernel.sig Kind.scVector Space.vmem Cert.Kernel.S200x128 EltTy.i32)
local notation "bV" => (Memref.whole Cert.Kernel.cc1_scratch1 : Memref Cert.Kernel.sig Kind.scVector Space.vmem Cert.Kernel.S5x128x128 EltTy.f32)

local notation "tVs" => (Memref.slice (Memref.whole Cert.Kernel.main_v1_scv : Memref Cert.Kernel.sig Kind.scVector Space.hbm Cert.Kernel.S1000000x128 EltTy.f32) (Rect.unit (s := Cert.Kernel.S1000000x128) ![0, 0] Cert.Kernel.S1000000x128.size Cert.Kernel.Gen.inb_S1000000x128_S1000000x128_0_0) (fun _ => rfl))
local notation "slotM0" => (Memref.squeeze (Memref.slice (Memref.whole Cert.Kernel.cc1_scratch1 : Memref Cert.Kernel.sig Kind.scVector Space.vmem Cert.Kernel.S5x128x128 EltTy.f32) (Rect.unit (s := Cert.Kernel.S5x128x128) ![0, 0, 0] Cert.Kernel.S1x128x128.size Cert.Kernel.Gen.inb_S5x128x128_S1x128x128_0_0_0) (fun _ => rfl)) Cert.Kernel.S128x128 Cert.Kernel.Gen.squeezes_S1x128x128_S128x128)
local notation "slotM1" => (Memref.squeeze (Memref.slice (Memref.whole Cert.Kernel.cc1_scratch1 : Memref Cert.Kernel.sig Kind.scVector Space.vmem Cert.Kernel.S5x128x128 EltTy.f32) (Rect.unit (s := Cert.Kernel.S5x128x128) ![1, 0, 0] Cert.Kernel.S1x128x128.size Cert.Kernel.Gen.inb_S5x128x128_S1x128x128_1_0_0) (fun _ => rfl)) Cert.Kernel.S128x128 Cert.Kernel.Gen.squeezes_S1x128x128_S128x128)
local notation "slotM2" => (Memref.squeeze (Memref.slice (Memref.whole Cert.Kernel.cc1_scratch1 : Memref Cert.Kernel.sig Kind.scVector Space.vmem Cert.Kernel.S5x128x128 EltTy.f32) (Rect.unit (s := Cert.Kernel.S5x128x128) ![2, 0, 0] Cert.Kernel.S1x128x128.size Cert.Kernel.Gen.inb_S5x128x128_S1x128x128_2_0_0) (fun _ => rfl)) Cert.Kernel.S128x128 Cert.Kernel.Gen.squeezes_S1x128x128_S128x128)
local notation "slotM3" => (Memref.squeeze (Memref.slice (Memref.whole Cert.Kernel.cc1_scratch1 : Memref Cert.Kernel.sig Kind.scVector Space.vmem Cert.Kernel.S5x128x128 EltTy.f32) (Rect.unit (s := Cert.Kernel.S5x128x128) ![3, 0, 0] Cert.Kernel.S1x128x128.size Cert.Kernel.Gen.inb_S5x128x128_S1x128x128_3_0_0) (fun _ => rfl)) Cert.Kernel.S128x128 Cert.Kernel.Gen.squeezes_S1x128x128_S128x128)
local notation "slotM4" => (Memref.squeeze (Memref.slice (Memref.whole Cert.Kernel.cc1_scratch1 : Memref Cert.Kernel.sig Kind.scVector Space.vmem Cert.Kernel.S5x128x128 EltTy.f32) (Rect.unit (s := Cert.Kernel.S5x128x128) ![4, 0, 0] Cert.Kernel.S1x128x128.size Cert.Kernel.Gen.inb_S5x128x128_S1x128x128_4_0_0) (fun _ => rfl)) Cert.Kernel.S128x128 Cert.Kernel.Gen.squeezes_S1x128x128_S128x128)

local notation:max "xRow(" c ")" => (Memref.squeeze (xRowS c) Cert.Kernel.S128 Cert.Kernel.Gen.squeezes_S1x128_S128)

variable [FloatOps F] (d : Dev nD) (L : grid1.Coords) (C3 : (d : Dev nD) → Buf (Elt F) (idxLoc d)) (Tb : (d : Dev nD) → Buf (Elt F) (padLoc d))
  (hpre : ∀ d j, (C3 d j).toNat < 1000000)
  (O : CellTallies nD τ sig (HIx 1)) (W : Waits sig (HIx 1)) (q : PosShare TreeShare) (f0 : Buf (Elt F) (gatLoc d))

set_option maxHeartbeats 4000000 in
theorem trip_mid (hGP : GPval d L C3 Tb hpre) (k : Fin k1_t1_loop.trips) (hk1 : 1 ≤ k.val) (hk38 : k.val ≤ 38) (v2 : BitVec 32) (acc : Unit) :
    inv d L C3 Tb hpre O W q f0 k.val acc
      ⊢ wp frame (wpE (defs₀ (F := F)) 𝒱₀ (VT d L) none) Set.univ
          (k1_t1_body L iV (Memref.isWhole_whole _) tV (Memref.isWhole_whole _) oV (Memref.isWhole_whole _)
            xV (Memref.isWhole_whole _) bV (Memref.isWhole_whole _) cc1_scratch2 cc1_scratch3 cc1_scoped0 v2 k acc)
          (inv d L C3 Tb hpre O W q f0 (k.val + 1)) := by
  have hc1 : k1_cond1 k = 1#1 := (k1_cond1_iff k).2 hk1
  have hc2 : k1_cond2 k = 1#1 := (k1_cond2_iff k).2 hk38
  have hc3 : k1_cond3 k = 1#1 := (k1_cond3_iff k).2 hk38
  have hc4 : k1_cond4 k = 1#1 := (k1_cond4_iff k).2 hk38
  have hc5 : k1_cond5 k = 1#1 := (k1_cond5_iff k).2 hk38
  have hin := hinR d L C3 hpre
  rw [inv_mid d L C3 Tb hpre O W q f0 k.val hk1 (by omega) acc]
  rw [bigSep_Ico_pop' (xRowP d L C3) (5 * k.val + 6) (by omega) rfl, bigSep_Ico_pop' (xRowP d L C3) (5 * k.val + 7) (by omega) rfl,
    bigSep_Ico_pop' (xRowP d L C3) (5 * k.val + 8) (by omega) rfl, bigSep_Ico_pop' (xRowP d L C3) (5 * k.val + 9) (by omega) rfl,
    bigSep_Ico_pop' (xRowP d L C3) (5 * k.val + 10) (by omega) rfl]
  rw [bigSep_Ico_pop' (oFresh d L f0) (5 * k.val + 1) (by omega) rfl, bigSep_Ico_pop' (oFresh d L f0) (5 * k.val + 2) (by omega) rfl,
    bigSep_Ico_pop' (oFresh d L f0) (5 * k.val + 3) (by omega) rfl, bigSep_Ico_pop' (oFresh d L f0) (5 * k.val + 4) (by omega) rfl,
    bigSep_Ico_pop' (oFresh d L f0) (5 * k.val + 5) (by omega) rfl]
  unfold invCommon inv4B
  iintro ⟨%W', %hW', Howes, %s0, %s1, %s2, %s3, %s4, #Hmw, HXret, ⟨HX5, HX6, HX7, HX8, HX9, HXun⟩, ⟨HO0, HO1, HO2, HO3, HO4, HOfr⟩, HOdone,
    ⟨HG0, HR4, HG1, HR5, HG2, HR6, HG3, HR7, Hw0, Hw1, Hw2, Hw3⟩, ⟨HW4, Hc8, HT8, HX4⟩⟩
  unfold FG0 FG1 FG2 FG3 FW4 tokR tokP xRowP oFresh
  unfold k1_t1_body
  sl_exec
  sl_step
  rw [inv_mid d L C3 Tb hpre O W q f0 (k.val + 1) (by omega) (by omega)]
  unfold invCommon inv4B
  rw [show 5 * (k.val + 1) = 5 * k.val + 5 by ring]
  simp only [show 5 * k.val + 5 + 0 = 5 * k.val + 5 from rfl, show 5 * k.val + 5 + 1 = 5 * k.val + 6 from rfl, show 5 * k.val + 5 + 2 = 5 * k.val + 7 from rfl,
    show 5 * k.val + 5 + 3 = 5 * k.val + 8 from rfl, show 5 * k.val + 5 + 4 = 5 * k.val + 9 from rfl, show 5 * k.val + 5 + 5 = 5 * k.val + 10 from rfl,
    show 5 * k.val + 5 - 1 = 5 * k.val + 4 from rfl]
  rw [bigSep_range_push' (xRowP d L C3) (5 * k.val + 4) rfl, bigSep_range_push' (xRowP d L C3) (5 * k.val + 3) rfl,
    bigSep_range_push' (xRowP d L C3) (5 * k.val + 2) rfl, bigSep_range_push' (xRowP d L C3) (5 * k.val + 1) rfl,
    bigSep_range_push' (xRowP d L C3) (5 * k.val) (b := 5 * k.val + 1) rfl]
  rw [bigSep_range_push' (oDone d L C3 Tb) (5 * k.val + 3) rfl, bigSep_range_push' (oDone d L C3 Tb) (5 * k.val + 2) rfl,
    bigSep_range_push' (oDone d L C3 Tb) (5 * k.val + 1) rfl, bigSep_range_push' (oDone d L C3 Tb) (5 * k.val) (b := 5 * k.val + 1) rfl,
    bigSep_range_push' (oDone d L C3 Tb) (5 * k.val - 1) (b := 5 * k.val) (by omega)]
  -- the five chunks whose writes were waited hold the gathered contents
  rw [← chunk_pts4 d L C3 Tb hpre f0 hGP (5 * k.val - 1) (by omega) s4, ← chunk_pts0 d L C3 Tb hpre f0 hGP (5 * k.val) (by omega) s0,
    ← chunk_pts1 d L C3 Tb hpre f0 hGP (5 * k.val + 1) (by omega) s1, ← chunk_pts2 d L C3 Tb hpre f0 hGP (5 * k.val + 2) (by omega) s2,
    ← chunk_pts3 d L C3 Tb hpre f0 hGP (5 * k.val + 3) (by omega) s3]
  unfold FG0 FG1 FG2 FG3 FW4 tokR tokP xRowP oFresh
  iexists (insert (SemLoc.dma (⟨12, by decide⟩ : DmaSem sig), (default : HIx 1)) (insert (SemLoc.dma (⟨8, by decide⟩ : DmaSem sig), (default : HIx 1)) (insert (SemLoc.dma (⟨11, by decide⟩ : DmaSem sig), (default : HIx 1)) (insert (SemLoc.dma (⟨7, by decide⟩ : DmaSem sig), (default : HIx 1)) (insert (SemLoc.dma (⟨10, by decide⟩ : DmaSem sig), (default : HIx 1)) (insert (SemLoc.dma (⟨6, by decide⟩ : DmaSem sig), (default : HIx 1)) (insert (SemLoc.dma (⟨9, by decide⟩ : DmaSem sig), (default : HIx 1)) (insert (SemLoc.dma (⟨5, by decide⟩ : DmaSem sig), (default : HIx 1)) (insert (SemLoc.dma (⟨13, by decide⟩ : DmaSem sig), (default : HIx 1)) (insert (SemLoc.dma (⟨4, by decide⟩ : DmaSem sig), (default : HIx 1)) W'))))))))))
  isplitr
  · ipureintro
    exact W_ins _ (W_ins _ (W_ins _ (W_ins _ (W_ins _ (W_ins _ (W_ins _ (W_ins _ (W_ins _ (W_ins _ hW')))))))))
  isplitl [Howes]
  · iexact Howes
  iexists ((slotM0).view.writes (Elt F) s0 [⟨Rect.whole S128x128, GP d L C3 Tb hpre (5 * k.val + 0)⟩]),
    ((slotM1).view.writes (Elt F) s1 [⟨Rect.whole S128x128, GP d L C3 Tb hpre (5 * k.val + 1)⟩]),
    ((slotM2).view.writes (Elt F) s2 [⟨Rect.whole S128x128, GP d L C3 Tb hpre (5 * k.val + 2)⟩]),
    ((slotM3).view.writes (Elt F) s3 [⟨Rect.whole S128x128, GP d L C3 Tb hpre (5 * k.val + 3)⟩]),
    ((slotM4).view.writes (Elt F) s4 [⟨Rect.whole S128x128, GP d L C3 Tb hpre (5 * k.val - 1)⟩])
  isplitl [Hmw]; · iexact Hmw
  isplitl [HX4 HG3_dst_and HG2_dst_and HG1_dst_and HG0_dst_and HXret]
  · isplitl [HX4]; · iexact HX4
    isplitl [HG3_dst_and]; · iexact HG3_dst_and
    isplitl [HG2_dst_and]; · iexact HG2_dst_and
    isplitl [HG1_dst_and]; · iexact HG1_dst_and
    isplitl [HG0_dst_and]; · iexact HG0_dst_and
    iexact HXret
  isplitl [HXun]; · iexact HXun
  isplitl [HOfr]; · iexact HOfr
  isplitl [HO3 HO2 HO1 HO0 HW4_dst HOdone]
  · isplitl [HO3]; · iexact HO3
    isplitl [HO2]; · iexact HO2
    isplitl [HO1]; · iexact HO1
    isplitl [HO0]; · iexact HO0
    isplitl [HW4_dst]; · iexact HW4_dst
    iexact HOdone
  isplitl [HG0 HR4 HG1 HR5 HG2 HR6 HG3 HR7 Hw0 Hw1 Hw2 Hw3]
  · isplitl [HG0]; · iexact HG0
    isplitl [HR4]; · iexact HR4
    isplitl [HG1]; · iexact HG1
    isplitl [HR5]; · iexact HR5
    isplitl [HG2]; · iexact HG2
    isplitl [HR6]; · iexact HR6
    isplitl [HG3]; · iexact HG3
    isplitl [HR7]; · iexact HR7
    isplitl [Hw0]; · iexact Hw0
    isplitl [Hw1]; · iexact Hw1
    isplitl [Hw2]; · iexact Hw2
    iexact Hw3
  isplitl [HW4]; · iexact HW4
  isplitl [Hc8]; · iexact Hc8
  isplitl [HT8]; · iexact HT8
  iexact HX9

end Cert.Kernel.Hand

end
-- ==== Proof.Bits.TileTripLast.lean ====
/-
  The vector subcore's task, part six (c): the last trip of its loop (k = 39), from what it holds before the trip to
  the five writes in flight the epilogue waits for. Stage 0 still waits for the write before it and starts the last
  gather; stages 1 .. 4 only wait for their gathers and start their writes.
-/
import proofs.«206789_g36283883716857_cont_8to1_b_1933_18_alg».proof.Proof.Bits.TileValue

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S32x200x128 EltTy.i32)
local notation "tV" => (Memref.whole Cert.Kernel.main_v1_scv : Memref Cert.Kernel.sig Kind.scVector Space.hbm Cert.Kernel.S1000000x128 EltTy.f32)
local notation "oV" => (Memref.whole Cert.Kernel.main_v4_scv : Memref Cert.Kernel.sig Kind.scVector Space.hbm Cert.Kernel.S819200x128 EltTy.f32)
local notation "xV" => (Memref.whole Cert.Kernel.cc1_scratch0 : Memref Cert.Kernel.sig Kind.scVector Space.vmem Cert.Kernel.S200x128 EltTy.i32)
local notation "bV" => (Memref.whole Cert.Kernel.cc1_scratch1 : Memref Cert.Kernel.sig Kind.scVector Space.vmem Cert.Kernel.S5x128x128 EltTy.f32)

local notation "tVs" => (Memref.slice (Memref.whole Cert.Kernel.main_v1_scv : Memref Cert.Kernel.sig Kind.scVector Space.hbm Cert.Kernel.S1000000x128 EltTy.f32) (Rect.unit (s := Cert.Kernel.S1000000x128) ![0, 0] Cert.Kernel.S1000000x128.size Cert.Kernel.Gen.inb_S1000000x128_S1000000x128_0_0) (fun _ => rfl))
local notation "slotM0" => (Memref.squeeze (Memref.slice (Memref.whole Cert.Kernel.cc1_scratch1 : Memref Cert.Kernel.sig Kind.scVector Space.vmem Cert.Kernel.S5x128x128 EltTy.f32) (Rect.unit (s := Cert.Kernel.S5x128x128) ![0, 0, 0] Cert.Kernel.S1x128x128.size Cert.Kernel.Gen.inb_S5x128x128_S1x128x128_0_0_0) (fun _ => rfl)) Cert.Kernel.S128x128 Cert.Kernel.Gen.squeezes_S1x128x128_S128x128)
local notation "slotM1" => (Memref.squeeze (Memref.slice (Memref.whole Cert.Kernel.cc1_scratch1 : Memref Cert.Kernel.sig Kind.scVector Space.vmem Cert.Kernel.S5x128x128 EltTy.f32) (Rect.unit (s := Cert.Kernel.S5x128x128) ![1, 0, 0] Cert.Kernel.S1x128x128.size Cert.Kernel.Gen.inb_S5x128x128_S1x128x128_1_0_0) (fun _ => rfl)) Cert.Kernel.S128x128 Cert.Kernel.Gen.squeezes_S1x128x128_S128x128)
local notation "slotM2" => (Memref.squeeze (Memref.slice (Memref.whole Cert.Kernel.cc1_scratch1 : Memref Cert.Kernel.sig Kind.scVector Space.vmem Cert.Kernel.S5x128x128 EltTy.f32) (Rect.unit (s := Cert.Kernel.S5x128x128) ![2, 0, 0] Cert.Kernel.S1x128x128.size Cert.Kernel.Gen.inb_S5x128x128_S1x128x128_2_0_0) (fun _ => rfl)) Cert.Kernel.S128x128 Cert.Kernel.Gen.squeezes_S1x128x128_S128x128)
local notation "slotM3" => (Memref.squeeze (Memref.slice (Memref.whole Cert.Kernel.cc1_scratch1 : Memref Cert.Kernel.sig Kind.scVector Space.vmem Cert.Kernel.S5x128x128 EltTy.f32) (Rect.unit (s := Cert.Kernel.S5x128x128) ![3, 0, 0] Cert.Kernel.S1x128x128.size Cert.Kernel.Gen.inb_S5x128x128_S1x128x128_3_0_0) (fun _ => rfl)) Cert.Kernel.S128x128 Cert.Kernel.Gen.squeezes_S1x128x128_S128x128)
local notation "slotM4" => (Memref.squeeze (Memref.slice (Memref.whole Cert.Kernel.cc1_scratch1 : Memref Cert.Kernel.sig Kind.scVector Space.vmem Cert.Kernel.S5x128x128 EltTy.f32) (Rect.unit (s := Cert.Kernel.S5x128x128) ![4, 0, 0] Cert.Kernel.S1x128x128.size Cert.Kernel.Gen.inb_S5x128x128_S1x128x128_4_0_0) (fun _ => rfl)) Cert.Kernel.S128x128 Cert.Kernel.Gen.squeezes_S1x128x128_S128x128)

local notation:max "xRow(" c ")" => (Memref.squeeze (xRowS c) Cert.Kernel.S128 Cert.Kernel.Gen.squeezes_S1x128_S128)

variable [FloatOps F] (d : Dev nD) (L : grid1.Coords) (C3 : (d : Dev nD) → Buf (Elt F) (idxLoc d)) (Tb : (d : Dev nD) → Buf (Elt F) (padLoc d))
  (hpre : ∀ d j, (C3 d j).toNat < 1000000)
  (O : CellTallies nD τ sig (HIx 1)) (W : Waits sig (HIx 1)) (q : PosShare TreeShare) (f0 : Buf (Elt F) (gatLoc d))

set_option maxHeartbeats 4000000 in
theorem trip_last (hGP : GPval d L C3 Tb hpre) (k : Fin k1_t1_loop.trips) (hk39 : k.val = 39) (v2 : BitVec 32) (acc : Unit) :
    inv d L C3 Tb hpre O W q f0 k.val acc
      ⊢ wp frame (wpE (defs₀ (F := F)) 𝒱₀ (VT d L) none) Set.univ
          (k1_t1_body L iV (Memref.isWhole_whole _) tV (Memref.isWhole_whole _) oV (Memref.isWhole_whole _)
            xV (Memref.isWhole_whole _) bV (Memref.isWhole_whole _) cc1_scratch2 cc1_scratch3 cc1_scoped0 v2 k acc)
          (inv d L C3 Tb hpre O W q f0 (k.val + 1)) := by
  have hk1 : 1 ≤ k.val := by omega
  have hc1 : k1_cond1 k = 1#1 := (k1_cond1_iff k).2 hk1
  have hc2 : ¬ k1_cond2 k = 1#1 := fun h => by have := (k1_cond2_iff k).1 h; omega
  have hc3 : ¬ k1_cond3 k = 1#1 := fun h => by have := (k1_cond3_iff k).1 h; omega
  have hc4 : ¬ k1_cond4 k = 1#1 := fun h => by have := (k1_cond4_iff k).1 h; omega
  have hc5 : ¬ k1_cond5 k = 1#1 := fun h => by have := (k1_cond5_iff k).1 h; omega
  have hin := hinR d L C3 hpre
  rw [inv_mid d L C3 Tb hpre O W q f0 k.val hk1 (by omega) acc]
  rw [bigSep_Ico_pop' (oFresh d L f0) (5 * k.val + 1) (by omega) rfl, bigSep_Ico_pop' (oFresh d L f0) (5 * k.val + 2) (by omega) rfl,
    bigSep_Ico_pop' (oFresh d L f0) (5 * k.val + 3) (by omega) rfl, bigSep_Ico_pop' (oFresh d L f0) (5 * k.val + 4) (by omega) rfl,
    bigSep_Ico_pop' (oFresh d L f0) (5 * k.val + 5) (by omega) rfl]
  unfold invCommon inv4B
  iintro ⟨%W', %hW', Howes, %s0, %s1, %s2, %s3, %s4, #Hmw, HXret, HXun, ⟨HO0, HO1, HO2, HO3, HO4, HOfr⟩, HOdone,
    ⟨HG0, HR4, HG1, HR5, HG2, HR6, HG3, HR7, Hw0, Hw1, Hw2, Hw3⟩, ⟨HW4, Hc8, HT8, HX4⟩⟩
  unfold FG0 FG1 FG2 FG3 FW4 tokR tokP xRowP oFresh
  unfold k1_t1_body
  sl_exec
  sl_step
  rw [inv_last d L C3 Tb hpre O W q f0 (k.val + 1) (by omega)]
  rw [Nat.add_sub_cancel]
  unfold invC
  rw [show 5 * (k.val + 1) = 5 * k.val + 5 by ring]
  simp only [show 5 * k.val + 5 + 0 = 5 * k.val + 5 from rfl, show 5 * k.val + 5 + 1 = 5 * k.val + 6 from rfl, show 5 * k.val + 5 + 2 = 5 * k.val + 7 from rfl,
    show 5 * k.val + 5 + 3 = 5 * k.val + 8 from rfl, show 5 * k.val + 5 + 4 = 5 * k.val + 9 from rfl, show 5 * k.val + 5 + 5 = 5 * k.val + 10 from rfl,
    show 5 * k.val + 5 - 1 = 5 * k.val + 4 from rfl]
  rw [show Finset.Ico (5 * k.val + 10) 200 = Finset.Ico (5 * k.val + 5) 200 from by
    rw [Finset.Ico_eq_empty (by omega), Finset.Ico_eq_empty (by omega)]]
  rw [bigSep_range_push' (xRowP d L C3) (5 * k.val + 4) rfl, bigSep_range_push' (xRowP d L C3) (5 * k.val + 3) rfl,
    bigSep_range_push' (xRowP d L C3) (5 * k.val + 2) rfl, bigSep_range_push' (xRowP d L C3) (5 * k.val + 1) rfl,
    bigSep_range_push' (xRowP d L C3) (5 * k.val) (b := 5 * k.val + 1) rfl]
  rw [bigSep_range_push' (oDone d L C3 Tb) (5 * k.val - 1) (b := 5 * k.val) (by omega)]
  -- the chunk whose write was waited holds the gathered contents
  rw [← chunk_pts4 d L C3 Tb hpre f0 hGP (5 * k.val - 1) (by omega) s4]
  unfold FW0 FW1 FW2 FW3 FW4 tokP xRowP oFresh
  iexists (insert (SemLoc.dma (⟨8, by decide⟩ : DmaSem sig), (default : HIx 1)) (insert (SemLoc.dma (⟨7, by decide⟩ : DmaSem sig), (default : HIx 1)) (insert (SemLoc.dma (⟨6, by decide⟩ : DmaSem sig), (default : HIx 1)) (insert (SemLoc.dma (⟨5, by decide⟩ : DmaSem sig), (default : HIx 1)) (insert (SemLoc.dma (⟨13, by decide⟩ : DmaSem sig), (default : HIx 1)) (insert (SemLoc.dma (⟨4, by decide⟩ : DmaSem sig), (default : HIx 1)) W'))))))
  isplitr
  · ipureintro
    exact W_ins _ (W_ins _ (W_ins _ (W_ins _ (W_ins _ (W_ins _ (hW'))))))
  isplitl [Howes]
  · iexact Howes
  iexists s0, s1, s2, s3, ((slotM4).view.writes (Elt F) s4 [⟨Rect.whole S128x128, GP d L C3 Tb hpre (5 * k.val - 1)⟩])
  isplitl [Hmw]; · iexact Hmw
  isplitl [HX4 HG3_dst_and HG2_dst_and HG1_dst_and HG0_dst_and HXret]
  · isplitl [HX4]; · iexact HX4
    isplitl [HG3_dst_and]; · iexact HG3_dst_and
    isplitl [HG2_dst_and]; · iexact HG2_dst_and
    isplitl [HG1_dst_and]; · iexact HG1_dst_and
    isplitl [HG0_dst_and]; · iexact HG0_dst_and
    iexact HXret
  isplitl [HXun]; · iexact HXun
  isplitl [HOfr]; · iexact HOfr
  isplitl [HW4_dst HOdone]
  · isplitl [HW4_dst]; · iexact HW4_dst
    iexact HOdone
  isplitl [Hw0]; · iexact Hw0
  isplitl [Hw1]; · iexact Hw1
  isplitl [Hw2]; · iexact Hw2
  isplitl [Hw3]; · iexact Hw3
  isplitl [HW4]; · iexact HW4
  isplitl [HG0]; · iexact HG0
  isplitl [HG1]; · iexact HG1
  isplitl [HG2]; · iexact HG2
  isplitl [HG3]; · iexact HG3
  isplitl [Hc8]; · iexact Hc8
  isplitl [HR4]; · iexact HR4
  isplitl [HR5]; · iexact HR5
  isplitl [HR6]; · iexact HR6
  isplitl [HR7]; · iexact HR7
  iexact HT8

end Cert.Kernel.Hand

end
-- ==== Proof.Bits.TileOwn.lean ====
/-
  The vector subcore's task, part five: what the launch hands the subcore, respelt as the body names it — its slab
  of the classes, its share of the padded table, its eleven DMA semaphores one by one, its two scratch buffers — and
  the five slots of the stage buffer, each at contents of its own, joined back into the buffer.
-/
import proofs.«206789_g36283883716857_cont_8to1_b_1933_18_alg».proof.Proof.Bits.TileValue

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S32x200x128 EltTy.i32)
local notation "tV" => (Memref.whole Cert.Kernel.main_v1_scv : Memref Cert.Kernel.sig Kind.scVector Space.hbm Cert.Kernel.S1000000x128 EltTy.f32)
local notation "oV" => (Memref.whole Cert.Kernel.main_v4_scv : Memref Cert.Kernel.sig Kind.scVector Space.hbm Cert.Kernel.S819200x128 EltTy.f32)
local notation "xV" => (Memref.whole Cert.Kernel.cc1_scratch0 : Memref Cert.Kernel.sig Kind.scVector Space.vmem Cert.Kernel.S200x128 EltTy.i32)
local notation "bV" => (Memref.whole Cert.Kernel.cc1_scratch1 : Memref Cert.Kernel.sig Kind.scVector Space.vmem Cert.Kernel.S5x128x128 EltTy.f32)

local notation "tVs" => (Memref.slice (Memref.whole Cert.Kernel.main_v1_scv : Memref Cert.Kernel.sig Kind.scVector Space.hbm Cert.Kernel.S1000000x128 EltTy.f32) (Rect.unit (s := Cert.Kernel.S1000000x128) ![0, 0] Cert.Kernel.S1000000x128.size Cert.Kernel.Gen.inb_S1000000x128_S1000000x128_0_0) (fun _ => rfl))
local notation "slotM0" => (Memref.squeeze (Memref.slice (Memref.whole Cert.Kernel.cc1_scratch1 : Memref Cert.Kernel.sig Kind.scVector Space.vmem Cert.Kernel.S5x128x128 EltTy.f32) (Rect.unit (s := Cert.Kernel.S5x128x128) ![0, 0, 0] Cert.Kernel.S1x128x128.size Cert.Kernel.Gen.inb_S5x128x128_S1x128x128_0_0_0) (fun _ => rfl)) Cert.Kernel.S128x128 Cert.Kernel.Gen.squeezes_S1x128x128_S128x128)
local notation "slotM1" => (Memref.squeeze (Memref.slice (Memref.whole Cert.Kernel.cc1_scratch1 : Memref Cert.Kernel.sig Kind.scVector Space.vmem Cert.Kernel.S5x128x128 EltTy.f32) (Rect.unit (s := Cert.Kernel.S5x128x128) ![1, 0, 0] Cert.Kernel.S1x128x128.size Cert.Kernel.Gen.inb_S5x128x128_S1x128x128_1_0_0) (fun _ => rfl)) Cert.Kernel.S128x128 Cert.Kernel.Gen.squeezes_S1x128x128_S128x128)
local notation "slotM2" => (Memref.squeeze (Memref.slice (Memref.whole Cert.Kernel.cc1_scratch1 : Memref Cert.Kernel.sig Kind.scVector Space.vmem Cert.Kernel.S5x128x128 EltTy.f32) (Rect.unit (s := Cert.Kernel.S5x128x128) ![2, 0, 0] Cert.Kernel.S1x128x128.size Cert.Kernel.Gen.inb_S5x128x128_S1x128x128_2_0_0) (fun _ => rfl)) Cert.Kernel.S128x128 Cert.Kernel.Gen.squeezes_S1x128x128_S128x128)
local notation "slotM3" => (Memref.squeeze (Memref.slice (Memref.whole Cert.Kernel.cc1_scratch1 : Memref Cert.Kernel.sig Kind.scVector Space.vmem Cert.Kernel.S5x128x128 EltTy.f32) (Rect.unit (s := Cert.Kernel.S5x128x128) ![3, 0, 0] Cert.Kernel.S1x128x128.size Cert.Kernel.Gen.inb_S5x128x128_S1x128x128_3_0_0) (fun _ => rfl)) Cert.Kernel.S128x128 Cert.Kernel.Gen.squeezes_S1x128x128_S128x128)
local notation "slotM4" => (Memref.squeeze (Memref.slice (Memref.whole Cert.Kernel.cc1_scratch1 : Memref Cert.Kernel.sig Kind.scVector Space.vmem Cert.Kernel.S5x128x128 EltTy.f32) (Rect.unit (s := Cert.Kernel.S5x128x128) ![4, 0, 0] Cert.Kernel.S1x128x128.size Cert.Kernel.Gen.inb_S5x128x128_S1x128x128_4_0_0) (fun _ => rfl)) Cert.Kernel.S128x128 Cert.Kernel.Gen.squeezes_S1x128x128_S128x128)

local notation:max "xRow(" c ")" => (Memref.squeeze (xRowS c) Cert.Kernel.S128 Cert.Kernel.Gen.squeezes_S1x128_S128)

section Own

variable (d : Dev nD) (L : grid1.Coords)

/-! ## The slab of the classes and the table -/

theorem islabK_eq : islabK L = islab (widL L) := by
  unfold islabK islab Rect.part Rect.block
  congr 1 <;> funext a
  · rw [k1_off1_eq]
    match a with
    | 0 => simp [Shape.partIx, Shape.partSize, widL, wid]
    | 1 => simp [Shape.partIx, Shape.partSize]
    | 2 => simp [Shape.partIx, Shape.partSize]
  · match a with
    | 0 => simp [Shape.partSize]
    | 1 => simp [Shape.partSize]
    | 2 => simp [Shape.partSize]

theorem set_iSlabK : (iSlabK L).view.set = iSlabSet (widL L) := by
  show (((iV).view.slice (islabK L)).reshape S200x128 squeezes_S1x200x128_S200x128.numel_eq).set = ((iV).view.slice (islab (widL L))).set
  rw [View.set_reshape]
  exact islabK_eq L ▸ rfl

theorem pts_iSlabK (f : Buf (Elt F) (idxLoc d)) :
    ((iSlabK L).view.loc (VT d L) ↦[(iSlabK L).view.set]{fullShare} f : sProp 𝕄) = idxLoc d ↦[iSlabSet (widL L)]{fullShare} f := by
  rw [set_iSlabK]

theorem tVs_set : (tVs).view.set = Finset.univ := by
  refine Finset.eq_univ_of_forall fun i => ?_
  have h0 : (i 0).val < 1000000 := (i 0).isLt
  have h1 : (i 1).val < 128 := (i 1).isLt
  show i ∈ ((View.whole (main_v1_scv : Ref sig .scVector)).slice _).set
  rw [View.set_slice]
  refine Finset.mem_map.mpr ⟨i, ?_, rfl⟩
  rw [Rect.mem_set_unit]
  intro a; fin_cases a
  · show 0 ≤ (i 0).val ∧ (i 0).val < 0 + 1000000; omega
  · show 0 ≤ (i 1).val ∧ (i 1).val < 0 + 128; omega

theorem pts_tVs (qq : PosShare TreeShare) (f : Buf (Elt F) (padLoc d)) :
    ((tVs).view.loc (VT d L) ↦[(tVs).view.set]{qq} f : sProp 𝕄) = padLoc d ↦{qq} f := by
  rw [tVs_set]

theorem pts_xV (f : Buf (Elt F) ((VT d L).loc cc1_scratch0)) :
    ((xV).view.loc (VT d L) ↦[(xV).view.set]{fullShare} f : sProp 𝕄) = (VT d L).loc cc1_scratch0 ↦{fullShare} f := by
  rw [View.set_whole]
theorem pts_bV (f : Buf (Elt F) ((VT d L).loc cc1_scratch1)) :
    ((bV).view.loc (VT d L) ↦[(bV).view.set]{fullShare} f : sProp 𝕄) = (VT d L).loc cc1_scratch1 ↦{fullShare} f := by
  rw [View.set_whole]

/-! ## The five slots, each at its own contents, are the stage buffer at some contents -/

theorem slots_join (c0 c1 c2 c3 c4 : Buf (Elt F) ((bV).view.loc (VT d L))) :
    (iprop(((slotM0).view.loc (VT d L) ↦[(slotM0).view.set]{fullShare} c0)
        ∗ ((slotM1).view.loc (VT d L) ↦[(slotM1).view.set]{fullShare} c1)
        ∗ ((slotM2).view.loc (VT d L) ↦[(slotM2).view.set]{fullShare} c2)
        ∗ ((slotM3).view.loc (VT d L) ↦[(slotM3).view.set]{fullShare} c3)
        ∗ ((slotM4).view.loc (VT d L) ↦[(slotM4).view.set]{fullShare} c4)) : sProp 𝕄)
      ⊢ iprop(∃ g, (bV).view.loc (VT d L) ↦[(bV).view.set]{fullShare} g) := by
  let fs : ℕ → Buf (Elt F) ((bV).view.loc (VT d L)) := fun b => match b with | 0 => c0 | 1 => c1 | 2 => c2 | 3 => c3 | _ => c4
  iintro ⟨H0, H1, H2, H3, H4⟩
  ihave H := (pointsTo_biUnion_join (ℓ := (bV).view.loc (VT d L)) (q := fullShare) (Val := Elt F) (Finset.range 5)
      (fun b => (slotRect b).set) fs c0 slots_disjoint) $$ [H0 H1 H2 H3 H4]
  · rw [bigSep_range_push, bigSep_range_push, bigSep_range_push, bigSep_range_push, Finset.range_one, bigSep_singleton,
      ← slot_set0, ← slot_set1, ← slot_set2, ← slot_set3, ← slot_set4]
    isplitl [H4]; · iexact H4
    isplitl [H3]; · iexact H3
    isplitl [H2]; · iexact H2
    isplitl [H1]; · iexact H1
    iexact H0
  icases H with ⟨%g, -, Hg⟩
  rw [slots_cover]
  iexists g; iexact Hg

/-! ## The subcore's own semaphores and buffers -/

abbrev csem (k : Nat) (hk : k < 15 := by decide) : DmaSem sig := ⟨k, hk⟩
abbrev dcell (d : Dev nD) (c : Fin τ.nSC) (i : Fin τ.nSub) (k : Fin 11) : GSem nD τ sig := (V d c i, .dma (csem (4 + k.val) (by omega)))
/-- The eleven cells the body names, at zero. -/
abbrev cells0 (d : Dev nD) (L : grid1.Coords) : sProp 𝕄 :=
  iprop(semVal (VT d L, SemLoc.dma (csem 4)) 0 ∗ semVal (VT d L, SemLoc.dma (csem 5)) 0 ∗ semVal (VT d L, SemLoc.dma (csem 6)) 0 ∗ semVal (VT d L, SemLoc.dma (csem 7)) 0 ∗ semVal (VT d L, SemLoc.dma (csem 8)) 0 ∗ semVal (VT d L, SemLoc.dma (csem 9)) 0 ∗ semVal (VT d L, SemLoc.dma (csem 10)) 0 ∗ semVal (VT d L, SemLoc.dma (csem 11)) 0 ∗ semVal (VT d L, SemLoc.dma (csem 12)) 0 ∗ semVal (VT d L, SemLoc.dma (csem 13)) 0 ∗ semVal (VT d L, SemLoc.dma (csem 14)) 0)

theorem dcell_mem (c : Fin τ.nSC) (i : Fin τ.nSub) (k : Fin 11) : dcell d c i k ∈ ownCells (V d c i) :=
  mem_ownCells.mpr ⟨rfl, (show ∀ s : DmaSem sig, (SemLoc.dma s : SemLoc sig).isScoped .scVector = true by decide) _⟩

theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 11)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

theorem ownBufs_V :
    (ownBufs (VT d L) : sProp 𝕄)
      = iprop((∃ f, (VT d L).loc cc1_scratch0 ↦{fullShare} f) ∗ (∃ f, (VT d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Own

/-! ## At the loop's two ends -/

theorem trips_eq : k1_t1_loop.trips = 40 := by decide +kernel

section Ends

variable [FloatOps F] (d : Dev nD) (L : grid1.Coords) (C3 : (d : Dev nD) → Buf (Elt F) (idxLoc d)) (Tb : (d : Dev nD) → Buf (Elt F) (padLoc d))

/-- The index scratch after the copy is rows 0 .. 4 and the rest; -/
theorem xRows_start :
    ((xV).view.loc (VT d L) ↦[(xV).view.set]{fullShare} XS d L C3 : sProp 𝕄)
      = iprop(xRowP d L C3 0 ∗ xRowP d L C3 1 ∗ xRowP d L C3 2 ∗ xRowP d L C3 3 ∗ xRowP d L C3 4 ∗ bigSep (Finset.Ico 5 200) (xRowP d L C3)) := by
  rw [xRows_eq, Finset.range_eq_Ico, bigSep_Ico_pop' _ 1 (by omega) rfl, bigSep_Ico_pop' _ 2 (by omega) rfl, bigSep_Ico_pop' _ 3 (by omega) rfl,
    bigSep_Ico_pop' _ 4 (by omega) rfl, bigSep_Ico_pop' _ 5 (by omega) rfl]
  rfl
/-- all its rows are the scratch again. -/
theorem xRows_end :
    (bigSep (Finset.range 200) (xRowP d L C3) : sProp 𝕄) = ((xV).view.loc (VT d L) ↦[(xV).view.set]{fullShare} XS d L C3) :=
  (xRows_eq d L (XS d L C3)).symm
/-- The worker's block of the gathered array is its chunks, not yet written; -/
theorem oWins_start (f0 : Buf (Elt F) (gatLoc d)) :
    (gatLoc d ↦[oBlkSet (widL L)]{fullShare} f0 : sProp 𝕄) = bigSep (Finset.Ico 0 200) (oFresh d L f0) := by
  rw [oWins_eq, Finset.range_eq_Ico]; rfl
/-- all written, they are the block at the gathered contents. -/
theorem oWins_end :
    (bigSep (Finset.range 200) (oDone d L C3 Tb) : sProp 𝕄)
      = (gatLoc d ↦[oBlkSet (widL L)]{fullShare} (gathered (C3 d) (Tb d) : Buf (Elt F) (gatLoc d))) :=
  (oWins_eq d L _).symm

end Ends

end Cert.Kernel.Hand

end
-- ==== Proof.Bits.TileGP.lean ====
/-
  The vector subcore's task, part five: the value of a gather. The gather of chunk c writes into its slot, at (r, j),
  entry (row named by word r of row c of the index scratch, j) of the padded table. The index scratch holds the
  subcore's slab of the classes, so word r of its row c is class word (w, c, r), w = 2 i + c' the number of subcore i
  of SparseCore c'; row 25600 w + 128 c + r of the gathered array names exactly that class word (25600 = 200 · 128),
  and a class word below 1000000 names the row of its own number. Hence the slot holds, entry by entry, rows
  25600 w + 128 c .. 25600 w + 128 c + 127 of the gathered array.
-/
import proofs.«206789_g36283883716857_cont_8to1_b_1933_18_alg».proof.Proof.Bits.TileValue
import Idealize.ShloMosaic.Lib.ValueLayout

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S32x200x128 EltTy.i32)
local notation "tV" => (Memref.whole Cert.Kernel.main_v1_scv : Memref Cert.Kernel.sig Kind.scVector Space.hbm Cert.Kernel.S1000000x128 EltTy.f32)
local notation "oV" => (Memref.whole Cert.Kernel.main_v4_scv : Memref Cert.Kernel.sig Kind.scVector Space.hbm Cert.Kernel.S819200x128 EltTy.f32)
local notation "xV" => (Memref.whole Cert.Kernel.cc1_scratch0 : Memref Cert.Kernel.sig Kind.scVector Space.vmem Cert.Kernel.S200x128 EltTy.i32)
local notation "bV" => (Memref.whole Cert.Kernel.cc1_scratch1 : Memref Cert.Kernel.sig Kind.scVector Space.vmem Cert.Kernel.S5x128x128 EltTy.f32)

local notation "tVs" => (Memref.slice (Memref.whole Cert.Kernel.main_v1_scv : Memref Cert.Kernel.sig Kind.scVector Space.hbm Cert.Kernel.S1000000x128 EltTy.f32) (Rect.unit (s := Cert.Kernel.S1000000x128) ![0, 0] Cert.Kernel.S1000000x128.size Cert.Kernel.Gen.inb_S1000000x128_S1000000x128_0_0) (fun _ => rfl))
local notation "slotM0" => (Memref.squeeze (Memref.slice (Memref.whole Cert.Kernel.cc1_scratch1 : Memref Cert.Kernel.sig Kind.scVector Space.vmem Cert.Kernel.S5x128x128 EltTy.f32) (Rect.unit (s := Cert.Kernel.S5x128x128) ![0, 0, 0] Cert.Kernel.S1x128x128.size Cert.Kernel.Gen.inb_S5x128x128_S1x128x128_0_0_0) (fun _ => rfl)) Cert.Kernel.S128x128 Cert.Kernel.Gen.squeezes_S1x128x128_S128x128)
local notation "slotM1" => (Memref.squeeze (Memref.slice (Memref.whole Cert.Kernel.cc1_scratch1 : Memref Cert.Kernel.sig Kind.scVector Space.vmem Cert.Kernel.S5x128x128 EltTy.f32) (Rect.unit (s := Cert.Kernel.S5x128x128) ![1, 0, 0] Cert.Kernel.S1x128x128.size Cert.Kernel.Gen.inb_S5x128x128_S1x128x128_1_0_0) (fun _ => rfl)) Cert.Kernel.S128x128 Cert.Kernel.Gen.squeezes_S1x128x128_S128x128)
local notation "slotM2" => (Memref.squeeze (Memref.slice (Memref.whole Cert.Kernel.cc1_scratch1 : Memref Cert.Kernel.sig Kind.scVector Space.vmem Cert.Kernel.S5x128x128 EltTy.f32) (Rect.unit (s := Cert.Kernel.S5x128x128) ![2, 0, 0] Cert.Kernel.S1x128x128.size Cert.Kernel.Gen.inb_S5x128x128_S1x128x128_2_0_0) (fun _ => rfl)) Cert.Kernel.S128x128 Cert.Kernel.Gen.squeezes_S1x128x128_S128x128)
local notation "slotM3" => (Memref.squeeze (Memref.slice (Memref.whole Cert.Kernel.cc1_scratch1 : Memref Cert.Kernel.sig Kind.scVector Space.vmem Cert.Kernel.S5x128x128 EltTy.f32) (Rect.unit (s := Cert.Kernel.S5x128x128) ![3, 0, 0] Cert.Kernel.S1x128x128.size Cert.Kernel.Gen.inb_S5x128x128_S1x128x128_3_0_0) (fun _ => rfl)) Cert.Kernel.S128x128 Cert.Kernel.Gen.squeezes_S1x128x128_S128x128)
local notation "slotM4" => (Memref.squeeze (Memref.slice (Memref.whole Cert.Kernel.cc1_scratch1 : Memref Cert.Kernel.sig Kind.scVector Space.vmem Cert.Kernel.S5x128x128 EltTy.f32) (Rect.unit (s := Cert.Kernel.S5x128x128) ![4, 0, 0] Cert.Kernel.S1x128x128.size Cert.Kernel.Gen.inb_S5x128x128_S1x128x128_4_0_0) (fun _ => rfl)) Cert.Kernel.S128x128 Cert.Kernel.Gen.squeezes_S1x128x128_S128x128)

local notation:max "xRow(" c ")" => (Memref.squeeze (xRowS c) Cert.Kernel.S128 Cert.Kernel.Gen.squeezes_S1x128_S128)

section GPV

variable [FloatOps F] (d : Dev nD) (L : grid1.Coords) (C3 : (d : Dev nD) → Buf (Elt F) (idxLoc d)) (Tb : (d : Dev nD) → Buf (Elt F) (padLoc d))
  (hpre : ∀ d j, (C3 d j).toNat < 1000000)

/-- The k-th index of a list of 128 words in row-major order is the index with coordinate k. -/
theorem rowMajor_symm_one (k : Fin 128) : S128.rowMajor.symm (k.cast (rfl : 128 = S128.numel)) = ix1 k := by
  rw [Equiv.symm_apply_eq]
  apply Fin.ext
  rw [Shape.rowMajor_val_one]
  rfl

/-- Word r of row c of the index scratch is class word (2 i + c', c, r) of the classes, (c', i) the subcore's place:
    the scratch holds the subcore's slab, and the slab's index (c, r) sits at (slab number, c, r) of the classes. -/
theorem xs_word (c : ℕ) (r : Fin 128) :
    View.read (Elt F) (xRow(c)).view (XS d L C3) (ix1 r)
      = C3 d (ix3 (⟨2 * (L 1).val + (L 0).val, by have h0 : (L 0).val < 2 := (L 0).isLt; have h1 : (L 1).val < 16 := (L 1).isLt; omega⟩ : Fin 32) (⟨c % 200, Nat.mod_lt _ (by norm_num)⟩ : Fin 200) r) := by
  unfold XS
  have e : View.read (Elt F) (xRow(c)).view ((xV).view.writes (Elt F) (xV).view.junk [⟨Rect.whole cc1_scratch0.ty.shape, PAY d L C3⟩]) (ix1 r)
      = View.read (Elt F) (xV).view ((xV).view.writes (Elt F) (xV).view.junk [⟨Rect.whole cc1_scratch0.ty.shape, PAY d L C3⟩])
          ((Rect.unit (s := S200x128) ![c % 200, 0] S1x128.size (xRow_inb c)).emb ((Shape.reshapeEquiv squeezes_S1x128_S128.numel_eq) (ix1 r))) := by
    unfold xRowS; rw [View.read_apply, View.read_apply]; rfl
  rw [e, View.read_writes_whole, PAY_apply]
  refine congrArg (C3 d) ?_
  have e1 : Shape.reshapeEquiv squeezes_S1x128_S128.numel_eq (ix1 r) = ix2 (⟨0, Nat.one_pos⟩ : Fin 1) r :=
    Shape.reshapeEquiv_eq_of_rowMajor _ (by
      rw [Shape.rowMajor_val_two, Shape.rowMajor_val_one]
      show 0 * 128 + r.val = r.val
      omega)
  have e2 : (Rect.unit (s := S200x128) ![c % 200, 0] S1x128.size (xRow_inb c)).emb (ix2 (⟨0, Nat.one_pos⟩ : Fin 1) r)
      = ix2 (⟨c % 200, Nat.mod_lt _ (by norm_num)⟩ : Fin 200) r := by
    funext a; apply Fin.ext
    match a with
    | ⟨0, _⟩ => show c % 200 + 1 * 0 = c % 200; omega
    | ⟨1, _⟩ => show 0 + 1 * r.val = r.val; omega
  rw [e1, e2]
  show (islabK L).emb (Shape.reshapeEquiv squeezes_S1x200x128_S200x128.numel_eq (ix2 (⟨c % 200, Nat.mod_lt _ (by norm_num)⟩ : Fin 200) r)) = _
  rw [reshapeEquiv_ix2_1ab]
  have hk := k1_off1_eq L
  funext a; apply Fin.ext
  match a with
  | ⟨0, _⟩ => show k1_off1 L 0 + 1 * 0 = 2 * (L 1).val + (L 0).val; rw [hk]; show 2 * (L 1).val + (L 0).val + 1 * 0 = _; omega
  | ⟨1, _⟩ => show k1_off1 L 1 + 1 * (c % 200) = c % 200; rw [hk]; show 0 + 1 * (c % 200) = _; omega
  | ⟨2, _⟩ => show k1_off1 L 2 + 1 * r.val = r.val; rw [hk]; show 0 + 1 * r.val = _; omega

/-- Row 25600 (2 i + c') + 128 c + r of the gathered array names slab 2 i + c', row c, lane r of the class slabs
    (c below 200, r below 128: a division with remainder). -/
theorem slabIdx_of_val (i : S819200x128.Idx) (c : ℕ) (r : Fin 128) (hv : (i 0).val = obase L + 128 * (c % 200) + r.val) :
    slabIdx (i 0) = ix3 (⟨2 * (L 1).val + (L 0).val, by have h0 : (L 0).val < 2 := (L 0).isLt; have h1 : (L 1).val < 16 := (L 1).isLt; omega⟩ : Fin 32) (⟨c % 200, Nat.mod_lt _ (by norm_num)⟩ : Fin 200) r := by
  have h0 : (L 0).val < 2 := (L 0).isLt
  have h1 : (L 1).val < 16 := (L 1).isLt
  have hc : c % 200 < 200 := Nat.mod_lt _ (by norm_num)
  have hr := r.isLt
  unfold slabIdx
  funext a; apply Fin.ext
  match a with
  | ⟨0, _⟩ => show (i 0).val / 25600 = 2 * (L 1).val + (L 0).val; rw [hv]; unfold obase; omega
  | ⟨1, _⟩ => show (i 0).val % 25600 / 128 = c % 200; rw [hv]; unfold obase; omega
  | ⟨2, _⟩ => show (i 0).val % 128 = r.val; rw [hv]; unfold obase; omega

/-- The entry of the padded table a gather reads for entry (r, j) of its destination, given the rows R the list names:
    entry (R r, j). -/
theorem tVs_emb_idx (R : Fin 128 → Fin 1000000) (r j : Fin 128) :
    (tVs).view.emb (gathers_S1000000x128_S128x128.idx R (ix2 r j)) = ix2 (R r) j := by
  funext a; apply Fin.ext
  match a with
  | ⟨0, _⟩ =>
    have e : (gathers_S1000000x128_S128x128.idx R (ix2 r j) gathers_S1000000x128_S128x128.axis).val = (R r).val :=
      congrArg Fin.val (Shape.Gathers.idx_axis gathers_S1000000x128_S128x128 R (ix2 r j))
    show 0 + 1 * (gathers_S1000000x128_S128x128.idx R (ix2 r j) gathers_S1000000x128_S128x128.axis).val = (R r).val
    omega
  | ⟨1, _⟩ =>
    show 0 + 1 * (gathers_S1000000x128_S128x128.idx R (ix2 r j) ⟨1, _⟩).val = j.val
    rw [Shape.Gathers.idx_of_ne gathers_S1000000x128_S128x128 R (ix2 r j) ⟨1, by decide⟩ (by decide)]
    show 0 + 1 * j.val = j.val
    omega

/-- The gather of chunk c, read at (r, j), is entry (row named by class word (2 i + c', c, r), j) of the padded table,
    and class word (2 i + c', c, r) is the one row 25600 (2 i + c') + 128 c + r of the gathered array names: the gathered
    array's own entry at (first row of chunk c + r, j). Every class word is below 1000000, so it names the row of its
    own number. -/
theorem GP_eq : GPval d L C3 Tb hpre := by
  intro c x hc
  obtain ⟨r, j, rfl⟩ : ∃ r j, x = ix2 r j := ⟨x 0, x 1, eq_ix2 x⟩
  unfold GP SparseCore.gatherPayload
  rw [View.read_apply]
  refine (cast_eq _ _).trans ?_
  unfold gathered
  refine congrArg (Tb d) ?_
  have hs := slabIdx_of_val L ((oWin L c).view.emb (ix2 r j)) c r (by
    show obase L + 128 * (c % 200) + 1 * r.val = _; omega)
  refine (tVs_emb_idx _ r j).trans ?_
  refine congrArg₂ ix2 ?_ ?_
  · apply Fin.ext
    show (View.read (Elt F) (xRow(c)).view (XS d L C3) (S128.rowMajor.symm (r.cast (rfl : 128 = S128.numel)))).toNat = (Cert.Spec.rowOf _).val
    rw [rowMajor_symm_one, xs_word, hs, Cert.Spec.rowOf_val_of_lt _ (hpre d _)]
  · apply Fin.ext
    show j.val = 0 + 1 * j.val
    omega

end GPV

end Cert.Kernel.Hand

end
-- ==== Proof.Bits.Tile.lean ====
/-
  The vector subcore's task, whole: the first copy and the five first gathers, the loop by what the subcore holds
  between two trips, the five last waits; then the task from what the launch deals the subcore to what it hands
  back, and the launch theorem's obligation for every subcore.
-/
import proofs.«206789_g36283883716857_cont_8to1_b_1933_18_alg».proof.Proof.Bits.TileTripFirst
import proofs.«206789_g36283883716857_cont_8to1_b_1933_18_alg».proof.Proof.Bits.TileTripMid
import proofs.«206789_g36283883716857_cont_8to1_b_1933_18_alg».proof.Proof.Bits.TileTripLast
import proofs.«206789_g36283883716857_cont_8to1_b_1933_18_alg».proof.Proof.Bits.TileOwn
import proofs.«206789_g36283883716857_cont_8to1_b_1933_18_alg».proof.Proof.Bits.TileGP

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "iV" => (Memref.whole Cert.Kernel.main_v3_scv : Memref Cert.Kernel.sig Kind.scVector Space.hbm Cert.Kernel.S32x200x128 EltTy.i32)
local notation "tV" => (Memref.whole Cert.Kernel.main_v1_scv : Memref Cert.Kernel.sig Kind.scVector Space.hbm Cert.Kernel.S1000000x128 EltTy.f32)
local notation "oV" => (Memref.whole Cert.Kernel.main_v4_scv : Memref Cert.Kernel.sig Kind.scVector Space.hbm Cert.Kernel.S819200x128 EltTy.f32)
local notation "xV" => (Memref.whole Cert.Kernel.cc1_scratch0 : Memref Cert.Kernel.sig Kind.scVector Space.vmem Cert.Kernel.S200x128 EltTy.i32)
local notation "bV" => (Memref.whole Cert.Kernel.cc1_scratch1 : Memref Cert.Kernel.sig Kind.scVector Space.vmem Cert.Kernel.S5x128x128 EltTy.f32)

local notation "tVs" => (Memref.slice (Memref.whole Cert.Kernel.main_v1_scv : Memref Cert.Kernel.sig Kind.scVector Space.hbm Cert.Kernel.S1000000x128 EltTy.f32) (Rect.unit (s := Cert.Kernel.S1000000x128) ![0, 0] Cert.Kernel.S1000000x128.size Cert.Kernel.Gen.inb_S1000000x128_S1000000x128_0_0) (fun _ => rfl))
local notation "slotM0" => (Memref.squeeze (Memref.slice (Memref.whole Cert.Kernel.cc1_scratch1 : Memref Cert.Kernel.sig Kind.scVector Space.vmem Cert.Kernel.S5x128x128 EltTy.f32) (Rect.unit (s := Cert.Kernel.S5x128x128) ![0, 0, 0] Cert.Kernel.S1x128x128.size Cert.Kernel.Gen.inb_S5x128x128_S1x128x128_0_0_0) (fun _ => rfl)) Cert.Kernel.S128x128 Cert.Kernel.Gen.squeezes_S1x128x128_S128x128)
local notation "slotM1" => (Memref.squeeze (Memref.slice (Memref.whole Cert.Kernel.cc1_scratch1 : Memref Cert.Kernel.sig Kind.scVector Space.vmem Cert.Kernel.S5x128x128 EltTy.f32) (Rect.unit (s := Cert.Kernel.S5x128x128) ![1, 0, 0] Cert.Kernel.S1x128x128.size Cert.Kernel.Gen.inb_S5x128x128_S1x128x128_1_0_0) (fun _ => rfl)) Cert.Kernel.S128x128 Cert.Kernel.Gen.squeezes_S1x128x128_S128x128)
local notation "slotM2" => (Memref.squeeze (Memref.slice (Memref.whole Cert.Kernel.cc1_scratch1 : Memref Cert.Kernel.sig Kind.scVector Space.vmem Cert.Kernel.S5x128x128 EltTy.f32) (Rect.unit (s := Cert.Kernel.S5x128x128) ![2, 0, 0] Cert.Kernel.S1x128x128.size Cert.Kernel.Gen.inb_S5x128x128_S1x128x128_2_0_0) (fun _ => rfl)) Cert.Kernel.S128x128 Cert.Kernel.Gen.squeezes_S1x128x128_S128x128)
local notation "slotM3" => (Memref.squeeze (Memref.slice (Memref.whole Cert.Kernel.cc1_scratch1 : Memref Cert.Kernel.sig Kind.scVector Space.vmem Cert.Kernel.S5x128x128 EltTy.f32) (Rect.unit (s := Cert.Kernel.S5x128x128) ![3, 0, 0] Cert.Kernel.S1x128x128.size Cert.Kernel.Gen.inb_S5x128x128_S1x128x128_3_0_0) (fun _ => rfl)) Cert.Kernel.S128x128 Cert.Kernel.Gen.squeezes_S1x128x128_S128x128)
local notation "slotM4" => (Memref.squeeze (Memref.slice (Memref.whole Cert.Kernel.cc1_scratch1 : Memref Cert.Kernel.sig Kind.scVector Space.vmem Cert.Kernel.S5x128x128 EltTy.f32) (Rect.unit (s := Cert.Kernel.S5x128x128) ![4, 0, 0] Cert.Kernel.S1x128x128.size Cert.Kernel.Gen.inb_S5x128x128_S1x128x128_4_0_0) (fun _ => rfl)) Cert.Kernel.S128x128 Cert.Kernel.Gen.squeezes_S1x128x128_S128x128)

local notation:max "xRow(" c ")" => (Memref.squeeze (xRowS c) Cert.Kernel.S128 Cert.Kernel.Gen.squeezes_S1x128_S128)

section Body

variable [FloatOps F] (d : Dev nD) (L : grid1.Coords) (C3 : (d : Dev nD) → Buf (Elt F) (idxLoc d)) (Tb : (d : Dev nD) → Buf (Elt F) (padLoc d))
  (hpre : ∀ d j, (C3 d j).toNat < 1000000)

/-- Whatever the index scratch held before, the slab's copy leaves it at XS. -/
theorem XS_base (g : Buf (Elt F) ((xV).view.loc (VT d L))) :
    (xV).view.writes (Elt F) g [⟨Rect.whole cc1_scratch0.ty.shape, PAY d L C3⟩] = XS d L C3 := by
  unfold XS
  funext i
  have e1 := congrFun (View.read_writes_whole (xV).view g (PAY d L C3)) i
  have e2 := congrFun (View.read_writes_whole (xV).view (xV).view.junk (PAY d L C3)) i
  rw [View.read_apply] at e1 e2
  exact ((cast_eq _ _).symm.trans e1).trans ((cast_eq _ _).symm.trans e2).symm

/-- After the last trip: every row of the index scratch back, chunks 0 .. 194 written, the five last writes in flight. -/
theorem inv_exit (O : CellTallies nD τ sig (HIx 1)) (W : Waits sig (HIx 1)) (q : PosShare TreeShare) (f0 : Buf (Elt F) (gatLoc d))
    (k : ℕ) (h : k = 40) (acc : Unit) :
    inv d L C3 Tb hpre O W q f0 k acc
      ⊢ iprop(∃ W' : Waits sig (HIx 1), ⌜∀ p ∈ W', p ∈ W ∨ p.2 = none⌝ ∗ owes (VT d L) O W'
        ∗ ∃ s0 s1 s2 s3 s4 : Buf (Elt F) ((bV).view.loc (VT d L)), Transfers.MayWaits (VT d L) (default : HIx 1) O
        ∗ bigSep (Finset.range 200) (xRowP d L C3) ∗ bigSep (Finset.range 195) (oDone d L C3 Tb)
        ∗ FW0 d L C3 Tb hpre f0 195 s0 ∗ FW1 d L C3 Tb hpre f0 196 s1 ∗ FW2 d L C3 Tb hpre f0 197 s2 ∗ FW3 d L C3 Tb hpre f0 198 s3 ∗ FW4 d L C3 Tb hpre f0 199 s4
        ∗ semVal (VT d L, SemLoc.dma (⟨4, by decide⟩ : DmaSem sig)) 0 ∗ semVal (VT d L, SemLoc.dma (⟨5, by decide⟩ : DmaSem sig)) 0 ∗ semVal (VT d L, SemLoc.dma (⟨6, by decide⟩ : DmaSem sig)) 0 ∗ semVal (VT d L, SemLoc.dma (⟨7, by decide⟩ : DmaSem sig)) 0 ∗ semVal (VT d L, SemLoc.dma (⟨8, by decide⟩ : DmaSem sig)) 0
        ∗ tokP d L Tb q 4 ∗ tokP d L Tb q 5 ∗ tokP d L Tb q 6 ∗ tokP d L Tb q 7 ∗ tokP d L Tb q 8) := by
  subst h
  rw [inv_last d L C3 Tb hpre O W q f0 40 rfl]
  unfold invC
  rw [show Finset.Ico (5 * 40 + 5) 200 = ∅ from Finset.Ico_eq_empty (by omega), show Finset.Ico (5 * 40) 200 = ∅ from Finset.Ico_eq_empty (by omega),
    bigSep_empty, bigSep_empty]
  iintro ⟨%W', %hW', Howes, %s0, %s1, %s2, %s3, %s4, #Hmw, HXret, -, -, HOdone, HW0, HW1, HW2, HW3, HW4, Hg4, Hg5, Hg6, Hg7, Hg8, HT4, HT5, HT6, HT7, HT8⟩
  iexists W'
  isplitr; · ipureintro; exact hW'
  isplitl [Howes]; · iexact Howes
  iexists s0, s1, s2, s3, s4
  isplitl [Hmw]; · iexact Hmw
  isplitl [HXret]; · iexact HXret
  isplitl [HOdone]; · iexact HOdone
  isplitl [HW0]; · iexact HW0
  isplitl [HW1]; · iexact HW1
  isplitl [HW2]; · iexact HW2
  isplitl [HW3]; · iexact HW3
  isplitl [HW4]; · iexact HW4
  isplitl [Hg4]; · iexact Hg4
  isplitl [Hg5]; · iexact Hg5
  isplitl [Hg6]; · iexact Hg6
  isplitl [Hg7]; · iexact Hg7
  isplitl [Hg8]; · iexact Hg8
  isplitl [HT4]; · iexact HT4
  isplitl [HT5]; · iexact HT5
  isplitl [HT6]; · iexact HT6
  isplitl [HT7]; · iexact HT7
  iexact HT8

set_option maxHeartbeats 4000000 in
/-- The task's body run from the pieces the launch dealt it, in the body's spelling. -/
theorem tile_run (hGP : GPval d L C3 Tb hpre) (O : CellTallies nD τ sig (HIx 1)) (W : Waits sig (HIx 1)) (q : PosShare TreeShare)
    (f0 : Buf (Elt F) (gatLoc d)) (g0 : Buf (Elt F) ((xV).view.loc (VT d L))) (c0 c1 c2 c3 c4 : Buf (Elt F) ((bV).view.loc (VT d L))) :
    (iprop(Transfers.MayWaits (VT d L) (default : HIx 1) O
        ∗ ((iSlabK L).view.loc (VT d L) ↦[(iSlabK L).view.set]{fullShare} C3 d)
        ∗ tokP d L Tb q 4 ∗ tokP d L Tb q 5 ∗ tokP d L Tb q 6 ∗ tokP d L Tb q 7 ∗ tokP d L Tb q 8
        ∗ bigSep (Finset.Ico 0 200) (oFresh d L f0)
        ∗ ((xV).view.loc (VT d L) ↦[(xV).view.set]{fullShare} g0)
        ∗ ((slotM0).view.loc (VT d L) ↦[(slotM0).view.set]{fullShare} c0)
        ∗ ((slotM1).view.loc (VT d L) ↦[(slotM1).view.set]{fullShare} c1)
        ∗ ((slotM2).view.loc (VT d L) ↦[(slotM2).view.set]{fullShare} c2)
        ∗ ((slotM3).view.loc (VT d L) ↦[(slotM3).view.set]{fullShare} c3)
        ∗ ((slotM4).view.loc (VT d L) ↦[(slotM4).view.set]{fullShare} c4)
        ∗ cells0 d L
        ∗ owes (VT d L) O W) : sProp 𝕄)
      ⊢ wp frame (wpE (defs₀ (F := F)) 𝒱₀ (VT d L) none) Set.univ
          (cc1__gather_body L iV (Memref.isWhole_whole _) tV (Memref.isWhole_whole _) oV (Memref.isWhole_whole _)
            xV (Memref.isWhole_whole _) bV (Memref.isWhole_whole _) cc1_scratch2 cc1_scratch3 cc1_scoped0)
          fun _ => iprop(((iSlabK L).view.loc (VT d L) ↦[(iSlabK L).view.set]{fullShare} C3 d)
            ∗ tokP d L Tb q 4 ∗ tokP d L Tb q 5 ∗ tokP d L Tb q 6 ∗ tokP d L Tb q 7 ∗ tokP d L Tb q 8
            ∗ bigSep (Finset.range 200) (oDone d L C3 Tb)
            ∗ (∃ g, (xV).view.loc (VT d L) ↦[(xV).view.set]{fullShare} g)
            ∗ (∃ g, (bV).view.loc (VT d L) ↦[(bV).view.set]{fullShare} g)
            ∗ cells0 d L
            ∗ ∃ W', ⌜∀ p ∈ W', p ∈ W ∨ p.2 = none⌝ ∗ owes (VT d L) O W') := by
  unfold tokP
  iintro ⟨#Hmw, HI, HT4, HT5, HT6, HT7, HT8, HOfr, HX, HS0, HS1, HS2, HS3, HS4, ⟨Hc4, Hc5, Hc6, Hc7, Hc8, Hc9, Hc10, Hc11, Hc12, Hc13, Hc14⟩, Howes⟩
  sl_unfold [cc1__gather_body]
  sl_exec
  ihave HX1 := (Entails.of_eq (show (((xV).view.loc (VT d L) ↦[(xV).view.set]{fullShare}
      (xV).view.writes (Elt F) g0 [⟨Rect.whole cc1_scratch0.ty.shape, tile_run.sl.dma0 d L C3⟩]) : sProp 𝕄)
    = ((xV).view.loc (VT d L) ↦[(xV).view.set]{fullShare} XS d L C3)
    from congrArg (fun f => ((xV).view.loc (VT d L) ↦[(xV).view.set]{fullShare} f : sProp 𝕄)) (XS_base d L C3 g0))) $$ HX
  ihave HXs := (Entails.of_eq (xRows_start d L C3)) $$ HX1
  icases HXs with ⟨HX0, HX1', HX2, HX3, HX4, HXun⟩
  unfold xRowP
  have hin := hinR d L C3 hpre
  sl_exec
  sl_for (inv d L C3 Tb hpre O W q f0) $$ [Hmw HOfr Hc9 Hc10 Hc11 Hc12 Hc13 Howes HXun Hc4 HT4 Hc5 HT5 Hc6 HT6 Hc7 HT7 Hc8 HT8]
  case region =>
    intro k acc
    by_cases h0 : k.val = 0
    · exact trip_first d L C3 Tb hpre O W q f0 hGP k h0 _ acc
    by_cases h39 : k.val = 39
    · exact trip_last d L C3 Tb hpre O W q f0 hGP k h39 _ acc
    exact trip_mid d L C3 Tb hpre O W q f0 hGP k (by omega) (by have := trips_lt k; omega) _ acc
  · -- the five gathers the prologue started are what the subcore holds before trip 0
    rw [inv_first d L C3 Tb hpre O W q f0 0 rfl]
    unfold invCommon inv4A FG0 FG1 FG2 FG3 FG4 tokR xRowP
    simp only [Nat.mul_zero, Nat.zero_add, Nat.zero_sub, Finset.range_zero, bigSep_empty]
    iexists (insert (SemLoc.dma (⟨14, by decide⟩ : DmaSem sig), (default : HIx 1)) W)
    isplitr
    · ipureintro
      exact W_ins _ (fun p hp => .inl hp)
    isplitl [Howes]
    · iexact Howes
    iexists c0, c1, c2, c3, c4
    isplitl [Hmw]; · iexact Hmw
    isplitl []; · iempintro
    isplitl [HXun]; · iexact HXun
    isplitl [HOfr]; · iexact HOfr
    isplitl []; · iempintro
    isplitl [Hc4 HT4 Hc5 HT5 Hc6 HT6 Hc7 HT7 Hc9 Hc10 Hc11 Hc12]
    · isplitl [Hc4]; · iexact Hc4
      isplitl [HT4]; · iexact HT4
      isplitl [Hc5]; · iexact Hc5
      isplitl [HT5]; · iexact HT5
      isplitl [Hc6]; · iexact Hc6
      isplitl [HT6]; · iexact HT6
      isplitl [Hc7]; · iexact Hc7
      isplitl [HT7]; · iexact HT7
      isplitl [Hc9]; · iexact Hc9
      isplitl [Hc10]; · iexact Hc10
      isplitl [Hc11]; · iexact Hc11
      iexact Hc12

    isplitl [Hc8]; · iexact Hc8
    isplitl [HT8]; · iexact HT8
    iexact Hc13
  iintro %acc HIv
  ihave HI2 := (inv_exit d L C3 Tb hpre O W q f0 _ trips_eq acc) $$ HIv
  unfold FW0 FW1 FW2 FW3 FW4 tokP
  icases HI2 with ⟨%W', %hW', Howes, %s0, %s1, %s2, %s3, %s4, -, HXret, HOdone, HW0, HW1, HW2, HW3, HW4, Hg4, Hg5, Hg6, Hg7, Hg8, HT4, HT5, HT6, HT7, HT8⟩
  sl_exec
  sl_step
  -- the five last chunks hold the gathered contents: with chunks 0 .. 194 they are the worker's whole block
  rw [bigSep_range_push' (oDone d L C3 Tb) 199 rfl, bigSep_range_push' (oDone d L C3 Tb) 198 rfl, bigSep_range_push' (oDone d L C3 Tb) 197 rfl,
    bigSep_range_push' (oDone d L C3 Tb) 196 rfl, bigSep_range_push' (oDone d L C3 Tb) 195 rfl]
  rw [← chunk_pts4 d L C3 Tb hpre f0 hGP 199 (by omega) s4, ← chunk_pts3 d L C3 Tb hpre f0 hGP 198 (by omega) s3, ← chunk_pts2 d L C3 Tb hpre f0 hGP 197 (by omega) s2,
    ← chunk_pts1 d L C3 Tb hpre f0 hGP 196 (by omega) s1, ← chunk_pts0 d L C3 Tb hpre f0 hGP 195 (by omega) s0]
  ihave HXw := (Entails.of_eq (xRows_end d L C3)) $$ HXret
  ihave HB := (slots_join d L _ _ _ _ _) $$ [HW0_src HW1_src HW2_src HW3_src HW4_src]
  · isplitl [HW0_src]; · iexact HW0_src
    isplitl [HW1_src]; · iexact HW1_src
    isplitl [HW2_src]; · iexact HW2_src
    isplitl [HW3_src]; · iexact HW3_src
    iexact HW4_src

  isplitl [HI]; · iexact HI
  isplitl [HT4]; · iexact HT4
  isplitl [HT5]; · iexact HT5
  isplitl [HT6]; · iexact HT6
  isplitl [HT7]; · iexact HT7
  isplitl [HT8]; · iexact HT8
  isplitl [HW4_dst HW3_dst HW2_dst HW1_dst HW0_dst HOdone]
  · isplitl [HW4_dst]; · iexact HW4_dst
    isplitl [HW3_dst]; · iexact HW3_dst
    isplitl [HW2_dst]; · iexact HW2_dst
    isplitl [HW1_dst]; · iexact HW1_dst
    isplitl [HW0_dst]; · iexact HW0_dst
    iexact HOdone

  isplitl [HXw]; · iexists _; iexact HXw
  isplitl [HB]; · iexact HB
  isplitl [Hg4 Hg5 Hg6 Hg7 Hg8 HW0 HW1 HW2 HW3 HW4 Hc14]
  · isplitl [Hg4]; · iexact Hg4
    isplitl [Hg5]; · iexact Hg5
    isplitl [Hg6]; · iexact Hg6
    isplitl [Hg7]; · iexact Hg7
    isplitl [Hg8]; · iexact Hg8
    isplitl [HW0]; · iexact HW0
    isplitl [HW1]; · iexact HW1
    isplitl [HW2]; · iexact HW2
    isplitl [HW3]; · iexact HW3
    isplitl [HW4]; · iexact HW4
    iexact Hc14

  iexists (insert (SemLoc.dma (⟨13, by decide⟩ : DmaSem sig), (default : HIx 1)) (insert (SemLoc.dma (⟨12, by decide⟩ : DmaSem sig), (default : HIx 1)) (insert (SemLoc.dma (⟨11, by decide⟩ : DmaSem sig), (default : HIx 1)) (insert (SemLoc.dma (⟨10, by decide⟩ : DmaSem sig), (default : HIx 1)) (insert (SemLoc.dma (⟨9, by decide⟩ : DmaSem sig), (default : HIx 1)) W')))))
  isplitr
  · ipureintro
    exact W_ins _ (W_ins _ (W_ins _ (W_ins _ (W_ins _ (hW')))))
  iexact Howes

include hpre in
/-- The task on vector subcore (L 0, L 1) of device d, from what the launch deals it (its slab of the classes, its
    share of the padded table, its rows of the gathered array, its scoped buffers and semaphores) to what it hands
    back: the pieces respelt as the body names them around tile_run. -/
theorem tile_body (O : CellTallies nD τ sig (HIx 1)) (W : Waits sig (HIx 1)) (hO : ∀ g, O g none = 0) :
    iprop(levAts (K (F := F)).L (K (F := F)).lev ∗ emp
        ∗ goPts C3 Tb d (widL L)
        ∗ scopedBufs (VT d L) ∗ scopedSems0 (VT d L) ∗ owes (VT d L) O W)
      ⊢ wp frame (wpE (defs₀ (F := F)) 𝒱₀ (VT d L) none) Set.univ
          (cc1__gather_body L iV (Memref.isWhole_whole _) tV (Memref.isWhole_whole _) oV (Memref.isWhole_whole _)
            xV (Memref.isWhole_whole _) bV (Memref.isWhole_whole _) cc1_scratch2 cc1_scratch3 cc1_scoped0)
          fun _ => iprop(tdPts C3 Tb d (widL L)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L), ownSems0_V, ownBufs_V]
  iintro ⟨#Hlv, -, ⟨Hi, Hx, %f0, Ho⟩, ⟨⟨%g0, HG⟩, ⟨%t0, HT⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hi' := (Entails.of_eq (pts_iSlabK (F := F) d L _).symm) $$ Hi
  ihave Hx' := (Entails.of_eq (pts_tVs (F := F) d L _ _).symm) $$ Hx
  ihave Hx'' := (toks5 _ _).1 $$ Hx'
  icases Hx'' with ⟨Hxr, Hx4, Hx5, Hx6, Hx7, Hx8⟩
  ihave Ho' := (Entails.of_eq (oWins_start d L f0)) $$ Ho
  ihave HG' := (Entails.of_eq (pts_xV (F := F) d L _).symm) $$ HG
  ihave HT' := (Entails.of_eq (pts_bV (F := F) d L _).symm) $$ HT
  ihave HT'' := (Entails.of_eq (slots_eq d L t0)) $$ HT'
  icases HT'' with ⟨HS4, HS3, HS2, HS1, HS0⟩
  iapply (wp_wand_r Idealize.ShloMosaic.frame (wpE (defs₀ (F := F)) 𝒱₀ (VT d L) none) Set.univ)
  isplitl [Hi' Hx4 Hx5 Hx6 Hx7 Hx8 Ho' HG' HS0 HS1 HS2 HS3 HS4 HC HO]
  · iapply (tile_run d L C3 Tb hpre (GP_eq d L C3 Tb hpre) O W (tq (widL L)) f0 g0 t0 t0 t0 t0 t0)
    unfold tokP
    isplitr; · iexact Hmw
    isplitl [Hi']; · iexact Hi'
    isplitl [Hx4]; · iexact Hx4
    isplitl [Hx5]; · iexact Hx5
    isplitl [Hx6]; · iexact Hx6
    isplitl [Hx7]; · iexact Hx7
    isplitl [Hx8]; · iexact Hx8
    isplitl [Ho']; · iexact Ho'
    isplitl [HG']; · iexact HG'
    isplitl [HS0]; · iexact HS0
    isplitl [HS1]; · iexact HS1
    isplitl [HS2]; · iexact HS2
    isplitl [HS3]; · iexact HS3
    isplitl [HS4]; · iexact HS4
    isplitl [HC]; · iexact HC
    iexact HO
  unfold tokP
  iintro %_ ⟨Hi', Hx4, Hx5, Hx6, Hx7, Hx8, Ho', ⟨%g, HG'⟩, ⟨%t, HT'⟩, HC, ⟨%W', %hW', HO⟩⟩
  ihave Hx' := (toks5 _ _).2 $$ [Hxr Hx4 Hx5 Hx6 Hx7 Hx8]
  · isplitl [Hxr]; · iexact Hxr
    isplitl [Hx4]; · iexact Hx4
    isplitl [Hx5]; · iexact Hx5
    isplitl [Hx6]; · iexact Hx6
    isplitl [Hx7]; · iexact Hx7
    iexact Hx8
  isplitl [Hi' Hx' Ho']
  · isplitl [Hi']; · iapply (Entails.of_eq (pts_iSlabK (F := F) d L _)); iexact Hi'
    isplitl [Hx']; · iapply (Entails.of_eq (pts_tVs (F := F) d L _ _)); iexact Hx'
    iapply (Entails.of_eq (oWins_end d L C3 Tb)); iexact Ho'
  isplitl [HG' HT' Hbufs]
  · isplitl [HG']; · iexists _; iapply (Entails.of_eq (pts_xV (F := F) d L _)); iexact HG'
    isplitl [HT']; · iexists _; iapply (Entails.of_eq (pts_bV (F := F) d L _)); iexact HT'
    iexact Hbufs
  isplitl [HC Hsems]
  · isplitl [HC]; · iexact HC
    iexact Hsems
  iexists W'; isplitr
  · ipureintro; intro p hp
    exact (hW' p hp).imp_right Or.inl
  · iexact HO

end Body

/-! ## The obligation -/

section Obl

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_body (coordsV c s)
          iV (Memref.isWhole_whole _) tV (Memref.isWhole_whole _) oV (Memref.isWhole_whole _)
          xV (Memref.isWhole_whole _) bV (Memref.isWhole_whole _) cc1_scratch2 cc1_scratch3 cc1_scoped0) ⟨⟩ c s := rfl

/-- Every vector subcore's task: slab, share and rows in, the rows at the gathered contents out. -/
theorem tileObl (C3 : (d : Dev nD) → Buf (Elt F) (idxLoc d)) (Tb : (d : Dev nD) → Buf (Elt F) (padLoc d))
    (hpre : ∀ d j, (C3 d j).toNat < 1000000) :
    (K (F := F)).TileObl (D (F := F)) 𝒱 (P C3 Tb) v₀ 0 := by
  intro d c i O W hO _ _
  simp only [show (P C3 Tb).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) C3 Tb hpre O W hO

end Obl

end Cert.Kernel.Hand

end
-- ==== Proof.Bits.Final.lean ====
/-
  The kernel's run from the precondition: the classes lie between 0 and 999999, so every class word a worker reads
  names a row of the padded table; the region's rule and the workers' obligation then give the program's run, with the
  result array at the stage-by-stage contents and the inputs kept.
-/
import proofs.«206789_g36283883716857_cont_8to1_b_1933_18_alg».proof.Proof.Bits.Main
import proofs.«206789_g36283883716857_cont_8to1_b_1933_18_alg».proof.Proof.Bits.Prep
import proofs.«206789_g36283883716857_cont_8to1_b_1933_18_alg».proof.Proof.Bits.Tile
import proofs.«206789_g36283883716857_cont_8to1_b_1933_18_alg».proof.Proof.PreRange

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg)

/-- Every word of the slabbed classes is a word of the classes, so below 1000000 under the precondition. -/
theorem preOK (h : ∀ c : Dev nD, Cert.Pre_input_domain.fn (F := F) (m (clsLoc c)) (m (bbsLoc c)) (m (embLoc c)) = fun _ => 1#1) :
    ∀ d j, (C3 m d j).toNat < 1000000 := by
  intro d j
  unfold C3 C2 shapeCast
  exact Cert.PreRange.classes_lt (F := F) (m (clsLoc d)) (m (bbsLoc d)) (m (embLoc d)) (h d) _

/-- The program's run under the precondition. -/
theorem run [∀ e, Nonempty (Elt F e)]
    (h : ∀ c : Dev nD, Cert.Pre_input_domain.fn (F := F) (m (clsLoc c)) (m (bbsLoc c)) (m (embLoc c)) = fun _ => 1#1) :
    θ_run (Cert.Kernel.defs (F := F)) (Cert.Kernel.threads (F := F)) ⟨m, fun _ => 0, ρ⟩ (QC m) :=
  run_main m ρ (fun d X O W hO _ k Q => wp_prep d X O W hO k Q) (tileObl (C3 m) (Tb m) (preOK m h))

end Cert.Kernel.Hand

end
-- ==== Proof.HostValue.lean ====
/-
  The host's operations around the two kernels compose to the lookup. The classes [4096, 200] are flattened to
  [819200] and cut into 32 slabs [200, 128]; both reshapes keep the row-major position, so word (n / 25600,
  n % 25600 / 128, n % 128) of the slabs, at row-major position n again, is class (b, s) for n = 200 b + s. The table
  [1000000, 64] is transposed to [64, 1000000] and re-laid as the padded table [1000000, 128], whose entry (r, j) for
  j < 64 is entry (j, r) of the transposed table, that is, entry (r, j) of the table. Row n of the gathered array
  [819200, 128] is the row of the padded table that class n (in slab order) names; the host keeps columns 0..63 of it
  and reshapes [819200, 64] to [4096, 200, 64], whose entry (b, s, j) is at row-major position (200 b + s) 64 + j,
  that is, entry (200 b + s, j) of the cut array. So entry (b, s, j) of the result is entry (classes[b, s], j) of the
  table.
-/
import proofs.«206789_g36283883716857_cont_8to1_b_1933_18_alg».proof.Proof.Common
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

variable {F : FTy → Type}

/-- The row of the flattened arrays that (b, s) names: 200 b + s. -/
def flatRow (b : Fin 4096) (s : Fin 200) : Fin 819200 := ⟨200 * b.val + s.val, by omega⟩

/-- The classes, flattened and cut into slabs, read at the slab position of row n = 200 b + s, are the classes at
    (b, s): the slab position (n / 25600, n % 25600 / 128, n % 128) has row-major position
    (n / 25600 · 200 + n % 25600 / 128) · 128 + n % 128 = n, and (b, s) has row-major position 200 b + s = n. -/
theorem classes_slab_apply (cls : S4096x200.Idx → BitVec 32) (b : Fin 4096) (s : Fin 200) :
    shapeCast S32x200x128 (shapeCast S819200 cls Facts₀.shapeCasts_S4096x200_S819200) Facts₀.shapeCasts_S819200_S32x200x128
      (slabIdx (flatRow b s)) = cls (ix2 b s) := by
  refine (shapeCast_apply _ _ _ (ix1 (flatRow b s)) ?_).trans (shapeCast_apply _ _ _ (ix2 b s) ?_)
  · rw [Shape.rowMajor_val_one, Shape.rowMajor_val_three]
    show 200 * b.val + s.val
      = ((200 * b.val + s.val) / 25600 * 200 + (200 * b.val + s.val) % 25600 / 128) * 128 + (200 * b.val + s.val) % 128
    omega
  · rw [Shape.rowMajor_val_two, Shape.rowMajor_val_one]
    show b.val * 200 + s.val = 200 * b.val + s.val
    omega

/-- The padded table of the transposed table, at row r and a column j below 64, is the table at (r, j). -/
theorem padded_transpose_apply [FloatOps F] (emb : S1000000x64.Idx → F .f32) (r : Fin 1000000) (j : Fin 64) :
    padded (transpose S64x1000000 [1, 0] emb Facts₀.transposes_S1000000x64_S64x1000000_1_0)
      (ix2 r (⟨j.val, Nat.lt_trans j.isLt (by norm_num)⟩ : Fin 128)) = emb (ix2 r j) := by
  unfold padded
  rw [dif_pos (show ((ix2 r (⟨j.val, Nat.lt_trans j.isLt (by norm_num)⟩ : Fin 128) : S1000000x128.Idx) 1).val < 64 from j.isLt)]
  exact transpose_ix2_apply emb Facts₀.transposes_S1000000x64_S64x1000000_1_0 j r

/-- The host's composition at (b, s, j): the table at (classes[b, s], j). -/
theorem host_value_at [FloatOps F] (cls : S4096x200.Idx → BitVec 32) (emb : S1000000x64.Idx → F .f32)
    (b : Fin 4096) (s : Fin 200) (j : Fin 64) :
    shapeCast S4096x200x64
        (extractStridedSlice S819200x64 ![0, 0]
          (gathered (shapeCast S32x200x128 (shapeCast S819200 cls Facts₀.shapeCasts_S4096x200_S819200) Facts₀.shapeCasts_S819200_S32x200x128)
            (padded (transpose S64x1000000 [1, 0] emb Facts₀.transposes_S1000000x64_S64x1000000_1_0)))
          Facts₀.slices_S819200x128_S819200x64_0_0)
        Facts₀.shapeCasts_S819200x64_S4096x200x64 (ix3 b s j)
      = emb (ix2 (Cert.Spec.rowOf (cls (ix2 b s))) j) := by
  -- the last reshape: (b, s, j) and (200 b + s, j) have the same row-major position
  refine (shapeCast_apply _ _ _ (ix2 (flatRow b s) j) ?_).trans ?_
  · rw [Shape.rowMajor_val_two, Shape.rowMajor_val_three]
    show (200 * b.val + s.val) * 64 + j.val = (b.val * 200 + s.val) * 64 + j.val
    omega
  -- the cut keeps columns 0..63
  refine (slice2_axis1_apply 0 _ Facts₀.slices_S819200x128_S819200x64_0_0 (flatRow b s) j
    (⟨j.val, Nat.lt_trans j.isLt (by norm_num)⟩ : Fin 128) (Nat.zero_add _).symm).trans ?_
  -- row 200 b + s of the gathered array is the row of the padded table that its class names
  show padded (transpose S64x1000000 [1, 0] emb Facts₀.transposes_S1000000x64_S64x1000000_1_0)
      (ix2 (Cert.Spec.rowOf (shapeCast S32x200x128 (shapeCast S819200 cls Facts₀.shapeCasts_S4096x200_S819200)
        Facts₀.shapeCasts_S819200_S32x200x128 (slabIdx (flatRow b s)))) (⟨j.val, Nat.lt_trans j.isLt (by norm_num)⟩ : Fin 128)) = _
  rw [classes_slab_apply]
  exact padded_transpose_apply emb _ j

/-- The host's operations around the two kernels compute the lookup: flatten the classes and cut them into slabs,
    transpose and pad the table, gather, keep columns 0..63, reshape. -/
theorem host_value [FloatOps F] (cls : S4096x200.Idx → BitVec 32) (emb : S1000000x64.Idx → F .f32) :
    shapeCast S4096x200x64
        (extractStridedSlice S819200x64 ![0, 0]
          (gathered (shapeCast S32x200x128 (shapeCast S819200 cls Facts₀.shapeCasts_S4096x200_S819200) Facts₀.shapeCasts_S819200_S32x200x128)
            (padded (transpose S64x1000000 [1, 0] emb Facts₀.transposes_S1000000x64_S64x1000000_1_0)))
          Facts₀.slices_S819200x128_S819200x64_0_0)
        Facts₀.shapeCasts_S819200x64_S4096x200x64
      = Cert.Spec.lookup cls emb := by
  funext i
  rw [eq_ix3 i]
  exact host_value_at cls emb (i 0) (i 1) (i 2)

end Cert.KernelIdeal.Hand

end
-- ==== Proof.RefOps.lean ====
/-
  The reference program as a straight line. Its @main calls one function, which calls one more; with the two bodies
  unfolded at their call sites the program is a chain of twenty-three host operations, each writing one buffer. The run of
  such a chain ends with every buffer at the fold of the operations' results over the contents at launch; at the result
  buffer that fold is the operations' composed term `refTerm` of the two arguments it reads (the classes and the table),
  and at an argument buffer it is what was there.
-/
import proofs.«206789_g36283883716857_cont_8to1_b_1933_18_alg».proof.Proof.Gen.ReferenceIdeal
import Idealize.ShloMosaic.Lib.StableHlo.Run

noncomputable section

namespace Cert.RefSide

open Cert.ReferenceIdeal Cert.ReferenceIdeal.Facts₀ Idealize.ShloMosaic Idealize.ShloMosaic.TcCoe
  Idealize.SL.Sem Idealize.ShloMosaic.StableHlo

variable {F : FTy → Type} [FloatOps F]

/-- The composed term of the reference's operations: from the classes and the table, the array the result buffer holds
    at the end. A negative class has the number of rows added; the class is then compared with 0 and with 999999, and
    where both comparisons hold the result is the gathered row of the table, elsewhere the literal `0x7FC00000`. -/
def refTerm (cls : IVec S4096x200 32) (tab : FVec F S1000000x64 .f32) : FVec F S4096x200x64 .f32 :=
  let v0 : IVec S4096x200 32 := broadcastInDim S4096x200 ![] bcast_S_S4096x200 (constantI S_ 32 0#32)
  let v1 : IVec S4096x200 1 := cmpi .slt cls v0
  let v2 : IVec S4096x200 32 := broadcastInDim S4096x200 ![] bcast_S_S4096x200 (constantI S_ 32 1000000#32)
  let v3 : IVec S4096x200 32 := addi cls v2
  let v4 : IVec S4096x200 32 := select v1 v3 cls
  let v5 : IVec S4096x200x1 32 := broadcastInDim S4096x200x1 ![0, 1] bcast_S4096x200_S4096x200x1_0_1 v4
  let v6 : IVec S4096x200x1 32 := broadcastInDim S4096x200x1 ![] bcast_S_S4096x200x1 (constantI S_ 32 0#32)
  let v7 : IVec S4096x200x1 1 := cmpi .sge v5 v6
  let v8 : IVec S1x1x1 32 := broadcastInDim S1x1x1 ![2] bcast_S1_S1x1x1_2 (constantI S1 32 999999#32)
  let v9 : IVec S4096x200x1 32 := broadcastInDim S4096x200x1 ![0, 1, 2] bcast_S1x1x1_S4096x200x1_0_1_2 v8
  let v10 : IVec S4096x200x1 1 := cmpi .sle v5 v9
  let v11 : IVec S4096x200x1 1 := andi v7 v10
  let v12 : IVec S4096x200 1 := Host.reduce IntOp.andi v11 (constantI S_ 1 1#1) reducesTo_S4096x200x1_S4096x200_d2 h_S_
  let v13 : FVec F S4096x200x64 .f32 := Host.gather gather_S1000000x64_S4096x200x1_S4096x200x64_2_0_n_n_0_2_164 tab v5
  let v14 : IVec S4096x200x64 1 := broadcastInDim S4096x200x64 ![0, 1] bcast_S4096x200_S4096x200x64_0_1 v12
  let v15 : FVec F S4096x200x64 .f32 := broadcastInDim S4096x200x64 ![] bcast_S_S4096x200x64 (constant S_ .f32 0x7FC00000#32)
  select v14 v13 v15

/-- @main's operations in order, the two calls unfolded: the function's first six (the zero and its broadcast, the
    comparison with it, the number of rows and its broadcast, the sum), the inner function's one (the select), then the
    function's remaining sixteen. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg2) main_call0.v5 main_call0.v13 (fun x i => Host.gather gather_S1000000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

-- twenty-three binds re-associated, one rewrite under the chain per statement
set_option maxRecDepth 1024 in
/-- @main is that straight line: the two functions' bodies unfolded at their calls, sequencing re-associated. -/
theorem main_eq (c : Dev nD) : main (F := F) c = seq ops := by
  simp only [main, fn_take.body, fn_where.body, seq, bind_assoc, pure_bind]

attribute [local irreducible] Host.reduce Host.gather in
set_option maxRecDepth 8192 in
/-- The fold at the result buffer is the composed term of the classes and the table: each operation's result at the
    buffer it writes is its function's value, at any other buffer what was there (one rewriting pass, every shared
    intermediate visited once); what is left differs from the term only by transports along equations that hold by
    computation. The reduction and the gather are kept folded meanwhile (the equation never looks inside them). -/
theorem out_eq (V : Valuation τ sig (Elt F)) :
    after ops V (main_v0 : DevRef τ sig) = refTerm (F := F) (V (main_arg0 : DevRef τ sig)) (V (main_arg2 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, for any float values, from any memory with zero counters: every weakly fair execution of @main
    terminates with the result buffer at the composed term of the classes and the table at launch, and the three
    arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refTerm (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v0).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.RefSide

end
-- ==== Proof.RefValue.lean ====
/-
  The reference's composed term is the lookup. Under the hypothesis that every class is below the number of rows
  (1000000, itself below 2^31), read at an index: no class is negative as a signed word, so the select that would add
  the number of rows returns the class itself; the class is at least 0 and at most 999999, so both comparisons hold,
  their conjunction is 1, its reduction by `and` over the axis of size one from the initial value 1 is 1, and the final
  select takes the gathered value; the gather reads the table at the row the class names (its clamp into [0, 999999]
  changes nothing) and at the column of the result index.
-/
import proofs.«206789_g36283883716857_cont_8to1_b_1933_18_alg».proof.Proof.RefOps
import proofs.«206789_g36283883716857_cont_8to1_b_1933_18_alg».proof.Proof.Spec
import Idealize.ShloMosaic.PureOps.Reduce
import Idealize.ShloMosaic.Lib.Affine
import Idealize.ShloMosaic.Lib.ValueIdx

noncomputable section

namespace Cert.RefSide

open Cert.ReferenceIdeal Cert.ReferenceIdeal.Facts₀ Idealize.ShloMosaic Idealize.ShloMosaic.ValueIdx

variable {F : FTy → Type} [FloatOps F]

/-! ## Words -/

/-- A word whose natural number is below 1000000 is that number as a signed integer. -/
theorem toInt_of_lt (w : BitVec 32) (h : w.toNat < 1000000) : w.toInt = (w.toNat : Int) :=
  BitVec.toInt_eq_toNat_of_lt (by omega)

/-- Such a word is not below zero … -/
theorem slt_zero_of_lt (w : BitVec 32) (h : w.toNat < 1000000) : IntOp.cmpi .slt w 0#32 = 0#1 := by
  refine eq_zero_of_ne_one fun e => ?_
  have := IntOp.cmpi_slt.1 e
  rw [toInt_of_lt w h, show (0#32 : BitVec 32).toInt = 0 from by decide] at this
  omega

/-- … is at least zero … -/
theorem sge_zero_of_lt (w : BitVec 32) (h : w.toNat < 1000000) : IntOp.cmpi .sge w 0#32 = 1#1 := by
  refine IntOp.cmpi_sge.2 ?_
  rw [toInt_of_lt w h, show (0#32 : BitVec 32).toInt = 0 from by decide]
  omega

/-- … and is at most 999999. -/
theorem sle_max_of_lt (w : BitVec 32) (h : w.toNat < 1000000) : IntOp.cmpi .sle w 999999#32 = 1#1 := by
  refine IntOp.cmpi_sle.2 ?_
  rw [toInt_of_lt w h, show (999999#32 : BitVec 32).toInt = 999999 from by decide]
  omega

/-! ## A reduction by `and` of ones -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and`, from the initial value 1, of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x _ fun n _ => hx n

/-! ## The stages at an index -/

/-- The gather's start indices: the classes with a trailing axis of size one. -/
theorem idx3_apply (v : IVec S4096x200 32) (k : S4096x200x1.Idx) :
    broadcastInDim S4096x200x1 ![0, 1] bcast_S4096x200_S4096x200x1_0_1 v k = v (ix2 (k 0) (k 1)) := by
  unfold broadcastInDim
  congr 1
  funext a
  match a with
  | ⟨0, _⟩ => rfl
  | ⟨1, _⟩ => rfl

/-- The mask on the result's shape reads the mask on the classes' shape at the first two coordinates. -/
theorem mask3_apply (v : IVec S4096x200 1) (j : S4096x200x64.Idx) :
    broadcastInDim S4096x200x64 ![0, 1] bcast_S4096x200_S4096x200x64_0_1 v j = v (ix2 (j 0) (j 1)) := by
  unfold broadcastInDim
  congr 1
  funext a
  match a with
  | ⟨0, _⟩ => rfl
  | ⟨1, _⟩ => rfl

/-- The start-indices index `[b, s, 0]` of result index `(b, s, j)`. -/
abbrev startIdx (j : S4096x200x64.Idx) : S4096x200x1.Idx := ix3 (j 0) (j 1) (0 : Fin 1)

/-- THE GATHER READ AT `(b, s, j)`: row `idx[b, s, 0]`, read signed and clamped into [0, 999999], column `j`, of the
    table. -/
theorem gather_apply {α : Type} {w : Nat} (x : S1000000x64.Idx → α) (idx : IVec S4096x200x1 w) (j : S4096x200x64.Idx) :
    Host.gather gather_S1000000x64_S4096x200x1_S4096x200x64_2_0_n_n_0_2_164 x idx j
      = x (ix2 (⟨min (idx (startIdx j)).toInt.toNat 999999, by omega⟩ : Fin 1000000) (j 2)) := by
  unfold Host.gather
  congr 1
  funext a
  refine Fin.ext ?_
  show gather_S1000000x64_S4096x200x1_S4096x200x64_2_0_n_n_0_2_164.start j idx a
      + gather_S1000000x64_S4096x200x1_S4096x200x64_2_0_n_n_0_2_164.batchCoord j a
      + gather_S1000000x64_S4096x200x1_S4096x200x64_2_0_n_n_0_2_164.offCoord j a = _
  rw [GatherDims.batchCoord_eq_zero _ _ _ List.not_mem_nil, Nat.add_zero]
  have ha : a = (0 : Fin 2) ∨ a = (1 : Fin 2) := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S1000000x64_S4096x200x1_S4096x200x64_2_0_n_n_0_2_164.startIndexMap
      from List.mem_singleton.mpr rfl)]
    have hsi : gather_S1000000x64_S4096x200x1_S4096x200x64_2_0_n_n_0_2_164.siIdx j
        ⟨List.idxOf (0 : Fin 2) gather_S1000000x64_S4096x200x1_S4096x200x64_2_0_n_n_0_2_164.startIndexMap,
          List.idxOf_lt_length_iff.2 (List.mem_singleton.mpr rfl)⟩ = startIdx j := by
      funext b; refine Fin.ext ?_
      match b with
      | ⟨0, _⟩ => rfl
      | ⟨1, _⟩ => rfl
      | ⟨2, _⟩ => rfl
    rw [hsi]
    rfl
  · unfold GatherDims.start
    rw [dif_neg (show ¬ ((1 : Fin 2) ∈ gather_S1000000x64_S4096x200x1_S4096x200x64_2_0_n_n_0_2_164.startIndexMap)
      from by decide), Nat.zero_add]
    unfold GatherDims.offCoord
    rw [dif_pos (show (1 : Fin 2) ∈ gather_S1000000x64_S4096x200x1_S4096x200x64_2_0_n_n_0_2_164.sKept from by decide)]
    rfl

/-! ## The term is the lookup -/

/-- Where every class is below the number of rows, the reference's composed term is the lookup. -/
theorem refTerm_eq_lookup (cls : IVec S4096x200 32) (tab : FVec F S1000000x64 .f32) (h : ∀ i, (cls i).toNat < 1000000) :
    refTerm cls tab = Cert.Spec.lookup cls tab := by
  -- no class is negative: the normalised classes are the classes
  have hnorm : select (cmpi .slt cls (broadcastInDim S4096x200 ![] bcast_S_S4096x200 (constantI S_ 32 0#32)))
      (addi cls (broadcastInDim S4096x200 ![] bcast_S_S4096x200 (constantI S_ 32 1000000#32))) cls = cls := by
    funext i
    show Scalar.select (IntOp.cmpi .slt (cls i) 0#32) _ (cls i) = cls i
    rw [slt_zero_of_lt _ (h i), select_zero]
  -- both comparisons hold everywhere
  have hmask : andi
      (cmpi .sge (broadcastInDim S4096x200x1 ![0, 1] bcast_S4096x200_S4096x200x1_0_1 cls)
        (broadcastInDim S4096x200x1 ![] bcast_S_S4096x200x1 (constantI S_ 32 0#32)))
      (cmpi .sle (broadcastInDim S4096x200x1 ![0, 1] bcast_S4096x200_S4096x200x1_0_1 cls)
        (broadcastInDim S4096x200x1 ![0, 1, 2] bcast_S1x1x1_S4096x200x1_0_1_2
          (broadcastInDim S1x1x1 ![2] bcast_S1_S1x1x1_2 (constantI S1 32 999999#32)))) = fun _ => 1#1 := by
    funext k
    show IntOp.andi (IntOp.cmpi .sge (broadcastInDim S4096x200x1 ![0, 1] bcast_S4096x200_S4096x200x1_0_1 cls k) 0#32)
      (IntOp.cmpi .sle (broadcastInDim S4096x200x1 ![0, 1] bcast_S4096x200_S4096x200x1_0_1 cls k) 999999#32) = 1#1
    rw [idx3_apply, sge_zero_of_lt _ (h _), sle_max_of_lt _ (h _)]
    decide
  funext j
  unfold refTerm
  simp only [hnorm, hmask]
  rw [select_apply, mask3_apply, reduce_andi_ones (fun _ => 1#1) (constantI S_ 1 1#1) _ _ (fun _ => rfl) (fun _ => rfl), select_one, gather_apply]
  show tab _ = tab _
  congr 1
  funext a
  refine Fin.ext ?_
  match a with
  | ⟨0, _⟩ =>
    show min (broadcastInDim S4096x200x1 ![0, 1] bcast_S4096x200_S4096x200x1_0_1 cls (startIdx j)).toInt.toNat 999999
      = (cls (ix2 (j 0) (j 1))).toNat % 1000000
    rw [idx3_apply]
    show min (cls (ix2 (j 0) (j 1))).toInt.toNat 999999 = (cls (ix2 (j 0) (j 1))).toNat % 1000000
    have := h (ix2 (j 0) (j 1))
    rw [toInt_of_lt _ this, Int.toNat_natCast, Nat.mod_eq_of_lt this]
    omega
  | ⟨1, _⟩ => rfl

end Cert.RefSide

end
-- ==== Proof.RefRun.lean ====
/-
  The reference's run under the precondition. The run of the straight line ends with the result buffer at the
  operations' composed term of the classes and the table; the precondition puts every class below the number of rows,
  and there the composed term is the lookup.
-/
import proofs.«206789_g36283883716857_cont_8to1_b_1933_18_alg».proof.Defs
import proofs.«206789_g36283883716857_cont_8to1_b_1933_18_alg».proof.Proof.Gen.ReferenceIdeal
import proofs.«206789_g36283883716857_cont_8to1_b_1933_18_alg».proof.Proof.Gen.Pre_input_domain
import proofs.«206789_g36283883716857_cont_8to1_b_1933_18_alg».proof.Proof.Spec
import proofs.«206789_g36283883716857_cont_8to1_b_1933_18_alg».proof.Proof.PreRange
import proofs.«206789_g36283883716857_cont_8to1_b_1933_18_alg».proof.Proof.RefOps
import proofs.«206789_g36283883716857_cont_8to1_b_1933_18_alg».proof.Proof.RefValue

noncomputable section

namespace Cert.RefSide

open Idealize.ShloMosaic Idealize.SL.Sem

/-- Under the precondition, at the ideal instance: every weakly fair execution of the reference's @main terminates
    with the result buffer at the lookup of the table at the classes, and the three arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v0) = Cert.Spec.lookup (m ((c.tc : Thread _ _).loc Cert.ReferenceIdeal.main_arg0)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run (Cert.ReferenceIdeal.defs (F := Ideal)) _ _).mono
    (fun _ h c => ⟨(h c).1.trans (refTerm_eq_lookup _ _ (Cert.PreRange.classes_lt _ _ _ (hpre c))), (h c).2⟩)
    (run_term (F := Ideal) m g)

end Cert.RefSide

end
-- ==== Proof.lean ====
/-
  An embedding lookup, three ways. The reference is jnp.take of a table [1000000, 64] at classes [4096, 200]: a gather
  whose indices are first moved into range (a negative class has 1000000 added) and whose result is masked by "the class
  was in range"; under the precondition 0 <= classes <= 999999 nothing is moved and the mask is all ones, so entry
  (b, s, j) of the result is table[classes[b, s], j]. The kernel transposes the table on the host, re-lays it on the
  TensorCore as a padded table [1000000, 128] (row r = the table's row r followed by 64 zeros; the last block of the
  62 overhangs the array and only its rows inside are written back), reshapes the classes into 32 slabs of 200 rows of
  128, and has each of 32 vector subcores copy its slab and, chunk by chunk through a ring of five buffers with one
  pair of DMA semaphores per buffer, gather the 128 named rows of the padded table and write them to rows
  25600 w + 128 c .. of an array [819200, 128]; the host cuts the first 64 columns and reshapes. Row n = 200 b + s of the
  gathered array is the padded table's row classes[b, s], so the two results agree entry by entry; no arithmetic on
  floats happens on either side, so the equation is one of indices and holds at every float instance.
  The three frames are the programs' runs with the values dropped; the ideal pass rewrote nothing.
-/
import proofs.«206789_g36283883716857_cont_8to1_b_1933_18_alg».proof.Defs
import proofs.«206789_g36283883716857_cont_8to1_b_1933_18_alg».proof.Proof.Gen.Kernel
import proofs.«206789_g36283883716857_cont_8to1_b_1933_18_alg».proof.Proof.Gen.Kernel.Skeleton
import proofs.«206789_g36283883716857_cont_8to1_b_1933_18_alg».proof.Proof.Gen.Kernel.Launch
import proofs.«206789_g36283883716857_cont_8to1_b_1933_18_alg».proof.Proof.Gen.Kernel.Points
import proofs.«206789_g36283883716857_cont_8to1_b_1933_18_alg».proof.Proof.Gen.KernelIdeal
import proofs.«206789_g36283883716857_cont_8to1_b_1933_18_alg».proof.Proof.Gen.KernelIdeal.Skeleton
import proofs.«206789_g36283883716857_cont_8to1_b_1933_18_alg».proof.Proof.Gen.KernelIdeal.Launch
import proofs.«206789_g36283883716857_cont_8to1_b_1933_18_alg».proof.Proof.Gen.KernelIdeal.Points
import proofs.«206789_g36283883716857_cont_8to1_b_1933_18_alg».proof.Proof.Gen.ReferenceIdeal
import proofs.«206789_g36283883716857_cont_8to1_b_1933_18_alg».proof.Proof.Gen.Pre_input_domain
import proofs.«206789_g36283883716857_cont_8to1_b_1933_18_alg».proof.Proof.Final
import proofs.«206789_g36283883716857_cont_8to1_b_1933_18_alg».proof.Proof.Bits.Final
import proofs.«206789_g36283883716857_cont_8to1_b_1933_18_alg».proof.Proof.HostValue
import proofs.«206789_g36283883716857_cont_8to1_b_1933_18_alg».proof.Proof.RefRun
import Idealize.ShloMosaic.Adequacy
import Idealize.ShloMosaic.Init

noncomputable section

namespace Cert.Proof

open Idealize.ShloMosaic Idealize.SL.Sem

/-- The word-level program runs to the end, faults nowhere and keeps its inputs: its run with the result dropped. -/
theorem frame_p : Cert.frame_Kernel := fun m ρ hpre =>
  (θ_run Cert.Kernel.defs _ _).mono (fun _ h c => ⟨(h c).2.1, (h c).2.2.1, (h c).2.2.2⟩) (Cert.Kernel.Hand.run (F := Bits) m ρ hpre)

/-- The same for the idealized program. -/
theorem frame_pi : Cert.frame_KernelIdeal := fun m ρ hpre =>
  (θ_run Cert.KernelIdeal.defs _ _).mono (fun _ h c => ⟨(h c).2.1, (h c).2.2.1, (h c).2.2.2⟩) (Cert.KernelIdeal.Hand.run (F := Ideal) m ρ hpre)

/-- The reference's run with the result dropped. -/
theorem frame_ri : Cert.frame_ReferenceIdeal := fun m ρ hpre =>
  (θ_run Cert.ReferenceIdeal.defs _ _).mono (fun _ h c => (h c).2) (Cert.RefSide.run m ρ hpre)

/-- The ideal pass rewrote nothing. -/
theorem preserves : Cert.preserves_Kernel_KernelIdeal := trivial

/-- Both idealized programs end with the embedding lookup of the classes in the table: the kernel's stage-by-stage
    contents are the lookup (an index equation: row 200 b + s of the gathered array is the padded table's row
    classes[b, s], whose first 64 columns are the table's row), and so is the reference's masked gather when every class
    lies between 0 and 999999. -/
theorem algebraic : Cert.algebraic_KernelIdeal_ReferenceIdeal := by
  intro m ρ m' ρ' hpre hagree
  refine ⟨fun c => Cert.Spec.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.host_value _ _), (h c).2.1, (h c).2.2.1, (h c).2.2.2⟩)
      (Cert.KernelIdeal.Hand.run (F := Ideal) m ρ hpre)
  · have hpre' : Cert.Pre_ReferenceIdeal m' := fun c => by
      rw [(hagree c).1, (hagree c).2.1, (hagree c).2.2]; exact hpre c
    exact (θ_run Cert.ReferenceIdeal.defs _ _).mono
      (fun _ h c => ⟨by rw [(h c).1, (hagree c).1, (hagree c).2.2], (h c).2⟩)
      (Cert.RefSide.run m' ρ' hpre')

theorem claim : Cert.Claim := ⟨Cert.Kernel.Gen.facts, Cert.KernelIdeal.Gen.facts, Cert.ReferenceIdeal.Gen.facts, Cert.Pre_input_domain.Gen.facts,
  frame_p, frame_pi, frame_ri, preserves, algebraic⟩

end Cert.Proof

end
